-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v232)) (v1 : (c : Dev Cert.KernelIdeal.nD) → Buf (Elt Ideal) ((c.tc : Thread Cert.KernelIdeal.nD Cert.KernelIdeal.τ).loc Cert.KernelIdeal.main_v245)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v232) = v0 c
          ∧ r.2.mem ((c.tc : Thread Cert.KernelIdeal.nD Cert.KernelIdeal.τ).loc Cert.KernelIdeal.main_v245) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v232) = v0 c
          ∧ r.2.mem ((c.tc : Thread Cert.ReferenceIdeal.nD Cert.ReferenceIdeal.τ).loc Cert.ReferenceIdeal.main_v245) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x10 : Shape := ⟨2, ![32, 10]⟩
abbrev S10 : Shape := ⟨1, ![10]⟩
abbrev S32x1 : Shape := ⟨2, ![32, 1]⟩
abbrev S1 : Shape := ⟨1, ![1]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x10 : S_.BroadcastsInDim S32x10 (![] : Fin 0 → Fin S32x10.rank)
  reducesTo_S32x10_S_d0_1 : S32x10.ReducesTo [0, 1] S_
  bcast_S_S10 : S_.BroadcastsInDim S10 (![] : Fin 0 → Fin S10.rank)
  reducesTo_S10_S_d0 : S10.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_v98 : IVec S_ 1) (main_v101 : IVec S1 1) (main_c_39 : IVec S_ 1) : IVec S_ 1 :=
  let main_v102 : IVec S_ 1 := (fun x v => Host.reduce IntOp.andi x v reducesTo_S1_S_d0 h_S_) main_v101 main_c_39
  let main_v103 : IVec S_ 1 := andi main_v98 main_v102
  main_v103

def fn_part5 {F : FTy → Type} [FloatOps F] (main_arg19 : FVec F S32 .f32) (main_arg20 : FVec F S32x1 .f32) (main_arg21 : FVec F S1 .f32) (main_v83 : IVec S_ 1) (main_v84 : FVec F S64x32 .f32) (main_cst_32 : FVec F S_ .f32) : IVec S_ 1 :=
  let main_v85 : FVec F S64x32 .f32 := broadcastInDim S64x32 ![] bcast_S_S64x32 main_cst_32
  let main_v86 : IVec S64x32 1 := cmpf .olt main_v84 main_v85
  let main_c_33 : IVec S_ 1 := constantI S_ 1 1#1
  let main_v87 : IVec S_ 1 := (fun x v => Host.reduce IntOp.andi x v reducesTo_S64x32_S_d0_1 h_S_) main_v86 main_c_33
  let main_v88 : IVec S_ 1 := andi main_v83 main_v87
  let main_v89 : FVec F S32 .f32 := Host.absf main_arg19
  let main_cst_34 : FVec F S_ .f32 := constant S_ .f32 0x7F800000#32
  let main_v90 : FVec F S32 .f32 := broadcastInDim S32 ![] bcast_S_S32 main_cst_34
  let main_v91 : IVec S32 1 := cmpf .olt main_v89 main_v90
  let main_c_35 : IVec S_ 1 := constantI S_ 1 1#1
  let main_v92 : IVec S_ 1 := (fun x v => Host.reduce IntOp.andi x v reducesTo_S32_S_d0 h_S_) main_v91 main_c_35
  let main_v93 : IVec S_ 1 := andi main_v88 main_v92
  let main_v94 : FVec F S32x1 .f32 := Host.absf main_arg20
  let main_cst_36 : FVec F S_ .f32 := constant S_ .f32 0x7F800000#32
  let main_v95 : FVec F S32x1 .f32 := broadcastInDim S32x1 ![] bcast_S_S32x1 main_cst_36
  let main_v96 : IVec S32x1 1 := cmpf .olt main_v94 main_v95
  let main_c_37 : IVec S_ 1 := constantI S_ 1 1#1
  let main_v97 : IVec S_ 1 := (fun x v => Host.reduce IntOp.andi x v reducesTo_S32x1_S_d0_1 h_S_) main_v96 main_c_37
  let main_v98 : IVec S_ 1 := andi main_v93 main_v97
  let main_v99 : FVec F S1 .f32 := Host.absf main_arg21
  let main_cst_38 : FVec F S_ .f32 := constant S_ .f32 0x7F800000#32
  let main_v100 : FVec F S1 .f32 := broadcastInDim S1 ![] bcast_S_S1 main_cst_38
  let main_v101 : IVec S1 1 := cmpf .olt main_v99 main_v100
  let main_c_39 : IVec S_ 1 := constantI S_ 1 1#1
  fn_part6 (F := F) main_v98 main_v101 main_c_39

def fn_part4 {F : FTy → Type} [FloatOps F] (main_arg15 : FVec F S32 .f32) (main_arg16 : FVec F S32x10 .f32) (main_arg17 : FVec F S10 .f32) (main_arg18 : FVec F S64x32 .f32) (main_arg19 : FVec F S32 .f32) (main_arg20 : FVec F S32x1 .f32) (main_arg21 : FVec F S1 .f32) (main_v63 : IVec S_ 1) (main_v67 : IVec S_ 1) : IVec S_ 1 :=
  let main_v68 : IVec S_ 1 := andi main_v63 main_v67
  let main_v69 : FVec F S32 .f32 := Host.absf main_arg15
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S32x10 .f32 := Host.absf main_arg16
  let main_cst_28 : FVec F S_ .f32 := constant S_ .f32 0x7F800000#32
  let main_v75 : FVec F S32x10 .f32 := broadcastInDim S32x10 ![] bcast_S_S32x10 main_cst_28
  let main_v76 : IVec S32x10 1 := cmpf .olt main_v74 main_v75
  let main_c_29 : IVec S_ 1 := constantI S_ 1 1#1
  let main_v77 : IVec S_ 1 := (fun x v => Host.reduce IntOp.andi x v reducesTo_S32x10_S_d0_1 h_S_) main_v76 main_c_29
  let main_v78 : IVec S_ 1 := andi main_v73 main_v77
  let main_v79 : FVec F S10 .f32 := Host.absf main_arg17
  let main_cst_30 : FVec F S_ .f32 := constant S_ .f32 0x7F800000#32
  let main_v80 : FVec F S10 .f32 := broadcastInDim S10 ![] bcast_S_S10 main_cst_30
  let main_v81 : IVec S10 1 := cmpf .olt main_v79 main_v80
  let main_c_31 : IVec S_ 1 := constantI S_ 1 1#1
  let main_v82 : IVec S_ 1 := (fun x v => Host.reduce IntOp.andi x v reducesTo_S10_S_d0 h_S_) main_v81 main_c_31
  let main_v83 : IVec S_ 1 := andi main_v78 main_v82
  let main_v84 : FVec F S64x32 .f32 := Host.absf main_arg18
  let main_cst_32 : FVec F S_ .f32 := constant S_ .f32 0x7F800000#32
  fn_part5 (F := F) main_arg19 main_arg20 main_arg21 main_v83 main_v84 main_cst_32

def fn_part3 {F : FTy → Type} [FloatOps F] (main_arg12 : FVec F S64 .f32) (main_arg13 : FVec F S64 .f32) (main_arg14 : FVec F S64x32 .f32) (main_arg15 : FVec F S32 .f32) (main_arg16 : FVec F S32x10 .f32) (main_arg17 : FVec F S10 .f32) (main_arg18 : FVec F S64x32 .f32) (main_arg19 : FVec F S32 .f32) (main_arg20 : FVec F S32x1 .f32) (main_arg21 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x32 .f32 := Host.absf main_arg14
  let main_cst_24 : FVec F S_ .f32 := constant S_ .f32 0x7F800000#32
  let main_v65 : FVec F S64x32 .f32 := broadcastInDim S64x32 ![] bcast_S_S64x32 main_cst_24
  let main_v66 : IVec S64x32 1 := cmpf .olt main_v64 main_v65
  let main_c_25 : IVec S_ 1 := constantI S_ 1 1#1
  let main_v67 : IVec S_ 1 := (fun x v => Host.reduce IntOp.andi x v reducesTo_S64x32_S_d0_1 h_S_) main_v66 main_c_25
  fn_part4 (F := F) main_arg15 main_arg16 main_arg17 main_arg18 main_arg19 main_arg20 main_arg21 main_v63 main_v67

def fn_part2 {F : FTy → Type} [FloatOps F] (main_arg8 : FVec F S128 .f32) (main_arg9 : FVec F S128 .f32) (main_arg10 : FVec F S128 .f32) (main_arg11 : FVec F S128 .f32) (main_arg12 : FVec F S64 .f32) (main_arg13 : FVec F S64 .f32) (main_arg14 : FVec F S64x32 .f32) (main_arg15 : FVec F S32 .f32) (main_arg16 : FVec F S32x10 .f32) (main_arg17 : FVec F S10 .f32) (main_arg18 : FVec F S64x32 .f32) (main_arg19 : FVec F S32 .f32) (main_arg20 : FVec F S32x1 .f32) (main_arg21 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_arg18 main_arg19 main_arg20 main_arg21 main_v48 main_v49 main_v50

def fn_part1 {F : FTy → Type} [FloatOps F] (main_arg5 : FVec F S128 .f32) (main_arg6 : FVec F S128x64 .f32) (main_arg7 : FVec F S64 .f32) (main_arg8 : FVec F S128 .f32) (main_arg9 : FVec F S128 .f32) (main_arg10 : FVec F S128 .f32) (main_arg11 : FVec F S128 .f32) (main_arg12 : FVec F S64 .f32) (main_arg13 : FVec F S64 .f32) (main_arg14 : FVec F S64x32 .f32) (main_arg15 : FVec F S32 .f32) (main_arg16 : FVec F S32x10 .f32) (main_arg17 : FVec F S10 .f32) (main_arg18 : FVec F S64x32 .f32) (main_arg19 : FVec F S32 .f32) (main_arg20 : FVec F S32x1 .f32) (main_arg21 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_v33

def fn {F : FTy → Type} [FloatOps F] (main_arg0 : FVec F S10000x128 .f32) (main_arg1 : IVec S2x320000 32) (main_arg2 : FVec F S128x128 .f32) (main_arg3 : FVec F S128 .f32) (main_arg4 : FVec F S128x128 .f32) (main_arg5 : FVec F S128 .f32) (main_arg6 : FVec F S128x64 .f32) (main_arg7 : FVec F S64 .f32) (main_arg8 : FVec F S128 .f32) (main_arg9 : FVec F S128 .f32) (main_arg10 : FVec F S128 .f32) (main_arg11 : FVec F S128 .f32) (main_arg12 : FVec F S64 .f32) (main_arg13 : FVec F S64 .f32) (main_arg14 : FVec F S64x32 .f32) (main_arg15 : FVec F S32 .f32) (main_arg16 : FVec F S32x10 .f32) (main_arg17 : FVec F S10 .f32) (main_arg18 : FVec F S64x32 .f32) (main_arg19 : FVec F S32 .f32) (main_arg20 : FVec F S32x1 .f32) (main_arg21 : FVec F S1 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x10 : Shape := ⟨2, ![32, 10]⟩
abbrev S10 : Shape := ⟨1, ![10]⟩
abbrev S32x1 : Shape := ⟨2, ![32, 1]⟩
abbrev S1 : Shape := ⟨1, ![1]⟩
abbrev S10000 : Shape := ⟨1, ![10000]⟩
abbrev S1x320000 : Shape := ⟨2, ![1, 320000]⟩
abbrev S320000 : Shape := ⟨1, ![320000]⟩
abbrev S330000 : Shape := ⟨1, ![330000]⟩
abbrev S2000x128 : Shape := ⟨2, ![2000, 128]⟩
abbrev S_ : Shape := ⟨0, ![]⟩
abbrev S330000x1 : Shape := ⟨2, ![330000, 1]⟩
abbrev S330000x128 : Shape := ⟨2, ![330000, 128]⟩
abbrev S1x128 : Shape := ⟨2, ![1, 128]⟩
abbrev S10000x64 : Shape := ⟨2, ![10000, 64]⟩
abbrev S2000x64 : Shape := ⟨2, ![2000, 64]⟩
abbrev S330000x64 : Shape := ⟨2, ![330000, 64]⟩
abbrev S1x64 : Shape := ⟨2, ![1, 64]⟩
abbrev S1x32 : Shape := ⟨2, ![1, 32]⟩
abbrev S1x10 : Shape := ⟨2, ![1, 10]⟩
abbrev S1x1 : Shape := ⟨2, ![1, 1]⟩

abbrev nBuf : Space → Nat
  | .hbm => 409
  | .vmem => 15
  | .smem => 0
  | _ => 0

abbrev hbmTy0_0 (i : Nat) : BufTy := match i % 128 with
  | 0 => ⟨S10000x128, .f32⟩
  | 1 => ⟨S2x320000, .i32⟩
  | 2 => ⟨S128x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S128, .f32⟩
  | 9 => ⟨S128, .f32⟩
  | 10 => ⟨S128, .f32⟩
  | 11 => ⟨S128, .f32⟩
  | 12 => ⟨S64, .f32⟩
  | 13 => ⟨S64, .f32⟩
  | 14 => ⟨S64x32, .f32⟩
  | 15 => ⟨S32, .f32⟩
  | 16 => ⟨S32x10, .f32⟩
  | 17 => ⟨S10, .f32⟩
  | 18 => ⟨S64x32, .f32⟩
  | 19 => ⟨S32, .f32⟩
  | 20 => ⟨S32x1, .f32⟩
  | 21 => ⟨S1, .f32⟩
  | 22 => ⟨S10000, .i32⟩
  | 23 => ⟨S1x320000, .i32⟩
  | 24 => ⟨S320000, .i32⟩
  | 25 => ⟨S330000, .i32⟩
  | 26 => ⟨S1x320000, .i32⟩
  | 27 => ⟨S320000, .i32⟩
  | 28 => ⟨S330000, .i32⟩
  | 29 => ⟨S10000x128, .f32⟩
  | 30 => ⟨S_, .f32⟩
  | 31 => ⟨S10000, .f32⟩
  | 32 => ⟨S_, .i32⟩
  | 33 => ⟨S330000, .i32⟩
  | 34 => ⟨S330000, .i1⟩
  | 35 => ⟨S_, .i32⟩
  | 36 => ⟨S330000, .i32⟩
  | 37 => ⟨S330000, .i32⟩
  | 38 => ⟨S330000, .i32⟩
  | 39 => ⟨S330000x1, .i32⟩
  | 40 => ⟨S_, .f32⟩
  | 41 => ⟨S330000, .f32⟩
  | 42 => ⟨S10000, .f32⟩
  | 43 => ⟨S_, .f32⟩
  | 44 => ⟨S10000, .f32⟩
  | 45 => ⟨S10000, .i1⟩
  | 46 => ⟨S10000, .f32⟩
  | 47 => ⟨S_, .f32⟩
  | 48 => ⟨S10000, .f32⟩
  | 49 => ⟨S10000, .f32⟩
  | 50 => ⟨S_, .f32⟩
  | 51 => ⟨S_, .f32⟩
  | 52 => ⟨S10000, .f32⟩
  | 53 => ⟨S10000, .f32⟩
  | 54 => ⟨S_, .i32⟩
  | 55 => ⟨S330000, .i32⟩
  | 56 => ⟨S330000, .i1⟩
  | 57 => ⟨S_, .i32⟩
  | 58 => ⟨S330000, .i32⟩
  | 59 => ⟨S330000, .i32⟩
  | 60 => ⟨S330000, .i32⟩
  | 61 => ⟨S330000x1, .i32⟩
  | 62 => ⟨S330000, .f32⟩
  | 63 => ⟨S_, .i32⟩
  | 64 => ⟨S330000, .i32⟩
  | 65 => ⟨S330000, .i1⟩
  | 66 => ⟨S_, .i32⟩
  | 67 => ⟨S330000, .i32⟩
  | 68 => ⟨S330000, .i32⟩
  | 69 => ⟨S330000, .i32⟩
  | 70 => ⟨S330000x1, .i32⟩
  | 71 => ⟨S330000, .f32⟩
  | 72 => ⟨S330000, .f32⟩
  | 73 => ⟨S_, .i32⟩
  | 74 => ⟨S330000, .i32⟩
  | 75 => ⟨S330000, .i1⟩
  | 76 => ⟨S_, .i32⟩
  | 77 => ⟨S330000, .i32⟩
  | 78 => ⟨S330000, .i32⟩
  | 79 => ⟨S330000, .i32⟩
  | 80 => ⟨S330000x1, .i32⟩
  | 81 => ⟨S330000x128, .f32⟩
  | 82 => ⟨S330000x1, .f32⟩
  | 83 => ⟨S330000x128, .f32⟩
  | 84 => ⟨S330000x128, .f32⟩
  | 85 => ⟨S_, .f32⟩
  | 86 => ⟨S10000x128, .f32⟩
  | 87 => ⟨S_, .i32⟩
  | 88 => ⟨S330000, .i32⟩
  | 89 => ⟨S330000, .i1⟩
  | 90 => ⟨S_, .i32⟩
  | 91 => ⟨S330000, .i32⟩
  | 92 => ⟨S330000, .i32⟩
  | 93 => ⟨S330000, .i32⟩
  | 94 => ⟨S330000x1, .i32⟩
  | 95 => ⟨S10000x128, .f32⟩
  | 96 => ⟨S1x128, .f32⟩
  | 97 => ⟨S10000x128, .f32⟩
  | 98 => ⟨S10000x128, .f32⟩
  | 99 => ⟨S_, .f32⟩
  | 100 => ⟨S128, .f32⟩
  | 101 => ⟨S_, .f32⟩
  | 102 => ⟨S128, .f32⟩
  | 103 => ⟨S128, .f32⟩
  | 104 => ⟨S_, .i32⟩
  | 105 => ⟨S_, .f32⟩
  | 106 => ⟨S128, .f32⟩
  | 107 => ⟨S1x128, .f32⟩
  | 108 => ⟨S_, .f32⟩
  | 109 => ⟨S1x128, .f32⟩
  | 110 => ⟨S1x128, .f32⟩
  | 111 => ⟨S10000x128, .f32⟩
  | 112 => ⟨S10000x128, .f32⟩
  | 113 => ⟨S10000x128, .f32⟩
  | 114 => ⟨S_, .f32⟩
  | 115 => ⟨S_, .f32⟩
  | 116 => ⟨S_, .f32⟩
  | 117 => ⟨S_, .f32⟩
  | 118 => ⟨S128, .f32⟩
  | 119 => ⟨S128, .f32⟩
  | 120 => ⟨S128, .f32⟩
  | 121 => ⟨S_, .f32⟩
  | 122 => ⟨S_, .i1⟩
  | 123 => ⟨S_, .f32⟩
  | 124 => ⟨S_, .f32⟩
  | 125 => ⟨S128, .f32⟩
  | 126 => ⟨S128, .f32⟩
  | 127 => ⟨S1x128, .f32⟩
  | _ => ⟨S10000x128, .f32⟩

abbrev hbmTy0_1 (i : Nat) : BufTy := match i % 128 with
  | 0 => ⟨S10000x128, .f32⟩
  | 1 => ⟨S10000x128, .f32⟩
  | 2 => ⟨S_, .f32⟩
  | 3 => ⟨S128, .f32⟩
  | 4 => ⟨S128, .f32⟩
  | 5 => ⟨S128, .f32⟩
  | 6 => ⟨S1x128, .f32⟩
  | 7 => ⟨S10000x128, .f32⟩
  | 8 => ⟨S10000x128, .f32⟩
  | 9 => ⟨S1x128, .f32⟩
  | 10 => ⟨S10000x128, .f32⟩
  | 11 => ⟨S10000x128, .f32⟩
  | 12 => ⟨S1x128, .f32⟩
  | 13 => ⟨S10000x128, .f32⟩
  | 14 => ⟨S10000x128, .f32⟩
  | 15 => ⟨S_, .f32⟩
  | 16 => ⟨S10000x128, .f32⟩
  | 17 => ⟨S10000x128, .f32⟩
  | 18 => ⟨S10000x128, .f32⟩
  | 19 => ⟨S_, .f32⟩
  | 20 => ⟨S10000, .f32⟩
  | 21 => ⟨S_, .i32⟩
  | 22 => ⟨S330000, .i32⟩
  | 23 => ⟨S330000, .i1⟩
  | 24 => ⟨S_, .i32⟩
  | 25 => ⟨S330000, .i32⟩
  | 26 => ⟨S330000, .i32⟩
  | 27 => ⟨S330000, .i32⟩
  | 28 => ⟨S330000x1, .i32⟩
  | 29 => ⟨S_, .f32⟩
  | 30 => ⟨S330000, .f32⟩
  | 31 => ⟨S10000, .f32⟩
  | 32 => ⟨S_, .f32⟩
  | 33 => ⟨S10000, .f32⟩
  | 34 => ⟨S10000, .i1⟩
  | 35 => ⟨S10000, .f32⟩
  | 36 => ⟨S_, .f32⟩
  | 37 => ⟨S10000, .f32⟩
  | 38 => ⟨S10000, .f32⟩
  | 39 => ⟨S_, .f32⟩
  | 40 => ⟨S_, .f32⟩
  | 41 => ⟨S10000, .f32⟩
  | 42 => ⟨S10000, .f32⟩
  | 43 => ⟨S_, .i32⟩
  | 44 => ⟨S330000, .i32⟩
  | 45 => ⟨S330000, .i1⟩
  | 46 => ⟨S_, .i32⟩
  | 47 => ⟨S330000, .i32⟩
  | 48 => ⟨S330000, .i32⟩
  | 49 => ⟨S330000, .i32⟩
  | 50 => ⟨S330000x1, .i32⟩
  | 51 => ⟨S330000, .f32⟩
  | 52 => ⟨S_, .i32⟩
  | 53 => ⟨S330000, .i32⟩
  | 54 => ⟨S330000, .i1⟩
  | 55 => ⟨S_, .i32⟩
  | 56 => ⟨S330000, .i32⟩
  | 57 => ⟨S330000, .i32⟩
  | 58 => ⟨S330000, .i32⟩
  | 59 => ⟨S330000x1, .i32⟩
  | 60 => ⟨S330000, .f32⟩
  | 61 => ⟨S330000, .f32⟩
  | 62 => ⟨S_, .i32⟩
  | 63 => ⟨S330000, .i32⟩
  | 64 => ⟨S330000, .i1⟩
  | 65 => ⟨S_, .i32⟩
  | 66 => ⟨S330000, .i32⟩
  | 67 => ⟨S330000, .i32⟩
  | 68 => ⟨S330000, .i32⟩
  | 69 => ⟨S330000x1, .i32⟩
  | 70 => ⟨S330000x128, .f32⟩
  | 71 => ⟨S330000x1, .f32⟩
  | 72 => ⟨S330000x128, .f32⟩
  | 73 => ⟨S330000x128, .f32⟩
  | 74 => ⟨S_, .f32⟩
  | 75 => ⟨S10000x128, .f32⟩
  | 76 => ⟨S_, .i32⟩
  | 77 => ⟨S330000, .i32⟩
  | 78 => ⟨S330000, .i1⟩
  | 79 => ⟨S_, .i32⟩
  | 80 => ⟨S330000, .i32⟩
  | 81 => ⟨S330000, .i32⟩
  | 82 => ⟨S330000, .i32⟩
  | 83 => ⟨S330000x1, .i32⟩
  | 84 => ⟨S10000x128, .f32⟩
  | 85 => ⟨S1x128, .f32⟩
  | 86 => ⟨S10000x128, .f32⟩
  | 87 => ⟨S10000x128, .f32⟩
  | 88 => ⟨S_, .f32⟩
  | 89 => ⟨S128, .f32⟩
  | 90 => ⟨S_, .f32⟩
  | 91 => ⟨S128, .f32⟩
  | 92 => ⟨S128, .f32⟩
  | 93 => ⟨S_, .i32⟩
  | 94 => ⟨S_, .f32⟩
  | 95 => ⟨S128, .f32⟩
  | 96 => ⟨S1x128, .f32⟩
  | 97 => ⟨S_, .f32⟩
  | 98 => ⟨S1x128, .f32⟩
  | 99 => ⟨S1x128, .f32⟩
  | 100 => ⟨S10000x128, .f32⟩
  | 101 => ⟨S10000x128, .f32⟩
  | 102 => ⟨S10000x128, .f32⟩
  | 103 => ⟨S_, .f32⟩
  | 104 => ⟨S_, .f32⟩
  | 105 => ⟨S_, .f32⟩
  | 106 => ⟨S_, .f32⟩
  | 107 => ⟨S128, .f32⟩
  | 108 => ⟨S128, .f32⟩
  | 109 => ⟨S128, .f32⟩
  | 110 => ⟨S_, .f32⟩
  | 111 => ⟨S_, .i1⟩
  | 112 => ⟨S_, .f32⟩
  | 113 => ⟨S_, .f32⟩
  | 114 => ⟨S128, .f32⟩
  | 115 => ⟨S128, .f32⟩
  | 116 => ⟨S1x128, .f32⟩
  | 117 => ⟨S10000x128, .f32⟩
  | 118 => ⟨S10000x128, .f32⟩
  | 119 => ⟨S_, .f32⟩
  | 120 => ⟨S128, .f32⟩
  | 121 => ⟨S128, .f32⟩
  | 122 => ⟨S128, .f32⟩
  | 123 => ⟨S1x128, .f32⟩
  | 124 => ⟨S10000x128, .f32⟩
  | 125 => ⟨S10000x128, .f32⟩
  | 126 => ⟨S1x128, .f32⟩
  | 127 => ⟨S10000x128, .f32⟩
  | _ => ⟨S10000x128, .f32⟩

abbrev hbmTy0_2 (i : Nat) : BufTy := match i % 128 with
  | 0 => ⟨S10000x128, .f32⟩
  | 1 => ⟨S1x128, .f32⟩
  | 2 => ⟨S10000x128, .f32⟩
  | 3 => ⟨S10000x128, .f32⟩
  | 4 => ⟨S_, .f32⟩
  | 5 => ⟨S10000x128, .f32⟩
  | 6 => ⟨S10000x128, .f32⟩
  | 7 => ⟨S10000x64, .f32⟩
  | 8 => ⟨S_, .f32⟩
  | 9 => ⟨S10000, .f32⟩
  | 10 => ⟨S_, .i32⟩
  | 11 => ⟨S330000, .i32⟩
  | 12 => ⟨S330000, .i1⟩
  | 13 => ⟨S_, .i32⟩
  | 14 => ⟨S330000, .i32⟩
  | 15 => ⟨S330000, .i32⟩
  | 16 => ⟨S330000, .i32⟩
  | 17 => ⟨S330000x1, .i32⟩
  | 18 => ⟨S_, .f32⟩
  | 19 => ⟨S330000, .f32⟩
  | 20 => ⟨S10000, .f32⟩
  | 21 => ⟨S_, .f32⟩
  | 22 => ⟨S10000, .f32⟩
  | 23 => ⟨S10000, .i1⟩
  | 24 => ⟨S10000, .f32⟩
  | 25 => ⟨S_, .f32⟩
  | 26 => ⟨S10000, .f32⟩
  | 27 => ⟨S10000, .f32⟩
  | 28 => ⟨S_, .f32⟩
  | 29 => ⟨S_, .f32⟩
  | 30 => ⟨S10000, .f32⟩
  | 31 => ⟨S10000, .f32⟩
  | 32 => ⟨S_, .i32⟩
  | 33 => ⟨S330000, .i32⟩
  | 34 => ⟨S330000, .i1⟩
  | 35 => ⟨S_, .i32⟩
  | 36 => ⟨S330000, .i32⟩
  | 37 => ⟨S330000, .i32⟩
  | 38 => ⟨S330000, .i32⟩
  | 39 => ⟨S330000x1, .i32⟩
  | 40 => ⟨S330000, .f32⟩
  | 41 => ⟨S_, .i32⟩
  | 42 => ⟨S330000, .i32⟩
  | 43 => ⟨S330000, .i1⟩
  | 44 => ⟨S_, .i32⟩
  | 45 => ⟨S330000, .i32⟩
  | 46 => ⟨S330000, .i32⟩
  | 47 => ⟨S330000, .i32⟩
  | 48 => ⟨S330000x1, .i32⟩
  | 49 => ⟨S330000, .f32⟩
  | 50 => ⟨S330000, .f32⟩
  | 51 => ⟨S_, .i32⟩
  | 52 => ⟨S330000, .i32⟩
  | 53 => ⟨S330000, .i1⟩
  | 54 => ⟨S_, .i32⟩
  | 55 => ⟨S330000, .i32⟩
  | 56 => ⟨S330000, .i32⟩
  | 57 => ⟨S330000, .i32⟩
  | 58 => ⟨S330000x1, .i32⟩
  | 59 => ⟨S330000x64, .f32⟩
  | 60 => ⟨S330000x1, .f32⟩
  | 61 => ⟨S330000x64, .f32⟩
  | 62 => ⟨S330000x64, .f32⟩
  | 63 => ⟨S_, .f32⟩
  | 64 => ⟨S10000x64, .f32⟩
  | 65 => ⟨S_, .i32⟩
  | 66 => ⟨S330000, .i32⟩
  | 67 => ⟨S330000, .i1⟩
  | 68 => ⟨S_, .i32⟩
  | 69 => ⟨S330000, .i32⟩
  | 70 => ⟨S330000, .i32⟩
  | 71 => ⟨S330000, .i32⟩
  | 72 => ⟨S330000x1, .i32⟩
  | 73 => ⟨S10000x64, .f32⟩
  | 74 => ⟨S1x64, .f32⟩
  | 75 => ⟨S10000x64, .f32⟩
  | 76 => ⟨S10000x64, .f32⟩
  | 77 => ⟨S_, .f32⟩
  | 78 => ⟨S64, .f32⟩
  | 79 => ⟨S_, .f32⟩
  | 80 => ⟨S64, .f32⟩
  | 81 => ⟨S64, .f32⟩
  | 82 => ⟨S_, .i32⟩
  | 83 => ⟨S_, .f32⟩
  | 84 => ⟨S64, .f32⟩
  | 85 => ⟨S1x64, .f32⟩
  | 86 => ⟨S_, .f32⟩
  | 87 => ⟨S1x64, .f32⟩
  | 88 => ⟨S1x64, .f32⟩
  | 89 => ⟨S10000x64, .f32⟩
  | 90 => ⟨S10000x64, .f32⟩
  | 91 => ⟨S10000x64, .f32⟩
  | 92 => ⟨S_, .f32⟩
  | 93 => ⟨S_, .f32⟩
  | 94 => ⟨S_, .f32⟩
  | 95 => ⟨S_, .f32⟩
  | 96 => ⟨S64, .f32⟩
  | 97 => ⟨S64, .f32⟩
  | 98 => ⟨S64, .f32⟩
  | 99 => ⟨S_, .f32⟩
  | 100 => ⟨S_, .i1⟩
  | 101 => ⟨S_, .f32⟩
  | 102 => ⟨S_, .f32⟩
  | 103 => ⟨S64, .f32⟩
  | 104 => ⟨S64, .f32⟩
  | 105 => ⟨S1x64, .f32⟩
  | 106 => ⟨S10000x64, .f32⟩
  | 107 => ⟨S10000x64, .f32⟩
  | 108 => ⟨S_, .f32⟩
  | 109 => ⟨S64, .f32⟩
  | 110 => ⟨S64, .f32⟩
  | 111 => ⟨S64, .f32⟩
  | 112 => ⟨S1x64, .f32⟩
  | 113 => ⟨S10000x64, .f32⟩
  | 114 => ⟨S10000x64, .f32⟩
  | 115 => ⟨S1x64, .f32⟩
  | 116 => ⟨S10000x64, .f32⟩
  | 117 => ⟨S10000x64, .f32⟩
  | 118 => ⟨S1x64, .f32⟩
  | 119 => ⟨S10000x64, .f32⟩
  | 120 => ⟨S10000x64, .f32⟩
  | 121 => ⟨S_, .f32⟩
  | 122 => ⟨S64, .f32⟩
  | 123 => ⟨S1x64, .f32⟩
  | 124 => ⟨S_, .f32⟩
  | 125 => ⟨S1x64, .f32⟩
  | 126 => ⟨S1x64, .f32⟩
  | 127 => ⟨S1x32, .f32⟩
  | _ => ⟨S10000x128, .f32⟩

abbrev hbmTy0_3 (i : Nat) : BufTy := match i % 128 with
  | 0 => ⟨S1x32, .f32⟩
  | 1 => ⟨S1x32, .f32⟩
  | 2 => ⟨S_, .f32⟩
  | 3 => ⟨S1x32, .f32⟩
  | 4 => ⟨S1x32, .f32⟩
  | 5 => ⟨S1x10, .f32⟩
  | 6 => ⟨S1x10, .f32⟩
  | 7 => ⟨S1x10, .f32⟩
  | 8 => ⟨S1x32, .f32⟩
  | 9 => ⟨S1x32, .f32⟩
  | 10 => ⟨S1x32, .f32⟩
  | 11 => ⟨S_, .f32⟩
  | 12 => ⟨S1x32, .f32⟩
  | 13 => ⟨S1x32, .f32⟩
  | 14 => ⟨S1x1, .f32⟩
  | 15 => ⟨S1x1, .f32⟩
  | 16 => ⟨S1x1, .f32⟩
  | 17 => ⟨S1x1, .f32⟩
  | 18 => ⟨S1x1, .f32⟩
  | 19 => ⟨S_, .f32⟩
  | 20 => ⟨S1x1, .f32⟩
  | 21 => ⟨S1x1, .f32⟩
  | 22 => ⟨S_, .f32⟩
  | 23 => ⟨S1x1, .f32⟩
  | 24 => ⟨S1x1, .f32⟩
  | _ => ⟨S10000x128, .f32⟩

abbrev hbmTy (i : Nat) : BufTy := match i / 128 with
  | 0 => hbmTy0_0 i
  | 1 => hbmTy0_1 i
  | 2 => hbmTy0_2 i
  | 3 => hbmTy0_3 i
  | _ => ⟨S10000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x64, .f32⟩
  | .local _ .vmem, ⟨13, _⟩ => ⟨S2000x64, .f32⟩
  | .local _ .vmem, ⟨14, _⟩ => ⟨S2000x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst : Ref sig .tc := ⟨.hbm, 30, rfl⟩
abbrev main_v8 : Ref sig .tc := ⟨.hbm, 31, rfl⟩
abbrev main_c : Ref sig .tc := ⟨.hbm, 32, rfl⟩
abbrev main_v9 : Ref sig .tc := ⟨.hbm, 33, rfl⟩
abbrev main_v10 : Ref sig .tc := ⟨.hbm, 34, rfl⟩
abbrev main_c_0 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_cst_1 : Ref sig .tc := ⟨.hbm, 40, rfl⟩
abbrev main_v15 : Ref sig .tc := ⟨.hbm, 41, rfl⟩
abbrev main_v16 : Ref sig .tc := ⟨.hbm, 42, rfl⟩
abbrev main_cst_2 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_cst_3 : Ref sig .tc := ⟨.hbm, 47, rfl⟩
abbrev main_v20 : Ref sig .tc := ⟨.hbm, 48, rfl⟩
abbrev main_v21 : Ref sig .tc := ⟨.hbm, 49, rfl⟩
abbrev main_cst_4 : Ref sig .tc := ⟨.hbm, 50, rfl⟩
abbrev main_call0_v0 : Ref sig .tc := ⟨.hbm, 51, rfl⟩
abbrev main_call0_v1 : Ref sig .tc := ⟨.hbm, 52, rfl⟩
abbrev main_v22 : Ref sig .tc := ⟨.hbm, 53, rfl⟩
abbrev main_c_5 : Ref sig .tc := ⟨.hbm, 54, rfl⟩
abbrev main_v23 : Ref sig .tc := ⟨.hbm, 55, rfl⟩
abbrev main_v24 : Ref sig .tc := ⟨.hbm, 56, rfl⟩
abbrev main_c_6 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_c_7 : Ref sig .tc := ⟨.hbm, 63, rfl⟩
abbrev main_v30 : Ref sig .tc := ⟨.hbm, 64, rfl⟩
abbrev main_v31 : Ref sig .tc := ⟨.hbm, 65, rfl⟩
abbrev main_c_8 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_c_9 : Ref sig .tc := ⟨.hbm, 73, rfl⟩
abbrev main_v38 : Ref sig .tc := ⟨.hbm, 74, rfl⟩
abbrev main_v39 : Ref sig .tc := ⟨.hbm, 75, rfl⟩
abbrev main_c_10 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_cst_11 : Ref sig .tc := ⟨.hbm, 85, rfl⟩
abbrev main_v48 : Ref sig .tc := ⟨.hbm, 86, rfl⟩
abbrev main_c_12 : Ref sig .tc := ⟨.hbm, 87, rfl⟩
abbrev main_v49 : Ref sig .tc := ⟨.hbm, 88, rfl⟩
abbrev main_v50 : Ref sig .tc := ⟨.hbm, 89, rfl⟩
abbrev main_c_13 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_cst_14 : Ref sig .tc := ⟨.hbm, 99, rfl⟩
abbrev main_v59 : Ref sig .tc := ⟨.hbm, 100, rfl⟩
abbrev main_cst_15 : Ref sig .tc := ⟨.hbm, 101, rfl⟩
abbrev main_v60 : Ref sig .tc := ⟨.hbm, 102, rfl⟩
abbrev main_v61 : Ref sig .tc := ⟨.hbm, 103, rfl⟩
abbrev main_c_16 : Ref sig .tc := ⟨.hbm, 104, rfl⟩
abbrev main_call1_cst : Ref sig .tc := ⟨.hbm, 105, rfl⟩
abbrev main_call1_v0 : Ref sig .tc := ⟨.hbm, 106, rfl⟩
abbrev main_call1_v1 : Ref sig .tc := ⟨.hbm, 107, rfl⟩
abbrev main_call1_cst_0 : Ref sig .tc := ⟨.hbm, 108, rfl⟩
abbrev main_call1_v2 : Ref sig .tc := ⟨.hbm, 109, rfl⟩
abbrev main_call1_v3 : Ref sig .tc := ⟨.hbm, 110, rfl⟩
abbrev main_call1_v4 : Ref sig .tc := ⟨.hbm, 111, rfl⟩
abbrev main_call1_v5 : Ref sig .tc := ⟨.hbm, 112, rfl⟩
abbrev main_call1_v6 : Ref sig .tc := ⟨.hbm, 113, rfl⟩
abbrev main_call1_v7 : Ref sig .tc := ⟨.hbm, 114, rfl⟩
abbrev main_call1_cst_1 : Ref sig .tc := ⟨.hbm, 115, rfl⟩
abbrev main_call1_v8 : Ref sig .tc := ⟨.hbm, 116, rfl⟩
abbrev main_call1_cst_2 : Ref sig .tc := ⟨.hbm, 117, rfl⟩
abbrev main_call1_v9 : Ref sig .tc := ⟨.hbm, 118, rfl⟩
abbrev main_call1_v10 : Ref sig .tc := ⟨.hbm, 119, rfl⟩
abbrev main_call1_v11 : Ref sig .tc := ⟨.hbm, 120, rfl⟩
abbrev main_call1_cst_3 : Ref sig .tc := ⟨.hbm, 121, rfl⟩
abbrev main_call1_v12 : Ref sig .tc := ⟨.hbm, 122, rfl⟩
abbrev main_call1_cst_4 : Ref sig .tc := ⟨.hbm, 123, rfl⟩
abbrev main_call1_call0_v0 : Ref sig .tc := ⟨.hbm, 124, rfl⟩
abbrev main_call1_call0_v1 : Ref sig .tc := ⟨.hbm, 125, rfl⟩
abbrev main_v62 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_cst_17 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_call2_cst : Ref sig .tc := ⟨.hbm, 143, rfl⟩
abbrev main_call2_v0 : Ref sig .tc := ⟨.hbm, 144, rfl⟩
abbrev main_v78 : Ref sig .tc := ⟨.hbm, 145, rfl⟩
abbrev main_v79 : Ref sig .tc := ⟨.hbm, 146, rfl⟩
abbrev main_cst_18 : Ref sig .tc := ⟨.hbm, 147, rfl⟩
abbrev main_v80 : Ref sig .tc := ⟨.hbm, 148, rfl⟩
abbrev main_c_19 : Ref sig .tc := ⟨.hbm, 149, rfl⟩
abbrev main_v81 : Ref sig .tc := ⟨.hbm, 150, rfl⟩
abbrev main_v82 : Ref sig .tc := ⟨.hbm, 151, rfl⟩
abbrev main_c_20 : Ref sig .tc := ⟨.hbm, 152, rfl⟩
abbrev main_v83 : Ref sig .tc := ⟨.hbm, 153, rfl⟩
abbrev main_v84 : Ref sig .tc := ⟨.hbm, 154, rfl⟩
abbrev main_v85 : Ref sig .tc := ⟨.hbm, 155, rfl⟩
abbrev main_v86 : Ref sig .tc := ⟨.hbm, 156, rfl⟩
abbrev main_cst_21 : Ref sig .tc := ⟨.hbm, 157, rfl⟩
abbrev main_v87 : Ref sig .tc := ⟨.hbm, 158, rfl⟩
abbrev main_v88 : Ref sig .tc := ⟨.hbm, 159, rfl⟩
abbrev main_cst_22 : Ref sig .tc := ⟨.hbm, 160, rfl⟩
abbrev main_v89 : Ref sig .tc := ⟨.hbm, 161, rfl⟩
abbrev main_v90 : Ref sig .tc := ⟨.hbm, 162, rfl⟩
abbrev main_v91 : Ref sig .tc := ⟨.hbm, 163, rfl⟩
abbrev main_cst_23 : Ref sig .tc := ⟨.hbm, 164, rfl⟩
abbrev main_v92 : Ref sig .tc := ⟨.hbm, 165, rfl⟩
abbrev main_v93 : Ref sig .tc := ⟨.hbm, 166, rfl⟩
abbrev main_cst_24 : Ref sig .tc := ⟨.hbm, 167, rfl⟩
abbrev main_call3_v0 : Ref sig .tc := ⟨.hbm, 168, rfl⟩
abbrev main_call3_v1 : Ref sig .tc := ⟨.hbm, 169, rfl⟩
abbrev main_v94 : Ref sig .tc := ⟨.hbm, 170, rfl⟩
abbrev main_c_25 : Ref sig .tc := ⟨.hbm, 171, rfl⟩
abbrev main_v95 : Ref sig .tc := ⟨.hbm, 172, rfl⟩
abbrev main_v96 : Ref sig .tc := ⟨.hbm, 173, rfl⟩
abbrev main_c_26 : Ref sig .tc := ⟨.hbm, 174, rfl⟩
abbrev main_v97 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_v101 : Ref sig .tc := ⟨.hbm, 179, rfl⟩
abbrev main_c_27 : Ref sig .tc := ⟨.hbm, 180, rfl⟩
abbrev main_v102 : Ref sig .tc := ⟨.hbm, 181, rfl⟩
abbrev main_v103 : Ref sig .tc := ⟨.hbm, 182, rfl⟩
abbrev main_c_28 : Ref sig .tc := ⟨.hbm, 183, rfl⟩
abbrev main_v104 : Ref sig .tc := ⟨.hbm, 184, rfl⟩
abbrev main_v105 : Ref sig .tc := ⟨.hbm, 185, rfl⟩
abbrev main_v106 : Ref sig .tc := ⟨.hbm, 186, rfl⟩
abbrev main_v107 : Ref sig .tc := ⟨.hbm, 187, rfl⟩
abbrev main_v108 : Ref sig .tc := ⟨.hbm, 188, rfl⟩
abbrev main_v109 : Ref sig .tc := ⟨.hbm, 189, rfl⟩
abbrev main_c_29 : Ref sig .tc := ⟨.hbm, 190, rfl⟩
abbrev main_v110 : Ref sig .tc := ⟨.hbm, 191, rfl⟩
abbrev main_v111 : Ref sig .tc := ⟨.hbm, 192, rfl⟩
abbrev main_c_30 : Ref sig .tc := ⟨.hbm, 193, rfl⟩
abbrev main_v112 : Ref sig .tc := ⟨.hbm, 194, rfl⟩
abbrev main_v113 : Ref sig .tc := ⟨.hbm, 195, rfl⟩
abbrev main_v114 : Ref sig .tc := ⟨.hbm, 196, rfl⟩
abbrev main_v115 : Ref sig .tc := ⟨.hbm, 197, rfl⟩
abbrev main_v116 : Ref sig .tc := ⟨.hbm, 198, rfl⟩
abbrev main_v117 : Ref sig .tc := ⟨.hbm, 199, rfl⟩
abbrev main_v118 : Ref sig .tc := ⟨.hbm, 200, rfl⟩
abbrev main_v119 : Ref sig .tc := ⟨.hbm, 201, rfl⟩
abbrev main_cst_31 : Ref sig .tc := ⟨.hbm, 202, rfl⟩
abbrev main_v120 : Ref sig .tc := ⟨.hbm, 203, rfl⟩
abbrev main_c_32 : Ref sig .tc := ⟨.hbm, 204, rfl⟩
abbrev main_v121 : Ref sig .tc := ⟨.hbm, 205, rfl⟩
abbrev main_v122 : Ref sig .tc := ⟨.hbm, 206, rfl⟩
abbrev main_c_33 : Ref sig .tc := ⟨.hbm, 207, rfl⟩
abbrev main_v123 : Ref sig .tc := ⟨.hbm, 208, rfl⟩
abbrev main_v124 : Ref sig .tc := ⟨.hbm, 209, rfl⟩
abbrev main_v125 : Ref sig .tc := ⟨.hbm, 210, rfl⟩
abbrev main_v126 : Ref sig .tc := ⟨.hbm, 211, rfl⟩
abbrev main_v127 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_cst_34 : Ref sig .tc := ⟨.hbm, 216, rfl⟩
abbrev main_v131 : Ref sig .tc := ⟨.hbm, 217, rfl⟩
abbrev main_cst_35 : Ref sig .tc := ⟨.hbm, 218, rfl⟩
abbrev main_v132 : Ref sig .tc := ⟨.hbm, 219, rfl⟩
abbrev main_v133 : Ref sig .tc := ⟨.hbm, 220, rfl⟩
abbrev main_c_36 : Ref sig .tc := ⟨.hbm, 221, rfl⟩
abbrev main_call4_cst : Ref sig .tc := ⟨.hbm, 222, rfl⟩
abbrev main_call4_v0 : Ref sig .tc := ⟨.hbm, 223, rfl⟩
abbrev main_call4_v1 : Ref sig .tc := ⟨.hbm, 224, rfl⟩
abbrev main_call4_cst_0 : Ref sig .tc := ⟨.hbm, 225, rfl⟩
abbrev main_call4_v2 : Ref sig .tc := ⟨.hbm, 226, rfl⟩
abbrev main_call4_v3 : Ref sig .tc := ⟨.hbm, 227, rfl⟩
abbrev main_call4_v4 : Ref sig .tc := ⟨.hbm, 228, rfl⟩
abbrev main_call4_v5 : Ref sig .tc := ⟨.hbm, 229, rfl⟩
abbrev main_call4_v6 : Ref sig .tc := ⟨.hbm, 230, rfl⟩
abbrev main_call4_v7 : Ref sig .tc := ⟨.hbm, 231, rfl⟩
abbrev main_call4_cst_1 : Ref sig .tc := ⟨.hbm, 232, rfl⟩
abbrev main_call4_v8 : Ref sig .tc := ⟨.hbm, 233, rfl⟩
abbrev main_call4_cst_2 : Ref sig .tc := ⟨.hbm, 234, rfl⟩
abbrev main_call4_v9 : Ref sig .tc := ⟨.hbm, 235, rfl⟩
abbrev main_call4_v10 : Ref sig .tc := ⟨.hbm, 236, rfl⟩
abbrev main_call4_v11 : Ref sig .tc := ⟨.hbm, 237, rfl⟩
abbrev main_call4_cst_3 : Ref sig .tc := ⟨.hbm, 238, rfl⟩
abbrev main_call4_v12 : Ref sig .tc := ⟨.hbm, 239, rfl⟩
abbrev main_call4_cst_4 : Ref sig .tc := ⟨.hbm, 240, rfl⟩
abbrev main_call4_call0_v0 : Ref sig .tc := ⟨.hbm, 241, rfl⟩
abbrev main_call4_call0_v1 : Ref sig .tc := ⟨.hbm, 242, rfl⟩
abbrev main_v134 : Ref sig .tc := ⟨.hbm, 243, rfl⟩
abbrev main_v135 : Ref sig .tc := ⟨.hbm, 244, rfl⟩
abbrev main_v136 : Ref sig .tc := ⟨.hbm, 245, rfl⟩
abbrev main_v137 : Ref sig .tc := ⟨.hbm, 246, rfl⟩
abbrev main_cst_37 : Ref sig .tc := ⟨.hbm, 247, rfl⟩
abbrev main_v138 : Ref sig .tc := ⟨.hbm, 248, rfl⟩
abbrev main_v139 : Ref sig .tc := ⟨.hbm, 249, rfl⟩
abbrev main_v140 : Ref sig .tc := ⟨.hbm, 250, rfl⟩
abbrev main_v141 : Ref sig .tc := ⟨.hbm, 251, rfl⟩
abbrev main_v142 : Ref sig .tc := ⟨.hbm, 252, rfl⟩
abbrev main_v143 : Ref sig .tc := ⟨.hbm, 253, rfl⟩
abbrev main_v144 : Ref sig .tc := ⟨.hbm, 254, rfl⟩
abbrev main_v145 : Ref sig .tc := ⟨.hbm, 255, rfl⟩
abbrev main_v146 : Ref sig .tc := ⟨.hbm, 256, rfl⟩
abbrev main_v147 : Ref sig .tc := ⟨.hbm, 257, rfl⟩
abbrev main_v148 : Ref sig .tc := ⟨.hbm, 258, rfl⟩
abbrev main_v149 : Ref sig .tc := ⟨.hbm, 259, rfl⟩
abbrev main_call5_cst : Ref sig .tc := ⟨.hbm, 260, rfl⟩
abbrev main_call5_v0 : Ref sig .tc := ⟨.hbm, 261, rfl⟩
abbrev main_v150 : Ref sig .tc := ⟨.hbm, 262, rfl⟩
abbrev main_v151 : Ref sig .tc := ⟨.hbm, 263, rfl⟩
abbrev main_cst_38 : Ref sig .tc := ⟨.hbm, 264, rfl⟩
abbrev main_v152 : Ref sig .tc := ⟨.hbm, 265, rfl⟩
abbrev main_c_39 : Ref sig .tc := ⟨.hbm, 266, rfl⟩
abbrev main_v153 : Ref sig .tc := ⟨.hbm, 267, rfl⟩
abbrev main_v154 : Ref sig .tc := ⟨.hbm, 268, rfl⟩
abbrev main_c_40 : Ref sig .tc := ⟨.hbm, 269, rfl⟩
abbrev main_v155 : Ref sig .tc := ⟨.hbm, 270, rfl⟩
abbrev main_v156 : Ref sig .tc := ⟨.hbm, 271, rfl⟩
abbrev main_v157 : Ref sig .tc := ⟨.hbm, 272, rfl⟩
abbrev main_v158 : Ref sig .tc := ⟨.hbm, 273, rfl⟩
abbrev main_cst_41 : Ref sig .tc := ⟨.hbm, 274, rfl⟩
abbrev main_v159 : Ref sig .tc := ⟨.hbm, 275, rfl⟩
abbrev main_v160 : Ref sig .tc := ⟨.hbm, 276, rfl⟩
abbrev main_cst_42 : Ref sig .tc := ⟨.hbm, 277, rfl⟩
abbrev main_v161 : Ref sig .tc := ⟨.hbm, 278, rfl⟩
abbrev main_v162 : Ref sig .tc := ⟨.hbm, 279, rfl⟩
abbrev main_v163 : Ref sig .tc := ⟨.hbm, 280, rfl⟩
abbrev main_cst_43 : Ref sig .tc := ⟨.hbm, 281, rfl⟩
abbrev main_v164 : Ref sig .tc := ⟨.hbm, 282, rfl⟩
abbrev main_v165 : Ref sig .tc := ⟨.hbm, 283, rfl⟩
abbrev main_cst_44 : Ref sig .tc := ⟨.hbm, 284, rfl⟩
abbrev main_call6_v0 : Ref sig .tc := ⟨.hbm, 285, rfl⟩
abbrev main_call6_v1 : Ref sig .tc := ⟨.hbm, 286, rfl⟩
abbrev main_v166 : Ref sig .tc := ⟨.hbm, 287, rfl⟩
abbrev main_c_45 : Ref sig .tc := ⟨.hbm, 288, rfl⟩
abbrev main_v167 : Ref sig .tc := ⟨.hbm, 289, rfl⟩
abbrev main_v168 : Ref sig .tc := ⟨.hbm, 290, rfl⟩
abbrev main_c_46 : Ref sig .tc := ⟨.hbm, 291, rfl⟩
abbrev main_v169 : Ref sig .tc := ⟨.hbm, 292, rfl⟩
abbrev main_v170 : Ref sig .tc := ⟨.hbm, 293, rfl⟩
abbrev main_v171 : Ref sig .tc := ⟨.hbm, 294, rfl⟩
abbrev main_v172 : Ref sig .tc := ⟨.hbm, 295, rfl⟩
abbrev main_v173 : Ref sig .tc := ⟨.hbm, 296, rfl⟩
abbrev main_c_47 : Ref sig .tc := ⟨.hbm, 297, rfl⟩
abbrev main_v174 : Ref sig .tc := ⟨.hbm, 298, rfl⟩
abbrev main_v175 : Ref sig .tc := ⟨.hbm, 299, rfl⟩
abbrev main_c_48 : Ref sig .tc := ⟨.hbm, 300, rfl⟩
abbrev main_v176 : Ref sig .tc := ⟨.hbm, 301, rfl⟩
abbrev main_v177 : Ref sig .tc := ⟨.hbm, 302, rfl⟩
abbrev main_v178 : Ref sig .tc := ⟨.hbm, 303, rfl⟩
abbrev main_v179 : Ref sig .tc := ⟨.hbm, 304, rfl⟩
abbrev main_v180 : Ref sig .tc := ⟨.hbm, 305, rfl⟩
abbrev main_v181 : Ref sig .tc := ⟨.hbm, 306, rfl⟩
abbrev main_c_49 : Ref sig .tc := ⟨.hbm, 307, rfl⟩
abbrev main_v182 : Ref sig .tc := ⟨.hbm, 308, rfl⟩
abbrev main_v183 : Ref sig .tc := ⟨.hbm, 309, rfl⟩
abbrev main_c_50 : Ref sig .tc := ⟨.hbm, 310, rfl⟩
abbrev main_v184 : Ref sig .tc := ⟨.hbm, 311, rfl⟩
abbrev main_v185 : Ref sig .tc := ⟨.hbm, 312, rfl⟩
abbrev main_v186 : Ref sig .tc := ⟨.hbm, 313, rfl⟩
abbrev main_v187 : Ref sig .tc := ⟨.hbm, 314, rfl⟩
abbrev main_v188 : Ref sig .tc := ⟨.hbm, 315, rfl⟩
abbrev main_v189 : Ref sig .tc := ⟨.hbm, 316, rfl⟩
abbrev main_v190 : Ref sig .tc := ⟨.hbm, 317, rfl⟩
abbrev main_v191 : Ref sig .tc := ⟨.hbm, 318, rfl⟩
abbrev main_cst_51 : Ref sig .tc := ⟨.hbm, 319, rfl⟩
abbrev main_v192 : Ref sig .tc := ⟨.hbm, 320, rfl⟩
abbrev main_c_52 : Ref sig .tc := ⟨.hbm, 321, rfl⟩
abbrev main_v193 : Ref sig .tc := ⟨.hbm, 322, rfl⟩
abbrev main_v194 : Ref sig .tc := ⟨.hbm, 323, rfl⟩
abbrev main_c_53 : Ref sig .tc := ⟨.hbm, 324, rfl⟩
abbrev main_v195 : Ref sig .tc := ⟨.hbm, 325, rfl⟩
abbrev main_v196 : Ref sig .tc := ⟨.hbm, 326, rfl⟩
abbrev main_v197 : Ref sig .tc := ⟨.hbm, 327, rfl⟩
abbrev main_v198 : Ref sig .tc := ⟨.hbm, 328, rfl⟩
abbrev main_v199 : Ref sig .tc := ⟨.hbm, 329, rfl⟩
abbrev main_v200 : Ref sig .tc := ⟨.hbm, 330, rfl⟩
abbrev main_v201 : Ref sig .tc := ⟨.hbm, 331, rfl⟩
abbrev main_v202 : Ref sig .tc := ⟨.hbm, 332, rfl⟩
abbrev main_cst_54 : Ref sig .tc := ⟨.hbm, 333, rfl⟩
abbrev main_v203 : Ref sig .tc := ⟨.hbm, 334, rfl⟩
abbrev main_cst_55 : Ref sig .tc := ⟨.hbm, 335, rfl⟩
abbrev main_v204 : Ref sig .tc := ⟨.hbm, 336, rfl⟩
abbrev main_v205 : Ref sig .tc := ⟨.hbm, 337, rfl⟩
abbrev main_c_56 : Ref sig .tc := ⟨.hbm, 338, rfl⟩
abbrev main_call7_cst : Ref sig .tc := ⟨.hbm, 339, rfl⟩
abbrev main_call7_v0 : Ref sig .tc := ⟨.hbm, 340, rfl⟩
abbrev main_call7_v1 : Ref sig .tc := ⟨.hbm, 341, rfl⟩
abbrev main_call7_cst_0 : Ref sig .tc := ⟨.hbm, 342, rfl⟩
abbrev main_call7_v2 : Ref sig .tc := ⟨.hbm, 343, rfl⟩
abbrev main_call7_v3 : Ref sig .tc := ⟨.hbm, 344, rfl⟩
abbrev main_call7_v4 : Ref sig .tc := ⟨.hbm, 345, rfl⟩
abbrev main_call7_v5 : Ref sig .tc := ⟨.hbm, 346, rfl⟩
abbrev main_call7_v6 : Ref sig .tc := ⟨.hbm, 347, rfl⟩
abbrev main_call7_v7 : Ref sig .tc := ⟨.hbm, 348, rfl⟩
abbrev main_call7_cst_1 : Ref sig .tc := ⟨.hbm, 349, rfl⟩
abbrev main_call7_v8 : Ref sig .tc := ⟨.hbm, 350, rfl⟩
abbrev main_call7_cst_2 : Ref sig .tc := ⟨.hbm, 351, rfl⟩
abbrev main_call7_v9 : Ref sig .tc := ⟨.hbm, 352, rfl⟩
abbrev main_call7_v10 : Ref sig .tc := ⟨.hbm, 353, rfl⟩
abbrev main_call7_v11 : Ref sig .tc := ⟨.hbm, 354, rfl⟩
abbrev main_call7_cst_3 : Ref sig .tc := ⟨.hbm, 355, rfl⟩
abbrev main_call7_v12 : Ref sig .tc := ⟨.hbm, 356, rfl⟩
abbrev main_call7_cst_4 : Ref sig .tc := ⟨.hbm, 357, rfl⟩
abbrev main_call7_call0_v0 : Ref sig .tc := ⟨.hbm, 358, rfl⟩
abbrev main_call7_call0_v1 : Ref sig .tc := ⟨.hbm, 359, rfl⟩
abbrev main_v206 : Ref sig .tc := ⟨.hbm, 360, rfl⟩
abbrev main_v207 : Ref sig .tc := ⟨.hbm, 361, rfl⟩
abbrev main_v208 : Ref sig .tc := ⟨.hbm, 362, rfl⟩
abbrev main_v209 : Ref sig .tc := ⟨.hbm, 363, rfl⟩
abbrev main_cst_57 : Ref sig .tc := ⟨.hbm, 364, rfl⟩
abbrev main_v210 : Ref sig .tc := ⟨.hbm, 365, rfl⟩
abbrev main_v211 : Ref sig .tc := ⟨.hbm, 366, rfl⟩
abbrev main_v212 : Ref sig .tc := ⟨.hbm, 367, rfl⟩
abbrev main_v213 : Ref sig .tc := ⟨.hbm, 368, rfl⟩
abbrev main_v214 : Ref sig .tc := ⟨.hbm, 369, rfl⟩
abbrev main_v215 : Ref sig .tc := ⟨.hbm, 370, rfl⟩
abbrev main_v216 : Ref sig .tc := ⟨.hbm, 371, rfl⟩
abbrev main_v217 : Ref sig .tc := ⟨.hbm, 372, rfl⟩
abbrev main_v218 : Ref sig .tc := ⟨.hbm, 373, rfl⟩
abbrev main_v219 : Ref sig .tc := ⟨.hbm, 374, rfl⟩
abbrev main_v220 : Ref sig .tc := ⟨.hbm, 375, rfl⟩
abbrev main_v221 : Ref sig .tc := ⟨.hbm, 376, rfl⟩
abbrev main_cst_58 : Ref sig .tc := ⟨.hbm, 377, rfl⟩
abbrev main_v222 : Ref sig .tc := ⟨.hbm, 378, rfl⟩
abbrev main_v223 : Ref sig .tc := ⟨.hbm, 379, rfl⟩
abbrev main_cst_59 : Ref sig .tc := ⟨.hbm, 380, rfl⟩
abbrev main_v224 : Ref sig .tc := ⟨.hbm, 381, rfl⟩
abbrev main_v225 : Ref sig .tc := ⟨.hbm, 382, rfl⟩
abbrev main_v226 : Ref sig .tc := ⟨.hbm, 383, rfl⟩
abbrev main_v227 : Ref sig .tc := ⟨.hbm, 384, rfl⟩
abbrev main_v228 : Ref sig .tc := ⟨.hbm, 385, rfl⟩
abbrev main_call8_cst : Ref sig .tc := ⟨.hbm, 386, rfl⟩
abbrev main_call8_v0 : Ref sig .tc := ⟨.hbm, 387, rfl⟩
abbrev main_v229 : Ref sig .tc := ⟨.hbm, 388, rfl⟩
abbrev main_v230 : Ref sig .tc := ⟨.hbm, 389, rfl⟩
abbrev main_v231 : Ref sig .tc := ⟨.hbm, 390, rfl⟩
abbrev main_v232 : Ref sig .tc := ⟨.hbm, 391, rfl⟩
abbrev main_v233 : Ref sig .tc := ⟨.hbm, 392, rfl⟩
abbrev main_v234 : Ref sig .tc := ⟨.hbm, 393, rfl⟩
abbrev main_v235 : Ref sig .tc := ⟨.hbm, 394, rfl⟩
abbrev main_call9_cst : Ref sig .tc := ⟨.hbm, 395, rfl⟩
abbrev main_call9_v0 : Ref sig .tc := ⟨.hbm, 396, rfl⟩
abbrev main_v236 : Ref sig .tc := ⟨.hbm, 397, rfl⟩
abbrev main_v237 : Ref sig .tc := ⟨.hbm, 398, rfl⟩
abbrev main_v238 : Ref sig .tc := ⟨.hbm, 399, rfl⟩
abbrev main_v239 : Ref sig .tc := ⟨.hbm, 400, rfl⟩
abbrev main_v240 : Ref sig .tc := ⟨.hbm, 401, rfl⟩
abbrev main_v241 : Ref sig .tc := ⟨.hbm, 402, rfl⟩
abbrev main_cst_60 : Ref sig .tc := ⟨.hbm, 403, rfl⟩
abbrev main_v242 : Ref sig .tc := ⟨.hbm, 404, rfl⟩
abbrev main_v243 : Ref sig .tc := ⟨.hbm, 405, rfl⟩
abbrev main_cst_61 : Ref sig .tc := ⟨.hbm, 406, rfl⟩
abbrev main_v244 : Ref sig .tc := ⟨.hbm, 407, rfl⟩
abbrev main_v245 : Ref sig .tc := ⟨.hbm, 408, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x320000_S1x320000_0_0 : S2x320000.Slices ![0, 0] S1x320000
  shapeCasts_S1x320000_S320000 : S1x320000.ShapeCasts S320000
  concatenates_S320000_S10000_S330000_d0 : Shape.Concatenates [S320000, S10000] S330000 0
  slices_S2x320000_S1x320000_1_0 : S2x320000.Slices ![1, 0] S1x320000
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  bcast_S_S10000 : S_.BroadcastsInDim S10000 (![] : Fin 0 → Fin S10000.rank)
  bcast_S_S330000 : S_.BroadcastsInDim S330000 (![] : Fin 0 → Fin S330000.rank)
  bcast_S330000_S330000x1_0 : S330000.BroadcastsInDim S330000x1 (![0] : Fin 1 → Fin S330000x1.rank)
  bcast_S330000x1_S330000x128_0_1 : S330000x1.BroadcastsInDim S330000x128 (![0, 1] : Fin 2 → Fin S330000x128.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  reducesTo_S10000x128_S128_d0 : S10000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  shapeCasts_S2000x128_S2000x128 : S2000x128.ShapeCasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S330000x1_S330000x64_0_1 : S330000x1.BroadcastsInDim S330000x64 (![0, 1] : Fin 2 → Fin S330000x64.rank)
  bcast_S_S10000x64 : S_.BroadcastsInDim S10000x64 (![] : Fin 0 → Fin S10000x64.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  reducesTo_S10000x64_S64_d0 : S10000x64.ReducesTo [0] S64
  bcast_S_S64 : S_.BroadcastsInDim S64 (![] : Fin 0 → Fin S64.rank)
  bcast_S_S1x64 : S_.BroadcastsInDim S1x64 (![] : Fin 0 → Fin S1x64.rank)
  bcast_S32_S1x32_1 : S32.BroadcastsInDim S1x32 (![1] : Fin 1 → Fin S1x32.rank)
  bcast_S_S1x32 : S_.BroadcastsInDim S1x32 (![] : Fin 0 → Fin S1x32.rank)
  bcast_S10_S1x10_1 : S10.BroadcastsInDim S1x10 (![1] : Fin 1 → Fin S1x10.rank)
  bcast_S1_S1x1_1 : S1.BroadcastsInDim S1x1 (![1] : Fin 1 → Fin S1x1.rank)
  bcast_S_S1x1 : S_.BroadcastsInDim S1x1 (![] : Fin 0 → Fin S1x1.rank)
  dot_S2000x128_S128x128_S2000x128_1_0_0_1_n_n_wf : DotDims.WF S2000x128 S128x128 S2000x128 [1] [0] [0] [1] [] []
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  gather_S10000x128_S330000x1_S330000x128_1_0_n_n_0_1_1128_wf : GatherDims.WF S10000x128 S330000x1 S330000x128 [1] [0] [] [0] [] 1 ![1, 128]
  scatter_S10000x128_S330000x1_S330000x128_1_0_0_1_wf : ScatterDims.WF S10000x128 S330000x1 S330000x128 [1] [0] [0] 1
  dot_S2000x128_S128x64_S2000x64_1_0_0_1_n_n_wf : DotDims.WF S2000x128 S128x64 S2000x64 [1] [0] [0] [1] [] []
  gather_S10000x64_S330000x1_S330000x64_1_0_n_n_0_1_164_wf : GatherDims.WF S10000x64 S330000x1 S330000x64 [1] [0] [] [0] [] 1 ![1, 64]
  scatter_S10000x64_S330000x1_S330000x64_1_0_0_1_wf : ScatterDims.WF S10000x64 S330000x1 S330000x64 [1] [0] [0] 1
  dot_S1x64_S64x32_S1x32_1_0_0_1_n_n_wf : DotDims.WF S1x64 S64x32 S1x32 [1] [0] [0] [1] [] []
  dot_S1x32_S32x10_S1x10_1_0_0_1_n_n_wf : DotDims.WF S1x32 S32x10 S1x10 [1] [0] [0] [1] [] []
  dot_S1x32_S32x1_S1x1_1_0_0_1_n_n_wf : DotDims.WF S1x32 S32x1 S1x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S10000x128.size a
  hwx0_2 : ∀ i : grid0.Coords, EltTy.bits .f32 = 32 ∨ (Rect.block (s := S10000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S10000x128.size a
  hwx1_0 : ∀ i : grid1.Coords, EltTy.bits .f32 = 32 ∨ (Rect.block (s := S10000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S10000x128.size a
  hwx1_2 : ∀ i : grid1.Coords, EltTy.bits .f32 = 32 ∨ (Rect.block (s := S10000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S10000x128.size a
  hwx2_0 : ∀ i : grid2.Coords, EltTy.bits .f32 = 32 ∨ (Rect.block (s := S10000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S10000x64.size a
  hwx2_2 : ∀ i : grid2.Coords, EltTy.bits .f32 = 32 ∨ (Rect.block (s := S10000x64) S2000x64.size (cc2_transform_2 i) (hinb2_2 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def gather_S10000x128_S330000x1_S330000x128_1_0_n_n_0_1_1128 : GatherDims S10000x128 S330000x1 S330000x128 where
  offsetDims := [1]
  collapsedSliceDims := [0]
  operandBatchingDims := []
  startIndicesBatchingDims := []
  startIndexMap := [0]
  indexVectorDim := 1
  sliceSizes := ![1, 128]
  wf := gather_S10000x128_S330000x1_S330000x128_1_0_n_n_0_1_1128_wf
def scatter_S10000x128_S330000x1_S330000x128_1_0_0_1 : ScatterDims S10000x128 S330000x1 S330000x128 where
  updateWindowDims := [1]
  insertedWindowDims := [0]
  scatterDimsToOperandDims := [0]
  indexVectorDim := 1
  wf := scatter_S10000x128_S330000x1_S330000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S10000x64_S330000x1_S330000x64_1_0_n_n_0_1_164 : GatherDims S10000x64 S330000x1 S330000x64 where
  offsetDims := [1]
  collapsedSliceDims := [0]
  operandBatchingDims := []
  startIndicesBatchingDims := []
  startIndexMap := [0]
  indexVectorDim := 1
  sliceSizes := ![1, 64]
  wf := gather_S10000x64_S330000x1_S330000x64_1_0_n_n_0_1_164_wf
def scatter_S10000x64_S330000x1_S330000x64_1_0_0_1 : ScatterDims S10000x64 S330000x1 S330000x64 where
  updateWindowDims := [1]
  insertedWindowDims := [0]
  scatterDimsToOperandDims := [0]
  indexVectorDim := 1
  wf := scatter_S10000x64_S330000x1_S330000x64_1_0_0_1_wf
def dot_S1x64_S64x32_S1x32_1_0_0_1_n_n : DotDims S1x64 S64x32 S1x32 where
  lhsContracting := [1]
  rhsContracting := [0]
  lhsNonContracting := [0]
  rhsNonContracting := [1]
  lhsBatch := []
  rhsBatch := []
  wf := dot_S1x64_S64x32_S1x32_1_0_0_1_n_n_wf
def dot_S1x32_S32x10_S1x10_1_0_0_1_n_n : DotDims S1x32 S32x10 S1x10 where
  lhsContracting := [1]
  rhsContracting := [0]
  lhsNonContracting := [0]
  rhsNonContracting := [1]
  lhsBatch := []
  rhsBatch := []
  wf := dot_S1x32_S32x10_S1x10_1_0_0_1_n_n_wf
def dot_S1x32_S32x1_S1x1_1_0_0_1_n_n : DotDims S1x32 S32x1 S1x1 where
  lhsContracting := [1]
  rhsContracting := [0]
  lhsNonContracting := [0]
  rhsNonContracting := [1]
  lhsBatch := []
  rhsBatch := []
  wf := dot_S1x32_S32x1_S1x1_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v78) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v79) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v150) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v151) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x10 : Shape := ⟨2, ![32, 10]⟩
abbrev S10 : Shape := ⟨1, ![10]⟩
abbrev S32x1 : Shape := ⟨2, ![32, 1]⟩
abbrev S1 : Shape := ⟨1, ![1]⟩
abbrev S10000 : Shape := ⟨1, ![10000]⟩
abbrev S1x320000 : Shape := ⟨2, ![1, 320000]⟩
abbrev S320000 : Shape := ⟨1, ![320000]⟩
abbrev S330000 : Shape := ⟨1, ![330000]⟩
abbrev S_ : Shape := ⟨0, ![]⟩
abbrev S330000x1 : Shape := ⟨2, ![330000, 1]⟩
abbrev S330000x128 : Shape := ⟨2, ![330000, 128]⟩
abbrev S1x128 : Shape := ⟨2, ![1, 128]⟩
abbrev S10000x64 : Shape := ⟨2, ![10000, 64]⟩
abbrev S330000x64 : Shape := ⟨2, ![330000, 64]⟩
abbrev S1x64 : Shape := ⟨2, ![1, 64]⟩
abbrev S1x32 : Shape := ⟨2, ![1, 32]⟩
abbrev S1x10 : Shape := ⟨2, ![1, 10]⟩
abbrev S1x1 : Shape := ⟨2, ![1, 1]⟩

abbrev nBuf : Space → Nat
  | .hbm => 409
  | .vmem => 0
  | .smem => 0
  | _ => 0

abbrev hbmTy0_0 (i : Nat) : BufTy := match i % 128 with
  | 0 => ⟨S10000x128, .f32⟩
  | 1 => ⟨S2x320000, .i32⟩
  | 2 => ⟨S128x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S128, .f32⟩
  | 9 => ⟨S128, .f32⟩
  | 10 => ⟨S128, .f32⟩
  | 11 => ⟨S128, .f32⟩
  | 12 => ⟨S64, .f32⟩
  | 13 => ⟨S64, .f32⟩
  | 14 => ⟨S64x32, .f32⟩
  | 15 => ⟨S32, .f32⟩
  | 16 => ⟨S32x10, .f32⟩
  | 17 => ⟨S10, .f32⟩
  | 18 => ⟨S64x32, .f32⟩
  | 19 => ⟨S32, .f32⟩
  | 20 => ⟨S32x1, .f32⟩
  | 21 => ⟨S1, .f32⟩
  | 22 => ⟨S10000, .i32⟩
  | 23 => ⟨S1x320000, .i32⟩
  | 24 => ⟨S320000, .i32⟩
  | 25 => ⟨S330000, .i32⟩
  | 26 => ⟨S1x320000, .i32⟩
  | 27 => ⟨S320000, .i32⟩
  | 28 => ⟨S330000, .i32⟩
  | 29 => ⟨S10000x128, .f32⟩
  | 30 => ⟨S_, .f32⟩
  | 31 => ⟨S10000, .f32⟩
  | 32 => ⟨S_, .i32⟩
  | 33 => ⟨S330000, .i32⟩
  | 34 => ⟨S330000, .i1⟩
  | 35 => ⟨S_, .i32⟩
  | 36 => ⟨S330000, .i32⟩
  | 37 => ⟨S330000, .i32⟩
  | 38 => ⟨S330000, .i32⟩
  | 39 => ⟨S330000x1, .i32⟩
  | 40 => ⟨S_, .f32⟩
  | 41 => ⟨S330000, .f32⟩
  | 42 => ⟨S10000, .f32⟩
  | 43 => ⟨S_, .f32⟩
  | 44 => ⟨S10000, .f32⟩
  | 45 => ⟨S10000, .i1⟩
  | 46 => ⟨S10000, .f32⟩
  | 47 => ⟨S_, .f32⟩
  | 48 => ⟨S10000, .f32⟩
  | 49 => ⟨S10000, .f32⟩
  | 50 => ⟨S_, .f32⟩
  | 51 => ⟨S_, .f32⟩
  | 52 => ⟨S10000, .f32⟩
  | 53 => ⟨S10000, .f32⟩
  | 54 => ⟨S_, .i32⟩
  | 55 => ⟨S330000, .i32⟩
  | 56 => ⟨S330000, .i1⟩
  | 57 => ⟨S_, .i32⟩
  | 58 => ⟨S330000, .i32⟩
  | 59 => ⟨S330000, .i32⟩
  | 60 => ⟨S330000, .i32⟩
  | 61 => ⟨S330000x1, .i32⟩
  | 62 => ⟨S330000, .f32⟩
  | 63 => ⟨S_, .i32⟩
  | 64 => ⟨S330000, .i32⟩
  | 65 => ⟨S330000, .i1⟩
  | 66 => ⟨S_, .i32⟩
  | 67 => ⟨S330000, .i32⟩
  | 68 => ⟨S330000, .i32⟩
  | 69 => ⟨S330000, .i32⟩
  | 70 => ⟨S330000x1, .i32⟩
  | 71 => ⟨S330000, .f32⟩
  | 72 => ⟨S330000, .f32⟩
  | 73 => ⟨S_, .i32⟩
  | 74 => ⟨S330000, .i32⟩
  | 75 => ⟨S330000, .i1⟩
  | 76 => ⟨S_, .i32⟩
  | 77 => ⟨S330000, .i32⟩
  | 78 => ⟨S330000, .i32⟩
  | 79 => ⟨S330000, .i32⟩
  | 80 => ⟨S330000x1, .i32⟩
  | 81 => ⟨S330000x128, .f32⟩
  | 82 => ⟨S330000x1, .f32⟩
  | 83 => ⟨S330000x128, .f32⟩
  | 84 => ⟨S330000x128, .f32⟩
  | 85 => ⟨S_, .f32⟩
  | 86 => ⟨S10000x128, .f32⟩
  | 87 => ⟨S_, .i32⟩
  | 88 => ⟨S330000, .i32⟩
  | 89 => ⟨S330000, .i1⟩
  | 90 => ⟨S_, .i32⟩
  | 91 => ⟨S330000, .i32⟩
  | 92 => ⟨S330000, .i32⟩
  | 93 => ⟨S330000, .i32⟩
  | 94 => ⟨S330000x1, .i32⟩
  | 95 => ⟨S10000x128, .f32⟩
  | 96 => ⟨S1x128, .f32⟩
  | 97 => ⟨S10000x128, .f32⟩
  | 98 => ⟨S10000x128, .f32⟩
  | 99 => ⟨S_, .f32⟩
  | 100 => ⟨S128, .f32⟩
  | 101 => ⟨S_, .f32⟩
  | 102 => ⟨S128, .f32⟩
  | 103 => ⟨S128, .f32⟩
  | 104 => ⟨S_, .i32⟩
  | 105 => ⟨S_, .f32⟩
  | 106 => ⟨S128, .f32⟩
  | 107 => ⟨S1x128, .f32⟩
  | 108 => ⟨S_, .f32⟩
  | 109 => ⟨S1x128, .f32⟩
  | 110 => ⟨S1x128, .f32⟩
  | 111 => ⟨S10000x128, .f32⟩
  | 112 => ⟨S10000x128, .f32⟩
  | 113 => ⟨S10000x128, .f32⟩
  | 114 => ⟨S_, .f32⟩
  | 115 => ⟨S_, .f32⟩
  | 116 => ⟨S_, .f32⟩
  | 117 => ⟨S_, .f32⟩
  | 118 => ⟨S128, .f32⟩
  | 119 => ⟨S128, .f32⟩
  | 120 => ⟨S128, .f32⟩
  | 121 => ⟨S_, .f32⟩
  | 122 => ⟨S_, .i1⟩
  | 123 => ⟨S_, .f32⟩
  | 124 => ⟨S_, .f32⟩
  | 125 => ⟨S128, .f32⟩
  | 126 => ⟨S128, .f32⟩
  | 127 => ⟨S1x128, .f32⟩
  | _ => ⟨S10000x128, .f32⟩

abbrev hbmTy0_1 (i : Nat) : BufTy := match i % 128 with
  | 0 => ⟨S10000x128, .f32⟩
  | 1 => ⟨S10000x128, .f32⟩
  | 2 => ⟨S_, .f32⟩
  | 3 => ⟨S128, .f32⟩
  | 4 => ⟨S128, .f32⟩
  | 5 => ⟨S128, .f32⟩
  | 6 => ⟨S1x128, .f32⟩
  | 7 => ⟨S10000x128, .f32⟩
  | 8 => ⟨S10000x128, .f32⟩
  | 9 => ⟨S1x128, .f32⟩
  | 10 => ⟨S10000x128, .f32⟩
  | 11 => ⟨S10000x128, .f32⟩
  | 12 => ⟨S1x128, .f32⟩
  | 13 => ⟨S10000x128, .f32⟩
  | 14 => ⟨S10000x128, .f32⟩
  | 15 => ⟨S_, .f32⟩
  | 16 => ⟨S10000x128, .f32⟩
  | 17 => ⟨S10000x128, .f32⟩
  | 18 => ⟨S10000x128, .f32⟩
  | 19 => ⟨S_, .f32⟩
  | 20 => ⟨S10000, .f32⟩
  | 21 => ⟨S_, .i32⟩
  | 22 => ⟨S330000, .i32⟩
  | 23 => ⟨S330000, .i1⟩
  | 24 => ⟨S_, .i32⟩
  | 25 => ⟨S330000, .i32⟩
  | 26 => ⟨S330000, .i32⟩
  | 27 => ⟨S330000, .i32⟩
  | 28 => ⟨S330000x1, .i32⟩
  | 29 => ⟨S_, .f32⟩
  | 30 => ⟨S330000, .f32⟩
  | 31 => ⟨S10000, .f32⟩
  | 32 => ⟨S_, .f32⟩
  | 33 => ⟨S10000, .f32⟩
  | 34 => ⟨S10000, .i1⟩
  | 35 => ⟨S10000, .f32⟩
  | 36 => ⟨S_, .f32⟩
  | 37 => ⟨S10000, .f32⟩
  | 38 => ⟨S10000, .f32⟩
  | 39 => ⟨S_, .f32⟩
  | 40 => ⟨S_, .f32⟩
  | 41 => ⟨S10000, .f32⟩
  | 42 => ⟨S10000, .f32⟩
  | 43 => ⟨S_, .i32⟩
  | 44 => ⟨S330000, .i32⟩
  | 45 => ⟨S330000, .i1⟩
  | 46 => ⟨S_, .i32⟩
  | 47 => ⟨S330000, .i32⟩
  | 48 => ⟨S330000, .i32⟩
  | 49 => ⟨S330000, .i32⟩
  | 50 => ⟨S330000x1, .i32⟩
  | 51 => ⟨S330000, .f32⟩
  | 52 => ⟨S_, .i32⟩
  | 53 => ⟨S330000, .i32⟩
  | 54 => ⟨S330000, .i1⟩
  | 55 => ⟨S_, .i32⟩
  | 56 => ⟨S330000, .i32⟩
  | 57 => ⟨S330000, .i32⟩
  | 58 => ⟨S330000, .i32⟩
  | 59 => ⟨S330000x1, .i32⟩
  | 60 => ⟨S330000, .f32⟩
  | 61 => ⟨S330000, .f32⟩
  | 62 => ⟨S_, .i32⟩
  | 63 => ⟨S330000, .i32⟩
  | 64 => ⟨S330000, .i1⟩
  | 65 => ⟨S_, .i32⟩
  | 66 => ⟨S330000, .i32⟩
  | 67 => ⟨S330000, .i32⟩
  | 68 => ⟨S330000, .i32⟩
  | 69 => ⟨S330000x1, .i32⟩
  | 70 => ⟨S330000x128, .f32⟩
  | 71 => ⟨S330000x1, .f32⟩
  | 72 => ⟨S330000x128, .f32⟩
  | 73 => ⟨S330000x128, .f32⟩
  | 74 => ⟨S_, .f32⟩
  | 75 => ⟨S10000x128, .f32⟩
  | 76 => ⟨S_, .i32⟩
  | 77 => ⟨S330000, .i32⟩
  | 78 => ⟨S330000, .i1⟩
  | 79 => ⟨S_, .i32⟩
  | 80 => ⟨S330000, .i32⟩
  | 81 => ⟨S330000, .i32⟩
  | 82 => ⟨S330000, .i32⟩
  | 83 => ⟨S330000x1, .i32⟩
  | 84 => ⟨S10000x128, .f32⟩
  | 85 => ⟨S1x128, .f32⟩
  | 86 => ⟨S10000x128, .f32⟩
  | 87 => ⟨S10000x128, .f32⟩
  | 88 => ⟨S_, .f32⟩
  | 89 => ⟨S128, .f32⟩
  | 90 => ⟨S_, .f32⟩
  | 91 => ⟨S128, .f32⟩
  | 92 => ⟨S128, .f32⟩
  | 93 => ⟨S_, .i32⟩
  | 94 => ⟨S_, .f32⟩
  | 95 => ⟨S128, .f32⟩
  | 96 => ⟨S1x128, .f32⟩
  | 97 => ⟨S_, .f32⟩
  | 98 => ⟨S1x128, .f32⟩
  | 99 => ⟨S1x128, .f32⟩
  | 100 => ⟨S10000x128, .f32⟩
  | 101 => ⟨S10000x128, .f32⟩
  | 102 => ⟨S10000x128, .f32⟩
  | 103 => ⟨S_, .f32⟩
  | 104 => ⟨S_, .f32⟩
  | 105 => ⟨S_, .f32⟩
  | 106 => ⟨S_, .f32⟩
  | 107 => ⟨S128, .f32⟩
  | 108 => ⟨S128, .f32⟩
  | 109 => ⟨S128, .f32⟩
  | 110 => ⟨S_, .f32⟩
  | 111 => ⟨S_, .i1⟩
  | 112 => ⟨S_, .f32⟩
  | 113 => ⟨S_, .f32⟩
  | 114 => ⟨S128, .f32⟩
  | 115 => ⟨S128, .f32⟩
  | 116 => ⟨S1x128, .f32⟩
  | 117 => ⟨S10000x128, .f32⟩
  | 118 => ⟨S10000x128, .f32⟩
  | 119 => ⟨S_, .f32⟩
  | 120 => ⟨S128, .f32⟩
  | 121 => ⟨S128, .f32⟩
  | 122 => ⟨S128, .f32⟩
  | 123 => ⟨S1x128, .f32⟩
  | 124 => ⟨S10000x128, .f32⟩
  | 125 => ⟨S10000x128, .f32⟩
  | 126 => ⟨S1x128, .f32⟩
  | 127 => ⟨S10000x128, .f32⟩
  | _ => ⟨S10000x128, .f32⟩

abbrev hbmTy0_2 (i : Nat) : BufTy := match i % 128 with
  | 0 => ⟨S10000x128, .f32⟩
  | 1 => ⟨S1x128, .f32⟩
  | 2 => ⟨S10000x128, .f32⟩
  | 3 => ⟨S10000x128, .f32⟩
  | 4 => ⟨S_, .f32⟩
  | 5 => ⟨S10000x128, .f32⟩
  | 6 => ⟨S10000x128, .f32⟩
  | 7 => ⟨S10000x64, .f32⟩
  | 8 => ⟨S_, .f32⟩
  | 9 => ⟨S10000, .f32⟩
  | 10 => ⟨S_, .i32⟩
  | 11 => ⟨S330000, .i32⟩
  | 12 => ⟨S330000, .i1⟩
  | 13 => ⟨S_, .i32⟩
  | 14 => ⟨S330000, .i32⟩
  | 15 => ⟨S330000, .i32⟩
  | 16 => ⟨S330000, .i32⟩
  | 17 => ⟨S330000x1, .i32⟩
  | 18 => ⟨S_, .f32⟩
  | 19 => ⟨S330000, .f32⟩
  | 20 => ⟨S10000, .f32⟩
  | 21 => ⟨S_, .f32⟩
  | 22 => ⟨S10000, .f32⟩
  | 23 => ⟨S10000, .i1⟩
  | 24 => ⟨S10000, .f32⟩
  | 25 => ⟨S_, .f32⟩
  | 26 => ⟨S10000, .f32⟩
  | 27 => ⟨S10000, .f32⟩
  | 28 => ⟨S_, .f32⟩
  | 29 => ⟨S_, .f32⟩
  | 30 => ⟨S10000, .f32⟩
  | 31 => ⟨S10000, .f32⟩
  | 32 => ⟨S_, .i32⟩
  | 33 => ⟨S330000, .i32⟩
  | 34 => ⟨S330000, .i1⟩
  | 35 => ⟨S_, .i32⟩
  | 36 => ⟨S330000, .i32⟩
  | 37 => ⟨S330000, .i32⟩
  | 38 => ⟨S330000, .i32⟩
  | 39 => ⟨S330000x1, .i32⟩
  | 40 => ⟨S330000, .f32⟩
  | 41 => ⟨S_, .i32⟩
  | 42 => ⟨S330000, .i32⟩
  | 43 => ⟨S330000, .i1⟩
  | 44 => ⟨S_, .i32⟩
  | 45 => ⟨S330000, .i32⟩
  | 46 => ⟨S330000, .i32⟩
  | 47 => ⟨S330000, .i32⟩
  | 48 => ⟨S330000x1, .i32⟩
  | 49 => ⟨S330000, .f32⟩
  | 50 => ⟨S330000, .f32⟩
  | 51 => ⟨S_, .i32⟩
  | 52 => ⟨S330000, .i32⟩
  | 53 => ⟨S330000, .i1⟩
  | 54 => ⟨S_, .i32⟩
  | 55 => ⟨S330000, .i32⟩
  | 56 => ⟨S330000, .i32⟩
  | 57 => ⟨S330000, .i32⟩
  | 58 => ⟨S330000x1, .i32⟩
  | 59 => ⟨S330000x64, .f32⟩
  | 60 => ⟨S330000x1, .f32⟩
  | 61 => ⟨S330000x64, .f32⟩
  | 62 => ⟨S330000x64, .f32⟩
  | 63 => ⟨S_, .f32⟩
  | 64 => ⟨S10000x64, .f32⟩
  | 65 => ⟨S_, .i32⟩
  | 66 => ⟨S330000, .i32⟩
  | 67 => ⟨S330000, .i1⟩
  | 68 => ⟨S_, .i32⟩
  | 69 => ⟨S330000, .i32⟩
  | 70 => ⟨S330000, .i32⟩
  | 71 => ⟨S330000, .i32⟩
  | 72 => ⟨S330000x1, .i32⟩
  | 73 => ⟨S10000x64, .f32⟩
  | 74 => ⟨S1x64, .f32⟩
  | 75 => ⟨S10000x64, .f32⟩
  | 76 => ⟨S10000x64, .f32⟩
  | 77 => ⟨S_, .f32⟩
  | 78 => ⟨S64, .f32⟩
  | 79 => ⟨S_, .f32⟩
  | 80 => ⟨S64, .f32⟩
  | 81 => ⟨S64, .f32⟩
  | 82 => ⟨S_, .i32⟩
  | 83 => ⟨S_, .f32⟩
  | 84 => ⟨S64, .f32⟩
  | 85 => ⟨S1x64, .f32⟩
  | 86 => ⟨S_, .f32⟩
  | 87 => ⟨S1x64, .f32⟩
  | 88 => ⟨S1x64, .f32⟩
  | 89 => ⟨S10000x64, .f32⟩
  | 90 => ⟨S10000x64, .f32⟩
  | 91 => ⟨S10000x64, .f32⟩
  | 92 => ⟨S_, .f32⟩
  | 93 => ⟨S_, .f32⟩
  | 94 => ⟨S_, .f32⟩
  | 95 => ⟨S_, .f32⟩
  | 96 => ⟨S64, .f32⟩
  | 97 => ⟨S64, .f32⟩
  | 98 => ⟨S64, .f32⟩
  | 99 => ⟨S_, .f32⟩
  | 100 => ⟨S_, .i1⟩
  | 101 => ⟨S_, .f32⟩
  | 102 => ⟨S_, .f32⟩
  | 103 => ⟨S64, .f32⟩
  | 104 => ⟨S64, .f32⟩
  | 105 => ⟨S1x64, .f32⟩
  | 106 => ⟨S10000x64, .f32⟩
  | 107 => ⟨S10000x64, .f32⟩
  | 108 => ⟨S_, .f32⟩
  | 109 => ⟨S64, .f32⟩
  | 110 => ⟨S64, .f32⟩
  | 111 => ⟨S64, .f32⟩
  | 112 => ⟨S1x64, .f32⟩
  | 113 => ⟨S10000x64, .f32⟩
  | 114 => ⟨S10000x64, .f32⟩
  | 115 => ⟨S1x64, .f32⟩
  | 116 => ⟨S10000x64, .f32⟩
  | 117 => ⟨S10000x64, .f32⟩
  | 118 => ⟨S1x64, .f32⟩
  | 119 => ⟨S10000x64, .f32⟩
  | 120 => ⟨S10000x64, .f32⟩
  | 121 => ⟨S_, .f32⟩
  | 122 => ⟨S64, .f32⟩
  | 123 => ⟨S1x64, .f32⟩
  | 124 => ⟨S_, .f32⟩
  | 125 => ⟨S1x64, .f32⟩
  | 126 => ⟨S1x64, .f32⟩
  | 127 => ⟨S1x32, .f32⟩
  | _ => ⟨S10000x128, .f32⟩

abbrev hbmTy0_3 (i : Nat) : BufTy := match i % 128 with
  | 0 => ⟨S1x32, .f32⟩
  | 1 => ⟨S1x32, .f32⟩
  | 2 => ⟨S_, .f32⟩
  | 3 => ⟨S1x32, .f32⟩
  | 4 => ⟨S1x32, .f32⟩
  | 5 => ⟨S1x10, .f32⟩
  | 6 => ⟨S1x10, .f32⟩
  | 7 => ⟨S1x10, .f32⟩
  | 8 => ⟨S1x32, .f32⟩
  | 9 => ⟨S1x32, .f32⟩
  | 10 => ⟨S1x32, .f32⟩
  | 11 => ⟨S_, .f32⟩
  | 12 => ⟨S1x32, .f32⟩
  | 13 => ⟨S1x32, .f32⟩
  | 14 => ⟨S1x1, .f32⟩
  | 15 => ⟨S1x1, .f32⟩
  | 16 => ⟨S1x1, .f32⟩
  | 17 => ⟨S1x1, .f32⟩
  | 18 => ⟨S1x1, .f32⟩
  | 19 => ⟨S_, .f32⟩
  | 20 => ⟨S1x1, .f32⟩
  | 21 => ⟨S1x1, .f32⟩
  | 22 => ⟨S_, .f32⟩
  | 23 => ⟨S1x1, .f32⟩
  | 24 => ⟨S1x1, .f32⟩
  | _ => ⟨S10000x128, .f32⟩

abbrev hbmTy (i : Nat) : BufTy := match i / 128 with
  | 0 => hbmTy0_0 i
  | 1 => hbmTy0_1 i
  | 2 => hbmTy0_2 i
  | 3 => hbmTy0_3 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst : Ref sig .tc := ⟨.hbm, 30, rfl⟩
abbrev main_v8 : Ref sig .tc := ⟨.hbm, 31, rfl⟩
abbrev main_c : Ref sig .tc := ⟨.hbm, 32, rfl⟩
abbrev main_v9 : Ref sig .tc := ⟨.hbm, 33, rfl⟩
abbrev main_v10 : Ref sig .tc := ⟨.hbm, 34, rfl⟩
abbrev main_c_0 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_cst_1 : Ref sig .tc := ⟨.hbm, 40, rfl⟩
abbrev main_v15 : Ref sig .tc := ⟨.hbm, 41, rfl⟩
abbrev main_v16 : Ref sig .tc := ⟨.hbm, 42, rfl⟩
abbrev main_cst_2 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_cst_3 : Ref sig .tc := ⟨.hbm, 47, rfl⟩
abbrev main_v20 : Ref sig .tc := ⟨.hbm, 48, rfl⟩
abbrev main_v21 : Ref sig .tc := ⟨.hbm, 49, rfl⟩
abbrev main_cst_4 : Ref sig .tc := ⟨.hbm, 50, rfl⟩
abbrev main_call0_v0 : Ref sig .tc := ⟨.hbm, 51, rfl⟩
abbrev main_call0_v1 : Ref sig .tc := ⟨.hbm, 52, rfl⟩
abbrev main_v22 : Ref sig .tc := ⟨.hbm, 53, rfl⟩
abbrev main_c_5 : Ref sig .tc := ⟨.hbm, 54, rfl⟩
abbrev main_v23 : Ref sig .tc := ⟨.hbm, 55, rfl⟩
abbrev main_v24 : Ref sig .tc := ⟨.hbm, 56, rfl⟩
abbrev main_c_6 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_c_7 : Ref sig .tc := ⟨.hbm, 63, rfl⟩
abbrev main_v30 : Ref sig .tc := ⟨.hbm, 64, rfl⟩
abbrev main_v31 : Ref sig .tc := ⟨.hbm, 65, rfl⟩
abbrev main_c_8 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_c_9 : Ref sig .tc := ⟨.hbm, 73, rfl⟩
abbrev main_v38 : Ref sig .tc := ⟨.hbm, 74, rfl⟩
abbrev main_v39 : Ref sig .tc := ⟨.hbm, 75, rfl⟩
abbrev main_c_10 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_cst_11 : Ref sig .tc := ⟨.hbm, 85, rfl⟩
abbrev main_v48 : Ref sig .tc := ⟨.hbm, 86, rfl⟩
abbrev main_c_12 : Ref sig .tc := ⟨.hbm, 87, rfl⟩
abbrev main_v49 : Ref sig .tc := ⟨.hbm, 88, rfl⟩
abbrev main_v50 : Ref sig .tc := ⟨.hbm, 89, rfl⟩
abbrev main_c_13 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_cst_14 : Ref sig .tc := ⟨.hbm, 99, rfl⟩
abbrev main_v59 : Ref sig .tc := ⟨.hbm, 100, rfl⟩
abbrev main_cst_15 : Ref sig .tc := ⟨.hbm, 101, rfl⟩
abbrev main_v60 : Ref sig .tc := ⟨.hbm, 102, rfl⟩
abbrev main_v61 : Ref sig .tc := ⟨.hbm, 103, rfl⟩
abbrev main_c_16 : Ref sig .tc := ⟨.hbm, 104, rfl⟩
abbrev main_call1_cst : Ref sig .tc := ⟨.hbm, 105, rfl⟩
abbrev main_call1_v0 : Ref sig .tc := ⟨.hbm, 106, rfl⟩
abbrev main_call1_v1 : Ref sig .tc := ⟨.hbm, 107, rfl⟩
abbrev main_call1_cst_0 : Ref sig .tc := ⟨.hbm, 108, rfl⟩
abbrev main_call1_v2 : Ref sig .tc := ⟨.hbm, 109, rfl⟩
abbrev main_call1_v3 : Ref sig .tc := ⟨.hbm, 110, rfl⟩
abbrev main_call1_v4 : Ref sig .tc := ⟨.hbm, 111, rfl⟩
abbrev main_call1_v5 : Ref sig .tc := ⟨.hbm, 112, rfl⟩
abbrev main_call1_v6 : Ref sig .tc := ⟨.hbm, 113, rfl⟩
abbrev main_call1_v7 : Ref sig .tc := ⟨.hbm, 114, rfl⟩
abbrev main_call1_cst_1 : Ref sig .tc := ⟨.hbm, 115, rfl⟩
abbrev main_call1_v8 : Ref sig .tc := ⟨.hbm, 116, rfl⟩
abbrev main_call1_cst_2 : Ref sig .tc := ⟨.hbm, 117, rfl⟩
abbrev main_call1_v9 : Ref sig .tc := ⟨.hbm, 118, rfl⟩
abbrev main_call1_v10 : Ref sig .tc := ⟨.hbm, 119, rfl⟩
abbrev main_call1_v11 : Ref sig .tc := ⟨.hbm, 120, rfl⟩
abbrev main_call1_cst_3 : Ref sig .tc := ⟨.hbm, 121, rfl⟩
abbrev main_call1_v12 : Ref sig .tc := ⟨.hbm, 122, rfl⟩
abbrev main_call1_cst_4 : Ref sig .tc := ⟨.hbm, 123, rfl⟩
abbrev main_call1_call0_v0 : Ref sig .tc := ⟨.hbm, 124, rfl⟩
abbrev main_call1_call0_v1 : Ref sig .tc := ⟨.hbm, 125, rfl⟩
abbrev main_v62 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_cst_17 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_call2_cst : Ref sig .tc := ⟨.hbm, 143, rfl⟩
abbrev main_call2_v0 : Ref sig .tc := ⟨.hbm, 144, rfl⟩
abbrev main_v78 : Ref sig .tc := ⟨.hbm, 145, rfl⟩
abbrev main_v79 : Ref sig .tc := ⟨.hbm, 146, rfl⟩
abbrev main_cst_18 : Ref sig .tc := ⟨.hbm, 147, rfl⟩
abbrev main_v80 : Ref sig .tc := ⟨.hbm, 148, rfl⟩
abbrev main_c_19 : Ref sig .tc := ⟨.hbm, 149, rfl⟩
abbrev main_v81 : Ref sig .tc := ⟨.hbm, 150, rfl⟩
abbrev main_v82 : Ref sig .tc := ⟨.hbm, 151, rfl⟩
abbrev main_c_20 : Ref sig .tc := ⟨.hbm, 152, rfl⟩
abbrev main_v83 : Ref sig .tc := ⟨.hbm, 153, rfl⟩
abbrev main_v84 : Ref sig .tc := ⟨.hbm, 154, rfl⟩
abbrev main_v85 : Ref sig .tc := ⟨.hbm, 155, rfl⟩
abbrev main_v86 : Ref sig .tc := ⟨.hbm, 156, rfl⟩
abbrev main_cst_21 : Ref sig .tc := ⟨.hbm, 157, rfl⟩
abbrev main_v87 : Ref sig .tc := ⟨.hbm, 158, rfl⟩
abbrev main_v88 : Ref sig .tc := ⟨.hbm, 159, rfl⟩
abbrev main_cst_22 : Ref sig .tc := ⟨.hbm, 160, rfl⟩
abbrev main_v89 : Ref sig .tc := ⟨.hbm, 161, rfl⟩
abbrev main_v90 : Ref sig .tc := ⟨.hbm, 162, rfl⟩
abbrev main_v91 : Ref sig .tc := ⟨.hbm, 163, rfl⟩
abbrev main_cst_23 : Ref sig .tc := ⟨.hbm, 164, rfl⟩
abbrev main_v92 : Ref sig .tc := ⟨.hbm, 165, rfl⟩
abbrev main_v93 : Ref sig .tc := ⟨.hbm, 166, rfl⟩
abbrev main_cst_24 : Ref sig .tc := ⟨.hbm, 167, rfl⟩
abbrev main_call3_v0 : Ref sig .tc := ⟨.hbm, 168, rfl⟩
abbrev main_call3_v1 : Ref sig .tc := ⟨.hbm, 169, rfl⟩
abbrev main_v94 : Ref sig .tc := ⟨.hbm, 170, rfl⟩
abbrev main_c_25 : Ref sig .tc := ⟨.hbm, 171, rfl⟩
abbrev main_v95 : Ref sig .tc := ⟨.hbm, 172, rfl⟩
abbrev main_v96 : Ref sig .tc := ⟨.hbm, 173, rfl⟩
abbrev main_c_26 : Ref sig .tc := ⟨.hbm, 174, rfl⟩
abbrev main_v97 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_v101 : Ref sig .tc := ⟨.hbm, 179, rfl⟩
abbrev main_c_27 : Ref sig .tc := ⟨.hbm, 180, rfl⟩
abbrev main_v102 : Ref sig .tc := ⟨.hbm, 181, rfl⟩
abbrev main_v103 : Ref sig .tc := ⟨.hbm, 182, rfl⟩
abbrev main_c_28 : Ref sig .tc := ⟨.hbm, 183, rfl⟩
abbrev main_v104 : Ref sig .tc := ⟨.hbm, 184, rfl⟩
abbrev main_v105 : Ref sig .tc := ⟨.hbm, 185, rfl⟩
abbrev main_v106 : Ref sig .tc := ⟨.hbm, 186, rfl⟩
abbrev main_v107 : Ref sig .tc := ⟨.hbm, 187, rfl⟩
abbrev main_v108 : Ref sig .tc := ⟨.hbm, 188, rfl⟩
abbrev main_v109 : Ref sig .tc := ⟨.hbm, 189, rfl⟩
abbrev main_c_29 : Ref sig .tc := ⟨.hbm, 190, rfl⟩
abbrev main_v110 : Ref sig .tc := ⟨.hbm, 191, rfl⟩
abbrev main_v111 : Ref sig .tc := ⟨.hbm, 192, rfl⟩
abbrev main_c_30 : Ref sig .tc := ⟨.hbm, 193, rfl⟩
abbrev main_v112 : Ref sig .tc := ⟨.hbm, 194, rfl⟩
abbrev main_v113 : Ref sig .tc := ⟨.hbm, 195, rfl⟩
abbrev main_v114 : Ref sig .tc := ⟨.hbm, 196, rfl⟩
abbrev main_v115 : Ref sig .tc := ⟨.hbm, 197, rfl⟩
abbrev main_v116 : Ref sig .tc := ⟨.hbm, 198, rfl⟩
abbrev main_v117 : Ref sig .tc := ⟨.hbm, 199, rfl⟩
abbrev main_v118 : Ref sig .tc := ⟨.hbm, 200, rfl⟩
abbrev main_v119 : Ref sig .tc := ⟨.hbm, 201, rfl⟩
abbrev main_cst_31 : Ref sig .tc := ⟨.hbm, 202, rfl⟩
abbrev main_v120 : Ref sig .tc := ⟨.hbm, 203, rfl⟩
abbrev main_c_32 : Ref sig .tc := ⟨.hbm, 204, rfl⟩
abbrev main_v121 : Ref sig .tc := ⟨.hbm, 205, rfl⟩
abbrev main_v122 : Ref sig .tc := ⟨.hbm, 206, rfl⟩
abbrev main_c_33 : Ref sig .tc := ⟨.hbm, 207, rfl⟩
abbrev main_v123 : Ref sig .tc := ⟨.hbm, 208, rfl⟩
abbrev main_v124 : Ref sig .tc := ⟨.hbm, 209, rfl⟩
abbrev main_v125 : Ref sig .tc := ⟨.hbm, 210, rfl⟩
abbrev main_v126 : Ref sig .tc := ⟨.hbm, 211, rfl⟩
abbrev main_v127 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_cst_34 : Ref sig .tc := ⟨.hbm, 216, rfl⟩
abbrev main_v131 : Ref sig .tc := ⟨.hbm, 217, rfl⟩
abbrev main_cst_35 : Ref sig .tc := ⟨.hbm, 218, rfl⟩
abbrev main_v132 : Ref sig .tc := ⟨.hbm, 219, rfl⟩
abbrev main_v133 : Ref sig .tc := ⟨.hbm, 220, rfl⟩
abbrev main_c_36 : Ref sig .tc := ⟨.hbm, 221, rfl⟩
abbrev main_call4_cst : Ref sig .tc := ⟨.hbm, 222, rfl⟩
abbrev main_call4_v0 : Ref sig .tc := ⟨.hbm, 223, rfl⟩
abbrev main_call4_v1 : Ref sig .tc := ⟨.hbm, 224, rfl⟩
abbrev main_call4_cst_0 : Ref sig .tc := ⟨.hbm, 225, rfl⟩
abbrev main_call4_v2 : Ref sig .tc := ⟨.hbm, 226, rfl⟩
abbrev main_call4_v3 : Ref sig .tc := ⟨.hbm, 227, rfl⟩
abbrev main_call4_v4 : Ref sig .tc := ⟨.hbm, 228, rfl⟩
abbrev main_call4_v5 : Ref sig .tc := ⟨.hbm, 229, rfl⟩
abbrev main_call4_v6 : Ref sig .tc := ⟨.hbm, 230, rfl⟩
abbrev main_call4_v7 : Ref sig .tc := ⟨.hbm, 231, rfl⟩
abbrev main_call4_cst_1 : Ref sig .tc := ⟨.hbm, 232, rfl⟩
abbrev main_call4_v8 : Ref sig .tc := ⟨.hbm, 233, rfl⟩
abbrev main_call4_cst_2 : Ref sig .tc := ⟨.hbm, 234, rfl⟩
abbrev main_call4_v9 : Ref sig .tc := ⟨.hbm, 235, rfl⟩
abbrev main_call4_v10 : Ref sig .tc := ⟨.hbm, 236, rfl⟩
abbrev main_call4_v11 : Ref sig .tc := ⟨.hbm, 237, rfl⟩
abbrev main_call4_cst_3 : Ref sig .tc := ⟨.hbm, 238, rfl⟩
abbrev main_call4_v12 : Ref sig .tc := ⟨.hbm, 239, rfl⟩
abbrev main_call4_cst_4 : Ref sig .tc := ⟨.hbm, 240, rfl⟩
abbrev main_call4_call0_v0 : Ref sig .tc := ⟨.hbm, 241, rfl⟩
abbrev main_call4_call0_v1 : Ref sig .tc := ⟨.hbm, 242, rfl⟩
abbrev main_v134 : Ref sig .tc := ⟨.hbm, 243, rfl⟩
abbrev main_v135 : Ref sig .tc := ⟨.hbm, 244, rfl⟩
abbrev main_v136 : Ref sig .tc := ⟨.hbm, 245, rfl⟩
abbrev main_v137 : Ref sig .tc := ⟨.hbm, 246, rfl⟩
abbrev main_cst_37 : Ref sig .tc := ⟨.hbm, 247, rfl⟩
abbrev main_v138 : Ref sig .tc := ⟨.hbm, 248, rfl⟩
abbrev main_v139 : Ref sig .tc := ⟨.hbm, 249, rfl⟩
abbrev main_v140 : Ref sig .tc := ⟨.hbm, 250, rfl⟩
abbrev main_v141 : Ref sig .tc := ⟨.hbm, 251, rfl⟩
abbrev main_v142 : Ref sig .tc := ⟨.hbm, 252, rfl⟩
abbrev main_v143 : Ref sig .tc := ⟨.hbm, 253, rfl⟩
abbrev main_v144 : Ref sig .tc := ⟨.hbm, 254, rfl⟩
abbrev main_v145 : Ref sig .tc := ⟨.hbm, 255, rfl⟩
abbrev main_v146 : Ref sig .tc := ⟨.hbm, 256, rfl⟩
abbrev main_v147 : Ref sig .tc := ⟨.hbm, 257, rfl⟩
abbrev main_v148 : Ref sig .tc := ⟨.hbm, 258, rfl⟩
abbrev main_v149 : Ref sig .tc := ⟨.hbm, 259, rfl⟩
abbrev main_call5_cst : Ref sig .tc := ⟨.hbm, 260, rfl⟩
abbrev main_call5_v0 : Ref sig .tc := ⟨.hbm, 261, rfl⟩
abbrev main_v150 : Ref sig .tc := ⟨.hbm, 262, rfl⟩
abbrev main_v151 : Ref sig .tc := ⟨.hbm, 263, rfl⟩
abbrev main_cst_38 : Ref sig .tc := ⟨.hbm, 264, rfl⟩
abbrev main_v152 : Ref sig .tc := ⟨.hbm, 265, rfl⟩
abbrev main_c_39 : Ref sig .tc := ⟨.hbm, 266, rfl⟩
abbrev main_v153 : Ref sig .tc := ⟨.hbm, 267, rfl⟩
abbrev main_v154 : Ref sig .tc := ⟨.hbm, 268, rfl⟩
abbrev main_c_40 : Ref sig .tc := ⟨.hbm, 269, rfl⟩
abbrev main_v155 : Ref sig .tc := ⟨.hbm, 270, rfl⟩
abbrev main_v156 : Ref sig .tc := ⟨.hbm, 271, rfl⟩
abbrev main_v157 : Ref sig .tc := ⟨.hbm, 272, rfl⟩
abbrev main_v158 : Ref sig .tc := ⟨.hbm, 273, rfl⟩
abbrev main_cst_41 : Ref sig .tc := ⟨.hbm, 274, rfl⟩
abbrev main_v159 : Ref sig .tc := ⟨.hbm, 275, rfl⟩
abbrev main_v160 : Ref sig .tc := ⟨.hbm, 276, rfl⟩
abbrev main_cst_42 : Ref sig .tc := ⟨.hbm, 277, rfl⟩
abbrev main_v161 : Ref sig .tc := ⟨.hbm, 278, rfl⟩
abbrev main_v162 : Ref sig .tc := ⟨.hbm, 279, rfl⟩
abbrev main_v163 : Ref sig .tc := ⟨.hbm, 280, rfl⟩
abbrev main_cst_43 : Ref sig .tc := ⟨.hbm, 281, rfl⟩
abbrev main_v164 : Ref sig .tc := ⟨.hbm, 282, rfl⟩
abbrev main_v165 : Ref sig .tc := ⟨.hbm, 283, rfl⟩
abbrev main_cst_44 : Ref sig .tc := ⟨.hbm, 284, rfl⟩
abbrev main_call6_v0 : Ref sig .tc := ⟨.hbm, 285, rfl⟩
abbrev main_call6_v1 : Ref sig .tc := ⟨.hbm, 286, rfl⟩
abbrev main_v166 : Ref sig .tc := ⟨.hbm, 287, rfl⟩
abbrev main_c_45 : Ref sig .tc := ⟨.hbm, 288, rfl⟩
abbrev main_v167 : Ref sig .tc := ⟨.hbm, 289, rfl⟩
abbrev main_v168 : Ref sig .tc := ⟨.hbm, 290, rfl⟩
abbrev main_c_46 : Ref sig .tc := ⟨.hbm, 291, rfl⟩
abbrev main_v169 : Ref sig .tc := ⟨.hbm, 292, rfl⟩
abbrev main_v170 : Ref sig .tc := ⟨.hbm, 293, rfl⟩
abbrev main_v171 : Ref sig .tc := ⟨.hbm, 294, rfl⟩
abbrev main_v172 : Ref sig .tc := ⟨.hbm, 295, rfl⟩
abbrev main_v173 : Ref sig .tc := ⟨.hbm, 296, rfl⟩
abbrev main_c_47 : Ref sig .tc := ⟨.hbm, 297, rfl⟩
abbrev main_v174 : Ref sig .tc := ⟨.hbm, 298, rfl⟩
abbrev main_v175 : Ref sig .tc := ⟨.hbm, 299, rfl⟩
abbrev main_c_48 : Ref sig .tc := ⟨.hbm, 300, rfl⟩
abbrev main_v176 : Ref sig .tc := ⟨.hbm, 301, rfl⟩
abbrev main_v177 : Ref sig .tc := ⟨.hbm, 302, rfl⟩
abbrev main_v178 : Ref sig .tc := ⟨.hbm, 303, rfl⟩
abbrev main_v179 : Ref sig .tc := ⟨.hbm, 304, rfl⟩
abbrev main_v180 : Ref sig .tc := ⟨.hbm, 305, rfl⟩
abbrev main_v181 : Ref sig .tc := ⟨.hbm, 306, rfl⟩
abbrev main_c_49 : Ref sig .tc := ⟨.hbm, 307, rfl⟩
abbrev main_v182 : Ref sig .tc := ⟨.hbm, 308, rfl⟩
abbrev main_v183 : Ref sig .tc := ⟨.hbm, 309, rfl⟩
abbrev main_c_50 : Ref sig .tc := ⟨.hbm, 310, rfl⟩
abbrev main_v184 : Ref sig .tc := ⟨.hbm, 311, rfl⟩
abbrev main_v185 : Ref sig .tc := ⟨.hbm, 312, rfl⟩
abbrev main_v186 : Ref sig .tc := ⟨.hbm, 313, rfl⟩
abbrev main_v187 : Ref sig .tc := ⟨.hbm, 314, rfl⟩
abbrev main_v188 : Ref sig .tc := ⟨.hbm, 315, rfl⟩
abbrev main_v189 : Ref sig .tc := ⟨.hbm, 316, rfl⟩
abbrev main_v190 : Ref sig .tc := ⟨.hbm, 317, rfl⟩
abbrev main_v191 : Ref sig .tc := ⟨.hbm, 318, rfl⟩
abbrev main_cst_51 : Ref sig .tc := ⟨.hbm, 319, rfl⟩
abbrev main_v192 : Ref sig .tc := ⟨.hbm, 320, rfl⟩
abbrev main_c_52 : Ref sig .tc := ⟨.hbm, 321, rfl⟩
abbrev main_v193 : Ref sig .tc := ⟨.hbm, 322, rfl⟩
abbrev main_v194 : Ref sig .tc := ⟨.hbm, 323, rfl⟩
abbrev main_c_53 : Ref sig .tc := ⟨.hbm, 324, rfl⟩
abbrev main_v195 : Ref sig .tc := ⟨.hbm, 325, rfl⟩
abbrev main_v196 : Ref sig .tc := ⟨.hbm, 326, rfl⟩
abbrev main_v197 : Ref sig .tc := ⟨.hbm, 327, rfl⟩
abbrev main_v198 : Ref sig .tc := ⟨.hbm, 328, rfl⟩
abbrev main_v199 : Ref sig .tc := ⟨.hbm, 329, rfl⟩
abbrev main_v200 : Ref sig .tc := ⟨.hbm, 330, rfl⟩
abbrev main_v201 : Ref sig .tc := ⟨.hbm, 331, rfl⟩
abbrev main_v202 : Ref sig .tc := ⟨.hbm, 332, rfl⟩
abbrev main_cst_54 : Ref sig .tc := ⟨.hbm, 333, rfl⟩
abbrev main_v203 : Ref sig .tc := ⟨.hbm, 334, rfl⟩
abbrev main_cst_55 : Ref sig .tc := ⟨.hbm, 335, rfl⟩
abbrev main_v204 : Ref sig .tc := ⟨.hbm, 336, rfl⟩
abbrev main_v205 : Ref sig .tc := ⟨.hbm, 337, rfl⟩
abbrev main_c_56 : Ref sig .tc := ⟨.hbm, 338, rfl⟩
abbrev main_call7_cst : Ref sig .tc := ⟨.hbm, 339, rfl⟩
abbrev main_call7_v0 : Ref sig .tc := ⟨.hbm, 340, rfl⟩
abbrev main_call7_v1 : Ref sig .tc := ⟨.hbm, 341, rfl⟩
abbrev main_call7_cst_0 : Ref sig .tc := ⟨.hbm, 342, rfl⟩
abbrev main_call7_v2 : Ref sig .tc := ⟨.hbm, 343, rfl⟩
abbrev main_call7_v3 : Ref sig .tc := ⟨.hbm, 344, rfl⟩
abbrev main_call7_v4 : Ref sig .tc := ⟨.hbm, 345, rfl⟩
abbrev main_call7_v5 : Ref sig .tc := ⟨.hbm, 346, rfl⟩
abbrev main_call7_v6 : Ref sig .tc := ⟨.hbm, 347, rfl⟩
abbrev main_call7_v7 : Ref sig .tc := ⟨.hbm, 348, rfl⟩
abbrev main_call7_cst_1 : Ref sig .tc := ⟨.hbm, 349, rfl⟩
abbrev main_call7_v8 : Ref sig .tc := ⟨.hbm, 350, rfl⟩
abbrev main_call7_cst_2 : Ref sig .tc := ⟨.hbm, 351, rfl⟩
abbrev main_call7_v9 : Ref sig .tc := ⟨.hbm, 352, rfl⟩
abbrev main_call7_v10 : Ref sig .tc := ⟨.hbm, 353, rfl⟩
abbrev main_call7_v11 : Ref sig .tc := ⟨.hbm, 354, rfl⟩
abbrev main_call7_cst_3 : Ref sig .tc := ⟨.hbm, 355, rfl⟩
abbrev main_call7_v12 : Ref sig .tc := ⟨.hbm, 356, rfl⟩
abbrev main_call7_cst_4 : Ref sig .tc := ⟨.hbm, 357, rfl⟩
abbrev main_call7_call0_v0 : Ref sig .tc := ⟨.hbm, 358, rfl⟩
abbrev main_call7_call0_v1 : Ref sig .tc := ⟨.hbm, 359, rfl⟩
abbrev main_v206 : Ref sig .tc := ⟨.hbm, 360, rfl⟩
abbrev main_v207 : Ref sig .tc := ⟨.hbm, 361, rfl⟩
abbrev main_v208 : Ref sig .tc := ⟨.hbm, 362, rfl⟩
abbrev main_v209 : Ref sig .tc := ⟨.hbm, 363, rfl⟩
abbrev main_cst_57 : Ref sig .tc := ⟨.hbm, 364, rfl⟩
abbrev main_v210 : Ref sig .tc := ⟨.hbm, 365, rfl⟩
abbrev main_v211 : Ref sig .tc := ⟨.hbm, 366, rfl⟩
abbrev main_v212 : Ref sig .tc := ⟨.hbm, 367, rfl⟩
abbrev main_v213 : Ref sig .tc := ⟨.hbm, 368, rfl⟩
abbrev main_v214 : Ref sig .tc := ⟨.hbm, 369, rfl⟩
abbrev main_v215 : Ref sig .tc := ⟨.hbm, 370, rfl⟩
abbrev main_v216 : Ref sig .tc := ⟨.hbm, 371, rfl⟩
abbrev main_v217 : Ref sig .tc := ⟨.hbm, 372, rfl⟩
abbrev main_v218 : Ref sig .tc := ⟨.hbm, 373, rfl⟩
abbrev main_v219 : Ref sig .tc := ⟨.hbm, 374, rfl⟩
abbrev main_v220 : Ref sig .tc := ⟨.hbm, 375, rfl⟩
abbrev main_v221 : Ref sig .tc := ⟨.hbm, 376, rfl⟩
abbrev main_cst_58 : Ref sig .tc := ⟨.hbm, 377, rfl⟩
abbrev main_v222 : Ref sig .tc := ⟨.hbm, 378, rfl⟩
abbrev main_v223 : Ref sig .tc := ⟨.hbm, 379, rfl⟩
abbrev main_cst_59 : Ref sig .tc := ⟨.hbm, 380, rfl⟩
abbrev main_v224 : Ref sig .tc := ⟨.hbm, 381, rfl⟩
abbrev main_v225 : Ref sig .tc := ⟨.hbm, 382, rfl⟩
abbrev main_v226 : Ref sig .tc := ⟨.hbm, 383, rfl⟩
abbrev main_v227 : Ref sig .tc := ⟨.hbm, 384, rfl⟩
abbrev main_v228 : Ref sig .tc := ⟨.hbm, 385, rfl⟩
abbrev main_call8_cst : Ref sig .tc := ⟨.hbm, 386, rfl⟩
abbrev main_call8_v0 : Ref sig .tc := ⟨.hbm, 387, rfl⟩
abbrev main_v229 : Ref sig .tc := ⟨.hbm, 388, rfl⟩
abbrev main_v230 : Ref sig .tc := ⟨.hbm, 389, rfl⟩
abbrev main_v231 : Ref sig .tc := ⟨.hbm, 390, rfl⟩
abbrev main_v232 : Ref sig .tc := ⟨.hbm, 391, rfl⟩
abbrev main_v233 : Ref sig .tc := ⟨.hbm, 392, rfl⟩
abbrev main_v234 : Ref sig .tc := ⟨.hbm, 393, rfl⟩
abbrev main_v235 : Ref sig .tc := ⟨.hbm, 394, rfl⟩
abbrev main_call9_cst : Ref sig .tc := ⟨.hbm, 395, rfl⟩
abbrev main_call9_v0 : Ref sig .tc := ⟨.hbm, 396, rfl⟩
abbrev main_v236 : Ref sig .tc := ⟨.hbm, 397, rfl⟩
abbrev main_v237 : Ref sig .tc := ⟨.hbm, 398, rfl⟩
abbrev main_v238 : Ref sig .tc := ⟨.hbm, 399, rfl⟩
abbrev main_v239 : Ref sig .tc := ⟨.hbm, 400, rfl⟩
abbrev main_v240 : Ref sig .tc := ⟨.hbm, 401, rfl⟩
abbrev main_v241 : Ref sig .tc := ⟨.hbm, 402, rfl⟩
abbrev main_cst_60 : Ref sig .tc := ⟨.hbm, 403, rfl⟩
abbrev main_v242 : Ref sig .tc := ⟨.hbm, 404, rfl⟩
abbrev main_v243 : Ref sig .tc := ⟨.hbm, 405, rfl⟩
abbrev main_cst_61 : Ref sig .tc := ⟨.hbm, 406, rfl⟩
abbrev main_v244 : Ref sig .tc := ⟨.hbm, 407, rfl⟩
abbrev main_v245 : Ref sig .tc := ⟨.hbm, 408, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  concatenates_S320000_S10000_S330000_d0 : Shape.Concatenates [S320000, S10000] S330000 0
  slices_S2x320000_S1x320000_1_0 : S2x320000.Slices ![1, 0] S1x320000
  bcast_S_S10000 : S_.BroadcastsInDim S10000 (![] : Fin 0 → Fin S10000.rank)
  bcast_S_S330000 : S_.BroadcastsInDim S330000 (![] : Fin 0 → Fin S330000.rank)
  bcast_S330000_S330000x1_0 : S330000.BroadcastsInDim S330000x1 (![0] : Fin 1 → Fin S330000x1.rank)
  bcast_S330000x1_S330000x128_0_1 : S330000x1.BroadcastsInDim S330000x128 (![0, 1] : Fin 2 → Fin S330000x128.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  reducesTo_S10000x128_S128_d0 : S10000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S330000x1_S330000x64_0_1 : S330000x1.BroadcastsInDim S330000x64 (![0, 1] : Fin 2 → Fin S330000x64.rank)
  bcast_S_S10000x64 : S_.BroadcastsInDim S10000x64 (![] : Fin 0 → Fin S10000x64.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  reducesTo_S10000x64_S64_d0 : S10000x64.ReducesTo [0] S64
  bcast_S_S64 : S_.BroadcastsInDim S64 (![] : Fin 0 → Fin S64.rank)
  bcast_S_S1x64 : S_.BroadcastsInDim S1x64 (![] : Fin 0 → Fin S1x64.rank)
  bcast_S32_S1x32_1 : S32.BroadcastsInDim S1x32 (![1] : Fin 1 → Fin S1x32.rank)
  bcast_S_S1x32 : S_.BroadcastsInDim S1x32 (![] : Fin 0 → Fin S1x32.rank)
  bcast_S10_S1x10_1 : S10.BroadcastsInDim S1x10 (![1] : Fin 1 → Fin S1x10.rank)
  bcast_S1_S1x1_1 : S1.BroadcastsInDim S1x1 (![1] : Fin 1 → Fin S1x1.rank)
  bcast_S_S1x1 : S_.BroadcastsInDim S1x1 (![] : Fin 0 → Fin S1x1.rank)
  dot_S10000x128_S128x128_S10000x128_1_0_0_1_n_n_wf : DotDims.WF S10000x128 S128x128 S10000x128 [1] [0] [0] [1] [] []
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  gather_S10000x128_S330000x1_S330000x128_1_0_n_n_0_1_1128_wf : GatherDims.WF S10000x128 S330000x1 S330000x128 [1] [0] [] [0] [] 1 ![1, 128]
  scatter_S10000x128_S330000x1_S330000x128_1_0_0_1_wf : ScatterDims.WF S10000x128 S330000x1 S330000x128 [1] [0] [0] 1
  dot_S10000x128_S128x64_S10000x64_1_0_0_1_n_n_wf : DotDims.WF S10000x128 S128x64 S10000x64 [1] [0] [0] [1] [] []
  gather_S10000x64_S330000x1_S330000x64_1_0_n_n_0_1_164_wf : GatherDims.WF S10000x64 S330000x1 S330000x64 [1] [0] [] [0] [] 1 ![1, 64]
  scatter_S10000x64_S330000x1_S330000x64_1_0_0_1_wf : ScatterDims.WF S10000x64 S330000x1 S330000x64 [1] [0] [0] 1
  dot_S1x64_S64x32_S1x32_1_0_0_1_n_n_wf : DotDims.WF S1x64 S64x32 S1x32 [1] [0] [0] [1] [] []
  dot_S1x32_S32x10_S1x10_1_0_0_1_n_n_wf : DotDims.WF S1x32 S32x10 S1x10 [1] [0] [0] [1] [] []
  dot_S1x32_S32x1_S1x1_1_0_0_1_n_n_wf : DotDims.WF S1x32 S32x1 S1x1 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def gather_S10000x128_S330000x1_S330000x128_1_0_n_n_0_1_1128 : GatherDims S10000x128 S330000x1 S330000x128 where
  offsetDims := [1]
  collapsedSliceDims := [0]
  operandBatchingDims := []
  startIndicesBatchingDims := []
  startIndexMap := [0]
  indexVectorDim := 1
  sliceSizes := ![1, 128]
  wf := gather_S10000x128_S330000x1_S330000x128_1_0_n_n_0_1_1128_wf
def scatter_S10000x128_S330000x1_S330000x128_1_0_0_1 : ScatterDims S10000x128 S330000x1 S330000x128 where
  updateWindowDims := [1]
  insertedWindowDims := [0]
  scatterDimsToOperandDims := [0]
  indexVectorDim := 1
  wf := scatter_S10000x128_S330000x1_S330000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S10000x64_S330000x1_S330000x64_1_0_n_n_0_1_164 : GatherDims S10000x64 S330000x1 S330000x64 where
  offsetDims := [1]
  collapsedSliceDims := [0]
  operandBatchingDims := []
  startIndicesBatchingDims := []
  startIndexMap := [0]
  indexVectorDim := 1
  sliceSizes := ![1, 64]
  wf := gather_S10000x64_S330000x1_S330000x64_1_0_n_n_0_1_164_wf
def scatter_S10000x64_S330000x1_S330000x64_1_0_0_1 : ScatterDims S10000x64 S330000x1 S330000x64 where
  updateWindowDims := [1]
  insertedWindowDims := [0]
  scatterDimsToOperandDims := [0]
  indexVectorDim := 1
  wf := scatter_S10000x64_S330000x1_S330000x64_1_0_0_1_wf
def dot_S1x64_S64x32_S1x32_1_0_0_1_n_n : DotDims S1x64 S64x32 S1x32 where
  lhsContracting := [1]
  rhsContracting := [0]
  lhsNonContracting := [0]
  rhsNonContracting := [1]
  lhsBatch := []
  rhsBatch := []
  wf := dot_S1x64_S64x32_S1x32_1_0_0_1_n_n_wf
def dot_S1x32_S32x10_S1x10_1_0_0_1_n_n : DotDims S1x32 S32x10 S1x10 where
  lhsContracting := [1]
  rhsContracting := [0]
  lhsNonContracting := [0]
  rhsNonContracting := [1]
  lhsBatch := []
  rhsBatch := []
  wf := dot_S1x32_S32x10_S1x10_1_0_0_1_n_n_wf
def dot_S1x32_S32x1_S1x1_1_0_0_1_n_n : DotDims S1x32 S32x1 S1x1 where
  lhsContracting := [1]
  rhsContracting := [0]
  lhsNonContracting := [0]
  rhsNonContracting := [1]
  lhsBatch := []
  rhsBatch := []
  wf := dot_S1x32_S32x1_S1x1_1_0_0_1_n_n_wf

class Facts : Prop extends Facts₀ where

variable [Facts]
-- ==== Proof.KRun.lean ====
/-
  The kernel program's run with its two results read: @main is host stretches around three dense-product regions, and
  the launch theorem for such a program ends with every unscoped buffer at the last boundary's contents — the fold of the
  stretches and the regions' write-backs from the launch memory. Here that final state is read at the two result
  buffers (the class logits and the regression output) as well as at the arguments.
-/
import proofs.«113664_g84653805404492_cont_sun_m_127_42_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- Every weakly fair execution of the kernel's @main terminates without a fault; in the final state the two result
    buffers hold the last boundary's contents and the arguments are as launched. -/
theorem run_results : θ_run defs (onTc (τ := τ) (main (F := F))) ⟨m, fun _ => 0, ρ⟩ (fun r => ∀ c : Dev nD,
      r.2.mem ((c.tc : Thread nD τ).loc main_v232) = W25 m ρ c (Proc.devRef .tc main_v232)
      ∧ r.2.mem ((c.tc : Thread nD τ).loc main_v245) = W25 m ρ c (Proc.devRef .tc main_v245)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W25 m ρ c b)
    (hfin := fun c s' => by
      iintro ⟨⟨Hh, -⟩, HSI⟩
      unfold StableHlo.held
      imodintro
      iapply (pointsTo_read_all (Pipeline.ucRefs τ sig) (fun b => (((c : Thread nD τ)).1, b)) (W25 m ρ c) s')
      isplitl [Hh] <;> iassumption)
    (hQ := fun s h c =>
      ⟨h c _ (mem_uc main_v232 (by decide)),
       h c _ (mem_uc main_v245 (by decide)),
       (h c _ (mem_uc main_arg0 (by decide))).trans (W25_main_arg0 m ρ c),
       (h c _ (mem_uc main_arg1 (by decide))).trans (W25_main_arg1 m ρ c),
       (h c _ (mem_uc main_arg2 (by decide))).trans (W25_main_arg2 m ρ c),
       (h c _ (mem_uc main_arg3 (by decide))).trans (W25_main_arg3 m ρ c),
       (h c _ (mem_uc main_arg4 (by decide))).trans (W25_main_arg4 m ρ c),
       (h c _ (mem_uc main_arg5 (by decide))).trans (W25_main_arg5 m ρ c),
       (h c _ (mem_uc main_arg6 (by decide))).trans (W25_main_arg6 m ρ c),
       (h c _ (mem_uc main_arg7 (by decide))).trans (W25_main_arg7 m ρ c),
       (h c _ (mem_uc main_arg8 (by decide))).trans (W25_main_arg8 m ρ c),
       (h c _ (mem_uc main_arg9 (by decide))).trans (W25_main_arg9 m ρ c),
       (h c _ (mem_uc main_arg10 (by decide))).trans (W25_main_arg10 m ρ c),
       (h c _ (mem_uc main_arg11 (by decide))).trans (W25_main_arg11 m ρ c),
       (h c _ (mem_uc main_arg12 (by decide))).trans (W25_main_arg12 m ρ c),
       (h c _ (mem_uc main_arg13 (by decide))).trans (W25_main_arg13 m ρ c),
       (h c _ (mem_uc main_arg14 (by decide))).trans (W25_main_arg14 m ρ c),
       (h c _ (mem_uc main_arg15 (by decide))).trans (W25_main_arg15 m ρ c),
       (h c _ (mem_uc main_arg16 (by decide))).trans (W25_main_arg16 m ρ c),
       (h c _ (mem_uc main_arg17 (by decide))).trans (W25_main_arg17 m ρ c),
       (h c _ (mem_uc main_arg18 (by decide))).trans (W25_main_arg18 m ρ c),
       (h c _ (mem_uc main_arg19 (by decide))).trans (W25_main_arg19 m ρ c),
       (h c _ (mem_uc main_arg20 (by decide))).trans (W25_main_arg20 m ρ c),
       (h c _ (mem_uc main_arg21 (by decide))).trans (W25_main_arg21 m ρ c)⟩)

end Cert.KernelIdeal.Results

end
-- ==== Proof.LibRestate.lean ====
/-
  Writing back what is already there. A host operation that sets a buffer to a given value leaves the contents of
  all buffers unchanged when the value is the one the buffer already holds. A line of such operations in front of
  another line therefore does not change what the other line computes, which lets a computation from arbitrary
  contents be restated as a computation from contents whose chosen buffers hold named values.
-/
import Idealize.ShloMosaic.Lib.StableHlo.Run

noncomputable section

namespace Cert.LibRestate

open Idealize.ShloMosaic Idealize.ShloMosaic.StableHlo

variable {τ : Topo} {sig : RefSig} {Val : EltTy → Type}

/-- Setting a buffer to its own contents changes no buffer. -/
theorem nullary_self (y : Ref sig .tc) (W : Valuation τ sig Val) (hy) :
    (StableHlo.nullary y (W (Proc.devRef .tc y)) hy : HloOp τ sig Val).result W = W := by
  funext b
  by_cases h : b = Proc.devRef .tc y
  · subst h
    exact StableHlo.nullary_result y _ hy W
  · exact HloOp.result_of_not_mem _ _ (by rw [StableHlo.nullary_writes, Finset.mem_singleton]; exact h)

/-- The same, as the first operation of a line. -/
theorem after_nullary_self (y : Ref sig .tc) (W : Valuation τ sig Val) (hy) (ops : List (HloOp τ sig Val)) :
    after (StableHlo.nullary y (W (Proc.devRef .tc y)) hy :: ops) W = after ops W := by
  rw [after_cons, nullary_self]

/-- A line run from some contents is its first `n` operations run from them, then the rest run from what those leave. -/
theorem after_take_drop (n : Nat) (l : List (HloOp τ sig Val)) (V : Valuation τ sig Val) :
    after l V = after (l.drop n) (after (l.take n) V) := by
  induction n generalizing l V with
  | zero => rfl
  | succ n ih =>
    cases l with
    | nil => rfl
    | cons op l =>
      simp only [List.take_succ_cons, List.drop_succ_cons, after_cons]
      exact ih l _

end Cert.LibRestate

end
-- ==== Proof.KOps.lean ====
/-
  The kernel's host operations as one straight line, with one host contraction standing where each dense-product
  region stands, and the line cut into eight stages at narrow places (after each product, after each layer's bias, after the pooling). (That each region does leave what its
  contraction would is proved where the regions are read; here are only the lists.)
-/
import proofs.«113664_g84653805404492_cont_sun_m_127_42_alg».proof.Proof.Gen.KernelIdeal.Launch
import Idealize.ShloMosaic.Lib.Pipeline.Frame
import proofs.«113664_g84653805404492_cont_sun_m_127_42_alg».proof.Proof.LibRestate

set_option maxRecDepth 16384

noncomputable section

namespace Cert.KernelIdeal.Line

open Cert.KernelIdeal Cert.KernelIdeal.Gen Idealize.ShloMosaic Idealize.ShloMosaic.TcCoe Idealize.SL.Sem Idealize.ShloMosaic.StableHlo

variable {F : FTy → Type} [FloatOps F]

/-- The first layer's product x · W0 as one host contraction. -/
abbrev dense1 : HloOp τ sig (Elt F) :=
  StableHlo.binary main_arg0 main_arg2 main_v7 ((fun l r => Host.dotGeneral (DotDims.plain 10000 128 128) none l r) : (⟨S10000x128, .f32⟩ : BufTy).Contents (Elt F) → (⟨S128x128, .f32⟩ : BufTy).Contents (Elt F) → (⟨S10000x128, .f32⟩ : BufTy).Contents (Elt F))
/-- The second layer's product h · W1 as one host contraction. -/
abbrev dense2 : HloOp τ sig (Elt F) :=
  StableHlo.binary main_v78 main_arg4 main_v79 ((fun l r => Host.dotGeneral (DotDims.plain 10000 128 128) none l r) : (⟨S10000x128, .f32⟩ : BufTy).Contents (Elt F) → (⟨S128x128, .f32⟩ : BufTy).Contents (Elt F) → (⟨S10000x128, .f32⟩ : BufTy).Contents (Elt F))
/-- The third layer's product h · W2 as one host contraction. -/
abbrev dense3 : HloOp τ sig (Elt F) :=
  StableHlo.binary main_v150 main_arg6 main_v151 ((fun l r => Host.dotGeneral (DotDims.plain 10000 128 64) none l r) : (⟨S10000x128, .f32⟩ : BufTy).Contents (Elt F) → (⟨S128x64, .f32⟩ : BufTy).Contents (Elt F) → (⟨S10000x64, .f32⟩ : BufTy).Contents (Elt F))

/-- The host stretches between the first and the second product (the first layer's aggregation, bias, batch
    normalisation and rectifier). -/
def layer1 : List (HloOp τ sig (Elt F)) := hostOps1 ++ (hostOps1_1 ++ (hostOps1_2 ++ (hostOps1_3 ++ (hostOps1_4 ++ (hostOps1_5)))))
/-- The host stretches between the second and the third product. -/
def layer2 : List (HloOp τ sig (Elt F)) := hostOps2 ++ (hostOps2_1 ++ (hostOps2_2 ++ (hostOps2_3 ++ (hostOps2_4 ++ (hostOps2_5)))))
/-- The host stretches after the third product (the third layer's aggregation and normalisation, the pooling and the
    two heads). -/
def layer3 : List (HloOp τ sig (Elt F)) := hostOps3 ++ (hostOps3_1 ++ (hostOps3_2 ++ (hostOps3_3 ++ (hostOps3_4 ++ (hostOps3_5 ++ (hostOps3_6 ++ (hostOps3_7 ++ (hostOps3_8))))))))

/-- The whole line. -/
def line : List (HloOp τ sig (Elt F)) :=
  hostOps0 ++ ([dense1] ++ (layer1 ++ ([dense2] ++ (layer2 ++ ([dense3] ++ layer3)))))

/-- Stage A: the self-loop index columns and the first dense product, as a map of buffer contents. -/
def stA (V : Valuation τ sig (Elt F)) : Valuation τ sig (Elt F) :=
  after [dense1] (after hostOps0 V)
/-- Stage B1: the first layer's degree factors, aggregation and bias, as a map of buffer contents. -/
def stB1 (V : Valuation τ sig (Elt F)) : Valuation τ sig (Elt F) :=
  after (hostOps1_2.take 45) (after hostOps1_1 (after hostOps1 V))
/-- Stage B2: the first layer's batch normalisation and rectifier, and the second dense product, as a map of buffer contents. -/
def stB2 (V : Valuation τ sig (Elt F)) : Valuation τ sig (Elt F) :=
  after [dense2] (after hostOps1_5 (after hostOps1_4 (after hostOps1_3 (after (hostOps1_2.drop 45) V))))
/-- Stage C1: the second layer's degree factors, aggregation and bias, as a map of buffer contents. -/
def stC1 (V : Valuation τ sig (Elt F)) : Valuation τ sig (Elt F) :=
  after (hostOps2_2.take 45) (after hostOps2_1 (after hostOps2 V))
/-- Stage C2: the second layer's batch normalisation and rectifier, and the third dense product, as a map of buffer contents. -/
def stC2 (V : Valuation τ sig (Elt F)) : Valuation τ sig (Elt F) :=
  after [dense3] (after hostOps2_5 (after hostOps2_4 (after hostOps2_3 (after (hostOps2_2.drop 45) V))))
/-- Stage D1: the third layer's degree factors, aggregation and bias, as a map of buffer contents. -/
def stD1 (V : Valuation τ sig (Elt F)) : Valuation τ sig (Elt F) :=
  after (hostOps3_2.take 45) (after hostOps3_1 (after hostOps3 V))
/-- Stage D2: the third layer's batch normalisation and the mean over the nodes, as a map of buffer contents. -/
def stD2 (V : Valuation τ sig (Elt F)) : Valuation τ sig (Elt F) :=
  after (hostOps3_4.take 22) (after hostOps3_3 (after (hostOps3_2.drop 45) V))
/-- Stage D3: the two heads on the pooled row, as a map of buffer contents. -/
def stD3 (V : Valuation τ sig (Elt F)) : Valuation τ sig (Elt F) :=
  after hostOps3_8 (after hostOps3_7 (after hostOps3_6 (after hostOps3_5 (after (hostOps3_4.drop 22) V))))

/-- The line is its eight stages in order. -/
theorem line_stages (V : Valuation τ sig (Elt F)) : after line V = stD3 (stD2 (stD1 (stC2 (stC1 (stB2 (stB1 (stA V))))))) := by
  simp only [line, layer1, layer2, layer3, StableHlo.after_append]
  rw [Cert.LibRestate.after_take_drop 45 hostOps1_2, Cert.LibRestate.after_take_drop 45 hostOps2_2, Cert.LibRestate.after_take_drop 45 hostOps3_2, Cert.LibRestate.after_take_drop 22 hostOps3_4]
  rfl

end Cert.KernelIdeal.Line

end
-- ==== Proof.LibDenseRow.lean ====
/-
  A dense layer read on one row, on the extended reals.

  A layer y = x · W + b applied to a batch of rows acts on each row by itself:

      y(r, j) = (∑ₖ x(r, k) · W(k, j)) + b(j).

  This file states that once, for a rows × columns contraction of any extents, in the two spellings a program can
  give it: a matrix product accumulated into a zero array and then a bias row broadcast down the rows, and a host
  contraction followed by a bias vector broadcast to a row and then down the rows. Both are `affine` of the row, of
  the weights read by coordinates, and of the bias read by its column. Nothing here needs finiteness: only the
  definitions of the operations on the extended reals are opened, no law of arithmetic is used.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibDenseRow

open Idealize.ShloMosaic Idealize.ShloMosaic.ValueIdx

/-- Column `j` of `x · W + b` for one row `x`. -/
def affine {K N : Nat} (x : Fin K → EReal) (W : Fin K → Fin N → EReal) (b : Fin N → EReal) (j : Fin N) : EReal :=
  (∑ k, x k * W k j) + b j

/-- The contraction of a rows × columns product at entry `(p, q)` runs over the one shared axis: it is the sum over
    `k` of the left operand at `(p, k)` times the right operand at `(k, q)`. -/
theorem plain_contraction (M K N : Nat) (l : (⟨2, ![M, K]⟩ : Shape).Idx → EReal) (r : (⟨2, ![K, N]⟩ : Shape).Idx → EReal)
    (p : Fin M) (q : Fin N) :
    ∑ c : (DotDims.plain M K N).contr.Idx,
        l ((DotDims.plain M K N).lhsIdx (ix2 p q) c) * r ((DotDims.plain M K N).rhsIdx (ix2 p q) c)
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- A matrix product accumulated into the zero array, at entry `(p, q)`. -/
theorem matmul_zero_apply (M K N : Nat) {φ₁ φ₂ : FTy} (prec : Option ContractPrecision)
    (X : FVec Ideal ⟨2, ![M, K]⟩ φ₁) (W : FVec Ideal ⟨2, ![K, N]⟩ φ₂) (p : Fin M) (q : Fin N) :
    matmul (DotDims.plain M K N) prec X W (constant ⟨2, ![M, N]⟩ .f32 0x00000000#32) (ix2 p q)
      = ∑ k : Fin K, X (ix2 p k) * W (ix2 k q) :=
  (Ideal.matmul_constant_zero_apply (DotDims.plain M K N) prec X W (ix2 p q)).trans (plain_contraction M K N X W p q)

/-- A host contraction, at entry `(p, q)`. -/
theorem dotGeneral_apply (M K N : Nat) {φ₁ φ₂ : FTy} (prec : Option ContractPrecision)
    (X : FVec Ideal ⟨2, ![M, K]⟩ φ₁) (W : FVec Ideal ⟨2, ![K, N]⟩ φ₂) (p : Fin M) (q : Fin N) :
    Host.dotGeneral (DotDims.plain M K N) prec X W (ix2 p q) = ∑ k : Fin K, X (ix2 p k) * W (ix2 k q) :=
  (Ideal.dotGeneral_apply (DotDims.plain M K N) prec .single X W (ix2 p q)).trans (plain_contraction M K N X W p q)

/-- A bias row `[1, N]` broadcast down `M` rows reads its column. -/
theorem biasRow_apply {α : Type} (M N : Nat) (b : (⟨2, ![1, N]⟩ : Shape).Idx → α)
    (h : (⟨2, ![1, N]⟩ : Shape).Broadcasts ⟨2, ![M, N]⟩) (p : Fin M) (q : Fin N) :
    broadcastTo ⟨2, ![M, N]⟩ b h (ix2 p q) = b (ix2 0 q) :=
  broadcastTo_apply b h (ix2 p q) (ix2 0 q) (fun a => by
    match a with
    | ⟨0, _⟩ => rfl
    | ⟨1, _⟩ =>
      show q.val = if N = 1 then 0 else q.val
      split
      · have := q.isLt; omega
      · rfl)

/-- A bias vector `[N]` broadcast to a row `[1, N]` and then down `M` rows reads its entry. -/
theorem biasVec_apply {α : Type} (M N : Nat) (b : (⟨1, ![N]⟩ : Shape).Idx → α)
    (h₁ : (⟨1, ![N]⟩ : Shape).BroadcastsInDim ⟨2, ![1, N]⟩ ![1])
    (h₂ : (⟨2, ![1, N]⟩ : Shape).BroadcastsInDim ⟨2, ![M, N]⟩ ![0, 1]) (p : Fin M) (q : Fin N) :
    broadcastInDim ⟨2, ![M, N]⟩ ![0, 1] h₂ (broadcastInDim ⟨2, ![1, N]⟩ ![1] h₁ b) (ix2 p q) = b (ix1 q) := by
  rw [broadcastInDim_apply ![0, 1] h₂ _ (ix2 p q) (ix2 0 q) (fun a => by
    match a with
    | ⟨0, _⟩ => rfl
    | ⟨1, _⟩ =>
      show q.val = if N = 1 then 0 else q.val
      split
      · have := q.isLt; omega
      · rfl)]
  exact broadcastInDim_apply ![1] h₁ b (ix2 0 q) (ix1 q) (fun a => by
    match a with
    | ⟨0, _⟩ =>
      show q.val = if N = 1 then 0 else q.val
      split
      · have := q.isLt; omega
      · rfl)

end Cert.LibDenseRow

end
-- ==== Proof.Dense0.lean ====
/-
  Region 0 of the kernel's program is one dense product h · W computed 2000 rows at a time: grid point t stages rows
  2000·t … 2000·t + 1999 of h and the whole of W, multiplies them into a zero accumulator, and writes the 2000 × 128
  result back as block t of the output. Entry (r, j) of the output array is therefore ∑ₖ h(r, k) · W(k, j), the same
  plain sum the host's contraction of the whole arrays has at (r, j): after the region the output array IS that
  contraction. The five blocks tile the 10000 rows, so every entry is written.
-/
import proofs.«113664_g84653805404492_cont_sun_m_127_42_alg».proof.Proof.Gen.KernelIdeal.Frame
import proofs.«113664_g84653805404492_cont_sun_m_127_42_alg».proof.Proof.LibDenseRow
import Idealize.ShloMosaic.Lib.Pipeline.Value

set_option maxRecDepth 16384

noncomputable section

open scoped BigOperators

namespace Cert.KernelIdeal.Dense0

open Cert.KernelIdeal Cert.KernelIdeal.Gen Idealize.ShloMosaic Idealize.ShloMosaic.TcCoe Idealize.SL.Sem Idealize.ShloMosaic.ValueIdx
open Idealize.ShloMosaic.Pipeline (Dat)

/-- The whole-array contraction h · W. -/
abbrev whole (a : FVec Ideal S10000x128 .f32) (w : FVec Ideal S128x128 .f32) : FVec Ideal S10000x128 .f32 :=
  Host.dotGeneral (F := Ideal) (DotDims.plain 10000 128 128) none a w

theorem hz : (![0, 0] : Fin 2 → Nat) = fun _ => 0 := funext fun a => by fin_cases a <;> rfl

/-- The body's product at (p, q) of a block is the plain sum over the shared axis. -/
theorem pay_apply (x0 : Vec Ideal S2000x128 .f32) (x1 : Vec Ideal S128x128 .f32) (p : Fin 2000) (q : Fin 128) :
    k0_pay1 (F := Ideal) x0 x1 (ix2 p q) = ∑ k : Fin 128, x0 (ix2 p k) * x1 (ix2 k q) :=
  Cert.LibDenseRow.matmul_zero_apply 2000 128 128 none x0 x1 p q

/-- A block of rows of h against the whole of W gives the same rows of h · W: entry (p, q) of the block's product is
    entry (base + p, q) of the whole contraction. -/
theorem block_eq_whole (a : FVec Ideal S10000x128 .f32) (w : FVec Ideal S128x128 .f32)
    (x0 : Vec Ideal S2000x128 .f32) (x1 : Vec Ideal S128x128 .f32) (r : Fin 10000) (p : Fin 2000) (q : Fin 128)
    (h0 : ∀ k : Fin 128, x0 (ix2 p k) = a (ix2 r k)) (h1 : ∀ k : Fin 128, x1 (ix2 k q) = w (ix2 k q)) :
    k0_pay1 (F := Ideal) x0 x1 (ix2 p q) = whole a w (ix2 r q) := by
  rw [pay_apply]
  refine Eq.trans ?_ (Cert.LibDenseRow.dotGeneral_apply 10000 128 128 none a w r q).symm
  exact Finset.sum_congr rfl fun k _ => by rw [h0 k, h1 k]

/-- The printed index maps over the five grid points: the row block of h and of the output is the point's number,
    every other block index is 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 5 :=
  (by decide +kernel : ∀ t : Fin grid0.N, _)

variable (V : (c : Dev nD) → (b : Ref sig .tc) → Buf (Elt Ideal) ((c : Thread nD τ).loc b))

/-- What grid point t writes back is block t of the whole contraction of the arrays as the region finds them. -/
theorem flushed_eq (c : Dev nD) (t : Fin cfg0.N) :
    (dat0 V c).flushed 2 t = ((cfg0.win 2).blk t).view.read (Elt Ideal) (whole (V c main_arg0) (V c main_arg2)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x128) hz]
  obtain ⟨e0, e1, e2, e3, e4, e5, e6⟩ := idx_facts t
  funext j
  obtain ⟨p, q, rfl⟩ : ∃ (p : Fin 2000) (q : Fin 128), j = ix2 p q := ⟨j 0, j 1, eq_ix2 j⟩
  have hr : t.val * 2000 + p.val < 10000 := by have := p.isLt; omega
  show k0_pay1 (F := Ideal) (iblk0 V c 0 t) (iblk0 V c 1 t) (ix2 p q) = whole (V c main_arg0) (V c main_arg2) (((cfg0.win 2).blk t).view.emb (ix2 p q))
  have hemb : ((cfg0.win 2).blk t).view.emb (ix2 p q) = ix2 (⟨t.val * 2000 + p.val, hr⟩ : Fin 10000) q := by
    funext a; apply Fin.ext
    match a with
    | ⟨0, _⟩ => show win0_2.index t (0 : Fin 2) * 2000 + 1 * p.val = t.val * 2000 + p.val; omega
    | ⟨1, _⟩ => show win0_2.index t (1 : Fin 2) * 128 + 1 * q.val = q.val; omega
  rw [hemb]
  refine block_eq_whole (V c main_arg0) (V c main_arg2) _ _ ⟨t.val * 2000 + p.val, hr⟩ p q (fun k => ?_) (fun k => ?_)
  · show V c main_arg0 (((cfg0.win 0).blk t).view.emb (ix2 p k)) = V c main_arg0 (ix2 (⟨t.val * 2000 + p.val, hr⟩ : Fin 10000) k)
    refine congrArg _ ?_
    funext a; apply Fin.ext
    match a with
    | ⟨0, _⟩ => show win0_0.index t (0 : Fin 2) * 2000 + 1 * p.val = t.val * 2000 + p.val; omega
    | ⟨1, _⟩ => show win0_0.index t (1 : Fin 2) * 128 + 1 * k.val = k.val; omega
  · show V c main_arg2 (((cfg0.win 1).blk t).view.emb (ix2 k q)) = V c main_arg2 (ix2 k q)
    refine congrArg _ ?_
    funext a; apply Fin.ext
    match a with
    | ⟨0, _⟩ => show win0_1.index t (0 : Fin 2) * 128 + 1 * k.val = k.val; omega
    | ⟨1, _⟩ => show win0_1.index t (1 : Fin 2) * 128 + 1 * q.val = q.val; omega

/-- An index of the output array lies in point t's block iff each coordinate is in the block's range on its axis. -/
theorem mem_blk (t : Fin cfg0.N) (i : S10000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v7).slice (win0_2.rect t)).set ↔ _
  rw [View.set_slice_whole, Rect.mem_set_unit]
  exact Iff.rfl

/-- Row r of the output is written by grid point r / 2000. -/
theorem cover (i : S10000x128.Idx) : ∃ t : Fin cfg0.N, (cfg0.win 2).flush t = true ∧ i ∈ ((cfg0.win 2).blk t).view.set := by
  have hi0 : (i 0).val < 10000 := (i 0).isLt
  have hi1 : (i 1).val < 128 := (i 1).isLt
  have hN : cfg0.N = 5 := N_0
  refine ⟨⟨(i 0).val / 2000, by rw [hN]; omega⟩, flush0_2 _, ?_⟩
  rw [mem_blk]
  obtain ⟨e0, e1, e2, e3, e4, e5, e6⟩ := idx_facts ⟨(i 0).val / 2000, by rw [hN]; omega⟩
  intro a
  match a with
  | ⟨0, _⟩ => show win0_2.index _ (0 : Fin 2) * 2000 ≤ (i 0).val ∧ (i 0).val < win0_2.index _ (0 : Fin 2) * 2000 + 2000; simp only [] at e4; omega
  | ⟨1, _⟩ => show win0_2.index _ (1 : Fin 2) * 128 ≤ (i 1).val ∧ (i 1).val < win0_2.index _ (1 : Fin 2) * 128 + 128; omega

/-- After the region the output array is the whole contraction of the two arrays the region was entered with. -/
theorem arr_eq (c : Dev nD) :
    (dat0 V c).arrAt 2 cfg0.N = whole (V c main_arg0) (V c main_arg2) :=
  (dat0 V c).arrAt_eq_of_cover 2 (whole (V c main_arg0) (V c main_arg2)) (fun t _ => flushed_eq V c t) cover

end Cert.KernelIdeal.Dense0

end
-- ==== Proof.Dense1.lean ====
/-
  Region 1 of the kernel's program is one dense product h · W computed 2000 rows at a time: grid point t stages rows
  2000·t … 2000·t + 1999 of h and the whole of W, multiplies them (the block of h through an identity reshape) into a zero accumulator, and writes the 2000 × 128
  result back as block t of the output. Entry (r, j) of the output array is therefore ∑ₖ h(r, k) · W(k, j), the same
  plain sum the host's contraction of the whole arrays has at (r, j): after the region the output array IS that
  contraction. The five blocks tile the 10000 rows, so every entry is written.
-/
import proofs.«113664_g84653805404492_cont_sun_m_127_42_alg».proof.Proof.Gen.KernelIdeal.Frame
import proofs.«113664_g84653805404492_cont_sun_m_127_42_alg».proof.Proof.LibDenseRow
import Idealize.ShloMosaic.Lib.Pipeline.Value

set_option maxRecDepth 16384

noncomputable section

open scoped BigOperators

namespace Cert.KernelIdeal.Dense1

open Cert.KernelIdeal Cert.KernelIdeal.Gen Idealize.ShloMosaic Idealize.ShloMosaic.TcCoe Idealize.SL.Sem Idealize.ShloMosaic.ValueIdx
open Idealize.ShloMosaic.Pipeline (Dat)

/-- The whole-array contraction h · W. -/
abbrev whole (a : FVec Ideal S10000x128 .f32) (w : FVec Ideal S128x128 .f32) : FVec Ideal S10000x128 .f32 :=
  Host.dotGeneral (F := Ideal) (DotDims.plain 10000 128 128) none a w

theorem hz : (![0, 0] : Fin 2 → Nat) = fun _ => 0 := funext fun a => by fin_cases a <;> rfl

/-- The body's product at (p, q) of a block is the plain sum over the shared axis. -/
theorem pay_apply (x0 : Vec Ideal S2000x128 .f32) (x1 : Vec Ideal S128x128 .f32) (p : Fin 2000) (q : Fin 128) :
    k1_pay1 (F := Ideal) x0 x1 (ix2 p q) = ∑ k : Fin 128, x0 (ix2 p k) * x1 (ix2 k q) :=
  (Cert.LibDenseRow.matmul_zero_apply 2000 128 128 none (shapeCast S2000x128 x0 shapeCasts_S2000x128_S2000x128) x1 p q).trans
    (by rw [shapeCast_self])

/-- A block of rows of h against the whole of W gives the same rows of h · W: entry (p, q) of the block's product is
    entry (base + p, q) of the whole contraction. -/
theorem block_eq_whole (a : FVec Ideal S10000x128 .f32) (w : FVec Ideal S128x128 .f32)
    (x0 : Vec Ideal S2000x128 .f32) (x1 : Vec Ideal S128x128 .f32) (r : Fin 10000) (p : Fin 2000) (q : Fin 128)
    (h0 : ∀ k : Fin 128, x0 (ix2 p k) = a (ix2 r k)) (h1 : ∀ k : Fin 128, x1 (ix2 k q) = w (ix2 k q)) :
    k1_pay1 (F := Ideal) x0 x1 (ix2 p q) = whole a w (ix2 r q) := by
  rw [pay_apply]
  refine Eq.trans ?_ (Cert.LibDenseRow.dotGeneral_apply 10000 128 128 none a w r q).symm
  exact Finset.sum_congr rfl fun k _ => by rw [h0 k, h1 k]

/-- The printed index maps over the five grid points: the row block of h and of the output is the point's number,
    every other block index is 0. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 ∧ t.val < 5 :=
  (by decide +kernel : ∀ t : Fin grid1.N, _)

variable (V : (c : Dev nD) → (b : Ref sig .tc) → Buf (Elt Ideal) ((c : Thread nD τ).loc b))

/-- What grid point t writes back is block t of the whole contraction of the arrays as the region finds them. -/
theorem flushed_eq (c : Dev nD) (t : Fin cfg1.N) :
    (dat1 V c).flushed 2 t = ((cfg1.win 2).blk t).view.read (Elt Ideal) (whole (V c main_v78) (V c main_arg4)) := by
  show (cfg1.win 2).cut (grid1.coords t) ((dat1 V c).after 2 t) = _
  rw [after1_2]
  unfold out1_2
  rw [View.canon_unit_zero hz]
  simp only [View.ld_unit_zero (S := S2000x128) hz, View.ld_unit_zero (S := S128x128) hz]
  obtain ⟨e0, e1, e2, e3, e4, e5, e6⟩ := idx_facts t
  funext j
  obtain ⟨p, q, rfl⟩ : ∃ (p : Fin 2000) (q : Fin 128), j = ix2 p q := ⟨j 0, j 1, eq_ix2 j⟩
  have hr : t.val * 2000 + p.val < 10000 := by have := p.isLt; omega
  show k1_pay1 (F := Ideal) (iblk1 V c 0 t) (iblk1 V c 1 t) (ix2 p q) = whole (V c main_v78) (V c main_arg4) (((cfg1.win 2).blk t).view.emb (ix2 p q))
  have hemb : ((cfg1.win 2).blk t).view.emb (ix2 p q) = ix2 (⟨t.val * 2000 + p.val, hr⟩ : Fin 10000) q := by
    funext a; apply Fin.ext
    match a with
    | ⟨0, _⟩ => show win1_2.index t (0 : Fin 2) * 2000 + 1 * p.val = t.val * 2000 + p.val; omega
    | ⟨1, _⟩ => show win1_2.index t (1 : Fin 2) * 128 + 1 * q.val = q.val; omega
  rw [hemb]
  refine block_eq_whole (V c main_v78) (V c main_arg4) _ _ ⟨t.val * 2000 + p.val, hr⟩ p q (fun k => ?_) (fun k => ?_)
  · show V c main_v78 (((cfg1.win 0).blk t).view.emb (ix2 p k)) = V c main_v78 (ix2 (⟨t.val * 2000 + p.val, hr⟩ : Fin 10000) k)
    refine congrArg _ ?_
    funext a; apply Fin.ext
    match a with
    | ⟨0, _⟩ => show win1_0.index t (0 : Fin 2) * 2000 + 1 * p.val = t.val * 2000 + p.val; omega
    | ⟨1, _⟩ => show win1_0.index t (1 : Fin 2) * 128 + 1 * k.val = k.val; omega
  · show V c main_arg4 (((cfg1.win 1).blk t).view.emb (ix2 k q)) = V c main_arg4 (ix2 k q)
    refine congrArg _ ?_
    funext a; apply Fin.ext
    match a with
    | ⟨0, _⟩ => show win1_1.index t (0 : Fin 2) * 128 + 1 * k.val = k.val; omega
    | ⟨1, _⟩ => show win1_1.index t (1 : Fin 2) * 128 + 1 * q.val = q.val; omega

/-- An index of the output array lies in point t's block iff each coordinate is in the block's range on its axis. -/
theorem mem_blk (t : Fin cfg1.N) (i : S10000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v79).slice (win1_2.rect t)).set ↔ _
  rw [View.set_slice_whole, Rect.mem_set_unit]
  exact Iff.rfl

/-- Row r of the output is written by grid point r / 2000. -/
theorem cover (i : S10000x128.Idx) : ∃ t : Fin cfg1.N, (cfg1.win 2).flush t = true ∧ i ∈ ((cfg1.win 2).blk t).view.set := by
  have hi0 : (i 0).val < 10000 := (i 0).isLt
  have hi1 : (i 1).val < 128 := (i 1).isLt
  have hN : cfg1.N = 5 := N_1
  refine ⟨⟨(i 0).val / 2000, by rw [hN]; omega⟩, flush1_2 _, ?_⟩
  rw [mem_blk]
  obtain ⟨e0, e1, e2, e3, e4, e5, e6⟩ := idx_facts ⟨(i 0).val / 2000, by rw [hN]; omega⟩
  intro a
  match a with
  | ⟨0, _⟩ => show win1_2.index _ (0 : Fin 2) * 2000 ≤ (i 0).val ∧ (i 0).val < win1_2.index _ (0 : Fin 2) * 2000 + 2000; simp only [] at e4; omega
  | ⟨1, _⟩ => show win1_2.index _ (1 : Fin 2) * 128 ≤ (i 1).val ∧ (i 1).val < win1_2.index _ (1 : Fin 2) * 128 + 128; omega

/-- After the region the output array is the whole contraction of the two arrays the region was entered with. -/
theorem arr_eq (c : Dev nD) :
    (dat1 V c).arrAt 2 cfg1.N = whole (V c main_v78) (V c main_arg4) :=
  (dat1 V c).arrAt_eq_of_cover 2 (whole (V c main_v78) (V c main_arg4)) (fun t _ => flushed_eq V c t) cover

end Cert.KernelIdeal.Dense1

end
-- ==== Proof.Dense2.lean ====
/-
  Region 2 of the kernel's program is one dense product h · W computed 2000 rows at a time: grid point t stages rows
  2000·t … 2000·t + 1999 of h and the whole of W, multiplies them (the block of h through an identity reshape) into a zero accumulator, and writes the 2000 × 64
  result back as block t of the output. Entry (r, j) of the output array is therefore ∑ₖ h(r, k) · W(k, j), the same
  plain sum the host's contraction of the whole arrays has at (r, j): after the region the output array IS that
  contraction. The five blocks tile the 10000 rows, so every entry is written.
-/
import proofs.«113664_g84653805404492_cont_sun_m_127_42_alg».proof.Proof.Gen.KernelIdeal.Frame
import proofs.«113664_g84653805404492_cont_sun_m_127_42_alg».proof.Proof.LibDenseRow
import Idealize.ShloMosaic.Lib.Pipeline.Value

set_option maxRecDepth 16384

noncomputable section

open scoped BigOperators

namespace Cert.KernelIdeal.Dense2

open Cert.KernelIdeal Cert.KernelIdeal.Gen Idealize.ShloMosaic Idealize.ShloMosaic.TcCoe Idealize.SL.Sem Idealize.ShloMosaic.ValueIdx
open Idealize.ShloMosaic.Pipeline (Dat)

/-- The whole-array contraction h · W. -/
abbrev whole (a : FVec Ideal S10000x128 .f32) (w : FVec Ideal S128x64 .f32) : FVec Ideal S10000x64 .f32 :=
  Host.dotGeneral (F := Ideal) (DotDims.plain 10000 128 64) none a w

theorem hz : (![0, 0] : Fin 2 → Nat) = fun _ => 0 := funext fun a => by fin_cases a <;> rfl

/-- The body's product at (p, q) of a block is the plain sum over the shared axis. -/
theorem pay_apply (x0 : Vec Ideal S2000x128 .f32) (x1 : Vec Ideal S128x64 .f32) (p : Fin 2000) (q : Fin 64) :
    k2_pay1 (F := Ideal) x0 x1 (ix2 p q) = ∑ k : Fin 128, x0 (ix2 p k) * x1 (ix2 k q) :=
  (Cert.LibDenseRow.matmul_zero_apply 2000 128 64 none (shapeCast S2000x128 x0 shapeCasts_S2000x128_S2000x128) x1 p q).trans
    (by rw [shapeCast_self])

/-- A block of rows of h against the whole of W gives the same rows of h · W: entry (p, q) of the block's product is
    entry (base + p, q) of the whole contraction. -/
theorem block_eq_whole (a : FVec Ideal S10000x128 .f32) (w : FVec Ideal S128x64 .f32)
    (x0 : Vec Ideal S2000x128 .f32) (x1 : Vec Ideal S128x64 .f32) (r : Fin 10000) (p : Fin 2000) (q : Fin 64)
    (h0 : ∀ k : Fin 128, x0 (ix2 p k) = a (ix2 r k)) (h1 : ∀ k : Fin 128, x1 (ix2 k q) = w (ix2 k q)) :
    k2_pay1 (F := Ideal) x0 x1 (ix2 p q) = whole a w (ix2 r q) := by
  rw [pay_apply]
  refine Eq.trans ?_ (Cert.LibDenseRow.dotGeneral_apply 10000 128 64 none a w r q).symm
  exact Finset.sum_congr rfl fun k _ => by rw [h0 k, h1 k]

/-- The printed index maps over the five grid points: the row block of h and of the output is the point's number,
    every other block index is 0. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 ∧ t.val < 5 :=
  (by decide +kernel : ∀ t : Fin grid2.N, _)

variable (V : (c : Dev nD) → (b : Ref sig .tc) → Buf (Elt Ideal) ((c : Thread nD τ).loc b))

/-- What grid point t writes back is block t of the whole contraction of the arrays as the region finds them. -/
theorem flushed_eq (c : Dev nD) (t : Fin cfg2.N) :
    (dat2 V c).flushed 2 t = ((cfg2.win 2).blk t).view.read (Elt Ideal) (whole (V c main_v150) (V c main_arg6)) := by
  show (cfg2.win 2).cut (grid2.coords t) ((dat2 V c).after 2 t) = _
  rw [after2_2]
  unfold out2_2
  rw [View.canon_unit_zero hz]
  simp only [View.ld_unit_zero (S := S2000x128) hz, View.ld_unit_zero (S := S128x64) hz]
  obtain ⟨e0, e1, e2, e3, e4, e5, e6⟩ := idx_facts t
  funext j
  obtain ⟨p, q, rfl⟩ : ∃ (p : Fin 2000) (q : Fin 64), j = ix2 p q := ⟨j 0, j 1, eq_ix2 j⟩
  have hr : t.val * 2000 + p.val < 10000 := by have := p.isLt; omega
  show k2_pay1 (F := Ideal) (iblk2 V c 0 t) (iblk2 V c 1 t) (ix2 p q) = whole (V c main_v150) (V c main_arg6) (((cfg2.win 2).blk t).view.emb (ix2 p q))
  have hemb : ((cfg2.win 2).blk t).view.emb (ix2 p q) = ix2 (⟨t.val * 2000 + p.val, hr⟩ : Fin 10000) q := by
    funext a; apply Fin.ext
    match a with
    | ⟨0, _⟩ => show win2_2.index t (0 : Fin 2) * 2000 + 1 * p.val = t.val * 2000 + p.val; omega
    | ⟨1, _⟩ => show win2_2.index t (1 : Fin 2) * 64 + 1 * q.val = q.val; omega
  rw [hemb]
  refine block_eq_whole (V c main_v150) (V c main_arg6) _ _ ⟨t.val * 2000 + p.val, hr⟩ p q (fun k => ?_) (fun k => ?_)
  · show V c main_v150 (((cfg2.win 0).blk t).view.emb (ix2 p k)) = V c main_v150 (ix2 (⟨t.val * 2000 + p.val, hr⟩ : Fin 10000) k)
    refine congrArg _ ?_
    funext a; apply Fin.ext
    match a with
    | ⟨0, _⟩ => show win2_0.index t (0 : Fin 2) * 2000 + 1 * p.val = t.val * 2000 + p.val; omega
    | ⟨1, _⟩ => show win2_0.index t (1 : Fin 2) * 128 + 1 * k.val = k.val; omega
  · show V c main_arg6 (((cfg2.win 1).blk t).view.emb (ix2 k q)) = V c main_arg6 (ix2 k q)
    refine congrArg _ ?_
    funext a; apply Fin.ext
    match a with
    | ⟨0, _⟩ => show win2_1.index t (0 : Fin 2) * 128 + 1 * k.val = k.val; omega
    | ⟨1, _⟩ => show win2_1.index t (1 : Fin 2) * 64 + 1 * q.val = q.val; omega

/-- An index of the output array lies in point t's block iff each coordinate is in the block's range on its axis. -/
theorem mem_blk (t : Fin cfg2.N) (i : S10000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v151).slice (win2_2.rect t)).set ↔ _
  rw [View.set_slice_whole, Rect.mem_set_unit]
  exact Iff.rfl

/-- Row r of the output is written by grid point r / 2000. -/
theorem cover (i : S10000x64.Idx) : ∃ t : Fin cfg2.N, (cfg2.win 2).flush t = true ∧ i ∈ ((cfg2.win 2).blk t).view.set := by
  have hi0 : (i 0).val < 10000 := (i 0).isLt
  have hi1 : (i 1).val < 64 := (i 1).isLt
  have hN : cfg2.N = 5 := N_2
  refine ⟨⟨(i 0).val / 2000, by rw [hN]; omega⟩, flush2_2 _, ?_⟩
  rw [mem_blk]
  obtain ⟨e0, e1, e2, e3, e4, e5, e6⟩ := idx_facts ⟨(i 0).val / 2000, by rw [hN]; omega⟩
  intro a
  match a with
  | ⟨0, _⟩ => show win2_2.index _ (0 : Fin 2) * 2000 ≤ (i 0).val ∧ (i 0).val < win2_2.index _ (0 : Fin 2) * 2000 + 2000; simp only [] at e4; omega
  | ⟨1, _⟩ => show win2_2.index _ (1 : Fin 2) * 64 ≤ (i 1).val ∧ (i 1).val < win2_2.index _ (1 : Fin 2) * 64 + 64; omega

/-- After the region the output array is the whole contraction of the two arrays the region was entered with. -/
theorem arr_eq (c : Dev nD) :
    (dat2 V c).arrAt 2 cfg2.N = whole (V c main_v150) (V c main_arg6) :=
  (dat2 V c).arrAt_eq_of_cover 2 (whole (V c main_v150) (V c main_arg6)) (fun t _ => flushed_eq V c t) cover

end Cert.KernelIdeal.Dense2

end
-- ==== Proof.KLine.lean ====
/-
  The kernel's program as one straight line. Each dense-product region leaves its output array at the whole
  contraction h · W of the arrays it was entered with and every other buffer as it was, which is exactly what a single
  host contraction writing that buffer would leave. So the buffer contents at the program's last boundary are the fold,
  from the launch contents, of one line: the host stretches with a contraction in each region's place.
-/
import proofs.«113664_g84653805404492_cont_sun_m_127_42_alg».proof.Proof.Gen.KernelIdeal.Frame
import proofs.«113664_g84653805404492_cont_sun_m_127_42_alg».proof.Proof.KOps
import proofs.«113664_g84653805404492_cont_sun_m_127_42_alg».proof.Proof.Dense0
import proofs.«113664_g84653805404492_cont_sun_m_127_42_alg».proof.Proof.Dense1
import proofs.«113664_g84653805404492_cont_sun_m_127_42_alg».proof.Proof.Dense2

set_option maxRecDepth 16384

noncomputable section

namespace Cert.KernelIdeal.Line

open Cert.KernelIdeal Cert.KernelIdeal.Gen Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- Region 0's exit contents are its entry contents after the one contraction. -/
theorem exit0 (c : Dev nD) : W2 m ρ c = after [dense1] (W1 m ρ c) := by
  funext b
  show W2 m ρ c b = dense1.result (W1 m ρ c) b
  by_cases h : ∃ w, Proc.devRef .tc (Pipeline.arrRef spec0 w) = b
  · obtain ⟨w, rfl⟩ := h
    rw [W2_arr]
    match w with
    | ⟨0, _⟩ =>
      show (dat0 (V1 m ρ) c).arrAt 0 cfg0.N = dense1.result (W1 m ρ c) (Proc.devRef .tc main_arg0)
      refine ((dat0 (V1 m ρ) c).arrAt_in 0 rfl _).trans ?_
      exact (StableHlo.binary_result_ne main_arg0 main_arg2 main_v7 _ _ _ _ (W1 m ρ c) (r := main_arg0) (by decide)).symm
    | ⟨1, _⟩ =>
      show (dat0 (V1 m ρ) c).arrAt 1 cfg0.N = dense1.result (W1 m ρ c) (Proc.devRef .tc main_arg2)
      refine ((dat0 (V1 m ρ) c).arrAt_in 1 rfl _).trans ?_
      exact (StableHlo.binary_result_ne main_arg0 main_arg2 main_v7 _ _ _ _ (W1 m ρ c) (r := main_arg2) (by decide)).symm
    | ⟨2, _⟩ =>
      show (dat0 (V1 m ρ) c).arrAt 2 cfg0.N = dense1.result (W1 m ρ c) (Proc.devRef .tc main_v7)
      refine (Cert.KernelIdeal.Dense0.arr_eq (V1 m ρ) c).trans ?_
      exact (StableHlo.binary_result main_arg0 main_arg2 main_v7 _ _ _ _ (W1 m ρ c)).symm
  · have e : W2 m ρ c b = W1 m ρ c b := by unfold W2 Pipeline.withArrays; rw [dif_neg h]
    rw [e]
    refine (HloOp.result_of_not_mem _ _ ?_).symm
    show b ∉ ({Proc.devRef .tc main_v7} : Finset (DevRef τ sig))
    rw [Finset.mem_singleton]
    exact fun e' => h ⟨2, e'.symm⟩

/-- Region 1's exit contents are its entry contents after the one contraction. -/
theorem exit1 (c : Dev nD) : W9 m ρ c = after [dense2] (W8 m ρ c) := by
  funext b
  show W9 m ρ c b = dense2.result (W8 m ρ c) b
  by_cases h : ∃ w, Proc.devRef .tc (Pipeline.arrRef spec1 w) = b
  · obtain ⟨w, rfl⟩ := h
    rw [W9_arr]
    match w with
    | ⟨0, _⟩ =>
      show (dat1 (V8 m ρ) c).arrAt 0 cfg1.N = dense2.result (W8 m ρ c) (Proc.devRef .tc main_v78)
      refine ((dat1 (V8 m ρ) c).arrAt_in 0 rfl _).trans ?_
      exact (StableHlo.binary_result_ne main_v78 main_arg4 main_v79 _ _ _ _ (W8 m ρ c) (r := main_v78) (by decide)).symm
    | ⟨1, _⟩ =>
      show (dat1 (V8 m ρ) c).arrAt 1 cfg1.N = dense2.result (W8 m ρ c) (Proc.devRef .tc main_arg4)
      refine ((dat1 (V8 m ρ) c).arrAt_in 1 rfl _).trans ?_
      exact (StableHlo.binary_result_ne main_v78 main_arg4 main_v79 _ _ _ _ (W8 m ρ c) (r := main_arg4) (by decide)).symm
    | ⟨2, _⟩ =>
      show (dat1 (V8 m ρ) c).arrAt 2 cfg1.N = dense2.result (W8 m ρ c) (Proc.devRef .tc main_v79)
      refine (Cert.KernelIdeal.Dense1.arr_eq (V8 m ρ) c).trans ?_
      exact (StableHlo.binary_result main_v78 main_arg4 main_v79 _ _ _ _ (W8 m ρ c)).symm
  · have e : W9 m ρ c b = W8 m ρ c b := by unfold W9 Pipeline.withArrays; rw [dif_neg h]
    rw [e]
    refine (HloOp.result_of_not_mem _ _ ?_).symm
    show b ∉ ({Proc.devRef .tc main_v79} : Finset (DevRef τ sig))
    rw [Finset.mem_singleton]
    exact fun e' => h ⟨2, e'.symm⟩

/-- Region 2's exit contents are its entry contents after the one contraction. -/
theorem exit2 (c : Dev nD) : W16 m ρ c = after [dense3] (W15 m ρ c) := by
  funext b
  show W16 m ρ c b = dense3.result (W15 m ρ c) b
  by_cases h : ∃ w, Proc.devRef .tc (Pipeline.arrRef spec2 w) = b
  · obtain ⟨w, rfl⟩ := h
    rw [W16_arr]
    match w with
    | ⟨0, _⟩ =>
      show (dat2 (V15 m ρ) c).arrAt 0 cfg2.N = dense3.result (W15 m ρ c) (Proc.devRef .tc main_v150)
      refine ((dat2 (V15 m ρ) c).arrAt_in 0 rfl _).trans ?_
      exact (StableHlo.binary_result_ne main_v150 main_arg6 main_v151 _ _ _ _ (W15 m ρ c) (r := main_v150) (by decide)).symm
    | ⟨1, _⟩ =>
      show (dat2 (V15 m ρ) c).arrAt 1 cfg2.N = dense3.result (W15 m ρ c) (Proc.devRef .tc main_arg6)
      refine ((dat2 (V15 m ρ) c).arrAt_in 1 rfl _).trans ?_
      exact (StableHlo.binary_result_ne main_v150 main_arg6 main_v151 _ _ _ _ (W15 m ρ c) (r := main_arg6) (by decide)).symm
    | ⟨2, _⟩ =>
      show (dat2 (V15 m ρ) c).arrAt 2 cfg2.N = dense3.result (W15 m ρ c) (Proc.devRef .tc main_v151)
      refine (Cert.KernelIdeal.Dense2.arr_eq (V15 m ρ) c).trans ?_
      exact (StableHlo.binary_result main_v150 main_arg6 main_v151 _ _ _ _ (W15 m ρ c)).symm
  · have e : W16 m ρ c b = W15 m ρ c b := by unfold W16 Pipeline.withArrays; rw [dif_neg h]
    rw [e]
    refine (HloOp.result_of_not_mem _ _ ?_).symm
    show b ∉ ({Proc.devRef .tc main_v151} : Finset (DevRef τ sig))
    rw [Finset.mem_singleton]
    exact fun e' => h ⟨2, e'.symm⟩

theorem through1 (c : Dev nD) : W8 m ρ c = after layer1 (W2 m ρ c) := by
  simp only [layer1, StableHlo.after_append]
theorem through2 (c : Dev nD) : W15 m ρ c = after layer2 (W9 m ρ c) := by
  simp only [layer2, StableHlo.after_append]
theorem through3 (c : Dev nD) : W25 m ρ c = after layer3 (W16 m ρ c) := by
  simp only [layer3, StableHlo.after_append]

/-- The last boundary's contents are the fold of the whole line from the launch contents. -/
theorem last_eq (c : Dev nD) : W25 m ρ c = after line (launchContents m c) := by
  rw [through3, exit2, through2, exit1, through1, exit0]
  simp only [line, StableHlo.after_append]

end Cert.KernelIdeal.Line

end
-- ==== Proof.RefOps.lean ====
/-
  The reference program's @main as a straight line of host operations, cut into the six windows it is printed in, each
  window into its stretches: the stretches of the program's own lines, the lines of the small functions it calls (the
  select of the degree factor, the variance, the rectifier) listed at their call sites, and the three dense products
  h · W of the graph-convolution layers, each one `dot_general` on the whole [10000, 128] array.
-/
import proofs.«113664_g84653805404492_cont_sun_m_127_42_alg».proof.Proof.Gen.ReferenceIdeal
import Idealize.ShloMosaic.Lib.StableHlo.Run

set_option maxRecDepth 8192

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- Window 0, stretch 0: 7 operations, in order. -/
abbrev seg0_0 : List (HloOp τ sig (Elt F)) :=
  [ StableHlo.nullary main_v0 (iotaInDim S10000 32 0),
    StableHlo.unary main_arg1 main_v1 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v1 main_v2 rfl shapeCasts_S1x320000_S320000,
    StableHlo.binary main_v2 main_v0 main_v3 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F)),
    StableHlo.unary main_arg1 main_v4 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v4 main_v5 rfl shapeCasts_S1x320000_S320000,
    StableHlo.binary main_v5 main_v0 main_v6 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F)) ]
theorem seg0_0_sub : (seg0_0 : List (HloOp τ sig (Elt F))).Forall fun op => op.bufs ⊆ tcRefs τ sig :=
  ⟨StableHlo.nullary_bufs_sub .., StableHlo.unary_bufs_sub .., StableHlo.reshape_bufs_sub .., StableHlo.binary_bufs_sub .., StableHlo.unary_bufs_sub .., StableHlo.reshape_bufs_sub .., StableHlo.binary_bufs_sub ..⟩
theorem seg0_0_fresh : (seg0_0 : List (HloOp τ sig (Elt F))).Forall fun op => op.fresh = ∅ := by
  simp only [List.Forall]; repeat' constructor

/-- the first layer's product x · W0, as one operation. -/
abbrev dense1 : HloOp τ sig (Elt F) :=
  StableHlo.binary main_arg0 main_arg2 main_v7 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F))
theorem dense1_sub : (dense1 : HloOp τ sig (Elt F)).bufs ⊆ tcRefs τ sig := StableHlo.binary_bufs_sub ..

/-- Window 0, stretch 2: 21 operations, in order. -/
abbrev seg0_2 : List (HloOp τ sig (Elt F)) :=
  [ StableHlo.nullary main_cst (constant S_ .f32 0x00000000#32),
    StableHlo.unary main_cst main_v8 (broadcastInDim S10000 ![] bcast_S_S10000 : (⟨S_, .f32⟩ : BufTy).Contents (Elt F) → (⟨S10000, .f32⟩ : BufTy).Contents (Elt F)),
    StableHlo.nullary main_c (constantI S_ 32 0#32),
    StableHlo.unary main_c main_v9 (broadcastInDim S330000 ![] bcast_S_S330000 : (⟨S_, .i32⟩ : BufTy).Contents (Elt F) → (⟨S330000, .i32⟩ : BufTy).Contents (Elt F)),
    StableHlo.binary main_v6 main_v9 main_v10 (cmpi .slt : (⟨S330000, .i32⟩ : BufTy).Contents (Elt F) → (⟨S330000, .i32⟩ : BufTy).Contents (Elt F) → (⟨S330000, .i1⟩ : BufTy).Contents (Elt F)),
    StableHlo.nullary main_c_0 (constantI S_ 32 10000#32),
    StableHlo.unary main_c_0 main_v11 (broadcastInDim S330000 ![] bcast_S_S330000 : (⟨S_, .i32⟩ : BufTy).Contents (Elt F) → (⟨S330000, .i32⟩ : BufTy).Contents (Elt F)),
    StableHlo.binary main_v6 main_v11 main_v12 (addi : (⟨S330000, .i32⟩ : BufTy).Contents (Elt F) → (⟨S330000, .i32⟩ : BufTy).Contents (Elt F) → (⟨S330000, .i32⟩ : BufTy).Contents (Elt F)),
    StableHlo.ternary main_v10 main_v12 main_v6 main_v13 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    StableHlo.unary main_v13 main_v14 (broadcastInDim S330000x1 ![0] bcast_S330000_S330000x1_0 : (⟨S330000, .i32⟩ : BufTy).Contents (Elt F) → (⟨S330000x1, .i32⟩ : BufTy).Contents (Elt F)),
    StableHlo.nullary main_cst_1 (constant S_ .f32 0x3F800000#32),
    StableHlo.unary main_cst_1 main_v15 (broadcastInDim S330000 ![] bcast_S_S330000 : (⟨S_, .f32⟩ : BufTy).Contents (Elt F) → (⟨S330000, .f32⟩ : BufTy).Contents (Elt F)),
    StableHlo.ternary main_v8 main_v14 main_v15 main_v16 ((fun x i u => Host.scatterAdd scatter_S10000_S330000x1_S330000_n_0_0_1 x i u) : (⟨S10000, .f32⟩ : BufTy).Contents (Elt F) → (⟨S330000x1, .i32⟩ : BufTy).Contents (Elt F) → (⟨S330000, .f32⟩ : BufTy).Contents (Elt F) → (⟨S10000, .f32⟩ : BufTy).Contents (Elt F)),
    StableHlo.nullary main_cst_2 (constant S_ .f32 0x00000000#32),
    StableHlo.unary main_cst_2 main_v17 (broadcastInDim S10000 ![] bcast_S_S10000 : (⟨S_, .f32⟩ : BufTy).Contents (Elt F) → (⟨S10000, .f32⟩ : BufTy).Contents (Elt F)),
    StableHlo.binary main_v16 main_v17 main_v18 (cmpf .ogt : (⟨S10000, .f32⟩ : BufTy).Contents (Elt F) → (⟨S10000, .f32⟩ : BufTy).Contents (Elt F) → (⟨S10000, .i1⟩ : BufTy).Contents (Elt F)),
    StableHlo.unary main_v16 main_v19 (Host.sqrt : (⟨S10000, .f32⟩ : BufTy).Contents (Elt F) → (⟨S10000, .f32⟩ : BufTy).Contents (Elt F)),
    StableHlo.nullary main_cst_3 (constant S_ .f32 0x3F800000#32),
    StableHlo.unary main_cst_3 main_v20 (broadcastInDim S10000 ![] bcast_S_S10000 : (⟨S_, .f32⟩ : BufTy).Contents (Elt F) → (⟨S10000, .f32⟩ : BufTy).Contents (Elt F)),
    StableHlo.binary main_v20 main_v19 main_v21 (Host.divf : (⟨S10000, .f32⟩ : BufTy).Contents (Elt F) → (⟨S10000, .f32⟩ : BufTy).Contents (Elt F) → (⟨S10000, .f32⟩ : BufTy).Contents (Elt F)),
    StableHlo.nullary main_cst_4 (constant S_ .f32 0x00000000#32) ]
theorem seg0_2_sub : (seg0_2 : List (HloOp τ sig (Elt F))).Forall fun op => op.bufs ⊆ tcRefs τ sig :=
  ⟨StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub ..⟩
theorem seg0_2_fresh : (seg0_2 : List (HloOp τ sig (Elt F))).Forall fun op => op.fresh = ∅ := by
  simp only [List.Forall]; repeat' constructor

/-- Window 0, stretch 3: 3 operations, in order. -/
abbrev seg0_3 : List (HloOp τ sig (Elt F)) :=
  [ StableHlo.TRef.unary (.of main_cst_4 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S10000, .f32⟩) (broadcastInDim S10000 ![] bcast_S_S10000),
    StableHlo.TRef.ternary (.of main_v18 : StableHlo.TRef sig ⟨S10000, .i1⟩) (.of main_v21 : StableHlo.TRef sig ⟨S10000, .f32⟩) (.of main_call0_v1 : StableHlo.TRef sig ⟨S10000, .f32⟩) (.of main_v22 : StableHlo.TRef sig ⟨S10000, .f32⟩) select ]
theorem seg0_3_sub : (seg0_3 : List (HloOp τ sig (Elt F))).Forall fun op => op.bufs ⊆ tcRefs τ sig :=
  ⟨StableHlo.unary_bufs_sub .., StableHlo.unary_bufs_sub .., StableHlo.ternary_bufs_sub ..⟩
theorem seg0_3_fresh : (seg0_3 : List (HloOp τ sig (Elt F))).Forall fun op => op.fresh = ∅ := by
  simp only [List.Forall]; repeat' constructor

/-- Window 0, stretch 4: 30 operations, in order. -/
abbrev seg0_4 : List (HloOp τ sig (Elt F)) :=
  [ StableHlo.nullary main_c_5 (constantI S_ 32 0#32),
    StableHlo.unary main_c_5 main_v23 (broadcastInDim S330000 ![] bcast_S_S330000 : (⟨S_, .i32⟩ : BufTy).Contents (Elt F) → (⟨S330000, .i32⟩ : BufTy).Contents (Elt F)),
    StableHlo.binary main_v3 main_v23 main_v24 (cmpi .slt : (⟨S330000, .i32⟩ : BufTy).Contents (Elt F) → (⟨S330000, .i32⟩ : BufTy).Contents (Elt F) → (⟨S330000, .i1⟩ : BufTy).Contents (Elt F)),
    StableHlo.nullary main_c_6 (constantI S_ 32 10000#32),
    StableHlo.unary main_c_6 main_v25 (broadcastInDim S330000 ![] bcast_S_S330000 : (⟨S_, .i32⟩ : BufTy).Contents (Elt F) → (⟨S330000, .i32⟩ : BufTy).Contents (Elt F)),
    StableHlo.binary main_v3 main_v25 main_v26 (addi : (⟨S330000, .i32⟩ : BufTy).Contents (Elt F) → (⟨S330000, .i32⟩ : BufTy).Contents (Elt F) → (⟨S330000, .i32⟩ : BufTy).Contents (Elt F)),
    StableHlo.ternary main_v24 main_v26 main_v3 main_v27 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    StableHlo.unary main_v27 main_v28 (broadcastInDim S330000x1 ![0] bcast_S330000_S330000x1_0 : (⟨S330000, .i32⟩ : BufTy).Contents (Elt F) → (⟨S330000x1, .i32⟩ : BufTy).Contents (Elt F)),
    StableHlo.binary main_v22 main_v28 main_v29 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F)),
    StableHlo.nullary main_c_7 (constantI S_ 32 0#32),
    StableHlo.unary main_c_7 main_v30 (broadcastInDim S330000 ![] bcast_S_S330000 : (⟨S_, .i32⟩ : BufTy).Contents (Elt F) → (⟨S330000, .i32⟩ : BufTy).Contents (Elt F)),
    StableHlo.binary main_v6 main_v30 main_v31 (cmpi .slt : (⟨S330000, .i32⟩ : BufTy).Contents (Elt F) → (⟨S330000, .i32⟩ : BufTy).Contents (Elt F) → (⟨S330000, .i1⟩ : BufTy).Contents (Elt F)),
    StableHlo.nullary main_c_8 (constantI S_ 32 10000#32),
    StableHlo.unary main_c_8 main_v32 (broadcastInDim S330000 ![] bcast_S_S330000 : (⟨S_, .i32⟩ : BufTy).Contents (Elt F) → (⟨S330000, .i32⟩ : BufTy).Contents (Elt F)),
    StableHlo.binary main_v6 main_v32 main_v33 (addi : (⟨S330000, .i32⟩ : BufTy).Contents (Elt F) → (⟨S330000, .i32⟩ : BufTy).Contents (Elt F) → (⟨S330000, .i32⟩ : BufTy).Contents (Elt F)),
    StableHlo.ternary main_v31 main_v33 main_v6 main_v34 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    StableHlo.unary main_v34 main_v35 (broadcastInDim S330000x1 ![0] bcast_S330000_S330000x1_0 : (⟨S330000, .i32⟩ : BufTy).Contents (Elt F) → (⟨S330000x1, .i32⟩ : BufTy).Contents (Elt F)),
    StableHlo.binary main_v22 main_v35 main_v36 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F)),
    StableHlo.binary main_v29 main_v36 main_v37 (mulf : (⟨S330000, .f32⟩ : BufTy).Contents (Elt F) → (⟨S330000, .f32⟩ : BufTy).Contents (Elt F) → (⟨S330000, .f32⟩ : BufTy).Contents (Elt F)),
    StableHlo.nullary main_c_9 (constantI S_ 32 0#32),
    StableHlo.unary main_c_9 main_v38 (broadcastInDim S330000 ![] bcast_S_S330000 : (⟨S_, .i32⟩ : BufTy).Contents (Elt F) → (⟨S330000, .i32⟩ : BufTy).Contents (Elt F)),
    StableHlo.binary main_v3 main_v38 main_v39 (cmpi .slt : (⟨S330000, .i32⟩ : BufTy).Contents (Elt F) → (⟨S330000, .i32⟩ : BufTy).Contents (Elt F) → (⟨S330000, .i1⟩ : BufTy).Contents (Elt F)),
    StableHlo.nullary main_c_10 (constantI S_ 32 10000#32),
    StableHlo.unary main_c_10 main_v40 (broadcastInDim S330000 ![] bcast_S_S330000 : (⟨S_, .i32⟩ : BufTy).Contents (Elt F) → (⟨S330000, .i32⟩ : BufTy).Contents (Elt F)),
    StableHlo.binary main_v3 main_v40 main_v41 (addi : (⟨S330000, .i32⟩ : BufTy).Contents (Elt F) → (⟨S330000, .i32⟩ : BufTy).Contents (Elt F) → (⟨S330000, .i32⟩ : BufTy).Contents (Elt F)),
    StableHlo.ternary main_v39 main_v41 main_v3 main_v42 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    StableHlo.unary main_v42 main_v43 (broadcastInDim S330000x1 ![0] bcast_S330000_S330000x1_0 : (⟨S330000, .i32⟩ : BufTy).Contents (Elt F) → (⟨S330000x1, .i32⟩ : BufTy).Contents (Elt F)),
    StableHlo.binary main_v7 main_v43 main_v44 ((fun x i => Host.gather gather_S10000x128_S330000x1_S330000x128_1_0_n_n_0_1_1128 x i) : (⟨S10000x128, .f32⟩ : BufTy).Contents (Elt F) → (⟨S330000x1, .i32⟩ : BufTy).Contents (Elt F) → (⟨S330000x128, .f32⟩ : BufTy).Contents (Elt F)),
    StableHlo.unary main_v37 main_v45 (broadcastInDim S330000x1 ![0] bcast_S330000_S330000x1_0 : (⟨S330000, .f32⟩ : BufTy).Contents (Elt F) → (⟨S330000x1, .f32⟩ : BufTy).Contents (Elt F)),
    StableHlo.unary main_v45 main_v46 (broadcastInDim S330000x128 ![0, 1] bcast_S330000x1_S330000x128_0_1 : (⟨S330000x1, .f32⟩ : BufTy).Contents (Elt F) → (⟨S330000x128, .f32⟩ : BufTy).Contents (Elt F)) ]
theorem seg0_4_sub : (seg0_4 : List (HloOp τ sig (Elt F))).Forall fun op => op.bufs ⊆ tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub ..⟩
theorem seg0_4_fresh : (seg0_4 : List (HloOp τ sig (Elt F))).Forall fun op => op.fresh = ∅ := by
  simp only [List.Forall]; repeat' constructor

/-- Window 0 of @main, its stretches in order. -/
abbrev win0 : List (HloOp τ sig (Elt F)) :=
  seg0_0 ++ ([dense1] ++ (seg0_2 ++ (seg0_3 ++ (seg0_4))))

/-- Window 1, stretch 0: 21 operations, in order. -/
abbrev seg1_0 : List (HloOp τ sig (Elt F)) :=
  [ StableHlo.binary main_v44 main_v46 main_v47 (mulf : (⟨S330000x128, .f32⟩ : BufTy).Contents (Elt F) → (⟨S330000x128, .f32⟩ : BufTy).Contents (Elt F) → (⟨S330000x128, .f32⟩ : BufTy).Contents (Elt F)),
    StableHlo.nullary main_cst_11 (constant S_ .f32 0x00000000#32),
    StableHlo.unary main_cst_11 main_v48 (broadcastInDim S10000x128 ![] bcast_S_S10000x128 : (⟨S_, .f32⟩ : BufTy).Contents (Elt F) → (⟨S10000x128, .f32⟩ : BufTy).Contents (Elt F)),
    StableHlo.nullary main_c_12 (constantI S_ 32 0#32),
    StableHlo.unary main_c_12 main_v49 (broadcastInDim S330000 ![] bcast_S_S330000 : (⟨S_, .i32⟩ : BufTy).Contents (Elt F) → (⟨S330000, .i32⟩ : BufTy).Contents (Elt F)),
    StableHlo.binary main_v6 main_v49 main_v50 (cmpi .slt : (⟨S330000, .i32⟩ : BufTy).Contents (Elt F) → (⟨S330000, .i32⟩ : BufTy).Contents (Elt F) → (⟨S330000, .i1⟩ : BufTy).Contents (Elt F)),
    StableHlo.nullary main_c_13 (constantI S_ 32 10000#32),
    StableHlo.unary main_c_13 main_v51 (broadcastInDim S330000 ![] bcast_S_S330000 : (⟨S_, .i32⟩ : BufTy).Contents (Elt F) → (⟨S330000, .i32⟩ : BufTy).Contents (Elt F)),
    StableHlo.binary main_v6 main_v51 main_v52 (addi : (⟨S330000, .i32⟩ : BufTy).Contents (Elt F) → (⟨S330000, .i32⟩ : BufTy).Contents (Elt F) → (⟨S330000, .i32⟩ : BufTy).Contents (Elt F)),
    StableHlo.ternary main_v50 main_v52 main_v6 main_v53 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    StableHlo.unary main_v53 main_v54 (broadcastInDim S330000x1 ![0] bcast_S330000_S330000x1_0 : (⟨S330000, .i32⟩ : BufTy).Contents (Elt F) → (⟨S330000x1, .i32⟩ : BufTy).Contents (Elt F)),
    StableHlo.ternary main_v48 main_v54 main_v47 main_v55 ((fun x i u => Host.scatterAdd scatter_S10000x128_S330000x1_S330000x128_1_0_0_1 x i u) : (⟨S10000x128, .f32⟩ : BufTy).Contents (Elt F) → (⟨S330000x1, .i32⟩ : BufTy).Contents (Elt F) → (⟨S330000x128, .f32⟩ : BufTy).Contents (Elt F) → (⟨S10000x128, .f32⟩ : BufTy).Contents (Elt F)),
    StableHlo.unary main_arg3 main_v56 (broadcastInDim S1x128 ![1] bcast_S128_S1x128_1 : (⟨S128, .f32⟩ : BufTy).Contents (Elt F) → (⟨S1x128, .f32⟩ : BufTy).Contents (Elt F)),
    StableHlo.unary main_v56 main_v57 (broadcastInDim S10000x128 ![0, 1] bcast_S1x128_S10000x128_0_1 : (⟨S1x128, .f32⟩ : BufTy).Contents (Elt F) → (⟨S10000x128, .f32⟩ : BufTy).Contents (Elt F)),
    StableHlo.binary main_v55 main_v57 main_v58 (addf : (⟨S10000x128, .f32⟩ : BufTy).Contents (Elt F) → (⟨S10000x128, .f32⟩ : BufTy).Contents (Elt F) → (⟨S10000x128, .f32⟩ : BufTy).Contents (Elt F)),
    StableHlo.nullary main_cst_14 (constant S_ .f32 0x00000000#32),
    StableHlo.binary main_v58 main_cst_14 main_v59 ((fun x v => Host.reduceAdd x v reducesTo_S10000x128_S128_d0 h_S_) : (⟨S10000x128, .f32⟩ : BufTy).Contents (Elt F) → (⟨S_, .f32⟩ : BufTy).Contents (Elt F) → (⟨S128, .f32⟩ : BufTy).Contents (Elt F)),
    StableHlo.nullary main_cst_15 (constant S_ .f32 0x461C4000#32),
    StableHlo.unary main_cst_15 main_v60 (broadcastInDim S128 ![] bcast_S_S128 : (⟨S_, .f32⟩ : BufTy).Contents (Elt F) → (⟨S128, .f32⟩ : BufTy).Contents (Elt F)),
    StableHlo.binary main_v59 main_v60 main_v61 (Host.divf : (⟨S128, .f32⟩ : BufTy).Contents (Elt F) → (⟨S128, .f32⟩ : BufTy).Contents (Elt F) → (⟨S128, .f32⟩ : BufTy).Contents (Elt F)),
    StableHlo.nullary main_c_16 (constantI S_ 32 0#32) ]
theorem seg1_0_sub : (seg1_0 : List (HloOp τ sig (Elt F))).Forall fun op => op.bufs ⊆ tcRefs τ sig :=
  ⟨StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub ..⟩
theorem seg1_0_fresh : (seg1_0 : List (HloOp τ sig (Elt F))).Forall fun op => op.fresh = ∅ := by
  simp only [List.Forall]; repeat' constructor

/-- Window 1, stretch 1: 22 operations, in order. -/
abbrev seg1_1 : List (HloOp τ sig (Elt F)) :=
  [ StableHlo.TRef.nullary (.of main_call1_cst : StableHlo.TRef sig ⟨S_, .f32⟩) (constant S_ .f32 0x00000000#32),
    StableHlo.TRef.binary (.of main_v58 : StableHlo.TRef sig ⟨S10000x128, .f32⟩) (.of main_call1_cst : StableHlo.TRef sig ⟨S_, .f32⟩) (.of main_call1_v0 : StableHlo.TRef sig ⟨S128, .f32⟩) (fun x v => Host.reduceAdd x v reducesTo_S10000x128_S128_d0 h_S_),
    StableHlo.TRef.unary (.of main_call1_v0 : StableHlo.TRef sig ⟨S128, .f32⟩) (.of main_call1_v1 : StableHlo.TRef sig ⟨S1x128, .f32⟩) (broadcastInDim S1x128 ![1] bcast_S128_S1x128_1),
    StableHlo.TRef.nullary (.of main_call1_cst_0 : StableHlo.TRef sig ⟨S_, .f32⟩) (constant S_ .f32 0x461C4000#32),
    StableHlo.TRef.unary (.of main_call1_cst_0 : StableHlo.TRef sig ⟨S_, .f32⟩) (.of main_call1_v2 : StableHlo.TRef sig ⟨S1x128, .f32⟩) (broadcastInDim S1x128 ![] bcast_S_S1x128),
    StableHlo.TRef.binary (.of main_call1_v1 : StableHlo.TRef sig ⟨S1x128, .f32⟩) (.of main_call1_v2 : StableHlo.TRef sig ⟨S1x128, .f32⟩) (.of main_call1_v3 : StableHlo.TRef sig ⟨S1x128, .f32⟩) Host.divf,
    StableHlo.TRef.unary (.of main_call1_v3 : StableHlo.TRef sig ⟨S1x128, .f32⟩) (.of main_call1_v4 : StableHlo.TRef sig ⟨S10000x128, .f32⟩) (broadcastInDim S10000x128 ![0, 1] bcast_S1x128_S10000x128_0_1),
    StableHlo.TRef.binary (.of main_v58 : StableHlo.TRef sig ⟨S10000x128, .f32⟩) (.of main_call1_v4 : StableHlo.TRef sig ⟨S10000x128, .f32⟩) (.of main_call1_v5 : StableHlo.TRef sig ⟨S10000x128, .f32⟩) subf,
    StableHlo.TRef.binary (.of main_call1_v5 : StableHlo.TRef sig ⟨S10000x128, .f32⟩) (.of main_call1_v5 : StableHlo.TRef sig ⟨S10000x128, .f32⟩) (.of main_call1_v6 : StableHlo.TRef sig ⟨S10000x128, .f32⟩) mulf,
    StableHlo.TRef.unary (.of main_c_16 : StableHlo.TRef sig ⟨S_, .i32⟩) (.of main_call1_v7 : StableHlo.TRef sig ⟨S_, .f32⟩) (sitofp .f32),
    StableHlo.TRef.nullary (.of main_call1_cst_1 : StableHlo.TRef sig ⟨S_, .f32⟩) (constant S_ .f32 0x461C4000#32),
    StableHlo.TRef.binary (.of main_call1_cst_1 : StableHlo.TRef sig ⟨S_, .f32⟩) (.of main_call1_v7 : StableHlo.TRef sig ⟨S_, .f32⟩) (.of main_call1_v8 : StableHlo.TRef sig ⟨S_, .f32⟩) subf,
    StableHlo.TRef.nullary (.of main_call1_cst_2 : StableHlo.TRef sig ⟨S_, .f32⟩) (constant S_ .f32 0x00000000#32),
    StableHlo.TRef.binary (.of main_call1_v6 : StableHlo.TRef sig ⟨S10000x128, .f32⟩) (.of main_call1_cst_2 : StableHlo.TRef sig ⟨S_, .f32⟩) (.of main_call1_v9 : StableHlo.TRef sig ⟨S128, .f32⟩) (fun x v => Host.reduceAdd x v reducesTo_S10000x128_S128_d0 h_S_),
    StableHlo.TRef.unary (.of main_call1_v8 : StableHlo.TRef sig ⟨S_, .f32⟩) (.of main_call1_v10 : StableHlo.TRef sig ⟨S128, .f32⟩) (broadcastInDim S128 ![] bcast_S_S128),
    StableHlo.TRef.binary (.of main_call1_v9 : StableHlo.TRef sig ⟨S128, .f32⟩) (.of main_call1_v10 : StableHlo.TRef sig ⟨S128, .f32⟩) (.of main_call1_v11 : StableHlo.TRef sig ⟨S128, .f32⟩) Host.divf,
    StableHlo.TRef.nullary (.of main_call1_cst_3 : StableHlo.TRef sig ⟨S_, .f32⟩) (constant S_ .f32 0x00000000#32),
    StableHlo.TRef.binary (.of main_call1_v8 : StableHlo.TRef sig ⟨S_, .f32⟩) (.of main_call1_cst_3 : StableHlo.TRef sig ⟨S_, .f32⟩) (.of main_call1_v12 : StableHlo.TRef sig ⟨S_, .i1⟩) (cmpf .ogt),
    StableHlo.TRef.nullary (.of main_call1_cst_4 : StableHlo.TRef sig ⟨S_, .f32⟩) (constant S_ .f32 0x7FC00000#32),
    StableHlo.TRef.unary (.of main_call1_cst_4 : StableHlo.TRef sig ⟨S_, .f32⟩) (.of main_call1_call0_v0 : StableHlo.TRef sig ⟨S_, .f32⟩) id,
    StableHlo.TRef.unary (.of main_call1_call0_v0 : StableHlo.TRef sig ⟨S_, .f32⟩) (.of main_call1_call0_v1 : StableHlo.TRef sig ⟨S128, .f32⟩) (broadcastInDim S128 ![] bcast_S_S128),
    StableHlo.TRef.ternary (.of main_call1_v12 : StableHlo.TRef sig ⟨S_, .i1⟩) (.of main_call1_v11 : StableHlo.TRef sig ⟨S128, .f32⟩) (.of main_call1_call0_v1 : StableHlo.TRef sig ⟨S128, .f32⟩) (.of main_v62 : StableHlo.TRef sig ⟨S128, .f32⟩) (fun p a b => select (broadcastInDim S128 ![] bcast_S_S128 p) a b) ]
theorem seg1_1_sub : (seg1_1 : List (HloOp τ sig (Elt F))).Forall fun op => op.bufs ⊆ tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
theorem seg1_1_fresh : (seg1_1 : List (HloOp τ sig (Elt F))).Forall fun op => op.fresh = ∅ := by
  simp only [List.Forall]; repeat' constructor

/-- Window 1, stretch 2: 16 operations, in order. -/
abbrev seg1_2 : List (HloOp τ sig (Elt F)) :=
  [ StableHlo.unary main_v61 main_v63 (broadcastInDim S1x128 ![1] bcast_S128_S1x128_1 : (⟨S128, .f32⟩ : BufTy).Contents (Elt F) → (⟨S1x128, .f32⟩ : BufTy).Contents (Elt F)),
    StableHlo.unary main_v63 main_v64 (broadcastInDim S10000x128 ![0, 1] bcast_S1x128_S10000x128_0_1 : (⟨S1x128, .f32⟩ : BufTy).Contents (Elt F) → (⟨S10000x128, .f32⟩ : BufTy).Contents (Elt F)),
    StableHlo.binary main_v58 main_v64 main_v65 (subf : (⟨S10000x128, .f32⟩ : BufTy).Contents (Elt F) → (⟨S10000x128, .f32⟩ : BufTy).Contents (Elt F) → (⟨S10000x128, .f32⟩ : BufTy).Contents (Elt F)),
    StableHlo.nullary main_cst_17 (constant S_ .f32 0x3727C5AC#32),
    StableHlo.unary main_cst_17 main_v66 (broadcastInDim S128 ![] bcast_S_S128 : (⟨S_, .f32⟩ : BufTy).Contents (Elt F) → (⟨S128, .f32⟩ : BufTy).Contents (Elt F)),
    StableHlo.binary main_v62 main_v66 main_v67 (addf : (⟨S128, .f32⟩ : BufTy).Contents (Elt F) → (⟨S128, .f32⟩ : BufTy).Contents (Elt F) → (⟨S128, .f32⟩ : BufTy).Contents (Elt F)),
    StableHlo.unary main_v67 main_v68 (Host.sqrt : (⟨S128, .f32⟩ : BufTy).Contents (Elt F) → (⟨S128, .f32⟩ : BufTy).Contents (Elt F)),
    StableHlo.unary main_v68 main_v69 (broadcastInDim S1x128 ![1] bcast_S128_S1x128_1 : (⟨S128, .f32⟩ : BufTy).Contents (Elt F) → (⟨S1x128, .f32⟩ : BufTy).Contents (Elt F)),
    StableHlo.unary main_v69 main_v70 (broadcastInDim S10000x128 ![0, 1] bcast_S1x128_S10000x128_0_1 : (⟨S1x128, .f32⟩ : BufTy).Contents (Elt F) → (⟨S10000x128, .f32⟩ : BufTy).Contents (Elt F)),
    StableHlo.binary main_v65 main_v70 main_v71 (Host.divf : (⟨S10000x128, .f32⟩ : BufTy).Contents (Elt F) → (⟨S10000x128, .f32⟩ : BufTy).Contents (Elt F) → (⟨S10000x128, .f32⟩ : BufTy).Contents (Elt F)),
    StableHlo.unary main_arg8 main_v72 (broadcastInDim S1x128 ![1] bcast_S128_S1x128_1 : (⟨S128, .f32⟩ : BufTy).Contents (Elt F) → (⟨S1x128, .f32⟩ : BufTy).Contents (Elt F)),
    StableHlo.unary main_v72 main_v73 (broadcastInDim S10000x128 ![0, 1] bcast_S1x128_S10000x128_0_1 : (⟨S1x128, .f32⟩ : BufTy).Contents (Elt F) → (⟨S10000x128, .f32⟩ : BufTy).Contents (Elt F)),
    StableHlo.binary main_v71 main_v73 main_v74 (mulf : (⟨S10000x128, .f32⟩ : BufTy).Contents (Elt F) → (⟨S10000x128, .f32⟩ : BufTy).Contents (Elt F) → (⟨S10000x128, .f32⟩ : BufTy).Contents (Elt F)),
    StableHlo.unary main_arg9 main_v75 (broadcastInDim S1x128 ![1] bcast_S128_S1x128_1 : (⟨S128, .f32⟩ : BufTy).Contents (Elt F) → (⟨S1x128, .f32⟩ : BufTy).Contents (Elt F)),
    StableHlo.unary main_v75 main_v76 (broadcastInDim S10000x128 ![0, 1] bcast_S1x128_S10000x128_0_1 : (⟨S1x128, .f32⟩ : BufTy).Contents (Elt F) → (⟨S10000x128, .f32⟩ : BufTy).Contents (Elt F)),
    StableHlo.binary main_v74 main_v76 main_v77 (addf : (⟨S10000x128, .f32⟩ : BufTy).Contents (Elt F) → (⟨S10000x128, .f32⟩ : BufTy).Contents (Elt F) → (⟨S10000x128, .f32⟩ : BufTy).Contents (Elt F)) ]
theorem seg1_2_sub : (seg1_2 : List (HloOp τ sig (Elt F))).Forall fun op => op.bufs ⊆ tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
theorem seg1_2_fresh : (seg1_2 : List (HloOp τ sig (Elt F))).Forall fun op => op.fresh = ∅ := by
  simp only [List.Forall]; repeat' constructor

/-- Window 1, stretch 3: 3 operations, in order. -/
abbrev seg1_3 : List (HloOp τ sig (Elt F)) :=
  [ StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S10000x128, .f32⟩) (broadcastInDim S10000x128 ![] bcast_S_S10000x128),
    StableHlo.TRef.binary (.of main_v77 : StableHlo.TRef sig ⟨S10000x128, .f32⟩) (.of main_call2_v0 : StableHlo.TRef sig ⟨S10000x128, .f32⟩) (.of main_v78 : StableHlo.TRef sig ⟨S10000x128, .f32⟩) maximumf ]
theorem seg1_3_sub : (seg1_3 : List (HloOp τ sig (Elt F))).Forall fun op => op.bufs ⊆ tcRefs τ sig :=
  ⟨StableHlo.nullary_bufs_sub .., StableHlo.unary_bufs_sub .., StableHlo.binary_bufs_sub ..⟩
theorem seg1_3_fresh : (seg1_3 : List (HloOp τ sig (Elt F))).Forall fun op => op.fresh = ∅ := by
  simp only [List.Forall]; repeat' constructor

/-- the second layer's product h · W1, as one operation. -/
abbrev dense2 : HloOp τ sig (Elt F) :=
  StableHlo.binary main_v78 main_arg4 main_v79 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F))
theorem dense2_sub : (dense2 : HloOp τ sig (Elt F)).bufs ⊆ tcRefs τ sig := StableHlo.binary_bufs_sub ..

/-- Window 1, stretch 5: 20 operations, in order. -/
abbrev seg1_5 : List (HloOp τ sig (Elt F)) :=
  [ StableHlo.nullary main_cst_18 (constant S_ .f32 0x00000000#32),
    StableHlo.unary main_cst_18 main_v80 (broadcastInDim S10000 ![] bcast_S_S10000 : (⟨S_, .f32⟩ : BufTy).Contents (Elt F) → (⟨S10000, .f32⟩ : BufTy).Contents (Elt F)),
    StableHlo.nullary main_c_19 (constantI S_ 32 0#32),
    StableHlo.unary main_c_19 main_v81 (broadcastInDim S330000 ![] bcast_S_S330000 : (⟨S_, .i32⟩ : BufTy).Contents (Elt F) → (⟨S330000, .i32⟩ : BufTy).Contents (Elt F)),
    StableHlo.binary main_v6 main_v81 main_v82 (cmpi .slt : (⟨S330000, .i32⟩ : BufTy).Contents (Elt F) → (⟨S330000, .i32⟩ : BufTy).Contents (Elt F) → (⟨S330000, .i1⟩ : BufTy).Contents (Elt F)),
    StableHlo.nullary main_c_20 (constantI S_ 32 10000#32),
    StableHlo.unary main_c_20 main_v83 (broadcastInDim S330000 ![] bcast_S_S330000 : (⟨S_, .i32⟩ : BufTy).Contents (Elt F) → (⟨S330000, .i32⟩ : BufTy).Contents (Elt F)),
    StableHlo.binary main_v6 main_v83 main_v84 (addi : (⟨S330000, .i32⟩ : BufTy).Contents (Elt F) → (⟨S330000, .i32⟩ : BufTy).Contents (Elt F) → (⟨S330000, .i32⟩ : BufTy).Contents (Elt F)),
    StableHlo.ternary main_v82 main_v84 main_v6 main_v85 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    StableHlo.unary main_v85 main_v86 (broadcastInDim S330000x1 ![0] bcast_S330000_S330000x1_0 : (⟨S330000, .i32⟩ : BufTy).Contents (Elt F) → (⟨S330000x1, .i32⟩ : BufTy).Contents (Elt F)),
    StableHlo.nullary main_cst_21 (constant S_ .f32 0x3F800000#32),
    StableHlo.unary main_cst_21 main_v87 (broadcastInDim S330000 ![] bcast_S_S330000 : (⟨S_, .f32⟩ : BufTy).Contents (Elt F) → (⟨S330000, .f32⟩ : BufTy).Contents (Elt F)),
    StableHlo.ternary main_v80 main_v86 main_v87 main_v88 ((fun x i u => Host.scatterAdd scatter_S10000_S330000x1_S330000_n_0_0_1 x i u) : (⟨S10000, .f32⟩ : BufTy).Contents (Elt F) → (⟨S330000x1, .i32⟩ : BufTy).Contents (Elt F) → (⟨S330000, .f32⟩ : BufTy).Contents (Elt F) → (⟨S10000, .f32⟩ : BufTy).Contents (Elt F)),
    StableHlo.nullary main_cst_22 (constant S_ .f32 0x00000000#32),
    StableHlo.unary main_cst_22 main_v89 (broadcastInDim S10000 ![] bcast_S_S10000 : (⟨S_, .f32⟩ : BufTy).Contents (Elt F) → (⟨S10000, .f32⟩ : BufTy).Contents (Elt F)),
    StableHlo.binary main_v88 main_v89 main_v90 (cmpf .ogt : (⟨S10000, .f32⟩ : BufTy).Contents (Elt F) → (⟨S10000, .f32⟩ : BufTy).Contents (Elt F) → (⟨S10000, .i1⟩ : BufTy).Contents (Elt F)),
    StableHlo.unary main_v88 main_v91 (Host.sqrt : (⟨S10000, .f32⟩ : BufTy).Contents (Elt F) → (⟨S10000, .f32⟩ : BufTy).Contents (Elt F)),
    StableHlo.nullary main_cst_23 (constant S_ .f32 0x3F800000#32),
    StableHlo.unary main_cst_23 main_v92 (broadcastInDim S10000 ![] bcast_S_S10000 : (⟨S_, .f32⟩ : BufTy).Contents (Elt F) → (⟨S10000, .f32⟩ : BufTy).Contents (Elt F)),
    StableHlo.binary main_v92 main_v91 main_v93 (Host.divf : (⟨S10000, .f32⟩ : BufTy).Contents (Elt F) → (⟨S10000, .f32⟩ : BufTy).Contents (Elt F) → (⟨S10000, .f32⟩ : BufTy).Contents (Elt F)) ]
theorem seg1_5_sub : (seg1_5 : List (HloOp τ sig (Elt F))).Forall fun op => op.bufs ⊆ tcRefs τ sig :=
  ⟨StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub ..⟩
theorem seg1_5_fresh : (seg1_5 : List (HloOp τ sig (Elt F))).Forall fun op => op.fresh = ∅ := by
  simp only [List.Forall]; repeat' constructor

/-- Window 1 of @main, its stretches in order. -/
abbrev win1 : List (HloOp τ sig (Elt F)) :=
  seg1_0 ++ (seg1_1 ++ (seg1_2 ++ (seg1_3 ++ ([dense2] ++ (seg1_5)))))

/-- Window 2, stretch 0: 1 operations, in order. -/
abbrev seg2_0 : List (HloOp τ sig (Elt F)) :=
  [ StableHlo.nullary main_cst_24 (constant S_ .f32 0x00000000#32) ]
theorem seg2_0_sub : (seg2_0 : List (HloOp τ sig (Elt F))).Forall fun op => op.bufs ⊆ tcRefs τ sig :=
  StableHlo.nullary_bufs_sub ..
theorem seg2_0_fresh : (seg2_0 : List (HloOp τ sig (Elt F))).Forall fun op => op.fresh = ∅ := by
  simp only [List.Forall]; repeat' constructor

/-- Window 2, stretch 1: 3 operations, in order. -/
abbrev seg2_1 : List (HloOp τ sig (Elt F)) :=
  [ StableHlo.TRef.unary (.of main_cst_24 : StableHlo.TRef sig ⟨S_, .f32⟩) (.of main_call3_v0 : StableHlo.TRef sig ⟨S_, .f32⟩) id,
    StableHlo.TRef.unary (.of main_call3_v0 : StableHlo.TRef sig ⟨S_, .f32⟩) (.of main_call3_v1 : StableHlo.TRef sig ⟨S10000, .f32⟩) (broadcastInDim S10000 ![] bcast_S_S10000),
    StableHlo.TRef.ternary (.of main_v90 : StableHlo.TRef sig ⟨S10000, .i1⟩) (.of main_v93 : StableHlo.TRef sig ⟨S10000, .f32⟩) (.of main_call3_v1 : StableHlo.TRef sig ⟨S10000, .f32⟩) (.of main_v94 : StableHlo.TRef sig ⟨S10000, .f32⟩) select ]
theorem seg2_1_sub : (seg2_1 : List (HloOp τ sig (Elt F))).Forall fun op => op.bufs ⊆ tcRefs τ sig :=
  ⟨StableHlo.unary_bufs_sub .., StableHlo.unary_bufs_sub .., StableHlo.ternary_bufs_sub ..⟩
theorem seg2_1_fresh : (seg2_1 : List (HloOp τ sig (Elt F))).Forall fun op => op.fresh = ∅ := by
  simp only [List.Forall]; repeat' constructor

/-- Window 2, stretch 2: 51 operations, in order. -/
abbrev seg2_2 : List (HloOp τ sig (Elt F)) :=
  ( StableHlo.nullary main_c_25 (constantI S_ 32 0#32)
  :: StableHlo.unary main_c_25 main_v95 (broadcastInDim S330000 ![] bcast_S_S330000 : (⟨S_, .i32⟩ : BufTy).Contents (Elt F) → (⟨S330000, .i32⟩ : BufTy).Contents (Elt F))
  :: StableHlo.binary main_v3 main_v95 main_v96 (cmpi .slt : (⟨S330000, .i32⟩ : BufTy).Contents (Elt F) → (⟨S330000, .i32⟩ : BufTy).Contents (Elt F) → (⟨S330000, .i1⟩ : BufTy).Contents (Elt F))
  :: StableHlo.nullary main_c_26 (constantI S_ 32 10000#32)
  :: StableHlo.unary main_c_26 main_v97 (broadcastInDim S330000 ![] bcast_S_S330000 : (⟨S_, .i32⟩ : BufTy).Contents (Elt F) → (⟨S330000, .i32⟩ : BufTy).Contents (Elt F))
  :: StableHlo.binary main_v3 main_v97 main_v98 (addi : (⟨S330000, .i32⟩ : BufTy).Contents (Elt F) → (⟨S330000, .i32⟩ : BufTy).Contents (Elt F) → (⟨S330000, .i32⟩ : BufTy).Contents (Elt F))
  :: StableHlo.ternary main_v96 main_v98 main_v3 main_v99 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F))
  :: StableHlo.unary main_v99 main_v100 (broadcastInDim S330000x1 ![0] bcast_S330000_S330000x1_0 : (⟨S330000, .i32⟩ : BufTy).Contents (Elt F) → (⟨S330000x1, .i32⟩ : BufTy).Contents (Elt F))
  :: StableHlo.binary main_v94 main_v100 main_v101 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F))
  :: StableHlo.nullary main_c_27 (constantI S_ 32 0#32)
  :: StableHlo.unary main_c_27 main_v102 (broadcastInDim S330000 ![] bcast_S_S330000 : (⟨S_, .i32⟩ : BufTy).Contents (Elt F) → (⟨S330000, .i32⟩ : BufTy).Contents (Elt F))
  :: StableHlo.binary main_v6 main_v102 main_v103 (cmpi .slt : (⟨S330000, .i32⟩ : BufTy).Contents (Elt F) → (⟨S330000, .i32⟩ : BufTy).Contents (Elt F) → (⟨S330000, .i1⟩ : BufTy).Contents (Elt F))
  :: StableHlo.nullary main_c_28 (constantI S_ 32 10000#32)
  :: StableHlo.unary main_c_28 main_v104 (broadcastInDim S330000 ![] bcast_S_S330000 : (⟨S_, .i32⟩ : BufTy).Contents (Elt F) → (⟨S330000, .i32⟩ : BufTy).Contents (Elt F))
  :: StableHlo.binary main_v6 main_v104 main_v105 (addi : (⟨S330000, .i32⟩ : BufTy).Contents (Elt F) → (⟨S330000, .i32⟩ : BufTy).Contents (Elt F) → (⟨S330000, .i32⟩ : BufTy).Contents (Elt F))
  :: StableHlo.ternary main_v103 main_v105 main_v6 main_v106 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F))
  :: StableHlo.unary main_v106 main_v107 (broadcastInDim S330000x1 ![0] bcast_S330000_S330000x1_0 : (⟨S330000, .i32⟩ : BufTy).Contents (Elt F) → (⟨S330000x1, .i32⟩ : BufTy).Contents (Elt F))
  :: StableHlo.binary main_v94 main_v107 main_v108 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F))
  :: StableHlo.binary main_v101 main_v108 main_v109 (mulf : (⟨S330000, .f32⟩ : BufTy).Contents (Elt F) → (⟨S330000, .f32⟩ : BufTy).Contents (Elt F) → (⟨S330000, .f32⟩ : BufTy).Contents (Elt F))
  :: StableHlo.nullary main_c_29 (constantI S_ 32 0#32)
  :: StableHlo.unary main_c_29 main_v110 (broadcastInDim S330000 ![] bcast_S_S330000 : (⟨S_, .i32⟩ : BufTy).Contents (Elt F) → (⟨S330000, .i32⟩ : BufTy).Contents (Elt F))
  :: StableHlo.binary main_v3 main_v110 main_v111 (cmpi .slt : (⟨S330000, .i32⟩ : BufTy).Contents (Elt F) → (⟨S330000, .i32⟩ : BufTy).Contents (Elt F) → (⟨S330000, .i1⟩ : BufTy).Contents (Elt F))
  :: StableHlo.nullary main_c_30 (constantI S_ 32 10000#32)
  :: StableHlo.unary main_c_30 main_v112 (broadcastInDim S330000 ![] bcast_S_S330000 : (⟨S_, .i32⟩ : BufTy).Contents (Elt F) → (⟨S330000, .i32⟩ : BufTy).Contents (Elt F))
  :: StableHlo.binary main_v3 main_v112 main_v113 (addi : (⟨S330000, .i32⟩ : BufTy).Contents (Elt F) → (⟨S330000, .i32⟩ : BufTy).Contents (Elt F) → (⟨S330000, .i32⟩ : BufTy).Contents (Elt F))
  :: StableHlo.ternary main_v111 main_v113 main_v3 main_v114 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F))
  :: StableHlo.unary main_v114 main_v115 (broadcastInDim S330000x1 ![0] bcast_S330000_S330000x1_0 : (⟨S330000, .i32⟩ : BufTy).Contents (Elt F) → (⟨S330000x1, .i32⟩ : BufTy).Contents (Elt F))
  :: StableHlo.binary main_v79 main_v115 main_v116 ((fun x i => Host.gather gather_S10000x128_S330000x1_S330000x128_1_0_n_n_0_1_1128 x i) : (⟨S10000x128, .f32⟩ : BufTy).Contents (Elt F) → (⟨S330000x1, .i32⟩ : BufTy).Contents (Elt F) → (⟨S330000x128, .f32⟩ : BufTy).Contents (Elt F))
  :: StableHlo.unary main_v109 main_v117 (broadcastInDim S330000x1 ![0] bcast_S330000_S330000x1_0 : (⟨S330000, .f32⟩ : BufTy).Contents (Elt F) → (⟨S330000x1, .f32⟩ : BufTy).Contents (Elt F))
  :: StableHlo.unary main_v117 main_v118 (broadcastInDim S330000x128 ![0, 1] bcast_S330000x1_S330000x128_0_1 : (⟨S330000x1, .f32⟩ : BufTy).Contents (Elt F) → (⟨S330000x128, .f32⟩ : BufTy).Contents (Elt F))
  :: StableHlo.binary main_v116 main_v118 main_v119 (mulf : (⟨S330000x128, .f32⟩ : BufTy).Contents (Elt F) → (⟨S330000x128, .f32⟩ : BufTy).Contents (Elt F) → (⟨S330000x128, .f32⟩ : BufTy).Contents (Elt F))
  :: StableHlo.nullary main_cst_31 (constant S_ .f32 0x00000000#32)
  :: StableHlo.unary main_cst_31 main_v120 (broadcastInDim S10000x128 ![] bcast_S_S10000x128 : (⟨S_, .f32⟩ : BufTy).Contents (Elt F) → (⟨S10000x128, .f32⟩ : BufTy).Contents (Elt F))
  :: StableHlo.nullary main_c_32 (constantI S_ 32 0#32)
  :: StableHlo.unary main_c_32 main_v121 (broadcastInDim S330000 ![] bcast_S_S330000 : (⟨S_, .i32⟩ : BufTy).Contents (Elt F) → (⟨S330000, .i32⟩ : BufTy).Contents (Elt F))
  :: StableHlo.binary main_v6 main_v121 main_v122 (cmpi .slt : (⟨S330000, .i32⟩ : BufTy).Contents (Elt F) → (⟨S330000, .i32⟩ : BufTy).Contents (Elt F) → (⟨S330000, .i1⟩ : BufTy).Contents (Elt F))
  :: StableHlo.nullary main_c_33 (constantI S_ 32 10000#32)
  :: StableHlo.unary main_c_33 main_v123 (broadcastInDim S330000 ![] bcast_S_S330000 : (⟨S_, .i32⟩ : BufTy).Contents (Elt F) → (⟨S330000, .i32⟩ : BufTy).Contents (Elt F))
  :: StableHlo.binary main_v6 main_v123 main_v124 (addi : (⟨S330000, .i32⟩ : BufTy).Contents (Elt F) → (⟨S330000, .i32⟩ : BufTy).Contents (Elt F) → (⟨S330000, .i32⟩ : BufTy).Contents (Elt F))
  :: StableHlo.ternary main_v122 main_v124 main_v6 main_v125 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F))
  :: StableHlo.unary main_v125 main_v126 (broadcastInDim S330000x1 ![0] bcast_S330000_S330000x1_0 : (⟨S330000, .i32⟩ : BufTy).Contents (Elt F) → (⟨S330000x1, .i32⟩ : BufTy).Contents (Elt F))
  :: StableHlo.ternary main_v120 main_v126 main_v119 main_v127 ((fun x i u => Host.scatterAdd scatter_S10000x128_S330000x1_S330000x128_1_0_0_1 x i u) : (⟨S10000x128, .f32⟩ : BufTy).Contents (Elt F) → (⟨S330000x1, .i32⟩ : BufTy).Contents (Elt F) → (⟨S330000x128, .f32⟩ : BufTy).Contents (Elt F) → (⟨S10000x128, .f32⟩ : BufTy).Contents (Elt F))
  :: StableHlo.unary main_arg5 main_v128 (broadcastInDim S1x128 ![1] bcast_S128_S1x128_1 : (⟨S128, .f32⟩ : BufTy).Contents (Elt F) → (⟨S1x128, .f32⟩ : BufTy).Contents (Elt F))
  :: StableHlo.unary main_v128 main_v129 (broadcastInDim S10000x128 ![0, 1] bcast_S1x128_S10000x128_0_1 : (⟨S1x128, .f32⟩ : BufTy).Contents (Elt F) → (⟨S10000x128, .f32⟩ : BufTy).Contents (Elt F))
  :: StableHlo.binary main_v127 main_v129 main_v130 (addf : (⟨S10000x128, .f32⟩ : BufTy).Contents (Elt F) → (⟨S10000x128, .f32⟩ : BufTy).Contents (Elt F) → (⟨S10000x128, .f32⟩ : BufTy).Contents (Elt F))
  :: StableHlo.nullary main_cst_34 (constant S_ .f32 0x00000000#32)
  :: StableHlo.binary main_v130 main_cst_34 main_v131 ((fun x v => Host.reduceAdd x v reducesTo_S10000x128_S128_d0 h_S_) : (⟨S10000x128, .f32⟩ : BufTy).Contents (Elt F) → (⟨S_, .f32⟩ : BufTy).Contents (Elt F) → (⟨S128, .f32⟩ : BufTy).Contents (Elt F))
  :: StableHlo.nullary main_cst_35 (constant S_ .f32 0x461C4000#32)
  :: StableHlo.unary main_cst_35 main_v132 (broadcastInDim S128 ![] bcast_S_S128 : (⟨S_, .f32⟩ : BufTy).Contents (Elt F) → (⟨S128, .f32⟩ : BufTy).Contents (Elt F))
  :: StableHlo.binary main_v131 main_v132 main_v133 (Host.divf : (⟨S128, .f32⟩ : BufTy).Contents (Elt F) → (⟨S128, .f32⟩ : BufTy).Contents (Elt F) → (⟨S128, .f32⟩ : BufTy).Contents (Elt F))
  :: StableHlo.nullary main_c_36 (constantI S_ 32 0#32)
  :: [] )
theorem seg2_2_sub : (seg2_2 : List (HloOp τ sig (Elt F))).Forall fun op => op.bufs ⊆ tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub ..⟩
theorem seg2_2_fresh : (seg2_2 : List (HloOp τ sig (Elt F))).Forall fun op => op.fresh = ∅ := by
  simp only [List.Forall]; repeat' constructor

/-- Window 2, stretch 3: 22 operations, in order. -/
abbrev seg2_3 : List (HloOp τ sig (Elt F)) :=
  [ StableHlo.TRef.nullary (.of main_call4_cst : StableHlo.TRef sig ⟨S_, .f32⟩) (constant S_ .f32 0x00000000#32),
    StableHlo.TRef.binary (.of main_v130 : StableHlo.TRef sig ⟨S10000x128, .f32⟩) (.of main_call4_cst : StableHlo.TRef sig ⟨S_, .f32⟩) (.of main_call4_v0 : StableHlo.TRef sig ⟨S128, .f32⟩) (fun x v => Host.reduceAdd x v reducesTo_S10000x128_S128_d0 h_S_),
    StableHlo.TRef.unary (.of main_call4_v0 : StableHlo.TRef sig ⟨S128, .f32⟩) (.of main_call4_v1 : StableHlo.TRef sig ⟨S1x128, .f32⟩) (broadcastInDim S1x128 ![1] bcast_S128_S1x128_1),
    StableHlo.TRef.nullary (.of main_call4_cst_0 : StableHlo.TRef sig ⟨S_, .f32⟩) (constant S_ .f32 0x461C4000#32),
    StableHlo.TRef.unary (.of main_call4_cst_0 : StableHlo.TRef sig ⟨S_, .f32⟩) (.of main_call4_v2 : StableHlo.TRef sig ⟨S1x128, .f32⟩) (broadcastInDim S1x128 ![] bcast_S_S1x128),
    StableHlo.TRef.binary (.of main_call4_v1 : StableHlo.TRef sig ⟨S1x128, .f32⟩) (.of main_call4_v2 : StableHlo.TRef sig ⟨S1x128, .f32⟩) (.of main_call4_v3 : StableHlo.TRef sig ⟨S1x128, .f32⟩) Host.divf,
    StableHlo.TRef.unary (.of main_call4_v3 : StableHlo.TRef sig ⟨S1x128, .f32⟩) (.of main_call4_v4 : StableHlo.TRef sig ⟨S10000x128, .f32⟩) (broadcastInDim S10000x128 ![0, 1] bcast_S1x128_S10000x128_0_1),
    StableHlo.TRef.binary (.of main_v130 : StableHlo.TRef sig ⟨S10000x128, .f32⟩) (.of main_call4_v4 : StableHlo.TRef sig ⟨S10000x128, .f32⟩) (.of main_call4_v5 : StableHlo.TRef sig ⟨S10000x128, .f32⟩) subf,
    StableHlo.TRef.binary (.of main_call4_v5 : StableHlo.TRef sig ⟨S10000x128, .f32⟩) (.of main_call4_v5 : StableHlo.TRef sig ⟨S10000x128, .f32⟩) (.of main_call4_v6 : StableHlo.TRef sig ⟨S10000x128, .f32⟩) mulf,
    StableHlo.TRef.unary (.of main_c_36 : StableHlo.TRef sig ⟨S_, .i32⟩) (.of main_call4_v7 : StableHlo.TRef sig ⟨S_, .f32⟩) (sitofp .f32),
    StableHlo.TRef.nullary (.of main_call4_cst_1 : StableHlo.TRef sig ⟨S_, .f32⟩) (constant S_ .f32 0x461C4000#32),
    StableHlo.TRef.binary (.of main_call4_cst_1 : StableHlo.TRef sig ⟨S_, .f32⟩) (.of main_call4_v7 : StableHlo.TRef sig ⟨S_, .f32⟩) (.of main_call4_v8 : StableHlo.TRef sig ⟨S_, .f32⟩) subf,
    StableHlo.TRef.nullary (.of main_call4_cst_2 : StableHlo.TRef sig ⟨S_, .f32⟩) (constant S_ .f32 0x00000000#32),
    StableHlo.TRef.binary (.of main_call4_v6 : StableHlo.TRef sig ⟨S10000x128, .f32⟩) (.of main_call4_cst_2 : StableHlo.TRef sig ⟨S_, .f32⟩) (.of main_call4_v9 : StableHlo.TRef sig ⟨S128, .f32⟩) (fun x v => Host.reduceAdd x v reducesTo_S10000x128_S128_d0 h_S_),
    StableHlo.TRef.unary (.of main_call4_v8 : StableHlo.TRef sig ⟨S_, .f32⟩) (.of main_call4_v10 : StableHlo.TRef sig ⟨S128, .f32⟩) (broadcastInDim S128 ![] bcast_S_S128),
    StableHlo.TRef.binary (.of main_call4_v9 : StableHlo.TRef sig ⟨S128, .f32⟩) (.of main_call4_v10 : StableHlo.TRef sig ⟨S128, .f32⟩) (.of main_call4_v11 : StableHlo.TRef sig ⟨S128, .f32⟩) Host.divf,
    StableHlo.TRef.nullary (.of main_call4_cst_3 : StableHlo.TRef sig ⟨S_, .f32⟩) (constant S_ .f32 0x00000000#32),
    StableHlo.TRef.binary (.of main_call4_v8 : StableHlo.TRef sig ⟨S_, .f32⟩) (.of main_call4_cst_3 : StableHlo.TRef sig ⟨S_, .f32⟩) (.of main_call4_v12 : StableHlo.TRef sig ⟨S_, .i1⟩) (cmpf .ogt),
    StableHlo.TRef.nullary (.of main_call4_cst_4 : StableHlo.TRef sig ⟨S_, .f32⟩) (constant S_ .f32 0x7FC00000#32),
    StableHlo.TRef.unary (.of main_call4_cst_4 : StableHlo.TRef sig ⟨S_, .f32⟩) (.of main_call4_call0_v0 : StableHlo.TRef sig ⟨S_, .f32⟩) id,
    StableHlo.TRef.unary (.of main_call4_call0_v0 : StableHlo.TRef sig ⟨S_, .f32⟩) (.of main_call4_call0_v1 : StableHlo.TRef sig ⟨S128, .f32⟩) (broadcastInDim S128 ![] bcast_S_S128),
    StableHlo.TRef.ternary (.of main_call4_v12 : StableHlo.TRef sig ⟨S_, .i1⟩) (.of main_call4_v11 : StableHlo.TRef sig ⟨S128, .f32⟩) (.of main_call4_call0_v1 : StableHlo.TRef sig ⟨S128, .f32⟩) (.of main_v134 : StableHlo.TRef sig ⟨S128, .f32⟩) (fun p a b => select (broadcastInDim S128 ![] bcast_S_S128 p) a b) ]
theorem seg2_3_sub : (seg2_3 : List (HloOp τ sig (Elt F))).Forall fun op => op.bufs ⊆ tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
theorem seg2_3_fresh : (seg2_3 : List (HloOp τ sig (Elt F))).Forall fun op => op.fresh = ∅ := by
  simp only [List.Forall]; repeat' constructor

/-- Window 2, stretch 4: 6 operations, in order. -/
abbrev seg2_4 : List (HloOp τ sig (Elt F)) :=
  [ StableHlo.unary main_v133 main_v135 (broadcastInDim S1x128 ![1] bcast_S128_S1x128_1 : (⟨S128, .f32⟩ : BufTy).Contents (Elt F) → (⟨S1x128, .f32⟩ : BufTy).Contents (Elt F)),
    StableHlo.unary main_v135 main_v136 (broadcastInDim S10000x128 ![0, 1] bcast_S1x128_S10000x128_0_1 : (⟨S1x128, .f32⟩ : BufTy).Contents (Elt F) → (⟨S10000x128, .f32⟩ : BufTy).Contents (Elt F)),
    StableHlo.binary main_v130 main_v136 main_v137 (subf : (⟨S10000x128, .f32⟩ : BufTy).Contents (Elt F) → (⟨S10000x128, .f32⟩ : BufTy).Contents (Elt F) → (⟨S10000x128, .f32⟩ : BufTy).Contents (Elt F)),
    StableHlo.nullary main_cst_37 (constant S_ .f32 0x3727C5AC#32),
    StableHlo.unary main_cst_37 main_v138 (broadcastInDim S128 ![] bcast_S_S128 : (⟨S_, .f32⟩ : BufTy).Contents (Elt F) → (⟨S128, .f32⟩ : BufTy).Contents (Elt F)),
    StableHlo.binary main_v134 main_v138 main_v139 (addf : (⟨S128, .f32⟩ : BufTy).Contents (Elt F) → (⟨S128, .f32⟩ : BufTy).Contents (Elt F) → (⟨S128, .f32⟩ : BufTy).Contents (Elt F)) ]
theorem seg2_4_sub : (seg2_4 : List (HloOp τ sig (Elt F))).Forall fun op => op.bufs ⊆ tcRefs τ sig :=
  ⟨StableHlo.unary_bufs_sub .., StableHlo.unary_bufs_sub .., StableHlo.binary_bufs_sub .., StableHlo.nullary_bufs_sub .., StableHlo.unary_bufs_sub .., StableHlo.binary_bufs_sub ..⟩
theorem seg2_4_fresh : (seg2_4 : List (HloOp τ sig (Elt F))).Forall fun op => op.fresh = ∅ := by
  simp only [List.Forall]; repeat' constructor

/-- Window 2 of @main, its stretches in order. -/
abbrev win2 : List (HloOp τ sig (Elt F)) :=
  seg2_0 ++ (seg2_1 ++ (seg2_2 ++ (seg2_3 ++ (seg2_4))))

/-- Window 3, stretch 0: 10 operations, in order. -/
abbrev seg3_0 : List (HloOp τ sig (Elt F)) :=
  [ StableHlo.unary main_v139 main_v140 (Host.sqrt : (⟨S128, .f32⟩ : BufTy).Contents (Elt F) → (⟨S128, .f32⟩ : BufTy).Contents (Elt F)),
    StableHlo.unary main_v140 main_v141 (broadcastInDim S1x128 ![1] bcast_S128_S1x128_1 : (⟨S128, .f32⟩ : BufTy).Contents (Elt F) → (⟨S1x128, .f32⟩ : BufTy).Contents (Elt F)),
    StableHlo.unary main_v141 main_v142 (broadcastInDim S10000x128 ![0, 1] bcast_S1x128_S10000x128_0_1 : (⟨S1x128, .f32⟩ : BufTy).Contents (Elt F) → (⟨S10000x128, .f32⟩ : BufTy).Contents (Elt F)),
    StableHlo.binary main_v137 main_v142 main_v143 (Host.divf : (⟨S10000x128, .f32⟩ : BufTy).Contents (Elt F) → (⟨S10000x128, .f32⟩ : BufTy).Contents (Elt F) → (⟨S10000x128, .f32⟩ : BufTy).Contents (Elt F)),
    StableHlo.unary main_arg10 main_v144 (broadcastInDim S1x128 ![1] bcast_S128_S1x128_1 : (⟨S128, .f32⟩ : BufTy).Contents (Elt F) → (⟨S1x128, .f32⟩ : BufTy).Contents (Elt F)),
    StableHlo.unary main_v144 main_v145 (broadcastInDim S10000x128 ![0, 1] bcast_S1x128_S10000x128_0_1 : (⟨S1x128, .f32⟩ : BufTy).Contents (Elt F) → (⟨S10000x128, .f32⟩ : BufTy).Contents (Elt F)),
    StableHlo.binary main_v143 main_v145 main_v146 (mulf : (⟨S10000x128, .f32⟩ : BufTy).Contents (Elt F) → (⟨S10000x128, .f32⟩ : BufTy).Contents (Elt F) → (⟨S10000x128, .f32⟩ : BufTy).Contents (Elt F)),
    StableHlo.unary main_arg11 main_v147 (broadcastInDim S1x128 ![1] bcast_S128_S1x128_1 : (⟨S128, .f32⟩ : BufTy).Contents (Elt F) → (⟨S1x128, .f32⟩ : BufTy).Contents (Elt F)),
    StableHlo.unary main_v147 main_v148 (broadcastInDim S10000x128 ![0, 1] bcast_S1x128_S10000x128_0_1 : (⟨S1x128, .f32⟩ : BufTy).Contents (Elt F) → (⟨S10000x128, .f32⟩ : BufTy).Contents (Elt F)),
    StableHlo.binary main_v146 main_v148 main_v149 (addf : (⟨S10000x128, .f32⟩ : BufTy).Contents (Elt F) → (⟨S10000x128, .f32⟩ : BufTy).Contents (Elt F) → (⟨S10000x128, .f32⟩ : BufTy).Contents (Elt F)) ]
theorem seg3_0_sub : (seg3_0 : List (HloOp τ sig (Elt F))).Forall fun op => op.bufs ⊆ tcRefs τ sig :=
  ⟨StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
theorem seg3_0_fresh : (seg3_0 : List (HloOp τ sig (Elt F))).Forall fun op => op.fresh = ∅ := by
  simp only [List.Forall]; repeat' constructor

/-- Window 3, stretch 1: 3 operations, in order. -/
abbrev seg3_1 : List (HloOp τ sig (Elt F)) :=
  [ StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S10000x128, .f32⟩) (broadcastInDim S10000x128 ![] bcast_S_S10000x128),
    StableHlo.TRef.binary (.of main_v149 : StableHlo.TRef sig ⟨S10000x128, .f32⟩) (.of main_call5_v0 : StableHlo.TRef sig ⟨S10000x128, .f32⟩) (.of main_v150 : StableHlo.TRef sig ⟨S10000x128, .f32⟩) maximumf ]
theorem seg3_1_sub : (seg3_1 : List (HloOp τ sig (Elt F))).Forall fun op => op.bufs ⊆ tcRefs τ sig :=
  ⟨StableHlo.nullary_bufs_sub .., StableHlo.unary_bufs_sub .., StableHlo.binary_bufs_sub ..⟩
theorem seg3_1_fresh : (seg3_1 : List (HloOp τ sig (Elt F))).Forall fun op => op.fresh = ∅ := by
  simp only [List.Forall]; repeat' constructor

/-- the third layer's product h · W2, as one operation. -/
abbrev dense3 : HloOp τ sig (Elt F) :=
  StableHlo.binary main_v150 main_arg6 main_v151 ((fun l r => Host.dotGeneral dot_S10000x128_S128x64_S10000x64_1_0_0_1_n_n none l r) : (⟨S10000x128, .f32⟩ : BufTy).Contents (Elt F) → (⟨S128x64, .f32⟩ : BufTy).Contents (Elt F) → (⟨S10000x64, .f32⟩ : BufTy).Contents (Elt F))
theorem dense3_sub : (dense3 : HloOp τ sig (Elt F)).bufs ⊆ tcRefs τ sig := StableHlo.binary_bufs_sub ..

/-- Window 3, stretch 3: 21 operations, in order. -/
abbrev seg3_3 : List (HloOp τ sig (Elt F)) :=
  [ StableHlo.nullary main_cst_38 (constant S_ .f32 0x00000000#32),
    StableHlo.unary main_cst_38 main_v152 (broadcastInDim S10000 ![] bcast_S_S10000 : (⟨S_, .f32⟩ : BufTy).Contents (Elt F) → (⟨S10000, .f32⟩ : BufTy).Contents (Elt F)),
    StableHlo.nullary main_c_39 (constantI S_ 32 0#32),
    StableHlo.unary main_c_39 main_v153 (broadcastInDim S330000 ![] bcast_S_S330000 : (⟨S_, .i32⟩ : BufTy).Contents (Elt F) → (⟨S330000, .i32⟩ : BufTy).Contents (Elt F)),
    StableHlo.binary main_v6 main_v153 main_v154 (cmpi .slt : (⟨S330000, .i32⟩ : BufTy).Contents (Elt F) → (⟨S330000, .i32⟩ : BufTy).Contents (Elt F) → (⟨S330000, .i1⟩ : BufTy).Contents (Elt F)),
    StableHlo.nullary main_c_40 (constantI S_ 32 10000#32),
    StableHlo.unary main_c_40 main_v155 (broadcastInDim S330000 ![] bcast_S_S330000 : (⟨S_, .i32⟩ : BufTy).Contents (Elt F) → (⟨S330000, .i32⟩ : BufTy).Contents (Elt F)),
    StableHlo.binary main_v6 main_v155 main_v156 (addi : (⟨S330000, .i32⟩ : BufTy).Contents (Elt F) → (⟨S330000, .i32⟩ : BufTy).Contents (Elt F) → (⟨S330000, .i32⟩ : BufTy).Contents (Elt F)),
    StableHlo.ternary main_v154 main_v156 main_v6 main_v157 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    StableHlo.unary main_v157 main_v158 (broadcastInDim S330000x1 ![0] bcast_S330000_S330000x1_0 : (⟨S330000, .i32⟩ : BufTy).Contents (Elt F) → (⟨S330000x1, .i32⟩ : BufTy).Contents (Elt F)),
    StableHlo.nullary main_cst_41 (constant S_ .f32 0x3F800000#32),
    StableHlo.unary main_cst_41 main_v159 (broadcastInDim S330000 ![] bcast_S_S330000 : (⟨S_, .f32⟩ : BufTy).Contents (Elt F) → (⟨S330000, .f32⟩ : BufTy).Contents (Elt F)),
    StableHlo.ternary main_v152 main_v158 main_v159 main_v160 ((fun x i u => Host.scatterAdd scatter_S10000_S330000x1_S330000_n_0_0_1 x i u) : (⟨S10000, .f32⟩ : BufTy).Contents (Elt F) → (⟨S330000x1, .i32⟩ : BufTy).Contents (Elt F) → (⟨S330000, .f32⟩ : BufTy).Contents (Elt F) → (⟨S10000, .f32⟩ : BufTy).Contents (Elt F)),
    StableHlo.nullary main_cst_42 (constant S_ .f32 0x00000000#32),
    StableHlo.unary main_cst_42 main_v161 (broadcastInDim S10000 ![] bcast_S_S10000 : (⟨S_, .f32⟩ : BufTy).Contents (Elt F) → (⟨S10000, .f32⟩ : BufTy).Contents (Elt F)),
    StableHlo.binary main_v160 main_v161 main_v162 (cmpf .ogt : (⟨S10000, .f32⟩ : BufTy).Contents (Elt F) → (⟨S10000, .f32⟩ : BufTy).Contents (Elt F) → (⟨S10000, .i1⟩ : BufTy).Contents (Elt F)),
    StableHlo.unary main_v160 main_v163 (Host.sqrt : (⟨S10000, .f32⟩ : BufTy).Contents (Elt F) → (⟨S10000, .f32⟩ : BufTy).Contents (Elt F)),
    StableHlo.nullary main_cst_43 (constant S_ .f32 0x3F800000#32),
    StableHlo.unary main_cst_43 main_v164 (broadcastInDim S10000 ![] bcast_S_S10000 : (⟨S_, .f32⟩ : BufTy).Contents (Elt F) → (⟨S10000, .f32⟩ : BufTy).Contents (Elt F)),
    StableHlo.binary main_v164 main_v163 main_v165 (Host.divf : (⟨S10000, .f32⟩ : BufTy).Contents (Elt F) → (⟨S10000, .f32⟩ : BufTy).Contents (Elt F) → (⟨S10000, .f32⟩ : BufTy).Contents (Elt F)),
    StableHlo.nullary main_cst_44 (constant S_ .f32 0x00000000#32) ]
theorem seg3_3_sub : (seg3_3 : List (HloOp τ sig (Elt F))).Forall fun op => op.bufs ⊆ tcRefs τ sig :=
  ⟨StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub ..⟩
theorem seg3_3_fresh : (seg3_3 : List (HloOp τ sig (Elt F))).Forall fun op => op.fresh = ∅ := by
  simp only [List.Forall]; repeat' constructor

/-- Window 3, stretch 4: 3 operations, in order. -/
abbrev seg3_4 : List (HloOp τ sig (Elt F)) :=
  [ StableHlo.TRef.unary (.of main_cst_44 : StableHlo.TRef sig ⟨S_, .f32⟩) (.of main_call6_v0 : StableHlo.TRef sig ⟨S_, .f32⟩) id,
    StableHlo.TRef.unary (.of main_call6_v0 : StableHlo.TRef sig ⟨S_, .f32⟩) (.of main_call6_v1 : StableHlo.TRef sig ⟨S10000, .f32⟩) (broadcastInDim S10000 ![] bcast_S_S10000),
    StableHlo.TRef.ternary (.of main_v162 : StableHlo.TRef sig ⟨S10000, .i1⟩) (.of main_v165 : StableHlo.TRef sig ⟨S10000, .f32⟩) (.of main_call6_v1 : StableHlo.TRef sig ⟨S10000, .f32⟩) (.of main_v166 : StableHlo.TRef sig ⟨S10000, .f32⟩) select ]
theorem seg3_4_sub : (seg3_4 : List (HloOp τ sig (Elt F))).Forall fun op => op.bufs ⊆ tcRefs τ sig :=
  ⟨StableHlo.unary_bufs_sub .., StableHlo.unary_bufs_sub .., StableHlo.ternary_bufs_sub ..⟩
theorem seg3_4_fresh : (seg3_4 : List (HloOp τ sig (Elt F))).Forall fun op => op.fresh = ∅ := by
  simp only [List.Forall]; repeat' constructor

/-- Window 3, stretch 5: 26 operations, in order. -/
abbrev seg3_5 : List (HloOp τ sig (Elt F)) :=
  [ StableHlo.nullary main_c_45 (constantI S_ 32 0#32),
    StableHlo.unary main_c_45 main_v167 (broadcastInDim S330000 ![] bcast_S_S330000 : (⟨S_, .i32⟩ : BufTy).Contents (Elt F) → (⟨S330000, .i32⟩ : BufTy).Contents (Elt F)),
    StableHlo.binary main_v3 main_v167 main_v168 (cmpi .slt : (⟨S330000, .i32⟩ : BufTy).Contents (Elt F) → (⟨S330000, .i32⟩ : BufTy).Contents (Elt F) → (⟨S330000, .i1⟩ : BufTy).Contents (Elt F)),
    StableHlo.nullary main_c_46 (constantI S_ 32 10000#32),
    StableHlo.unary main_c_46 main_v169 (broadcastInDim S330000 ![] bcast_S_S330000 : (⟨S_, .i32⟩ : BufTy).Contents (Elt F) → (⟨S330000, .i32⟩ : BufTy).Contents (Elt F)),
    StableHlo.binary main_v3 main_v169 main_v170 (addi : (⟨S330000, .i32⟩ : BufTy).Contents (Elt F) → (⟨S330000, .i32⟩ : BufTy).Contents (Elt F) → (⟨S330000, .i32⟩ : BufTy).Contents (Elt F)),
    StableHlo.ternary main_v168 main_v170 main_v3 main_v171 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    StableHlo.unary main_v171 main_v172 (broadcastInDim S330000x1 ![0] bcast_S330000_S330000x1_0 : (⟨S330000, .i32⟩ : BufTy).Contents (Elt F) → (⟨S330000x1, .i32⟩ : BufTy).Contents (Elt F)),
    StableHlo.binary main_v166 main_v172 main_v173 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F)),
    StableHlo.nullary main_c_47 (constantI S_ 32 0#32),
    StableHlo.unary main_c_47 main_v174 (broadcastInDim S330000 ![] bcast_S_S330000 : (⟨S_, .i32⟩ : BufTy).Contents (Elt F) → (⟨S330000, .i32⟩ : BufTy).Contents (Elt F)),
    StableHlo.binary main_v6 main_v174 main_v175 (cmpi .slt : (⟨S330000, .i32⟩ : BufTy).Contents (Elt F) → (⟨S330000, .i32⟩ : BufTy).Contents (Elt F) → (⟨S330000, .i1⟩ : BufTy).Contents (Elt F)),
    StableHlo.nullary main_c_48 (constantI S_ 32 10000#32),
    StableHlo.unary main_c_48 main_v176 (broadcastInDim S330000 ![] bcast_S_S330000 : (⟨S_, .i32⟩ : BufTy).Contents (Elt F) → (⟨S330000, .i32⟩ : BufTy).Contents (Elt F)),
    StableHlo.binary main_v6 main_v176 main_v177 (addi : (⟨S330000, .i32⟩ : BufTy).Contents (Elt F) → (⟨S330000, .i32⟩ : BufTy).Contents (Elt F) → (⟨S330000, .i32⟩ : BufTy).Contents (Elt F)),
    StableHlo.ternary main_v175 main_v177 main_v6 main_v178 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    StableHlo.unary main_v178 main_v179 (broadcastInDim S330000x1 ![0] bcast_S330000_S330000x1_0 : (⟨S330000, .i32⟩ : BufTy).Contents (Elt F) → (⟨S330000x1, .i32⟩ : BufTy).Contents (Elt F)),
    StableHlo.binary main_v166 main_v179 main_v180 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F)),
    StableHlo.binary main_v173 main_v180 main_v181 (mulf : (⟨S330000, .f32⟩ : BufTy).Contents (Elt F) → (⟨S330000, .f32⟩ : BufTy).Contents (Elt F) → (⟨S330000, .f32⟩ : BufTy).Contents (Elt F)),
    StableHlo.nullary main_c_49 (constantI S_ 32 0#32),
    StableHlo.unary main_c_49 main_v182 (broadcastInDim S330000 ![] bcast_S_S330000 : (⟨S_, .i32⟩ : BufTy).Contents (Elt F) → (⟨S330000, .i32⟩ : BufTy).Contents (Elt F)),
    StableHlo.binary main_v3 main_v182 main_v183 (cmpi .slt : (⟨S330000, .i32⟩ : BufTy).Contents (Elt F) → (⟨S330000, .i32⟩ : BufTy).Contents (Elt F) → (⟨S330000, .i1⟩ : BufTy).Contents (Elt F)),
    StableHlo.nullary main_c_50 (constantI S_ 32 10000#32),
    StableHlo.unary main_c_50 main_v184 (broadcastInDim S330000 ![] bcast_S_S330000 : (⟨S_, .i32⟩ : BufTy).Contents (Elt F) → (⟨S330000, .i32⟩ : BufTy).Contents (Elt F)),
    StableHlo.binary main_v3 main_v184 main_v185 (addi : (⟨S330000, .i32⟩ : BufTy).Contents (Elt F) → (⟨S330000, .i32⟩ : BufTy).Contents (Elt F) → (⟨S330000, .i32⟩ : BufTy).Contents (Elt F)),
    StableHlo.ternary main_v183 main_v185 main_v3 main_v186 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)) ]
theorem seg3_5_sub : (seg3_5 : List (HloOp τ sig (Elt F))).Forall fun op => op.bufs ⊆ tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub ..⟩
theorem seg3_5_fresh : (seg3_5 : List (HloOp τ sig (Elt F))).Forall fun op => op.fresh = ∅ := by
  simp only [List.Forall]; repeat' constructor

/-- Window 3 of @main, its stretches in order. -/
abbrev win3 : List (HloOp τ sig (Elt F)) :=
  seg3_0 ++ (seg3_1 ++ ([dense3] ++ (seg3_3 ++ (seg3_4 ++ (seg3_5)))))

/-- Window 4, stretch 0: 25 operations, in order. -/
abbrev seg4_0 : List (HloOp τ sig (Elt F)) :=
  [ StableHlo.unary main_v186 main_v187 (broadcastInDim S330000x1 ![0] bcast_S330000_S330000x1_0 : (⟨S330000, .i32⟩ : BufTy).Contents (Elt F) → (⟨S330000x1, .i32⟩ : BufTy).Contents (Elt F)),
    StableHlo.binary main_v151 main_v187 main_v188 ((fun x i => Host.gather gather_S10000x64_S330000x1_S330000x64_1_0_n_n_0_1_164 x i) : (⟨S10000x64, .f32⟩ : BufTy).Contents (Elt F) → (⟨S330000x1, .i32⟩ : BufTy).Contents (Elt F) → (⟨S330000x64, .f32⟩ : BufTy).Contents (Elt F)),
    StableHlo.unary main_v181 main_v189 (broadcastInDim S330000x1 ![0] bcast_S330000_S330000x1_0 : (⟨S330000, .f32⟩ : BufTy).Contents (Elt F) → (⟨S330000x1, .f32⟩ : BufTy).Contents (Elt F)),
    StableHlo.unary main_v189 main_v190 (broadcastInDim S330000x64 ![0, 1] bcast_S330000x1_S330000x64_0_1 : (⟨S330000x1, .f32⟩ : BufTy).Contents (Elt F) → (⟨S330000x64, .f32⟩ : BufTy).Contents (Elt F)),
    StableHlo.binary main_v188 main_v190 main_v191 (mulf : (⟨S330000x64, .f32⟩ : BufTy).Contents (Elt F) → (⟨S330000x64, .f32⟩ : BufTy).Contents (Elt F) → (⟨S330000x64, .f32⟩ : BufTy).Contents (Elt F)),
    StableHlo.nullary main_cst_51 (constant S_ .f32 0x00000000#32),
    StableHlo.unary main_cst_51 main_v192 (broadcastInDim S10000x64 ![] bcast_S_S10000x64 : (⟨S_, .f32⟩ : BufTy).Contents (Elt F) → (⟨S10000x64, .f32⟩ : BufTy).Contents (Elt F)),
    StableHlo.nullary main_c_52 (constantI S_ 32 0#32),
    StableHlo.unary main_c_52 main_v193 (broadcastInDim S330000 ![] bcast_S_S330000 : (⟨S_, .i32⟩ : BufTy).Contents (Elt F) → (⟨S330000, .i32⟩ : BufTy).Contents (Elt F)),
    StableHlo.binary main_v6 main_v193 main_v194 (cmpi .slt : (⟨S330000, .i32⟩ : BufTy).Contents (Elt F) → (⟨S330000, .i32⟩ : BufTy).Contents (Elt F) → (⟨S330000, .i1⟩ : BufTy).Contents (Elt F)),
    StableHlo.nullary main_c_53 (constantI S_ 32 10000#32),
    StableHlo.unary main_c_53 main_v195 (broadcastInDim S330000 ![] bcast_S_S330000 : (⟨S_, .i32⟩ : BufTy).Contents (Elt F) → (⟨S330000, .i32⟩ : BufTy).Contents (Elt F)),
    StableHlo.binary main_v6 main_v195 main_v196 (addi : (⟨S330000, .i32⟩ : BufTy).Contents (Elt F) → (⟨S330000, .i32⟩ : BufTy).Contents (Elt F) → (⟨S330000, .i32⟩ : BufTy).Contents (Elt F)),
    StableHlo.ternary main_v194 main_v196 main_v6 main_v197 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    StableHlo.unary main_v197 main_v198 (broadcastInDim S330000x1 ![0] bcast_S330000_S330000x1_0 : (⟨S330000, .i32⟩ : BufTy).Contents (Elt F) → (⟨S330000x1, .i32⟩ : BufTy).Contents (Elt F)),
    StableHlo.ternary main_v192 main_v198 main_v191 main_v199 ((fun x i u => Host.scatterAdd scatter_S10000x64_S330000x1_S330000x64_1_0_0_1 x i u) : (⟨S10000x64, .f32⟩ : BufTy).Contents (Elt F) → (⟨S330000x1, .i32⟩ : BufTy).Contents (Elt F) → (⟨S330000x64, .f32⟩ : BufTy).Contents (Elt F) → (⟨S10000x64, .f32⟩ : BufTy).Contents (Elt F)),
    StableHlo.unary main_arg7 main_v200 (broadcastInDim S1x64 ![1] bcast_S64_S1x64_1 : (⟨S64, .f32⟩ : BufTy).Contents (Elt F) → (⟨S1x64, .f32⟩ : BufTy).Contents (Elt F)),
    StableHlo.unary main_v200 main_v201 (broadcastInDim S10000x64 ![0, 1] bcast_S1x64_S10000x64_0_1 : (⟨S1x64, .f32⟩ : BufTy).Contents (Elt F) → (⟨S10000x64, .f32⟩ : BufTy).Contents (Elt F)),
    StableHlo.binary main_v199 main_v201 main_v202 (addf : (⟨S10000x64, .f32⟩ : BufTy).Contents (Elt F) → (⟨S10000x64, .f32⟩ : BufTy).Contents (Elt F) → (⟨S10000x64, .f32⟩ : BufTy).Contents (Elt F)),
    StableHlo.nullary main_cst_54 (constant S_ .f32 0x00000000#32),
    StableHlo.binary main_v202 main_cst_54 main_v203 ((fun x v => Host.reduceAdd x v reducesTo_S10000x64_S64_d0 h_S_) : (⟨S10000x64, .f32⟩ : BufTy).Contents (Elt F) → (⟨S_, .f32⟩ : BufTy).Contents (Elt F) → (⟨S64, .f32⟩ : BufTy).Contents (Elt F)),
    StableHlo.nullary main_cst_55 (constant S_ .f32 0x461C4000#32),
    StableHlo.unary main_cst_55 main_v204 (broadcastInDim S64 ![] bcast_S_S64 : (⟨S_, .f32⟩ : BufTy).Contents (Elt F) → (⟨S64, .f32⟩ : BufTy).Contents (Elt F)),
    StableHlo.binary main_v203 main_v204 main_v205 (Host.divf : (⟨S64, .f32⟩ : BufTy).Contents (Elt F) → (⟨S64, .f32⟩ : BufTy).Contents (Elt F) → (⟨S64, .f32⟩ : BufTy).Contents (Elt F)),
    StableHlo.nullary main_c_56 (constantI S_ 32 0#32) ]
theorem seg4_0_sub : (seg4_0 : List (HloOp τ sig (Elt F))).Forall fun op => op.bufs ⊆ tcRefs τ sig :=
  ⟨StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub ..⟩
theorem seg4_0_fresh : (seg4_0 : List (HloOp τ sig (Elt F))).Forall fun op => op.fresh = ∅ := by
  simp only [List.Forall]; repeat' constructor

/-- Window 4, stretch 1: 22 operations, in order. -/
abbrev seg4_1 : List (HloOp τ sig (Elt F)) :=
  [ StableHlo.TRef.nullary (.of main_call7_cst : StableHlo.TRef sig ⟨S_, .f32⟩) (constant S_ .f32 0x00000000#32),
    StableHlo.TRef.binary (.of main_v202 : StableHlo.TRef sig ⟨S10000x64, .f32⟩) (.of main_call7_cst : StableHlo.TRef sig ⟨S_, .f32⟩) (.of main_call7_v0 : StableHlo.TRef sig ⟨S64, .f32⟩) (fun x v => Host.reduceAdd x v reducesTo_S10000x64_S64_d0 h_S_),
    StableHlo.TRef.unary (.of main_call7_v0 : StableHlo.TRef sig ⟨S64, .f32⟩) (.of main_call7_v1 : StableHlo.TRef sig ⟨S1x64, .f32⟩) (broadcastInDim S1x64 ![1] bcast_S64_S1x64_1),
    StableHlo.TRef.nullary (.of main_call7_cst_0 : StableHlo.TRef sig ⟨S_, .f32⟩) (constant S_ .f32 0x461C4000#32),
    StableHlo.TRef.unary (.of main_call7_cst_0 : StableHlo.TRef sig ⟨S_, .f32⟩) (.of main_call7_v2 : StableHlo.TRef sig ⟨S1x64, .f32⟩) (broadcastInDim S1x64 ![] bcast_S_S1x64),
    StableHlo.TRef.binary (.of main_call7_v1 : StableHlo.TRef sig ⟨S1x64, .f32⟩) (.of main_call7_v2 : StableHlo.TRef sig ⟨S1x64, .f32⟩) (.of main_call7_v3 : StableHlo.TRef sig ⟨S1x64, .f32⟩) Host.divf,
    StableHlo.TRef.unary (.of main_call7_v3 : StableHlo.TRef sig ⟨S1x64, .f32⟩) (.of main_call7_v4 : StableHlo.TRef sig ⟨S10000x64, .f32⟩) (broadcastInDim S10000x64 ![0, 1] bcast_S1x64_S10000x64_0_1),
    StableHlo.TRef.binary (.of main_v202 : StableHlo.TRef sig ⟨S10000x64, .f32⟩) (.of main_call7_v4 : StableHlo.TRef sig ⟨S10000x64, .f32⟩) (.of main_call7_v5 : StableHlo.TRef sig ⟨S10000x64, .f32⟩) subf,
    StableHlo.TRef.binary (.of main_call7_v5 : StableHlo.TRef sig ⟨S10000x64, .f32⟩) (.of main_call7_v5 : StableHlo.TRef sig ⟨S10000x64, .f32⟩) (.of main_call7_v6 : StableHlo.TRef sig ⟨S10000x64, .f32⟩) mulf,
    StableHlo.TRef.unary (.of main_c_56 : StableHlo.TRef sig ⟨S_, .i32⟩) (.of main_call7_v7 : StableHlo.TRef sig ⟨S_, .f32⟩) (sitofp .f32),
    StableHlo.TRef.nullary (.of main_call7_cst_1 : StableHlo.TRef sig ⟨S_, .f32⟩) (constant S_ .f32 0x461C4000#32),
    StableHlo.TRef.binary (.of main_call7_cst_1 : StableHlo.TRef sig ⟨S_, .f32⟩) (.of main_call7_v7 : StableHlo.TRef sig ⟨S_, .f32⟩) (.of main_call7_v8 : StableHlo.TRef sig ⟨S_, .f32⟩) subf,
    StableHlo.TRef.nullary (.of main_call7_cst_2 : StableHlo.TRef sig ⟨S_, .f32⟩) (constant S_ .f32 0x00000000#32),
    StableHlo.TRef.binary (.of main_call7_v6 : StableHlo.TRef sig ⟨S10000x64, .f32⟩) (.of main_call7_cst_2 : StableHlo.TRef sig ⟨S_, .f32⟩) (.of main_call7_v9 : StableHlo.TRef sig ⟨S64, .f32⟩) (fun x v => Host.reduceAdd x v reducesTo_S10000x64_S64_d0 h_S_),
    StableHlo.TRef.unary (.of main_call7_v8 : StableHlo.TRef sig ⟨S_, .f32⟩) (.of main_call7_v10 : StableHlo.TRef sig ⟨S64, .f32⟩) (broadcastInDim S64 ![] bcast_S_S64),
    StableHlo.TRef.binary (.of main_call7_v9 : StableHlo.TRef sig ⟨S64, .f32⟩) (.of main_call7_v10 : StableHlo.TRef sig ⟨S64, .f32⟩) (.of main_call7_v11 : StableHlo.TRef sig ⟨S64, .f32⟩) Host.divf,
    StableHlo.TRef.nullary (.of main_call7_cst_3 : StableHlo.TRef sig ⟨S_, .f32⟩) (constant S_ .f32 0x00000000#32),
    StableHlo.TRef.binary (.of main_call7_v8 : StableHlo.TRef sig ⟨S_, .f32⟩) (.of main_call7_cst_3 : StableHlo.TRef sig ⟨S_, .f32⟩) (.of main_call7_v12 : StableHlo.TRef sig ⟨S_, .i1⟩) (cmpf .ogt),
    StableHlo.TRef.nullary (.of main_call7_cst_4 : StableHlo.TRef sig ⟨S_, .f32⟩) (constant S_ .f32 0x7FC00000#32),
    StableHlo.TRef.unary (.of main_call7_cst_4 : StableHlo.TRef sig ⟨S_, .f32⟩) (.of main_call7_call0_v0 : StableHlo.TRef sig ⟨S_, .f32⟩) id,
    StableHlo.TRef.unary (.of main_call7_call0_v0 : StableHlo.TRef sig ⟨S_, .f32⟩) (.of main_call7_call0_v1 : StableHlo.TRef sig ⟨S64, .f32⟩) (broadcastInDim S64 ![] bcast_S_S64),
    StableHlo.TRef.ternary (.of main_call7_v12 : StableHlo.TRef sig ⟨S_, .i1⟩) (.of main_call7_v11 : StableHlo.TRef sig ⟨S64, .f32⟩) (.of main_call7_call0_v1 : StableHlo.TRef sig ⟨S64, .f32⟩) (.of main_v206 : StableHlo.TRef sig ⟨S64, .f32⟩) (fun p a b => select (broadcastInDim S64 ![] bcast_S_S64 p) a b) ]
theorem seg4_1_sub : (seg4_1 : List (HloOp τ sig (Elt F))).Forall fun op => op.bufs ⊆ tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
theorem seg4_1_fresh : (seg4_1 : List (HloOp τ sig (Elt F))).Forall fun op => op.fresh = ∅ := by
  simp only [List.Forall]; repeat' constructor

/-- Window 4, stretch 2: 25 operations, in order. -/
abbrev seg4_2 : List (HloOp τ sig (Elt F)) :=
  [ StableHlo.unary main_v205 main_v207 (broadcastInDim S1x64 ![1] bcast_S64_S1x64_1 : (⟨S64, .f32⟩ : BufTy).Contents (Elt F) → (⟨S1x64, .f32⟩ : BufTy).Contents (Elt F)),
    StableHlo.unary main_v207 main_v208 (broadcastInDim S10000x64 ![0, 1] bcast_S1x64_S10000x64_0_1 : (⟨S1x64, .f32⟩ : BufTy).Contents (Elt F) → (⟨S10000x64, .f32⟩ : BufTy).Contents (Elt F)),
    StableHlo.binary main_v202 main_v208 main_v209 (subf : (⟨S10000x64, .f32⟩ : BufTy).Contents (Elt F) → (⟨S10000x64, .f32⟩ : BufTy).Contents (Elt F) → (⟨S10000x64, .f32⟩ : BufTy).Contents (Elt F)),
    StableHlo.nullary main_cst_57 (constant S_ .f32 0x3727C5AC#32),
    StableHlo.unary main_cst_57 main_v210 (broadcastInDim S64 ![] bcast_S_S64 : (⟨S_, .f32⟩ : BufTy).Contents (Elt F) → (⟨S64, .f32⟩ : BufTy).Contents (Elt F)),
    StableHlo.binary main_v206 main_v210 main_v211 (addf : (⟨S64, .f32⟩ : BufTy).Contents (Elt F) → (⟨S64, .f32⟩ : BufTy).Contents (Elt F) → (⟨S64, .f32⟩ : BufTy).Contents (Elt F)),
    StableHlo.unary main_v211 main_v212 (Host.sqrt : (⟨S64, .f32⟩ : BufTy).Contents (Elt F) → (⟨S64, .f32⟩ : BufTy).Contents (Elt F)),
    StableHlo.unary main_v212 main_v213 (broadcastInDim S1x64 ![1] bcast_S64_S1x64_1 : (⟨S64, .f32⟩ : BufTy).Contents (Elt F) → (⟨S1x64, .f32⟩ : BufTy).Contents (Elt F)),
    StableHlo.unary main_v213 main_v214 (broadcastInDim S10000x64 ![0, 1] bcast_S1x64_S10000x64_0_1 : (⟨S1x64, .f32⟩ : BufTy).Contents (Elt F) → (⟨S10000x64, .f32⟩ : BufTy).Contents (Elt F)),
    StableHlo.binary main_v209 main_v214 main_v215 (Host.divf : (⟨S10000x64, .f32⟩ : BufTy).Contents (Elt F) → (⟨S10000x64, .f32⟩ : BufTy).Contents (Elt F) → (⟨S10000x64, .f32⟩ : BufTy).Contents (Elt F)),
    StableHlo.unary main_arg12 main_v216 (broadcastInDim S1x64 ![1] bcast_S64_S1x64_1 : (⟨S64, .f32⟩ : BufTy).Contents (Elt F) → (⟨S1x64, .f32⟩ : BufTy).Contents (Elt F)),
    StableHlo.unary main_v216 main_v217 (broadcastInDim S10000x64 ![0, 1] bcast_S1x64_S10000x64_0_1 : (⟨S1x64, .f32⟩ : BufTy).Contents (Elt F) → (⟨S10000x64, .f32⟩ : BufTy).Contents (Elt F)),
    StableHlo.binary main_v215 main_v217 main_v218 (mulf : (⟨S10000x64, .f32⟩ : BufTy).Contents (Elt F) → (⟨S10000x64, .f32⟩ : BufTy).Contents (Elt F) → (⟨S10000x64, .f32⟩ : BufTy).Contents (Elt F)),
    StableHlo.unary main_arg13 main_v219 (broadcastInDim S1x64 ![1] bcast_S64_S1x64_1 : (⟨S64, .f32⟩ : BufTy).Contents (Elt F) → (⟨S1x64, .f32⟩ : BufTy).Contents (Elt F)),
    StableHlo.unary main_v219 main_v220 (broadcastInDim S10000x64 ![0, 1] bcast_S1x64_S10000x64_0_1 : (⟨S1x64, .f32⟩ : BufTy).Contents (Elt F) → (⟨S10000x64, .f32⟩ : BufTy).Contents (Elt F)),
    StableHlo.binary main_v218 main_v220 main_v221 (addf : (⟨S10000x64, .f32⟩ : BufTy).Contents (Elt F) → (⟨S10000x64, .f32⟩ : BufTy).Contents (Elt F) → (⟨S10000x64, .f32⟩ : BufTy).Contents (Elt F)),
    StableHlo.nullary main_cst_58 (constant S_ .f32 0x00000000#32),
    StableHlo.binary main_v221 main_cst_58 main_v222 ((fun x v => Host.reduceAdd x v reducesTo_S10000x64_S64_d0 h_S_) : (⟨S10000x64, .f32⟩ : BufTy).Contents (Elt F) → (⟨S_, .f32⟩ : BufTy).Contents (Elt F) → (⟨S64, .f32⟩ : BufTy).Contents (Elt F)),
    StableHlo.unary main_v222 main_v223 (broadcastInDim S1x64 ![1] bcast_S64_S1x64_1 : (⟨S64, .f32⟩ : BufTy).Contents (Elt F) → (⟨S1x64, .f32⟩ : BufTy).Contents (Elt F)),
    StableHlo.nullary main_cst_59 (constant S_ .f32 0x461C4000#32),
    StableHlo.unary main_cst_59 main_v224 (broadcastInDim S1x64 ![] bcast_S_S1x64 : (⟨S_, .f32⟩ : BufTy).Contents (Elt F) → (⟨S1x64, .f32⟩ : BufTy).Contents (Elt F)),
    StableHlo.binary main_v223 main_v224 main_v225 (Host.divf : (⟨S1x64, .f32⟩ : BufTy).Contents (Elt F) → (⟨S1x64, .f32⟩ : BufTy).Contents (Elt F) → (⟨S1x64, .f32⟩ : BufTy).Contents (Elt F)),
    StableHlo.binary main_v225 main_arg14 main_v226 ((fun l r => Host.dotGeneral dot_S1x64_S64x32_S1x32_1_0_0_1_n_n none l r) : (⟨S1x64, .f32⟩ : BufTy).Contents (Elt F) → (⟨S64x32, .f32⟩ : BufTy).Contents (Elt F) → (⟨S1x32, .f32⟩ : BufTy).Contents (Elt F)),
    StableHlo.unary main_arg15 main_v227 (broadcastInDim S1x32 ![1] bcast_S32_S1x32_1 : (⟨S32, .f32⟩ : BufTy).Contents (Elt F) → (⟨S1x32, .f32⟩ : BufTy).Contents (Elt F)),
    StableHlo.binary main_v226 main_v227 main_v228 (addf : (⟨S1x32, .f32⟩ : BufTy).Contents (Elt F) → (⟨S1x32, .f32⟩ : BufTy).Contents (Elt F) → (⟨S1x32, .f32⟩ : BufTy).Contents (Elt F)) ]
theorem seg4_2_sub : (seg4_2 : List (HloOp τ sig (Elt F))).Forall fun op => op.bufs ⊆ tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.binary_bufs_sub .., StableHlo.unary_bufs_sub .., StableHlo.binary_bufs_sub ..⟩
theorem seg4_2_fresh : (seg4_2 : List (HloOp τ sig (Elt F))).Forall fun op => op.fresh = ∅ := by
  simp only [List.Forall]; repeat' constructor

/-- Window 4, stretch 3: 3 operations, in order. -/
abbrev seg4_3 : List (HloOp τ sig (Elt F)) :=
  [ StableHlo.TRef.nullary (.of main_call8_cst : StableHlo.TRef sig ⟨S_, .f32⟩) (constant S_ .f32 0x00000000#32),
    StableHlo.TRef.unary (.of main_call8_cst : StableHlo.TRef sig ⟨S_, .f32⟩) (.of main_call8_v0 : StableHlo.TRef sig ⟨S1x32, .f32⟩) (broadcastInDim S1x32 ![] bcast_S_S1x32),
    StableHlo.TRef.binary (.of main_v228 : StableHlo.TRef sig ⟨S1x32, .f32⟩) (.of main_call8_v0 : StableHlo.TRef sig ⟨S1x32, .f32⟩) (.of main_v229 : StableHlo.TRef sig ⟨S1x32, .f32⟩) maximumf ]
theorem seg4_3_sub : (seg4_3 : List (HloOp τ sig (Elt F))).Forall fun op => op.bufs ⊆ tcRefs τ sig :=
  ⟨StableHlo.nullary_bufs_sub .., StableHlo.unary_bufs_sub .., StableHlo.binary_bufs_sub ..⟩
theorem seg4_3_fresh : (seg4_3 : List (HloOp τ sig (Elt F))).Forall fun op => op.fresh = ∅ := by
  simp only [List.Forall]; repeat' constructor

/-- Window 4, stretch 4: 6 operations, in order. -/
abbrev seg4_4 : List (HloOp τ sig (Elt F)) :=
  [ StableHlo.binary main_v229 main_arg16 main_v230 ((fun l r => Host.dotGeneral dot_S1x32_S32x10_S1x10_1_0_0_1_n_n none l r) : (⟨S1x32, .f32⟩ : BufTy).Contents (Elt F) → (⟨S32x10, .f32⟩ : BufTy).Contents (Elt F) → (⟨S1x10, .f32⟩ : BufTy).Contents (Elt F)),
    StableHlo.unary main_arg17 main_v231 (broadcastInDim S1x10 ![1] bcast_S10_S1x10_1 : (⟨S10, .f32⟩ : BufTy).Contents (Elt F) → (⟨S1x10, .f32⟩ : BufTy).Contents (Elt F)),
    StableHlo.binary main_v230 main_v231 main_v232 (addf : (⟨S1x10, .f32⟩ : BufTy).Contents (Elt F) → (⟨S1x10, .f32⟩ : BufTy).Contents (Elt F) → (⟨S1x10, .f32⟩ : BufTy).Contents (Elt F)),
    StableHlo.binary main_v225 main_arg18 main_v233 ((fun l r => Host.dotGeneral dot_S1x64_S64x32_S1x32_1_0_0_1_n_n none l r) : (⟨S1x64, .f32⟩ : BufTy).Contents (Elt F) → (⟨S64x32, .f32⟩ : BufTy).Contents (Elt F) → (⟨S1x32, .f32⟩ : BufTy).Contents (Elt F)),
    StableHlo.unary main_arg19 main_v234 (broadcastInDim S1x32 ![1] bcast_S32_S1x32_1 : (⟨S32, .f32⟩ : BufTy).Contents (Elt F) → (⟨S1x32, .f32⟩ : BufTy).Contents (Elt F)),
    StableHlo.binary main_v233 main_v234 main_v235 (addf : (⟨S1x32, .f32⟩ : BufTy).Contents (Elt F) → (⟨S1x32, .f32⟩ : BufTy).Contents (Elt F) → (⟨S1x32, .f32⟩ : BufTy).Contents (Elt F)) ]
theorem seg4_4_sub : (seg4_4 : List (HloOp τ sig (Elt F))).Forall fun op => op.bufs ⊆ tcRefs τ sig :=
  ⟨StableHlo.binary_bufs_sub .., StableHlo.unary_bufs_sub .., StableHlo.binary_bufs_sub .., StableHlo.binary_bufs_sub .., StableHlo.unary_bufs_sub .., StableHlo.binary_bufs_sub ..⟩
theorem seg4_4_fresh : (seg4_4 : List (HloOp τ sig (Elt F))).Forall fun op => op.fresh = ∅ := by
  simp only [List.Forall]; repeat' constructor

/-- Window 4, stretch 5: 3 operations, in order. -/
abbrev seg4_5 : List (HloOp τ sig (Elt F)) :=
  [ StableHlo.TRef.nullary (.of main_call9_cst : StableHlo.TRef sig ⟨S_, .f32⟩) (constant S_ .f32 0x00000000#32),
    StableHlo.TRef.unary (.of main_call9_cst : StableHlo.TRef sig ⟨S_, .f32⟩) (.of main_call9_v0 : StableHlo.TRef sig ⟨S1x32, .f32⟩) (broadcastInDim S1x32 ![] bcast_S_S1x32),
    StableHlo.TRef.binary (.of main_v235 : StableHlo.TRef sig ⟨S1x32, .f32⟩) (.of main_call9_v0 : StableHlo.TRef sig ⟨S1x32, .f32⟩) (.of main_v236 : StableHlo.TRef sig ⟨S1x32, .f32⟩) maximumf ]
theorem seg4_5_sub : (seg4_5 : List (HloOp τ sig (Elt F))).Forall fun op => op.bufs ⊆ tcRefs τ sig :=
  ⟨StableHlo.nullary_bufs_sub .., StableHlo.unary_bufs_sub .., StableHlo.binary_bufs_sub ..⟩
theorem seg4_5_fresh : (seg4_5 : List (HloOp τ sig (Elt F))).Forall fun op => op.fresh = ∅ := by
  simp only [List.Forall]; repeat' constructor

/-- Window 4, stretch 6: 1 operations, in order. -/
abbrev seg4_6 : List (HloOp τ sig (Elt F)) :=
  [ StableHlo.binary main_v236 main_arg20 main_v237 ((fun l r => Host.dotGeneral dot_S1x32_S32x1_S1x1_1_0_0_1_n_n none l r) : (⟨S1x32, .f32⟩ : BufTy).Contents (Elt F) → (⟨S32x1, .f32⟩ : BufTy).Contents (Elt F) → (⟨S1x1, .f32⟩ : BufTy).Contents (Elt F)) ]
theorem seg4_6_sub : (seg4_6 : List (HloOp τ sig (Elt F))).Forall fun op => op.bufs ⊆ tcRefs τ sig :=
  StableHlo.binary_bufs_sub ..
theorem seg4_6_fresh : (seg4_6 : List (HloOp τ sig (Elt F))).Forall fun op => op.fresh = ∅ := by
  simp only [List.Forall]; repeat' constructor

/-- Window 4 of @main, its stretches in order. -/
abbrev win4 : List (HloOp τ sig (Elt F)) :=
  seg4_0 ++ (seg4_1 ++ (seg4_2 ++ (seg4_3 ++ (seg4_4 ++ (seg4_5 ++ (seg4_6))))))

/-- Window 5, stretch 0: 10 operations, in order. -/
abbrev seg5_0 : List (HloOp τ sig (Elt F)) :=
  [ StableHlo.unary main_arg21 main_v238 (broadcastInDim S1x1 ![1] bcast_S1_S1x1_1 : (⟨S1, .f32⟩ : BufTy).Contents (Elt F) → (⟨S1x1, .f32⟩ : BufTy).Contents (Elt F)),
    StableHlo.binary main_v237 main_v238 main_v239 (addf : (⟨S1x1, .f32⟩ : BufTy).Contents (Elt F) → (⟨S1x1, .f32⟩ : BufTy).Contents (Elt F) → (⟨S1x1, .f32⟩ : BufTy).Contents (Elt F)),
    StableHlo.unary main_v239 main_v240 (Host.negf : (⟨S1x1, .f32⟩ : BufTy).Contents (Elt F) → (⟨S1x1, .f32⟩ : BufTy).Contents (Elt F)),
    StableHlo.unary main_v240 main_v241 (Host.exp : (⟨S1x1, .f32⟩ : BufTy).Contents (Elt F) → (⟨S1x1, .f32⟩ : BufTy).Contents (Elt F)),
    StableHlo.nullary main_cst_60 (constant S_ .f32 0x3F800000#32),
    StableHlo.unary main_cst_60 main_v242 (broadcastInDim S1x1 ![] bcast_S_S1x1 : (⟨S_, .f32⟩ : BufTy).Contents (Elt F) → (⟨S1x1, .f32⟩ : BufTy).Contents (Elt F)),
    StableHlo.binary main_v242 main_v241 main_v243 (addf : (⟨S1x1, .f32⟩ : BufTy).Contents (Elt F) → (⟨S1x1, .f32⟩ : BufTy).Contents (Elt F) → (⟨S1x1, .f32⟩ : BufTy).Contents (Elt F)),
    StableHlo.nullary main_cst_61 (constant S_ .f32 0x3F800000#32),
    StableHlo.unary main_cst_61 main_v244 (broadcastInDim S1x1 ![] bcast_S_S1x1 : (⟨S_, .f32⟩ : BufTy).Contents (Elt F) → (⟨S1x1, .f32⟩ : BufTy).Contents (Elt F)),
    StableHlo.binary main_v244 main_v243 main_v245 (Host.divf : (⟨S1x1, .f32⟩ : BufTy).Contents (Elt F) → (⟨S1x1, .f32⟩ : BufTy).Contents (Elt F) → (⟨S1x1, .f32⟩ : BufTy).Contents (Elt F)) ]
theorem seg5_0_sub : (seg5_0 : List (HloOp τ sig (Elt F))).Forall fun op => op.bufs ⊆ tcRefs τ sig :=
  ⟨StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub ..⟩
theorem seg5_0_fresh : (seg5_0 : List (HloOp τ sig (Elt F))).Forall fun op => op.fresh = ∅ := by
  simp only [List.Forall]; repeat' constructor

/-- Window 5 of @main, its stretches in order. -/
abbrev win5 : List (HloOp τ sig (Elt F)) :=
  seg5_0

end Cert.ReferenceIdeal.Line

end
-- ==== Proof.RefRun.lean ====
/-
  The reference program's run: @main is the straight line of its host operations (window by window, each window by
  unfolding), so every weakly fair execution terminates and leaves every buffer at the fold of the operations' results
  over the launch contents.
-/
import proofs.«113664_g84653805404492_cont_sun_m_127_42_alg».proof.Proof.RefOps

set_option maxRecDepth 16384

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- A property of every operation of two lines holds of every operation of their concatenation. -/
theorem forall_append {α : Type} {P : α → Prop} {a b : List α} (ha : a.Forall P) (hb : b.Forall P) : (a ++ b).Forall P :=
  List.forall_iff_forall_mem.mpr fun x hx =>
    (List.mem_append.mp hx).elim (List.forall_iff_forall_mem.mp ha x) (List.forall_iff_forall_mem.mp hb x)

set_option maxHeartbeats 4000000 in
/-- Window 0 of @main is its operations in order (the called functions' bodies unfold at their calls). -/
theorem main_part0_eq (c : Dev nD) : main_part0 (F := F) c = seq win0 := rfl
theorem win0_sub : (win0 : List (HloOp τ sig (Elt F))).Forall fun op => op.bufs ⊆ tcRefs τ sig :=
  forall_append seg0_0_sub (forall_append (show List.Forall _ [dense1] from dense1_sub) (forall_append seg0_2_sub (forall_append seg0_3_sub (seg0_4_sub))))
theorem win0_fresh : (win0 : List (HloOp τ sig (Elt F))).Forall fun op => op.fresh = ∅ :=
  forall_append seg0_0_fresh (forall_append (show List.Forall _ [dense1] from rfl) (forall_append seg0_2_fresh (forall_append seg0_3_fresh (seg0_4_fresh))))

set_option maxHeartbeats 4000000 in
/-- Window 1 of @main is its operations in order (the called functions' bodies unfold at their calls). -/
theorem main_part1_eq (c : Dev nD) : main_part1 (F := F) c = seq win1 := rfl
theorem win1_sub : (win1 : List (HloOp τ sig (Elt F))).Forall fun op => op.bufs ⊆ tcRefs τ sig :=
  forall_append seg1_0_sub (forall_append seg1_1_sub (forall_append seg1_2_sub (forall_append seg1_3_sub (forall_append (show List.Forall _ [dense2] from dense2_sub) (seg1_5_sub)))))
theorem win1_fresh : (win1 : List (HloOp τ sig (Elt F))).Forall fun op => op.fresh = ∅ :=
  forall_append seg1_0_fresh (forall_append seg1_1_fresh (forall_append seg1_2_fresh (forall_append seg1_3_fresh (forall_append (show List.Forall _ [dense2] from rfl) (seg1_5_fresh)))))

set_option maxHeartbeats 4000000 in
/-- Window 2 of @main is its operations in order (the called functions' bodies unfold at their calls). -/
theorem main_part2_eq (c : Dev nD) : main_part2 (F := F) c = seq win2 := rfl
theorem win2_sub : (win2 : List (HloOp τ sig (Elt F))).Forall fun op => op.bufs ⊆ tcRefs τ sig :=
  forall_append seg2_0_sub (forall_append seg2_1_sub (forall_append seg2_2_sub (forall_append seg2_3_sub (seg2_4_sub))))
theorem win2_fresh : (win2 : List (HloOp τ sig (Elt F))).Forall fun op => op.fresh = ∅ :=
  forall_append seg2_0_fresh (forall_append seg2_1_fresh (forall_append seg2_2_fresh (forall_append seg2_3_fresh (seg2_4_fresh))))

set_option maxHeartbeats 4000000 in
/-- Window 3 of @main is its operations in order (the called functions' bodies unfold at their calls). -/
theorem main_part3_eq (c : Dev nD) : main_part3 (F := F) c = seq win3 := rfl
theorem win3_sub : (win3 : List (HloOp τ sig (Elt F))).Forall fun op => op.bufs ⊆ tcRefs τ sig :=
  forall_append seg3_0_sub (forall_append seg3_1_sub (forall_append (show List.Forall _ [dense3] from dense3_sub) (forall_append seg3_3_sub (forall_append seg3_4_sub (seg3_5_sub)))))
theorem win3_fresh : (win3 : List (HloOp τ sig (Elt F))).Forall fun op => op.fresh = ∅ :=
  forall_append seg3_0_fresh (forall_append seg3_1_fresh (forall_append (show List.Forall _ [dense3] from rfl) (forall_append seg3_3_fresh (forall_append seg3_4_fresh (seg3_5_fresh)))))

set_option maxHeartbeats 4000000 in
/-- Window 4 of @main is its operations in order (the called functions' bodies unfold at their calls). -/
theorem main_part4_eq (c : Dev nD) : main_part4 (F := F) c = seq win4 := rfl
theorem win4_sub : (win4 : List (HloOp τ sig (Elt F))).Forall fun op => op.bufs ⊆ tcRefs τ sig :=
  forall_append seg4_0_sub (forall_append seg4_1_sub (forall_append seg4_2_sub (forall_append seg4_3_sub (forall_append seg4_4_sub (forall_append seg4_5_sub (seg4_6_sub))))))
theorem win4_fresh : (win4 : List (HloOp τ sig (Elt F))).Forall fun op => op.fresh = ∅ :=
  forall_append seg4_0_fresh (forall_append seg4_1_fresh (forall_append seg4_2_fresh (forall_append seg4_3_fresh (forall_append seg4_4_fresh (forall_append seg4_5_fresh (seg4_6_fresh))))))

set_option maxHeartbeats 4000000 in
/-- Window 5 of @main is its operations in order (the called functions' bodies unfold at their calls). -/
theorem main_part5_eq (c : Dev nD) : main_part5 (F := F) c = seq win5 := rfl
theorem win5_sub : (win5 : List (HloOp τ sig (Elt F))).Forall fun op => op.bufs ⊆ tcRefs τ sig :=
  seg5_0_sub
theorem win5_fresh : (win5 : List (HloOp τ sig (Elt F))).Forall fun op => op.fresh = ∅ :=
  seg5_0_fresh

/-- @main's operations, the six windows in order. -/
abbrev ops : List (HloOp τ sig (Elt F)) :=
  win0 ++ (win1 ++ (win2 ++ (win3 ++ (win4 ++ win5))))

/-- @main is that straight line. -/
theorem main_eq (c : Dev nD) : main (F := F) c = seq ops := by
  simp only [ops, seq_append, ← main_part0_eq c, ← main_part1_eq c, ← main_part2_eq c, ← main_part3_eq c, ← main_part4_eq c, ← main_part5_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_append win0_sub (forall_append win1_sub (forall_append win2_sub (forall_append win3_sub (forall_append win4_sub win5_sub))))
theorem ops_fresh : (ops : List (HloOp τ sig (Elt F))).Forall fun op => op.fresh = ∅ :=
  forall_append win0_fresh (forall_append win1_fresh (forall_append win2_fresh (forall_append win3_fresh (forall_append win4_fresh win5_fresh))))

/-- On every device, from any memory with zero counters: every weakly fair execution of the reference's @main
    terminates, and every buffer ends at the fold of the operations over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.mp ops_fresh)

end Cert.ReferenceIdeal.Line

end
-- ==== Proof.RefKeepA.lean ====
/-
  No operation of the reference's line writes an argument's buffer: from any contents, the fold of the whole line leaves
  each argument's buffer as it was (the fold is walked once per argument; at each operation the buffer read is not the
  one written).
-/
import proofs.«113664_g84653805404492_cont_sun_m_127_42_alg».proof.Proof.RefRun

set_option maxRecDepth 65536

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
theorem keep_arg0 (V : Valuation τ sig (Elt F)) : after ops V (Proc.devRef .tc main_arg0) = V (Proc.devRef .tc main_arg0) := rfl
set_option maxHeartbeats 4000000 in
theorem keep_arg1 (V : Valuation τ sig (Elt F)) : after ops V (Proc.devRef .tc main_arg1) = V (Proc.devRef .tc main_arg1) := rfl
set_option maxHeartbeats 4000000 in
theorem keep_arg2 (V : Valuation τ sig (Elt F)) : after ops V (Proc.devRef .tc main_arg2) = V (Proc.devRef .tc main_arg2) := rfl
set_option maxHeartbeats 4000000 in
theorem keep_arg3 (V : Valuation τ sig (Elt F)) : after ops V (Proc.devRef .tc main_arg3) = V (Proc.devRef .tc main_arg3) := rfl
set_option maxHeartbeats 4000000 in
theorem keep_arg4 (V : Valuation τ sig (Elt F)) : after ops V (Proc.devRef .tc main_arg4) = V (Proc.devRef .tc main_arg4) := rfl
set_option maxHeartbeats 4000000 in
theorem keep_arg5 (V : Valuation τ sig (Elt F)) : after ops V (Proc.devRef .tc main_arg5) = V (Proc.devRef .tc main_arg5) := rfl
set_option maxHeartbeats 4000000 in
theorem keep_arg6 (V : Valuation τ sig (Elt F)) : after ops V (Proc.devRef .tc main_arg6) = V (Proc.devRef .tc main_arg6) := rfl
set_option maxHeartbeats 4000000 in
theorem keep_arg7 (V : Valuation τ sig (Elt F)) : after ops V (Proc.devRef .tc main_arg7) = V (Proc.devRef .tc main_arg7) := rfl
set_option maxHeartbeats 4000000 in
theorem keep_arg8 (V : Valuation τ sig (Elt F)) : after ops V (Proc.devRef .tc main_arg8) = V (Proc.devRef .tc main_arg8) := rfl
set_option maxHeartbeats 4000000 in
theorem keep_arg9 (V : Valuation τ sig (Elt F)) : after ops V (Proc.devRef .tc main_arg9) = V (Proc.devRef .tc main_arg9) := rfl
set_option maxHeartbeats 4000000 in
theorem keep_arg10 (V : Valuation τ sig (Elt F)) : after ops V (Proc.devRef .tc main_arg10) = V (Proc.devRef .tc main_arg10) := rfl

end Cert.ReferenceIdeal.Line

end
-- ==== Proof.RefKeepB.lean ====
/-
  No operation of the reference's line writes an argument's buffer: from any contents, the fold of the whole line leaves
  each argument's buffer as it was (the fold is walked once per argument; at each operation the buffer read is not the
  one written).
-/
import proofs.«113664_g84653805404492_cont_sun_m_127_42_alg».proof.Proof.RefRun

set_option maxRecDepth 65536

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
theorem keep_arg11 (V : Valuation τ sig (Elt F)) : after ops V (Proc.devRef .tc main_arg11) = V (Proc.devRef .tc main_arg11) := rfl
set_option maxHeartbeats 4000000 in
theorem keep_arg12 (V : Valuation τ sig (Elt F)) : after ops V (Proc.devRef .tc main_arg12) = V (Proc.devRef .tc main_arg12) := rfl
set_option maxHeartbeats 4000000 in
theorem keep_arg13 (V : Valuation τ sig (Elt F)) : after ops V (Proc.devRef .tc main_arg13) = V (Proc.devRef .tc main_arg13) := rfl
set_option maxHeartbeats 4000000 in
theorem keep_arg14 (V : Valuation τ sig (Elt F)) : after ops V (Proc.devRef .tc main_arg14) = V (Proc.devRef .tc main_arg14) := rfl
set_option maxHeartbeats 4000000 in
theorem keep_arg15 (V : Valuation τ sig (Elt F)) : after ops V (Proc.devRef .tc main_arg15) = V (Proc.devRef .tc main_arg15) := rfl
set_option maxHeartbeats 4000000 in
theorem keep_arg16 (V : Valuation τ sig (Elt F)) : after ops V (Proc.devRef .tc main_arg16) = V (Proc.devRef .tc main_arg16) := rfl
set_option maxHeartbeats 4000000 in
theorem keep_arg17 (V : Valuation τ sig (Elt F)) : after ops V (Proc.devRef .tc main_arg17) = V (Proc.devRef .tc main_arg17) := rfl
set_option maxHeartbeats 4000000 in
theorem keep_arg18 (V : Valuation τ sig (Elt F)) : after ops V (Proc.devRef .tc main_arg18) = V (Proc.devRef .tc main_arg18) := rfl
set_option maxHeartbeats 4000000 in
theorem keep_arg19 (V : Valuation τ sig (Elt F)) : after ops V (Proc.devRef .tc main_arg19) = V (Proc.devRef .tc main_arg19) := rfl
set_option maxHeartbeats 4000000 in
theorem keep_arg20 (V : Valuation τ sig (Elt F)) : after ops V (Proc.devRef .tc main_arg20) = V (Proc.devRef .tc main_arg20) := rfl
set_option maxHeartbeats 4000000 in
theorem keep_arg21 (V : Valuation τ sig (Elt F)) : after ops V (Proc.devRef .tc main_arg21) = V (Proc.devRef .tc main_arg21) := rfl

end Cert.ReferenceIdeal.Line

end
-- ==== Proof.RefStages.lean ====
/-
  The reference's line cut into the same eight stages as the kernel's.
-/
import proofs.«113664_g84653805404492_cont_sun_m_127_42_alg».proof.Proof.RefOps
import Idealize.ShloMosaic.Lib.Pipeline.Frame
import proofs.«113664_g84653805404492_cont_sun_m_127_42_alg».proof.Proof.LibRestate

set_option maxRecDepth 16384

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- Stage A: the self-loop index columns and the first dense product, as a map of buffer contents. -/
def stA (V : Valuation τ sig (Elt F)) : Valuation τ sig (Elt F) :=
  after [dense1] (after seg0_0 V)
/-- Stage B1: the first layer's degree factors, aggregation and bias, as a map of buffer contents. -/
def stB1 (V : Valuation τ sig (Elt F)) : Valuation τ sig (Elt F) :=
  after (seg1_0.take 15) (after seg0_4 (after seg0_3 (after seg0_2 V)))
/-- Stage B2: the first layer's batch normalisation and rectifier, and the second dense product, as a map of buffer contents. -/
def stB2 (V : Valuation τ sig (Elt F)) : Valuation τ sig (Elt F) :=
  after [dense2] (after seg1_3 (after seg1_2 (after seg1_1 (after (seg1_0.drop 15) V))))
/-- Stage C1: the second layer's degree factors, aggregation and bias, as a map of buffer contents. -/
def stC1 (V : Valuation τ sig (Elt F)) : Valuation τ sig (Elt F) :=
  after (seg2_2.take 45) (after seg2_1 (after seg2_0 (after seg1_5 V)))
/-- Stage C2: the second layer's batch normalisation and rectifier, and the third dense product, as a map of buffer contents. -/
def stC2 (V : Valuation τ sig (Elt F)) : Valuation τ sig (Elt F) :=
  after [dense3] (after seg3_1 (after seg3_0 (after seg2_4 (after seg2_3 (after (seg2_2.drop 45) V)))))
/-- Stage D1: the third layer's degree factors, aggregation and bias, as a map of buffer contents. -/
def stD1 (V : Valuation τ sig (Elt F)) : Valuation τ sig (Elt F) :=
  after (seg4_0.take 19) (after seg3_5 (after seg3_4 (after seg3_3 V)))
/-- Stage D2: the third layer's batch normalisation and the mean over the nodes, as a map of buffer contents. -/
def stD2 (V : Valuation τ sig (Elt F)) : Valuation τ sig (Elt F) :=
  after (seg4_2.take 22) (after seg4_1 (after (seg4_0.drop 19) V))
/-- Stage D3: the two heads on the pooled row, as a map of buffer contents. -/
def stD3 (V : Valuation τ sig (Elt F)) : Valuation τ sig (Elt F) :=
  after seg5_0 (after seg4_6 (after seg4_5 (after seg4_4 (after seg4_3 (after (seg4_2.drop 22) V)))))

/-- The six windows in order are the eight stages in order. -/
theorem windows_stages (V : Valuation τ sig (Elt F)) :
    after (win0 ++ (win1 ++ (win2 ++ (win3 ++ (win4 ++ win5))))) V = stD3 (stD2 (stD1 (stC2 (stC1 (stB2 (stB1 (stA V))))))) := by
  simp only [win0, win1, win2, win3, win4, win5, StableHlo.after_append]
  rw [Cert.LibRestate.after_take_drop 15 seg1_0, Cert.LibRestate.after_take_drop 45 seg2_2, Cert.LibRestate.after_take_drop 19 seg4_0, Cert.LibRestate.after_take_drop 22 seg4_2]
  rfl

end Cert.ReferenceIdeal.Line

end
-- ==== Proof.BridgeA.lean ====
/-
  Stage A of the two programs — the self-loop index columns and the first dense product — is the same list of host operations in both, over buffers of the same
  names. Started from contents in which the buffers the stage reads hold the same values, the two lists leave the same
  values in the buffers the later stages read: each side's fold is walked down to the operations' functions applied to
  those values, and the two terms are one. No law of arithmetic is used; the stage's operations are never opened.
-/
import proofs.«113664_g84653805404492_cont_sun_m_127_42_alg».proof.Proof.KOps
import proofs.«113664_g84653805404492_cont_sun_m_127_42_alg».proof.Proof.RefStages
import proofs.«113664_g84653805404492_cont_sun_m_127_42_alg».proof.Proof.LibRestate

set_option maxRecDepth 65536

noncomputable section

namespace Cert.Bridge

open Idealize.ShloMosaic Idealize.ShloMosaic.TcCoe Idealize.SL.Sem Idealize.ShloMosaic.StableHlo

variable {F : FTy → Type} [FloatOps F]

set_option maxHeartbeats 40000000 in
/-- From contents holding the named values in the buffers stage A reads, both lines leave the same value in `main_v7`. -/
theorem stageA_v7 (WK : Valuation Cert.KernelIdeal.τ Cert.KernelIdeal.sig (Elt F)) (WR : Valuation Cert.ReferenceIdeal.τ Cert.ReferenceIdeal.sig (Elt F))
    (x0 : (⟨Cert.KernelIdeal.S10000x128, .f32⟩ : BufTy).Contents (Elt F)) (x1 : (⟨Cert.KernelIdeal.S2x320000, .i32⟩ : BufTy).Contents (Elt F)) (x2 : (⟨Cert.KernelIdeal.S128x128, .f32⟩ : BufTy).Contents (Elt F)) :
    (Cert.KernelIdeal.Line.stA (after [StableHlo.nullary Cert.KernelIdeal.main_arg0 x0, StableHlo.nullary Cert.KernelIdeal.main_arg1 x1, StableHlo.nullary Cert.KernelIdeal.main_arg2 x2] WK) (Proc.devRef .tc Cert.KernelIdeal.main_v7) : (⟨Cert.KernelIdeal.S10000x128, .f32⟩ : BufTy).Contents (Elt F))
    = Cert.ReferenceIdeal.Line.stA (after [StableHlo.nullary Cert.ReferenceIdeal.main_arg0 x0, StableHlo.nullary Cert.ReferenceIdeal.main_arg1 x1, StableHlo.nullary Cert.ReferenceIdeal.main_arg2 x2] WR) (Proc.devRef .tc Cert.ReferenceIdeal.main_v7) := rfl

/-- Two contents that agree on the buffers stage A reads agree on `main_v7` after it. -/
theorem agreeA_v7 (WK : Valuation Cert.KernelIdeal.τ Cert.KernelIdeal.sig (Elt F)) (WR : Valuation Cert.ReferenceIdeal.τ Cert.ReferenceIdeal.sig (Elt F))
    (h0 : (WK (Proc.devRef .tc Cert.KernelIdeal.main_arg0) : (⟨Cert.KernelIdeal.S10000x128, .f32⟩ : BufTy).Contents (Elt F)) = WR (Proc.devRef .tc Cert.ReferenceIdeal.main_arg0))
    (h1 : (WK (Proc.devRef .tc Cert.KernelIdeal.main_arg1) : (⟨Cert.KernelIdeal.S2x320000, .i32⟩ : BufTy).Contents (Elt F)) = WR (Proc.devRef .tc Cert.ReferenceIdeal.main_arg1))
    (h2 : (WK (Proc.devRef .tc Cert.KernelIdeal.main_arg2) : (⟨Cert.KernelIdeal.S128x128, .f32⟩ : BufTy).Contents (Elt F)) = WR (Proc.devRef .tc Cert.ReferenceIdeal.main_arg2)) :
    (Cert.KernelIdeal.Line.stA WK (Proc.devRef .tc Cert.KernelIdeal.main_v7) : (⟨Cert.KernelIdeal.S10000x128, .f32⟩ : BufTy).Contents (Elt F)) = Cert.ReferenceIdeal.Line.stA WR (Proc.devRef .tc Cert.ReferenceIdeal.main_v7) := by
  have e := stageA_v7 WK WR (WK (Proc.devRef .tc Cert.KernelIdeal.main_arg0)) (WK (Proc.devRef .tc Cert.KernelIdeal.main_arg1)) (WK (Proc.devRef .tc Cert.KernelIdeal.main_arg2))
  have eK : after [StableHlo.nullary Cert.KernelIdeal.main_arg0 (WK (Proc.devRef .tc Cert.KernelIdeal.main_arg0)), StableHlo.nullary Cert.KernelIdeal.main_arg1 (WK (Proc.devRef .tc Cert.KernelIdeal.main_arg1)), StableHlo.nullary Cert.KernelIdeal.main_arg2 (WK (Proc.devRef .tc Cert.KernelIdeal.main_arg2))] WK = WK := by
    simp only [after_cons, after_nil, Cert.LibRestate.nullary_self]
  have eR : after [StableHlo.nullary Cert.ReferenceIdeal.main_arg0 (WK (Proc.devRef .tc Cert.KernelIdeal.main_arg0)), StableHlo.nullary Cert.ReferenceIdeal.main_arg1 (WK (Proc.devRef .tc Cert.KernelIdeal.main_arg1)), StableHlo.nullary Cert.ReferenceIdeal.main_arg2 (WK (Proc.devRef .tc Cert.KernelIdeal.main_arg2))] WR = WR := by
    rw [h0, h1, h2]
    simp only [after_cons, after_nil, Cert.LibRestate.nullary_self]
  rw [eK, eR] at e
  exact e

set_option maxHeartbeats 40000000 in
/-- From contents holding the named values in the buffers stage A reads, both lines leave the same value in `main_v3`. -/
theorem stageA_v3 (WK : Valuation Cert.KernelIdeal.τ Cert.KernelIdeal.sig (Elt F)) (WR : Valuation Cert.ReferenceIdeal.τ Cert.ReferenceIdeal.sig (Elt F))
    (x0 : (⟨Cert.KernelIdeal.S10000x128, .f32⟩ : BufTy).Contents (Elt F)) (x1 : (⟨Cert.KernelIdeal.S2x320000, .i32⟩ : BufTy).Contents (Elt F)) (x2 : (⟨Cert.KernelIdeal.S128x128, .f32⟩ : BufTy).Contents (Elt F)) :
    (Cert.KernelIdeal.Line.stA (after [StableHlo.nullary Cert.KernelIdeal.main_arg0 x0, StableHlo.nullary Cert.KernelIdeal.main_arg1 x1, StableHlo.nullary Cert.KernelIdeal.main_arg2 x2] WK) (Proc.devRef .tc Cert.KernelIdeal.main_v3) : (⟨Cert.KernelIdeal.S330000, .i32⟩ : BufTy).Contents (Elt F))
    = Cert.ReferenceIdeal.Line.stA (after [StableHlo.nullary Cert.ReferenceIdeal.main_arg0 x0, StableHlo.nullary Cert.ReferenceIdeal.main_arg1 x1, StableHlo.nullary Cert.ReferenceIdeal.main_arg2 x2] WR) (Proc.devRef .tc Cert.ReferenceIdeal.main_v3) := rfl

/-- Two contents that agree on the buffers stage A reads agree on `main_v3` after it. -/
theorem agreeA_v3 (WK : Valuation Cert.KernelIdeal.τ Cert.KernelIdeal.sig (Elt F)) (WR : Valuation Cert.ReferenceIdeal.τ Cert.ReferenceIdeal.sig (Elt F))
    (h0 : (WK (Proc.devRef .tc Cert.KernelIdeal.main_arg0) : (⟨Cert.KernelIdeal.S10000x128, .f32⟩ : BufTy).Contents (Elt F)) = WR (Proc.devRef .tc Cert.ReferenceIdeal.main_arg0))
    (h1 : (WK (Proc.devRef .tc Cert.KernelIdeal.main_arg1) : (⟨Cert.KernelIdeal.S2x320000, .i32⟩ : BufTy).Contents (Elt F)) = WR (Proc.devRef .tc Cert.ReferenceIdeal.main_arg1))
    (h2 : (WK (Proc.devRef .tc Cert.KernelIdeal.main_arg2) : (⟨Cert.KernelIdeal.S128x128, .f32⟩ : BufTy).Contents (Elt F)) = WR (Proc.devRef .tc Cert.ReferenceIdeal.main_arg2)) :
    (Cert.KernelIdeal.Line.stA WK (Proc.devRef .tc Cert.KernelIdeal.main_v3) : (⟨Cert.KernelIdeal.S330000, .i32⟩ : BufTy).Contents (Elt F)) = Cert.ReferenceIdeal.Line.stA WR (Proc.devRef .tc Cert.ReferenceIdeal.main_v3) := by
  have e := stageA_v3 WK WR (WK (Proc.devRef .tc Cert.KernelIdeal.main_arg0)) (WK (Proc.devRef .tc Cert.KernelIdeal.main_arg1)) (WK (Proc.devRef .tc Cert.KernelIdeal.main_arg2))
  have eK : after [StableHlo.nullary Cert.KernelIdeal.main_arg0 (WK (Proc.devRef .tc Cert.KernelIdeal.main_arg0)), StableHlo.nullary Cert.KernelIdeal.main_arg1 (WK (Proc.devRef .tc Cert.KernelIdeal.main_arg1)), StableHlo.nullary Cert.KernelIdeal.main_arg2 (WK (Proc.devRef .tc Cert.KernelIdeal.main_arg2))] WK = WK := by
    simp only [after_cons, after_nil, Cert.LibRestate.nullary_self]
  have eR : after [StableHlo.nullary Cert.ReferenceIdeal.main_arg0 (WK (Proc.devRef .tc Cert.KernelIdeal.main_arg0)), StableHlo.nullary Cert.ReferenceIdeal.main_arg1 (WK (Proc.devRef .tc Cert.KernelIdeal.main_arg1)), StableHlo.nullary Cert.ReferenceIdeal.main_arg2 (WK (Proc.devRef .tc Cert.KernelIdeal.main_arg2))] WR = WR := by
    rw [h0, h1, h2]
    simp only [after_cons, after_nil, Cert.LibRestate.nullary_self]
  rw [eK, eR] at e
  exact e

set_option maxHeartbeats 40000000 in
/-- From contents holding the named values in the buffers stage A reads, both lines leave the same value in `main_v6`. -/
theorem stageA_v6 (WK : Valuation Cert.KernelIdeal.τ Cert.KernelIdeal.sig (Elt F)) (WR : Valuation Cert.ReferenceIdeal.τ Cert.ReferenceIdeal.sig (Elt F))
    (x0 : (⟨Cert.KernelIdeal.S10000x128, .f32⟩ : BufTy).Contents (Elt F)) (x1 : (⟨Cert.KernelIdeal.S2x320000, .i32⟩ : BufTy).Contents (Elt F)) (x2 : (⟨Cert.KernelIdeal.S128x128, .f32⟩ : BufTy).Contents (Elt F)) :
    (Cert.KernelIdeal.Line.stA (after [StableHlo.nullary Cert.KernelIdeal.main_arg0 x0, StableHlo.nullary Cert.KernelIdeal.main_arg1 x1, StableHlo.nullary Cert.KernelIdeal.main_arg2 x2] WK) (Proc.devRef .tc Cert.KernelIdeal.main_v6) : (⟨Cert.KernelIdeal.S330000, .i32⟩ : BufTy).Contents (Elt F))
    = Cert.ReferenceIdeal.Line.stA (after [StableHlo.nullary Cert.ReferenceIdeal.main_arg0 x0, StableHlo.nullary Cert.ReferenceIdeal.main_arg1 x1, StableHlo.nullary Cert.ReferenceIdeal.main_arg2 x2] WR) (Proc.devRef .tc Cert.ReferenceIdeal.main_v6) := rfl

/-- Two contents that agree on the buffers stage A reads agree on `main_v6` after it. -/
theorem agreeA_v6 (WK : Valuation Cert.KernelIdeal.τ Cert.KernelIdeal.sig (Elt F)) (WR : Valuation Cert.ReferenceIdeal.τ Cert.ReferenceIdeal.sig (Elt F))
    (h0 : (WK (Proc.devRef .tc Cert.KernelIdeal.main_arg0) : (⟨Cert.KernelIdeal.S10000x128, .f32⟩ : BufTy).Contents (Elt F)) = WR (Proc.devRef .tc Cert.ReferenceIdeal.main_arg0))
    (h1 : (WK (Proc.devRef .tc Cert.KernelIdeal.main_arg1) : (⟨Cert.KernelIdeal.S2x320000, .i32⟩ : BufTy).Contents (Elt F)) = WR (Proc.devRef .tc Cert.ReferenceIdeal.main_arg1))
    (h2 : (WK (Proc.devRef .tc Cert.KernelIdeal.main_arg2) : (⟨Cert.KernelIdeal.S128x128, .f32⟩ : BufTy).Contents (Elt F)) = WR (Proc.devRef .tc Cert.ReferenceIdeal.main_arg2)) :
    (Cert.KernelIdeal.Line.stA WK (Proc.devRef .tc Cert.KernelIdeal.main_v6) : (⟨Cert.KernelIdeal.S330000, .i32⟩ : BufTy).Contents (Elt F)) = Cert.ReferenceIdeal.Line.stA WR (Proc.devRef .tc Cert.ReferenceIdeal.main_v6) := by
  have e := stageA_v6 WK WR (WK (Proc.devRef .tc Cert.KernelIdeal.main_arg0)) (WK (Proc.devRef .tc Cert.KernelIdeal.main_arg1)) (WK (Proc.devRef .tc Cert.KernelIdeal.main_arg2))
  have eK : after [StableHlo.nullary Cert.KernelIdeal.main_arg0 (WK (Proc.devRef .tc Cert.KernelIdeal.main_arg0)), StableHlo.nullary Cert.KernelIdeal.main_arg1 (WK (Proc.devRef .tc Cert.KernelIdeal.main_arg1)), StableHlo.nullary Cert.KernelIdeal.main_arg2 (WK (Proc.devRef .tc Cert.KernelIdeal.main_arg2))] WK = WK := by
    simp only [after_cons, after_nil, Cert.LibRestate.nullary_self]
  have eR : after [StableHlo.nullary Cert.ReferenceIdeal.main_arg0 (WK (Proc.devRef .tc Cert.KernelIdeal.main_arg0)), StableHlo.nullary Cert.ReferenceIdeal.main_arg1 (WK (Proc.devRef .tc Cert.KernelIdeal.main_arg1)), StableHlo.nullary Cert.ReferenceIdeal.main_arg2 (WK (Proc.devRef .tc Cert.KernelIdeal.main_arg2))] WR = WR := by
    rw [h0, h1, h2]
    simp only [after_cons, after_nil, Cert.LibRestate.nullary_self]
  rw [eK, eR] at e
  exact e

end Cert.Bridge

end
-- ==== Proof.BridgeB1.lean ====
/-
  Stage B1 of the two programs — the first layer's degree factors, aggregation and bias — is the same list of host operations in both, over buffers of the same
  names. Started from contents in which the buffers the stage reads hold the same values, the two lists leave the same
  values in the buffers the later stages read: each side's fold is walked down to the operations' functions applied to
  those values, and the two terms are one. No law of arithmetic is used; the stage's operations are never opened.
-/
import proofs.«113664_g84653805404492_cont_sun_m_127_42_alg».proof.Proof.KOps
import proofs.«113664_g84653805404492_cont_sun_m_127_42_alg».proof.Proof.RefStages
import proofs.«113664_g84653805404492_cont_sun_m_127_42_alg».proof.Proof.LibRestate

set_option maxRecDepth 65536

noncomputable section

namespace Cert.Bridge

open Idealize.ShloMosaic Idealize.ShloMosaic.TcCoe Idealize.SL.Sem Idealize.ShloMosaic.StableHlo

variable {F : FTy → Type} [FloatOps F]

set_option maxHeartbeats 40000000 in
/-- From contents holding the named values in the buffers stage B1 reads, both lines leave the same value in `main_v58`. -/
theorem stageB1_v58 (WK : Valuation Cert.KernelIdeal.τ Cert.KernelIdeal.sig (Elt F)) (WR : Valuation Cert.ReferenceIdeal.τ Cert.ReferenceIdeal.sig (Elt F))
    (x0 : (⟨Cert.KernelIdeal.S330000, .i32⟩ : BufTy).Contents (Elt F)) (x1 : (⟨Cert.KernelIdeal.S330000, .i32⟩ : BufTy).Contents (Elt F)) (x2 : (⟨Cert.KernelIdeal.S10000x128, .f32⟩ : BufTy).Contents (Elt F)) (x3 : (⟨Cert.KernelIdeal.S128, .f32⟩ : BufTy).Contents (Elt F)) :
    (Cert.KernelIdeal.Line.stB1 (after [StableHlo.nullary Cert.KernelIdeal.main_v6 x0, StableHlo.nullary Cert.KernelIdeal.main_v3 x1, StableHlo.nullary Cert.KernelIdeal.main_v7 x2, StableHlo.nullary Cert.KernelIdeal.main_arg3 x3] WK) (Proc.devRef .tc Cert.KernelIdeal.main_v58) : (⟨Cert.KernelIdeal.S10000x128, .f32⟩ : BufTy).Contents (Elt F))
    = Cert.ReferenceIdeal.Line.stB1 (after [StableHlo.nullary Cert.ReferenceIdeal.main_v6 x0, StableHlo.nullary Cert.ReferenceIdeal.main_v3 x1, StableHlo.nullary Cert.ReferenceIdeal.main_v7 x2, StableHlo.nullary Cert.ReferenceIdeal.main_arg3 x3] WR) (Proc.devRef .tc Cert.ReferenceIdeal.main_v58) := rfl

/-- Two contents that agree on the buffers stage B1 reads agree on `main_v58` after it. -/
theorem agreeB1_v58 (WK : Valuation Cert.KernelIdeal.τ Cert.KernelIdeal.sig (Elt F)) (WR : Valuation Cert.ReferenceIdeal.τ Cert.ReferenceIdeal.sig (Elt F))
    (h0 : (WK (Proc.devRef .tc Cert.KernelIdeal.main_v6) : (⟨Cert.KernelIdeal.S330000, .i32⟩ : BufTy).Contents (Elt F)) = WR (Proc.devRef .tc Cert.ReferenceIdeal.main_v6))
    (h1 : (WK (Proc.devRef .tc Cert.KernelIdeal.main_v3) : (⟨Cert.KernelIdeal.S330000, .i32⟩ : BufTy).Contents (Elt F)) = WR (Proc.devRef .tc Cert.ReferenceIdeal.main_v3))
    (h2 : (WK (Proc.devRef .tc Cert.KernelIdeal.main_v7) : (⟨Cert.KernelIdeal.S10000x128, .f32⟩ : BufTy).Contents (Elt F)) = WR (Proc.devRef .tc Cert.ReferenceIdeal.main_v7))
    (h3 : (WK (Proc.devRef .tc Cert.KernelIdeal.main_arg3) : (⟨Cert.KernelIdeal.S128, .f32⟩ : BufTy).Contents (Elt F)) = WR (Proc.devRef .tc Cert.ReferenceIdeal.main_arg3)) :
    (Cert.KernelIdeal.Line.stB1 WK (Proc.devRef .tc Cert.KernelIdeal.main_v58) : (⟨Cert.KernelIdeal.S10000x128, .f32⟩ : BufTy).Contents (Elt F)) = Cert.ReferenceIdeal.Line.stB1 WR (Proc.devRef .tc Cert.ReferenceIdeal.main_v58) := by
  have e := stageB1_v58 WK WR (WK (Proc.devRef .tc Cert.KernelIdeal.main_v6)) (WK (Proc.devRef .tc Cert.KernelIdeal.main_v3)) (WK (Proc.devRef .tc Cert.KernelIdeal.main_v7)) (WK (Proc.devRef .tc Cert.KernelIdeal.main_arg3))
  have eK : after [StableHlo.nullary Cert.KernelIdeal.main_v6 (WK (Proc.devRef .tc Cert.KernelIdeal.main_v6)), StableHlo.nullary Cert.KernelIdeal.main_v3 (WK (Proc.devRef .tc Cert.KernelIdeal.main_v3)), StableHlo.nullary Cert.KernelIdeal.main_v7 (WK (Proc.devRef .tc Cert.KernelIdeal.main_v7)), StableHlo.nullary Cert.KernelIdeal.main_arg3 (WK (Proc.devRef .tc Cert.KernelIdeal.main_arg3))] WK = WK := by
    simp only [after_cons, after_nil, Cert.LibRestate.nullary_self]
  have eR : after [StableHlo.nullary Cert.ReferenceIdeal.main_v6 (WK (Proc.devRef .tc Cert.KernelIdeal.main_v6)), StableHlo.nullary Cert.ReferenceIdeal.main_v3 (WK (Proc.devRef .tc Cert.KernelIdeal.main_v3)), StableHlo.nullary Cert.ReferenceIdeal.main_v7 (WK (Proc.devRef .tc Cert.KernelIdeal.main_v7)), StableHlo.nullary Cert.ReferenceIdeal.main_arg3 (WK (Proc.devRef .tc Cert.KernelIdeal.main_arg3))] WR = WR := by
    rw [h0, h1, h2, h3]
    simp only [after_cons, after_nil, Cert.LibRestate.nullary_self]
  rw [eK, eR] at e
  exact e

end Cert.Bridge

end
-- ==== Proof.BridgeB2.lean ====
/-
  Stage B2 of the two programs — the first layer's batch normalisation and rectifier, and the second dense product — is the same list of host operations in both, over buffers of the same
  names. Started from contents in which the buffers the stage reads hold the same values, the two lists leave the same
  values in the buffers the later stages read: each side's fold is walked down to the operations' functions applied to
  those values, and the two terms are one. No law of arithmetic is used; the stage's operations are never opened.
-/
import proofs.«113664_g84653805404492_cont_sun_m_127_42_alg».proof.Proof.KOps
import proofs.«113664_g84653805404492_cont_sun_m_127_42_alg».proof.Proof.RefStages
import proofs.«113664_g84653805404492_cont_sun_m_127_42_alg».proof.Proof.LibRestate

set_option maxRecDepth 65536

noncomputable section

namespace Cert.Bridge

open Idealize.ShloMosaic Idealize.ShloMosaic.TcCoe Idealize.SL.Sem Idealize.ShloMosaic.StableHlo

variable {F : FTy → Type} [FloatOps F]

set_option maxHeartbeats 40000000 in
/-- From contents holding the named values in the buffers stage B2 reads, both lines leave the same value in `main_v79`. -/
theorem stageB2_v79 (WK : Valuation Cert.KernelIdeal.τ Cert.KernelIdeal.sig (Elt F)) (WR : Valuation Cert.ReferenceIdeal.τ Cert.ReferenceIdeal.sig (Elt F))
    (x0 : (⟨Cert.KernelIdeal.S10000x128, .f32⟩ : BufTy).Contents (Elt F)) (x1 : (⟨Cert.KernelIdeal.S128, .f32⟩ : BufTy).Contents (Elt F)) (x2 : (⟨Cert.KernelIdeal.S128, .f32⟩ : BufTy).Contents (Elt F)) (x3 : (⟨Cert.KernelIdeal.S128x128, .f32⟩ : BufTy).Contents (Elt F)) :
    (Cert.KernelIdeal.Line.stB2 (after [StableHlo.nullary Cert.KernelIdeal.main_v58 x0, StableHlo.nullary Cert.KernelIdeal.main_arg8 x1, StableHlo.nullary Cert.KernelIdeal.main_arg9 x2, StableHlo.nullary Cert.KernelIdeal.main_arg4 x3] WK) (Proc.devRef .tc Cert.KernelIdeal.main_v79) : (⟨Cert.KernelIdeal.S10000x128, .f32⟩ : BufTy).Contents (Elt F))
    = Cert.ReferenceIdeal.Line.stB2 (after [StableHlo.nullary Cert.ReferenceIdeal.main_v58 x0, StableHlo.nullary Cert.ReferenceIdeal.main_arg8 x1, StableHlo.nullary Cert.ReferenceIdeal.main_arg9 x2, StableHlo.nullary Cert.ReferenceIdeal.main_arg4 x3] WR) (Proc.devRef .tc Cert.ReferenceIdeal.main_v79) := rfl

/-- Two contents that agree on the buffers stage B2 reads agree on `main_v79` after it. -/
theorem agreeB2_v79 (WK : Valuation Cert.KernelIdeal.τ Cert.KernelIdeal.sig (Elt F)) (WR : Valuation Cert.ReferenceIdeal.τ Cert.ReferenceIdeal.sig (Elt F))
    (h0 : (WK (Proc.devRef .tc Cert.KernelIdeal.main_v58) : (⟨Cert.KernelIdeal.S10000x128, .f32⟩ : BufTy).Contents (Elt F)) = WR (Proc.devRef .tc Cert.ReferenceIdeal.main_v58))
    (h1 : (WK (Proc.devRef .tc Cert.KernelIdeal.main_arg8) : (⟨Cert.KernelIdeal.S128, .f32⟩ : BufTy).Contents (Elt F)) = WR (Proc.devRef .tc Cert.ReferenceIdeal.main_arg8))
    (h2 : (WK (Proc.devRef .tc Cert.KernelIdeal.main_arg9) : (⟨Cert.KernelIdeal.S128, .f32⟩ : BufTy).Contents (Elt F)) = WR (Proc.devRef .tc Cert.ReferenceIdeal.main_arg9))
    (h3 : (WK (Proc.devRef .tc Cert.KernelIdeal.main_arg4) : (⟨Cert.KernelIdeal.S128x128, .f32⟩ : BufTy).Contents (Elt F)) = WR (Proc.devRef .tc Cert.ReferenceIdeal.main_arg4)) :
    (Cert.KernelIdeal.Line.stB2 WK (Proc.devRef .tc Cert.KernelIdeal.main_v79) : (⟨Cert.KernelIdeal.S10000x128, .f32⟩ : BufTy).Contents (Elt F)) = Cert.ReferenceIdeal.Line.stB2 WR (Proc.devRef .tc Cert.ReferenceIdeal.main_v79) := by
  have e := stageB2_v79 WK WR (WK (Proc.devRef .tc Cert.KernelIdeal.main_v58)) (WK (Proc.devRef .tc Cert.KernelIdeal.main_arg8)) (WK (Proc.devRef .tc Cert.KernelIdeal.main_arg9)) (WK (Proc.devRef .tc Cert.KernelIdeal.main_arg4))
  have eK : after [StableHlo.nullary Cert.KernelIdeal.main_v58 (WK (Proc.devRef .tc Cert.KernelIdeal.main_v58)), StableHlo.nullary Cert.KernelIdeal.main_arg8 (WK (Proc.devRef .tc Cert.KernelIdeal.main_arg8)), StableHlo.nullary Cert.KernelIdeal.main_arg9 (WK (Proc.devRef .tc Cert.KernelIdeal.main_arg9)), StableHlo.nullary Cert.KernelIdeal.main_arg4 (WK (Proc.devRef .tc Cert.KernelIdeal.main_arg4))] WK = WK := by
    simp only [after_cons, after_nil, Cert.LibRestate.nullary_self]
  have eR : after [StableHlo.nullary Cert.ReferenceIdeal.main_v58 (WK (Proc.devRef .tc Cert.KernelIdeal.main_v58)), StableHlo.nullary Cert.ReferenceIdeal.main_arg8 (WK (Proc.devRef .tc Cert.KernelIdeal.main_arg8)), StableHlo.nullary Cert.ReferenceIdeal.main_arg9 (WK (Proc.devRef .tc Cert.KernelIdeal.main_arg9)), StableHlo.nullary Cert.ReferenceIdeal.main_arg4 (WK (Proc.devRef .tc Cert.KernelIdeal.main_arg4))] WR = WR := by
    rw [h0, h1, h2, h3]
    simp only [after_cons, after_nil, Cert.LibRestate.nullary_self]
  rw [eK, eR] at e
  exact e

end Cert.Bridge

end
-- ==== Proof.BridgeC1.lean ====
/-
  Stage C1 of the two programs — the second layer's degree factors, aggregation and bias — is the same list of host operations in both, over buffers of the same
  names. Started from contents in which the buffers the stage reads hold the same values, the two lists leave the same
  values in the buffers the later stages read: each side's fold is walked down to the operations' functions applied to
  those values, and the two terms are one. No law of arithmetic is used; the stage's operations are never opened.
-/
import proofs.«113664_g84653805404492_cont_sun_m_127_42_alg».proof.Proof.KOps
import proofs.«113664_g84653805404492_cont_sun_m_127_42_alg».proof.Proof.RefStages
import proofs.«113664_g84653805404492_cont_sun_m_127_42_alg».proof.Proof.LibRestate

set_option maxRecDepth 65536

noncomputable section

namespace Cert.Bridge

open Idealize.ShloMosaic Idealize.ShloMosaic.TcCoe Idealize.SL.Sem Idealize.ShloMosaic.StableHlo

variable {F : FTy → Type} [FloatOps F]

set_option maxHeartbeats 40000000 in
/-- From contents holding the named values in the buffers stage C1 reads, both lines leave the same value in `main_v130`. -/
theorem stageC1_v130 (WK : Valuation Cert.KernelIdeal.τ Cert.KernelIdeal.sig (Elt F)) (WR : Valuation Cert.ReferenceIdeal.τ Cert.ReferenceIdeal.sig (Elt F))
    (x0 : (⟨Cert.KernelIdeal.S330000, .i32⟩ : BufTy).Contents (Elt F)) (x1 : (⟨Cert.KernelIdeal.S330000, .i32⟩ : BufTy).Contents (Elt F)) (x2 : (⟨Cert.KernelIdeal.S10000x128, .f32⟩ : BufTy).Contents (Elt F)) (x3 : (⟨Cert.KernelIdeal.S128, .f32⟩ : BufTy).Contents (Elt F)) :
    (Cert.KernelIdeal.Line.stC1 (after [StableHlo.nullary Cert.KernelIdeal.main_v6 x0, StableHlo.nullary Cert.KernelIdeal.main_v3 x1, StableHlo.nullary Cert.KernelIdeal.main_v79 x2, StableHlo.nullary Cert.KernelIdeal.main_arg5 x3] WK) (Proc.devRef .tc Cert.KernelIdeal.main_v130) : (⟨Cert.KernelIdeal.S10000x128, .f32⟩ : BufTy).Contents (Elt F))
    = Cert.ReferenceIdeal.Line.stC1 (after [StableHlo.nullary Cert.ReferenceIdeal.main_v6 x0, StableHlo.nullary Cert.ReferenceIdeal.main_v3 x1, StableHlo.nullary Cert.ReferenceIdeal.main_v79 x2, StableHlo.nullary Cert.ReferenceIdeal.main_arg5 x3] WR) (Proc.devRef .tc Cert.ReferenceIdeal.main_v130) := rfl

/-- Two contents that agree on the buffers stage C1 reads agree on `main_v130` after it. -/
theorem agreeC1_v130 (WK : Valuation Cert.KernelIdeal.τ Cert.KernelIdeal.sig (Elt F)) (WR : Valuation Cert.ReferenceIdeal.τ Cert.ReferenceIdeal.sig (Elt F))
    (h0 : (WK (Proc.devRef .tc Cert.KernelIdeal.main_v6) : (⟨Cert.KernelIdeal.S330000, .i32⟩ : BufTy).Contents (Elt F)) = WR (Proc.devRef .tc Cert.ReferenceIdeal.main_v6))
    (h1 : (WK (Proc.devRef .tc Cert.KernelIdeal.main_v3) : (⟨Cert.KernelIdeal.S330000, .i32⟩ : BufTy).Contents (Elt F)) = WR (Proc.devRef .tc Cert.ReferenceIdeal.main_v3))
    (h2 : (WK (Proc.devRef .tc Cert.KernelIdeal.main_v79) : (⟨Cert.KernelIdeal.S10000x128, .f32⟩ : BufTy).Contents (Elt F)) = WR (Proc.devRef .tc Cert.ReferenceIdeal.main_v79))
    (h3 : (WK (Proc.devRef .tc Cert.KernelIdeal.main_arg5) : (⟨Cert.KernelIdeal.S128, .f32⟩ : BufTy).Contents (Elt F)) = WR (Proc.devRef .tc Cert.ReferenceIdeal.main_arg5)) :
    (Cert.KernelIdeal.Line.stC1 WK (Proc.devRef .tc Cert.KernelIdeal.main_v130) : (⟨Cert.KernelIdeal.S10000x128, .f32⟩ : BufTy).Contents (Elt F)) = Cert.ReferenceIdeal.Line.stC1 WR (Proc.devRef .tc Cert.ReferenceIdeal.main_v130) := by
  have e := stageC1_v130 WK WR (WK (Proc.devRef .tc Cert.KernelIdeal.main_v6)) (WK (Proc.devRef .tc Cert.KernelIdeal.main_v3)) (WK (Proc.devRef .tc Cert.KernelIdeal.main_v79)) (WK (Proc.devRef .tc Cert.KernelIdeal.main_arg5))
  have eK : after [StableHlo.nullary Cert.KernelIdeal.main_v6 (WK (Proc.devRef .tc Cert.KernelIdeal.main_v6)), StableHlo.nullary Cert.KernelIdeal.main_v3 (WK (Proc.devRef .tc Cert.KernelIdeal.main_v3)), StableHlo.nullary Cert.KernelIdeal.main_v79 (WK (Proc.devRef .tc Cert.KernelIdeal.main_v79)), StableHlo.nullary Cert.KernelIdeal.main_arg5 (WK (Proc.devRef .tc Cert.KernelIdeal.main_arg5))] WK = WK := by
    simp only [after_cons, after_nil, Cert.LibRestate.nullary_self]
  have eR : after [StableHlo.nullary Cert.ReferenceIdeal.main_v6 (WK (Proc.devRef .tc Cert.KernelIdeal.main_v6)), StableHlo.nullary Cert.ReferenceIdeal.main_v3 (WK (Proc.devRef .tc Cert.KernelIdeal.main_v3)), StableHlo.nullary Cert.ReferenceIdeal.main_v79 (WK (Proc.devRef .tc Cert.KernelIdeal.main_v79)), StableHlo.nullary Cert.ReferenceIdeal.main_arg5 (WK (Proc.devRef .tc Cert.KernelIdeal.main_arg5))] WR = WR := by
    rw [h0, h1, h2, h3]
    simp only [after_cons, after_nil, Cert.LibRestate.nullary_self]
  rw [eK, eR] at e
  exact e

end Cert.Bridge

end
-- ==== Proof.BridgeC2.lean ====
/-
  Stage C2 of the two programs — the second layer's batch normalisation and rectifier, and the third dense product — is the same list of host operations in both, over buffers of the same
  names. Started from contents in which the buffers the stage reads hold the same values, the two lists leave the same
  values in the buffers the later stages read: each side's fold is walked down to the operations' functions applied to
  those values, and the two terms are one. No law of arithmetic is used; the stage's operations are never opened.
-/
import proofs.«113664_g84653805404492_cont_sun_m_127_42_alg».proof.Proof.KOps
import proofs.«113664_g84653805404492_cont_sun_m_127_42_alg».proof.Proof.RefStages
import proofs.«113664_g84653805404492_cont_sun_m_127_42_alg».proof.Proof.LibRestate

set_option maxRecDepth 65536

noncomputable section

namespace Cert.Bridge

open Idealize.ShloMosaic Idealize.ShloMosaic.TcCoe Idealize.SL.Sem Idealize.ShloMosaic.StableHlo

variable {F : FTy → Type} [FloatOps F]

set_option maxHeartbeats 40000000 in
/-- From contents holding the named values in the buffers stage C2 reads, both lines leave the same value in `main_v151`. -/
theorem stageC2_v151 (WK : Valuation Cert.KernelIdeal.τ Cert.KernelIdeal.sig (Elt F)) (WR : Valuation Cert.ReferenceIdeal.τ Cert.ReferenceIdeal.sig (Elt F))
    (x0 : (⟨Cert.KernelIdeal.S10000x128, .f32⟩ : BufTy).Contents (Elt F)) (x1 : (⟨Cert.KernelIdeal.S128, .f32⟩ : BufTy).Contents (Elt F)) (x2 : (⟨Cert.KernelIdeal.S128, .f32⟩ : BufTy).Contents (Elt F)) (x3 : (⟨Cert.KernelIdeal.S128x64, .f32⟩ : BufTy).Contents (Elt F)) :
    (Cert.KernelIdeal.Line.stC2 (after [StableHlo.nullary Cert.KernelIdeal.main_v130 x0, StableHlo.nullary Cert.KernelIdeal.main_arg10 x1, StableHlo.nullary Cert.KernelIdeal.main_arg11 x2, StableHlo.nullary Cert.KernelIdeal.main_arg6 x3] WK) (Proc.devRef .tc Cert.KernelIdeal.main_v151) : (⟨Cert.KernelIdeal.S10000x64, .f32⟩ : BufTy).Contents (Elt F))
    = Cert.ReferenceIdeal.Line.stC2 (after [StableHlo.nullary Cert.ReferenceIdeal.main_v130 x0, StableHlo.nullary Cert.ReferenceIdeal.main_arg10 x1, StableHlo.nullary Cert.ReferenceIdeal.main_arg11 x2, StableHlo.nullary Cert.ReferenceIdeal.main_arg6 x3] WR) (Proc.devRef .tc Cert.ReferenceIdeal.main_v151) := rfl

/-- Two contents that agree on the buffers stage C2 reads agree on `main_v151` after it. -/
theorem agreeC2_v151 (WK : Valuation Cert.KernelIdeal.τ Cert.KernelIdeal.sig (Elt F)) (WR : Valuation Cert.ReferenceIdeal.τ Cert.ReferenceIdeal.sig (Elt F))
    (h0 : (WK (Proc.devRef .tc Cert.KernelIdeal.main_v130) : (⟨Cert.KernelIdeal.S10000x128, .f32⟩ : BufTy).Contents (Elt F)) = WR (Proc.devRef .tc Cert.ReferenceIdeal.main_v130))
    (h1 : (WK (Proc.devRef .tc Cert.KernelIdeal.main_arg10) : (⟨Cert.KernelIdeal.S128, .f32⟩ : BufTy).Contents (Elt F)) = WR (Proc.devRef .tc Cert.ReferenceIdeal.main_arg10))
    (h2 : (WK (Proc.devRef .tc Cert.KernelIdeal.main_arg11) : (⟨Cert.KernelIdeal.S128, .f32⟩ : BufTy).Contents (Elt F)) = WR (Proc.devRef .tc Cert.ReferenceIdeal.main_arg11))
    (h3 : (WK (Proc.devRef .tc Cert.KernelIdeal.main_arg6) : (⟨Cert.KernelIdeal.S128x64, .f32⟩ : BufTy).Contents (Elt F)) = WR (Proc.devRef .tc Cert.ReferenceIdeal.main_arg6)) :
    (Cert.KernelIdeal.Line.stC2 WK (Proc.devRef .tc Cert.KernelIdeal.main_v151) : (⟨Cert.KernelIdeal.S10000x64, .f32⟩ : BufTy).Contents (Elt F)) = Cert.ReferenceIdeal.Line.stC2 WR (Proc.devRef .tc Cert.ReferenceIdeal.main_v151) := by
  have e := stageC2_v151 WK WR (WK (Proc.devRef .tc Cert.KernelIdeal.main_v130)) (WK (Proc.devRef .tc Cert.KernelIdeal.main_arg10)) (WK (Proc.devRef .tc Cert.KernelIdeal.main_arg11)) (WK (Proc.devRef .tc Cert.KernelIdeal.main_arg6))
  have eK : after [StableHlo.nullary Cert.KernelIdeal.main_v130 (WK (Proc.devRef .tc Cert.KernelIdeal.main_v130)), StableHlo.nullary Cert.KernelIdeal.main_arg10 (WK (Proc.devRef .tc Cert.KernelIdeal.main_arg10)), StableHlo.nullary Cert.KernelIdeal.main_arg11 (WK (Proc.devRef .tc Cert.KernelIdeal.main_arg11)), StableHlo.nullary Cert.KernelIdeal.main_arg6 (WK (Proc.devRef .tc Cert.KernelIdeal.main_arg6))] WK = WK := by
    simp only [after_cons, after_nil, Cert.LibRestate.nullary_self]
  have eR : after [StableHlo.nullary Cert.ReferenceIdeal.main_v130 (WK (Proc.devRef .tc Cert.KernelIdeal.main_v130)), StableHlo.nullary Cert.ReferenceIdeal.main_arg10 (WK (Proc.devRef .tc Cert.KernelIdeal.main_arg10)), StableHlo.nullary Cert.ReferenceIdeal.main_arg11 (WK (Proc.devRef .tc Cert.KernelIdeal.main_arg11)), StableHlo.nullary Cert.ReferenceIdeal.main_arg6 (WK (Proc.devRef .tc Cert.KernelIdeal.main_arg6))] WR = WR := by
    rw [h0, h1, h2, h3]
    simp only [after_cons, after_nil, Cert.LibRestate.nullary_self]
  rw [eK, eR] at e
  exact e

end Cert.Bridge

end
-- ==== Proof.BridgeD1.lean ====
/-
  Stage D1 of the two programs — the third layer's degree factors, aggregation and bias — is the same list of host operations in both, over buffers of the same
  names. Started from contents in which the buffers the stage reads hold the same values, the two lists leave the same
  values in the buffers the later stages read: each side's fold is walked down to the operations' functions applied to
  those values, and the two terms are one. No law of arithmetic is used; the stage's operations are never opened.
-/
import proofs.«113664_g84653805404492_cont_sun_m_127_42_alg».proof.Proof.KOps
import proofs.«113664_g84653805404492_cont_sun_m_127_42_alg».proof.Proof.RefStages
import proofs.«113664_g84653805404492_cont_sun_m_127_42_alg».proof.Proof.LibRestate

set_option maxRecDepth 65536

noncomputable section

namespace Cert.Bridge

open Idealize.ShloMosaic Idealize.ShloMosaic.TcCoe Idealize.SL.Sem Idealize.ShloMosaic.StableHlo

variable {F : FTy → Type} [FloatOps F]

set_option maxHeartbeats 40000000 in
/-- From contents holding the named values in the buffers stage D1 reads, both lines leave the same value in `main_v202`. -/
theorem stageD1_v202 (WK : Valuation Cert.KernelIdeal.τ Cert.KernelIdeal.sig (Elt F)) (WR : Valuation Cert.ReferenceIdeal.τ Cert.ReferenceIdeal.sig (Elt F))
    (x0 : (⟨Cert.KernelIdeal.S330000, .i32⟩ : BufTy).Contents (Elt F)) (x1 : (⟨Cert.KernelIdeal.S330000, .i32⟩ : BufTy).Contents (Elt F)) (x2 : (⟨Cert.KernelIdeal.S10000x64, .f32⟩ : BufTy).Contents (Elt F)) (x3 : (⟨Cert.KernelIdeal.S64, .f32⟩ : BufTy).Contents (Elt F)) :
    (Cert.KernelIdeal.Line.stD1 (after [StableHlo.nullary Cert.KernelIdeal.main_v6 x0, StableHlo.nullary Cert.KernelIdeal.main_v3 x1, StableHlo.nullary Cert.KernelIdeal.main_v151 x2, StableHlo.nullary Cert.KernelIdeal.main_arg7 x3] WK) (Proc.devRef .tc Cert.KernelIdeal.main_v202) : (⟨Cert.KernelIdeal.S10000x64, .f32⟩ : BufTy).Contents (Elt F))
    = Cert.ReferenceIdeal.Line.stD1 (after [StableHlo.nullary Cert.ReferenceIdeal.main_v6 x0, StableHlo.nullary Cert.ReferenceIdeal.main_v3 x1, StableHlo.nullary Cert.ReferenceIdeal.main_v151 x2, StableHlo.nullary Cert.ReferenceIdeal.main_arg7 x3] WR) (Proc.devRef .tc Cert.ReferenceIdeal.main_v202) := rfl

/-- Two contents that agree on the buffers stage D1 reads agree on `main_v202` after it. -/
theorem agreeD1_v202 (WK : Valuation Cert.KernelIdeal.τ Cert.KernelIdeal.sig (Elt F)) (WR : Valuation Cert.ReferenceIdeal.τ Cert.ReferenceIdeal.sig (Elt F))
    (h0 : (WK (Proc.devRef .tc Cert.KernelIdeal.main_v6) : (⟨Cert.KernelIdeal.S330000, .i32⟩ : BufTy).Contents (Elt F)) = WR (Proc.devRef .tc Cert.ReferenceIdeal.main_v6))
    (h1 : (WK (Proc.devRef .tc Cert.KernelIdeal.main_v3) : (⟨Cert.KernelIdeal.S330000, .i32⟩ : BufTy).Contents (Elt F)) = WR (Proc.devRef .tc Cert.ReferenceIdeal.main_v3))
    (h2 : (WK (Proc.devRef .tc Cert.KernelIdeal.main_v151) : (⟨Cert.KernelIdeal.S10000x64, .f32⟩ : BufTy).Contents (Elt F)) = WR (Proc.devRef .tc Cert.ReferenceIdeal.main_v151))
    (h3 : (WK (Proc.devRef .tc Cert.KernelIdeal.main_arg7) : (⟨Cert.KernelIdeal.S64, .f32⟩ : BufTy).Contents (Elt F)) = WR (Proc.devRef .tc Cert.ReferenceIdeal.main_arg7)) :
    (Cert.KernelIdeal.Line.stD1 WK (Proc.devRef .tc Cert.KernelIdeal.main_v202) : (⟨Cert.KernelIdeal.S10000x64, .f32⟩ : BufTy).Contents (Elt F)) = Cert.ReferenceIdeal.Line.stD1 WR (Proc.devRef .tc Cert.ReferenceIdeal.main_v202) := by
  have e := stageD1_v202 WK WR (WK (Proc.devRef .tc Cert.KernelIdeal.main_v6)) (WK (Proc.devRef .tc Cert.KernelIdeal.main_v3)) (WK (Proc.devRef .tc Cert.KernelIdeal.main_v151)) (WK (Proc.devRef .tc Cert.KernelIdeal.main_arg7))
  have eK : after [StableHlo.nullary Cert.KernelIdeal.main_v6 (WK (Proc.devRef .tc Cert.KernelIdeal.main_v6)), StableHlo.nullary Cert.KernelIdeal.main_v3 (WK (Proc.devRef .tc Cert.KernelIdeal.main_v3)), StableHlo.nullary Cert.KernelIdeal.main_v151 (WK (Proc.devRef .tc Cert.KernelIdeal.main_v151)), StableHlo.nullary Cert.KernelIdeal.main_arg7 (WK (Proc.devRef .tc Cert.KernelIdeal.main_arg7))] WK = WK := by
    simp only [after_cons, after_nil, Cert.LibRestate.nullary_self]
  have eR : after [StableHlo.nullary Cert.ReferenceIdeal.main_v6 (WK (Proc.devRef .tc Cert.KernelIdeal.main_v6)), StableHlo.nullary Cert.ReferenceIdeal.main_v3 (WK (Proc.devRef .tc Cert.KernelIdeal.main_v3)), StableHlo.nullary Cert.ReferenceIdeal.main_v151 (WK (Proc.devRef .tc Cert.KernelIdeal.main_v151)), StableHlo.nullary Cert.ReferenceIdeal.main_arg7 (WK (Proc.devRef .tc Cert.KernelIdeal.main_arg7))] WR = WR := by
    rw [h0, h1, h2, h3]
    simp only [after_cons, after_nil, Cert.LibRestate.nullary_self]
  rw [eK, eR] at e
  exact e

end Cert.Bridge

end
-- ==== Proof.BridgeD2.lean ====
/-
  Stage D2 of the two programs — the third layer's batch normalisation and the mean over the nodes — is the same list of host operations in both, over buffers of the same
  names. Started from contents in which the buffers the stage reads hold the same values, the two lists leave the same
  values in the buffers the later stages read: each side's fold is walked down to the operations' functions applied to
  those values, and the two terms are one. No law of arithmetic is used; the stage's operations are never opened.
-/
import proofs.«113664_g84653805404492_cont_sun_m_127_42_alg».proof.Proof.KOps
import proofs.«113664_g84653805404492_cont_sun_m_127_42_alg».proof.Proof.RefStages
import proofs.«113664_g84653805404492_cont_sun_m_127_42_alg».proof.Proof.LibRestate

set_option maxRecDepth 65536

noncomputable section

namespace Cert.Bridge

open Idealize.ShloMosaic Idealize.ShloMosaic.TcCoe Idealize.SL.Sem Idealize.ShloMosaic.StableHlo

variable {F : FTy → Type} [FloatOps F]

set_option maxHeartbeats 40000000 in
/-- From contents holding the named values in the buffers stage D2 reads, both lines leave the same value in `main_v225`. -/
theorem stageD2_v225 (WK : Valuation Cert.KernelIdeal.τ Cert.KernelIdeal.sig (Elt F)) (WR : Valuation Cert.ReferenceIdeal.τ Cert.ReferenceIdeal.sig (Elt F))
    (x0 : (⟨Cert.KernelIdeal.S10000x64, .f32⟩ : BufTy).Contents (Elt F)) (x1 : (⟨Cert.KernelIdeal.S64, .f32⟩ : BufTy).Contents (Elt F)) (x2 : (⟨Cert.KernelIdeal.S64, .f32⟩ : BufTy).Contents (Elt F)) :
    (Cert.KernelIdeal.Line.stD2 (after [StableHlo.nullary Cert.KernelIdeal.main_v202 x0, StableHlo.nullary Cert.KernelIdeal.main_arg12 x1, StableHlo.nullary Cert.KernelIdeal.main_arg13 x2] WK) (Proc.devRef .tc Cert.KernelIdeal.main_v225) : (⟨Cert.KernelIdeal.S1x64, .f32⟩ : BufTy).Contents (Elt F))
    = Cert.ReferenceIdeal.Line.stD2 (after [StableHlo.nullary Cert.ReferenceIdeal.main_v202 x0, StableHlo.nullary Cert.ReferenceIdeal.main_arg12 x1, StableHlo.nullary Cert.ReferenceIdeal.main_arg13 x2] WR) (Proc.devRef .tc Cert.ReferenceIdeal.main_v225) := rfl

/-- Two contents that agree on the buffers stage D2 reads agree on `main_v225` after it. -/
theorem agreeD2_v225 (WK : Valuation Cert.KernelIdeal.τ Cert.KernelIdeal.sig (Elt F)) (WR : Valuation Cert.ReferenceIdeal.τ Cert.ReferenceIdeal.sig (Elt F))
    (h0 : (WK (Proc.devRef .tc Cert.KernelIdeal.main_v202) : (⟨Cert.KernelIdeal.S10000x64, .f32⟩ : BufTy).Contents (Elt F)) = WR (Proc.devRef .tc Cert.ReferenceIdeal.main_v202))
    (h1 : (WK (Proc.devRef .tc Cert.KernelIdeal.main_arg12) : (⟨Cert.KernelIdeal.S64, .f32⟩ : BufTy).Contents (Elt F)) = WR (Proc.devRef .tc Cert.ReferenceIdeal.main_arg12))
    (h2 : (WK (Proc.devRef .tc Cert.KernelIdeal.main_arg13) : (⟨Cert.KernelIdeal.S64, .f32⟩ : BufTy).Contents (Elt F)) = WR (Proc.devRef .tc Cert.ReferenceIdeal.main_arg13)) :
    (Cert.KernelIdeal.Line.stD2 WK (Proc.devRef .tc Cert.KernelIdeal.main_v225) : (⟨Cert.KernelIdeal.S1x64, .f32⟩ : BufTy).Contents (Elt F)) = Cert.ReferenceIdeal.Line.stD2 WR (Proc.devRef .tc Cert.ReferenceIdeal.main_v225) := by
  have e := stageD2_v225 WK WR (WK (Proc.devRef .tc Cert.KernelIdeal.main_v202)) (WK (Proc.devRef .tc Cert.KernelIdeal.main_arg12)) (WK (Proc.devRef .tc Cert.KernelIdeal.main_arg13))
  have eK : after [StableHlo.nullary Cert.KernelIdeal.main_v202 (WK (Proc.devRef .tc Cert.KernelIdeal.main_v202)), StableHlo.nullary Cert.KernelIdeal.main_arg12 (WK (Proc.devRef .tc Cert.KernelIdeal.main_arg12)), StableHlo.nullary Cert.KernelIdeal.main_arg13 (WK (Proc.devRef .tc Cert.KernelIdeal.main_arg13))] WK = WK := by
    simp only [after_cons, after_nil, Cert.LibRestate.nullary_self]
  have eR : after [StableHlo.nullary Cert.ReferenceIdeal.main_v202 (WK (Proc.devRef .tc Cert.KernelIdeal.main_v202)), StableHlo.nullary Cert.ReferenceIdeal.main_arg12 (WK (Proc.devRef .tc Cert.KernelIdeal.main_arg12)), StableHlo.nullary Cert.ReferenceIdeal.main_arg13 (WK (Proc.devRef .tc Cert.KernelIdeal.main_arg13))] WR = WR := by
    rw [h0, h1, h2]
    simp only [after_cons, after_nil, Cert.LibRestate.nullary_self]
  rw [eK, eR] at e
  exact e

end Cert.Bridge

end
-- ==== Proof.BridgeD3.lean ====
/-
  Stage D3 of the two programs — the two heads on the pooled row — is the same list of host operations in both, over buffers of the same
  names. Started from contents in which the buffers the stage reads hold the same values, the two lists leave the same
  values in the buffers the later stages read: each side's fold is walked down to the operations' functions applied to
  those values, and the two terms are one. No law of arithmetic is used; the stage's operations are never opened.
-/
import proofs.«113664_g84653805404492_cont_sun_m_127_42_alg».proof.Proof.KOps
import proofs.«113664_g84653805404492_cont_sun_m_127_42_alg».proof.Proof.RefStages
import proofs.«113664_g84653805404492_cont_sun_m_127_42_alg».proof.Proof.LibRestate

set_option maxRecDepth 65536

noncomputable section

namespace Cert.Bridge

open Idealize.ShloMosaic Idealize.ShloMosaic.TcCoe Idealize.SL.Sem Idealize.ShloMosaic.StableHlo

variable {F : FTy → Type} [FloatOps F]

set_option maxHeartbeats 40000000 in
/-- From contents holding the named values in the buffers stage D3 reads, both lines leave the same value in `main_v232`. -/
theorem stageD3_v232 (WK : Valuation Cert.KernelIdeal.τ Cert.KernelIdeal.sig (Elt F)) (WR : Valuation Cert.ReferenceIdeal.τ Cert.ReferenceIdeal.sig (Elt F))
    (x0 : (⟨Cert.KernelIdeal.S1x64, .f32⟩ : BufTy).Contents (Elt F)) (x1 : (⟨Cert.KernelIdeal.S64x32, .f32⟩ : BufTy).Contents (Elt F)) (x2 : (⟨Cert.KernelIdeal.S32, .f32⟩ : BufTy).Contents (Elt F)) (x3 : (⟨Cert.KernelIdeal.S32x10, .f32⟩ : BufTy).Contents (Elt F)) (x4 : (⟨Cert.KernelIdeal.S10, .f32⟩ : BufTy).Contents (Elt F)) (x5 : (⟨Cert.KernelIdeal.S64x32, .f32⟩ : BufTy).Contents (Elt F)) (x6 : (⟨Cert.KernelIdeal.S32, .f32⟩ : BufTy).Contents (Elt F)) (x7 : (⟨Cert.KernelIdeal.S32x1, .f32⟩ : BufTy).Contents (Elt F)) (x8 : (⟨Cert.KernelIdeal.S1, .f32⟩ : BufTy).Contents (Elt F)) :
    (Cert.KernelIdeal.Line.stD3 (after [StableHlo.nullary Cert.KernelIdeal.main_v225 x0, StableHlo.nullary Cert.KernelIdeal.main_arg14 x1, StableHlo.nullary Cert.KernelIdeal.main_arg15 x2, StableHlo.nullary Cert.KernelIdeal.main_arg16 x3, StableHlo.nullary Cert.KernelIdeal.main_arg17 x4, StableHlo.nullary Cert.KernelIdeal.main_arg18 x5, StableHlo.nullary Cert.KernelIdeal.main_arg19 x6, StableHlo.nullary Cert.KernelIdeal.main_arg20 x7, StableHlo.nullary Cert.KernelIdeal.main_arg21 x8] WK) (Proc.devRef .tc Cert.KernelIdeal.main_v232) : (⟨Cert.KernelIdeal.S1x10, .f32⟩ : BufTy).Contents (Elt F))
    = Cert.ReferenceIdeal.Line.stD3 (after [StableHlo.nullary Cert.ReferenceIdeal.main_v225 x0, StableHlo.nullary Cert.ReferenceIdeal.main_arg14 x1, StableHlo.nullary Cert.ReferenceIdeal.main_arg15 x2, StableHlo.nullary Cert.ReferenceIdeal.main_arg16 x3, StableHlo.nullary Cert.ReferenceIdeal.main_arg17 x4, StableHlo.nullary Cert.ReferenceIdeal.main_arg18 x5, StableHlo.nullary Cert.ReferenceIdeal.main_arg19 x6, StableHlo.nullary Cert.ReferenceIdeal.main_arg20 x7, StableHlo.nullary Cert.ReferenceIdeal.main_arg21 x8] WR) (Proc.devRef .tc Cert.ReferenceIdeal.main_v232) := rfl

/-- Two contents that agree on the buffers stage D3 reads agree on `main_v232` after it. -/
theorem agreeD3_v232 (WK : Valuation Cert.KernelIdeal.τ Cert.KernelIdeal.sig (Elt F)) (WR : Valuation Cert.ReferenceIdeal.τ Cert.ReferenceIdeal.sig (Elt F))
    (h0 : (WK (Proc.devRef .tc Cert.KernelIdeal.main_v225) : (⟨Cert.KernelIdeal.S1x64, .f32⟩ : BufTy).Contents (Elt F)) = WR (Proc.devRef .tc Cert.ReferenceIdeal.main_v225))
    (h1 : (WK (Proc.devRef .tc Cert.KernelIdeal.main_arg14) : (⟨Cert.KernelIdeal.S64x32, .f32⟩ : BufTy).Contents (Elt F)) = WR (Proc.devRef .tc Cert.ReferenceIdeal.main_arg14))
    (h2 : (WK (Proc.devRef .tc Cert.KernelIdeal.main_arg15) : (⟨Cert.KernelIdeal.S32, .f32⟩ : BufTy).Contents (Elt F)) = WR (Proc.devRef .tc Cert.ReferenceIdeal.main_arg15))
    (h3 : (WK (Proc.devRef .tc Cert.KernelIdeal.main_arg16) : (⟨Cert.KernelIdeal.S32x10, .f32⟩ : BufTy).Contents (Elt F)) = WR (Proc.devRef .tc Cert.ReferenceIdeal.main_arg16))
    (h4 : (WK (Proc.devRef .tc Cert.KernelIdeal.main_arg17) : (⟨Cert.KernelIdeal.S10, .f32⟩ : BufTy).Contents (Elt F)) = WR (Proc.devRef .tc Cert.ReferenceIdeal.main_arg17))
    (h5 : (WK (Proc.devRef .tc Cert.KernelIdeal.main_arg18) : (⟨Cert.KernelIdeal.S64x32, .f32⟩ : BufTy).Contents (Elt F)) = WR (Proc.devRef .tc Cert.ReferenceIdeal.main_arg18))
    (h6 : (WK (Proc.devRef .tc Cert.KernelIdeal.main_arg19) : (⟨Cert.KernelIdeal.S32, .f32⟩ : BufTy).Contents (Elt F)) = WR (Proc.devRef .tc Cert.ReferenceIdeal.main_arg19))
    (h7 : (WK (Proc.devRef .tc Cert.KernelIdeal.main_arg20) : (⟨Cert.KernelIdeal.S32x1, .f32⟩ : BufTy).Contents (Elt F)) = WR (Proc.devRef .tc Cert.ReferenceIdeal.main_arg20))
    (h8 : (WK (Proc.devRef .tc Cert.KernelIdeal.main_arg21) : (⟨Cert.KernelIdeal.S1, .f32⟩ : BufTy).Contents (Elt F)) = WR (Proc.devRef .tc Cert.ReferenceIdeal.main_arg21)) :
    (Cert.KernelIdeal.Line.stD3 WK (Proc.devRef .tc Cert.KernelIdeal.main_v232) : (⟨Cert.KernelIdeal.S1x10, .f32⟩ : BufTy).Contents (Elt F)) = Cert.ReferenceIdeal.Line.stD3 WR (Proc.devRef .tc Cert.ReferenceIdeal.main_v232) := by
  have e := stageD3_v232 WK WR (WK (Proc.devRef .tc Cert.KernelIdeal.main_v225)) (WK (Proc.devRef .tc Cert.KernelIdeal.main_arg14)) (WK (Proc.devRef .tc Cert.KernelIdeal.main_arg15)) (WK (Proc.devRef .tc Cert.KernelIdeal.main_arg16)) (WK (Proc.devRef .tc Cert.KernelIdeal.main_arg17)) (WK (Proc.devRef .tc Cert.KernelIdeal.main_arg18)) (WK (Proc.devRef .tc Cert.KernelIdeal.main_arg19)) (WK (Proc.devRef .tc Cert.KernelIdeal.main_arg20)) (WK (Proc.devRef .tc Cert.KernelIdeal.main_arg21))
  have eK : after [StableHlo.nullary Cert.KernelIdeal.main_v225 (WK (Proc.devRef .tc Cert.KernelIdeal.main_v225)), StableHlo.nullary Cert.KernelIdeal.main_arg14 (WK (Proc.devRef .tc Cert.KernelIdeal.main_arg14)), StableHlo.nullary Cert.KernelIdeal.main_arg15 (WK (Proc.devRef .tc Cert.KernelIdeal.main_arg15)), StableHlo.nullary Cert.KernelIdeal.main_arg16 (WK (Proc.devRef .tc Cert.KernelIdeal.main_arg16)), StableHlo.nullary Cert.KernelIdeal.main_arg17 (WK (Proc.devRef .tc Cert.KernelIdeal.main_arg17)), StableHlo.nullary Cert.KernelIdeal.main_arg18 (WK (Proc.devRef .tc Cert.KernelIdeal.main_arg18)), StableHlo.nullary Cert.KernelIdeal.main_arg19 (WK (Proc.devRef .tc Cert.KernelIdeal.main_arg19)), StableHlo.nullary Cert.KernelIdeal.main_arg20 (WK (Proc.devRef .tc Cert.KernelIdeal.main_arg20)), StableHlo.nullary Cert.KernelIdeal.main_arg21 (WK (Proc.devRef .tc Cert.KernelIdeal.main_arg21))] WK = WK := by
    simp only [after_cons, after_nil, Cert.LibRestate.nullary_self]
  have eR : after [StableHlo.nullary Cert.ReferenceIdeal.main_v225 (WK (Proc.devRef .tc Cert.KernelIdeal.main_v225)), StableHlo.nullary Cert.ReferenceIdeal.main_arg14 (WK (Proc.devRef .tc Cert.KernelIdeal.main_arg14)), StableHlo.nullary Cert.ReferenceIdeal.main_arg15 (WK (Proc.devRef .tc Cert.KernelIdeal.main_arg15)), StableHlo.nullary Cert.ReferenceIdeal.main_arg16 (WK (Proc.devRef .tc Cert.KernelIdeal.main_arg16)), StableHlo.nullary Cert.ReferenceIdeal.main_arg17 (WK (Proc.devRef .tc Cert.KernelIdeal.main_arg17)), StableHlo.nullary Cert.ReferenceIdeal.main_arg18 (WK (Proc.devRef .tc Cert.KernelIdeal.main_arg18)), StableHlo.nullary Cert.ReferenceIdeal.main_arg19 (WK (Proc.devRef .tc Cert.KernelIdeal.main_arg19)), StableHlo.nullary Cert.ReferenceIdeal.main_arg20 (WK (Proc.devRef .tc Cert.KernelIdeal.main_arg20)), StableHlo.nullary Cert.ReferenceIdeal.main_arg21 (WK (Proc.devRef .tc Cert.KernelIdeal.main_arg21))] WR = WR := by
    rw [h0, h1, h2, h3, h4, h5, h6, h7, h8]
    simp only [after_cons, after_nil, Cert.LibRestate.nullary_self]
  rw [eK, eR] at e
  exact e

set_option maxHeartbeats 40000000 in
/-- From contents holding the named values in the buffers stage D3 reads, both lines leave the same value in `main_v245`. -/
theorem stageD3_v245 (WK : Valuation Cert.KernelIdeal.τ Cert.KernelIdeal.sig (Elt F)) (WR : Valuation Cert.ReferenceIdeal.τ Cert.ReferenceIdeal.sig (Elt F))
    (x0 : (⟨Cert.KernelIdeal.S1x64, .f32⟩ : BufTy).Contents (Elt F)) (x1 : (⟨Cert.KernelIdeal.S64x32, .f32⟩ : BufTy).Contents (Elt F)) (x2 : (⟨Cert.KernelIdeal.S32, .f32⟩ : BufTy).Contents (Elt F)) (x3 : (⟨Cert.KernelIdeal.S32x10, .f32⟩ : BufTy).Contents (Elt F)) (x4 : (⟨Cert.KernelIdeal.S10, .f32⟩ : BufTy).Contents (Elt F)) (x5 : (⟨Cert.KernelIdeal.S64x32, .f32⟩ : BufTy).Contents (Elt F)) (x6 : (⟨Cert.KernelIdeal.S32, .f32⟩ : BufTy).Contents (Elt F)) (x7 : (⟨Cert.KernelIdeal.S32x1, .f32⟩ : BufTy).Contents (Elt F)) (x8 : (⟨Cert.KernelIdeal.S1, .f32⟩ : BufTy).Contents (Elt F)) :
    (Cert.KernelIdeal.Line.stD3 (after [StableHlo.nullary Cert.KernelIdeal.main_v225 x0, StableHlo.nullary Cert.KernelIdeal.main_arg14 x1, StableHlo.nullary Cert.KernelIdeal.main_arg15 x2, StableHlo.nullary Cert.KernelIdeal.main_arg16 x3, StableHlo.nullary Cert.KernelIdeal.main_arg17 x4, StableHlo.nullary Cert.KernelIdeal.main_arg18 x5, StableHlo.nullary Cert.KernelIdeal.main_arg19 x6, StableHlo.nullary Cert.KernelIdeal.main_arg20 x7, StableHlo.nullary Cert.KernelIdeal.main_arg21 x8] WK) (Proc.devRef .tc Cert.KernelIdeal.main_v245) : (⟨Cert.KernelIdeal.S1x1, .f32⟩ : BufTy).Contents (Elt F))
    = Cert.ReferenceIdeal.Line.stD3 (after [StableHlo.nullary Cert.ReferenceIdeal.main_v225 x0, StableHlo.nullary Cert.ReferenceIdeal.main_arg14 x1, StableHlo.nullary Cert.ReferenceIdeal.main_arg15 x2, StableHlo.nullary Cert.ReferenceIdeal.main_arg16 x3, StableHlo.nullary Cert.ReferenceIdeal.main_arg17 x4, StableHlo.nullary Cert.ReferenceIdeal.main_arg18 x5, StableHlo.nullary Cert.ReferenceIdeal.main_arg19 x6, StableHlo.nullary Cert.ReferenceIdeal.main_arg20 x7, StableHlo.nullary Cert.ReferenceIdeal.main_arg21 x8] WR) (Proc.devRef .tc Cert.ReferenceIdeal.main_v245) := rfl

/-- Two contents that agree on the buffers stage D3 reads agree on `main_v245` after it. -/
theorem agreeD3_v245 (WK : Valuation Cert.KernelIdeal.τ Cert.KernelIdeal.sig (Elt F)) (WR : Valuation Cert.ReferenceIdeal.τ Cert.ReferenceIdeal.sig (Elt F))
    (h0 : (WK (Proc.devRef .tc Cert.KernelIdeal.main_v225) : (⟨Cert.KernelIdeal.S1x64, .f32⟩ : BufTy).Contents (Elt F)) = WR (Proc.devRef .tc Cert.ReferenceIdeal.main_v225))
    (h1 : (WK (Proc.devRef .tc Cert.KernelIdeal.main_arg14) : (⟨Cert.KernelIdeal.S64x32, .f32⟩ : BufTy).Contents (Elt F)) = WR (Proc.devRef .tc Cert.ReferenceIdeal.main_arg14))
    (h2 : (WK (Proc.devRef .tc Cert.KernelIdeal.main_arg15) : (⟨Cert.KernelIdeal.S32, .f32⟩ : BufTy).Contents (Elt F)) = WR (Proc.devRef .tc Cert.ReferenceIdeal.main_arg15))
    (h3 : (WK (Proc.devRef .tc Cert.KernelIdeal.main_arg16) : (⟨Cert.KernelIdeal.S32x10, .f32⟩ : BufTy).Contents (Elt F)) = WR (Proc.devRef .tc Cert.ReferenceIdeal.main_arg16))
    (h4 : (WK (Proc.devRef .tc Cert.KernelIdeal.main_arg17) : (⟨Cert.KernelIdeal.S10, .f32⟩ : BufTy).Contents (Elt F)) = WR (Proc.devRef .tc Cert.ReferenceIdeal.main_arg17))
    (h5 : (WK (Proc.devRef .tc Cert.KernelIdeal.main_arg18) : (⟨Cert.KernelIdeal.S64x32, .f32⟩ : BufTy).Contents (Elt F)) = WR (Proc.devRef .tc Cert.ReferenceIdeal.main_arg18))
    (h6 : (WK (Proc.devRef .tc Cert.KernelIdeal.main_arg19) : (⟨Cert.KernelIdeal.S32, .f32⟩ : BufTy).Contents (Elt F)) = WR (Proc.devRef .tc Cert.ReferenceIdeal.main_arg19))
    (h7 : (WK (Proc.devRef .tc Cert.KernelIdeal.main_arg20) : (⟨Cert.KernelIdeal.S32x1, .f32⟩ : BufTy).Contents (Elt F)) = WR (Proc.devRef .tc Cert.ReferenceIdeal.main_arg20))
    (h8 : (WK (Proc.devRef .tc Cert.KernelIdeal.main_arg21) : (⟨Cert.KernelIdeal.S1, .f32⟩ : BufTy).Contents (Elt F)) = WR (Proc.devRef .tc Cert.ReferenceIdeal.main_arg21)) :
    (Cert.KernelIdeal.Line.stD3 WK (Proc.devRef .tc Cert.KernelIdeal.main_v245) : (⟨Cert.KernelIdeal.S1x1, .f32⟩ : BufTy).Contents (Elt F)) = Cert.ReferenceIdeal.Line.stD3 WR (Proc.devRef .tc Cert.ReferenceIdeal.main_v245) := by
  have e := stageD3_v245 WK WR (WK (Proc.devRef .tc Cert.KernelIdeal.main_v225)) (WK (Proc.devRef .tc Cert.KernelIdeal.main_arg14)) (WK (Proc.devRef .tc Cert.KernelIdeal.main_arg15)) (WK (Proc.devRef .tc Cert.KernelIdeal.main_arg16)) (WK (Proc.devRef .tc Cert.KernelIdeal.main_arg17)) (WK (Proc.devRef .tc Cert.KernelIdeal.main_arg18)) (WK (Proc.devRef .tc Cert.KernelIdeal.main_arg19)) (WK (Proc.devRef .tc Cert.KernelIdeal.main_arg20)) (WK (Proc.devRef .tc Cert.KernelIdeal.main_arg21))
  have eK : after [StableHlo.nullary Cert.KernelIdeal.main_v225 (WK (Proc.devRef .tc Cert.KernelIdeal.main_v225)), StableHlo.nullary Cert.KernelIdeal.main_arg14 (WK (Proc.devRef .tc Cert.KernelIdeal.main_arg14)), StableHlo.nullary Cert.KernelIdeal.main_arg15 (WK (Proc.devRef .tc Cert.KernelIdeal.main_arg15)), StableHlo.nullary Cert.KernelIdeal.main_arg16 (WK (Proc.devRef .tc Cert.KernelIdeal.main_arg16)), StableHlo.nullary Cert.KernelIdeal.main_arg17 (WK (Proc.devRef .tc Cert.KernelIdeal.main_arg17)), StableHlo.nullary Cert.KernelIdeal.main_arg18 (WK (Proc.devRef .tc Cert.KernelIdeal.main_arg18)), StableHlo.nullary Cert.KernelIdeal.main_arg19 (WK (Proc.devRef .tc Cert.KernelIdeal.main_arg19)), StableHlo.nullary Cert.KernelIdeal.main_arg20 (WK (Proc.devRef .tc Cert.KernelIdeal.main_arg20)), StableHlo.nullary Cert.KernelIdeal.main_arg21 (WK (Proc.devRef .tc Cert.KernelIdeal.main_arg21))] WK = WK := by
    simp only [after_cons, after_nil, Cert.LibRestate.nullary_self]
  have eR : after [StableHlo.nullary Cert.ReferenceIdeal.main_v225 (WK (Proc.devRef .tc Cert.KernelIdeal.main_v225)), StableHlo.nullary Cert.ReferenceIdeal.main_arg14 (WK (Proc.devRef .tc Cert.KernelIdeal.main_arg14)), StableHlo.nullary Cert.ReferenceIdeal.main_arg15 (WK (Proc.devRef .tc Cert.KernelIdeal.main_arg15)), StableHlo.nullary Cert.ReferenceIdeal.main_arg16 (WK (Proc.devRef .tc Cert.KernelIdeal.main_arg16)), StableHlo.nullary Cert.ReferenceIdeal.main_arg17 (WK (Proc.devRef .tc Cert.KernelIdeal.main_arg17)), StableHlo.nullary Cert.ReferenceIdeal.main_arg18 (WK (Proc.devRef .tc Cert.KernelIdeal.main_arg18)), StableHlo.nullary Cert.ReferenceIdeal.main_arg19 (WK (Proc.devRef .tc Cert.KernelIdeal.main_arg19)), StableHlo.nullary Cert.ReferenceIdeal.main_arg20 (WK (Proc.devRef .tc Cert.KernelIdeal.main_arg20)), StableHlo.nullary Cert.ReferenceIdeal.main_arg21 (WK (Proc.devRef .tc Cert.KernelIdeal.main_arg21))] WR = WR := by
    rw [h0, h1, h2, h3, h4, h5, h6, h7, h8]
    simp only [after_cons, after_nil, Cert.LibRestate.nullary_self]
  rw [eK, eR] at e
  exact e

end Cert.Bridge

end
-- ==== Proof.KKeep.lean ====
/-
  A buffer that no operation of a run of stages writes is, after them, what it was before: the arguments through every
  stage up to the one that reads them, and the two index columns through the layers that only read them (the fold is
  walked down past every operation; none of them writes the buffer read).
-/
import proofs.«113664_g84653805404492_cont_sun_m_127_42_alg».proof.Proof.KOps

set_option maxRecDepth 65536

noncomputable section

namespace Cert.KernelIdeal.Line

open Cert.KernelIdeal Cert.KernelIdeal.Gen Idealize.ShloMosaic Idealize.ShloMosaic.TcCoe Idealize.SL.Sem Idealize.ShloMosaic.StableHlo

variable {F : FTy → Type} [FloatOps F]

set_option maxHeartbeats 4000000 in
/-- `main_arg3` is unchanged from the launch to the start of stage B1. -/
theorem keepB1_arg3 (V : Valuation τ sig (Elt F)) :
    (stA V (Proc.devRef .tc main_arg3) : (⟨S128, .f32⟩ : BufTy).Contents (Elt F)) = V (Proc.devRef .tc main_arg3) := rfl
set_option maxHeartbeats 4000000 in
/-- `main_arg8` is unchanged from the launch to the start of stage B2. -/
theorem keepB2_arg8 (V : Valuation τ sig (Elt F)) :
    (stB1 (stA V) (Proc.devRef .tc main_arg8) : (⟨S128, .f32⟩ : BufTy).Contents (Elt F)) = V (Proc.devRef .tc main_arg8) := rfl
set_option maxHeartbeats 4000000 in
/-- `main_arg9` is unchanged from the launch to the start of stage B2. -/
theorem keepB2_arg9 (V : Valuation τ sig (Elt F)) :
    (stB1 (stA V) (Proc.devRef .tc main_arg9) : (⟨S128, .f32⟩ : BufTy).Contents (Elt F)) = V (Proc.devRef .tc main_arg9) := rfl
set_option maxHeartbeats 4000000 in
/-- `main_arg4` is unchanged from the launch to the start of stage B2. -/
theorem keepB2_arg4 (V : Valuation τ sig (Elt F)) :
    (stB1 (stA V) (Proc.devRef .tc main_arg4) : (⟨S128x128, .f32⟩ : BufTy).Contents (Elt F)) = V (Proc.devRef .tc main_arg4) := rfl
set_option maxHeartbeats 4000000 in
/-- `main_v6` is unchanged from the end of stage A to the start of stage C1. -/
theorem keepC1_v6 (V : Valuation τ sig (Elt F)) :
    (stB2 (stB1 V) (Proc.devRef .tc main_v6) : (⟨S330000, .i32⟩ : BufTy).Contents (Elt F)) = V (Proc.devRef .tc main_v6) := rfl
set_option maxHeartbeats 4000000 in
/-- `main_v3` is unchanged from the end of stage A to the start of stage C1. -/
theorem keepC1_v3 (V : Valuation τ sig (Elt F)) :
    (stB2 (stB1 V) (Proc.devRef .tc main_v3) : (⟨S330000, .i32⟩ : BufTy).Contents (Elt F)) = V (Proc.devRef .tc main_v3) := rfl
set_option maxHeartbeats 4000000 in
/-- `main_arg5` is unchanged from the launch to the start of stage C1. -/
theorem keepC1_arg5 (V : Valuation τ sig (Elt F)) :
    (stB2 (stB1 (stA V)) (Proc.devRef .tc main_arg5) : (⟨S128, .f32⟩ : BufTy).Contents (Elt F)) = V (Proc.devRef .tc main_arg5) := rfl
set_option maxHeartbeats 4000000 in
/-- `main_arg10` is unchanged from the launch to the start of stage C2. -/
theorem keepC2_arg10 (V : Valuation τ sig (Elt F)) :
    (stC1 (stB2 (stB1 (stA V))) (Proc.devRef .tc main_arg10) : (⟨S128, .f32⟩ : BufTy).Contents (Elt F)) = V (Proc.devRef .tc main_arg10) := rfl
set_option maxHeartbeats 4000000 in
/-- `main_arg11` is unchanged from the launch to the start of stage C2. -/
theorem keepC2_arg11 (V : Valuation τ sig (Elt F)) :
    (stC1 (stB2 (stB1 (stA V))) (Proc.devRef .tc main_arg11) : (⟨S128, .f32⟩ : BufTy).Contents (Elt F)) = V (Proc.devRef .tc main_arg11) := rfl
set_option maxHeartbeats 4000000 in
/-- `main_arg6` is unchanged from the launch to the start of stage C2. -/
theorem keepC2_arg6 (V : Valuation τ sig (Elt F)) :
    (stC1 (stB2 (stB1 (stA V))) (Proc.devRef .tc main_arg6) : (⟨S128x64, .f32⟩ : BufTy).Contents (Elt F)) = V (Proc.devRef .tc main_arg6) := rfl
set_option maxHeartbeats 4000000 in
/-- `main_v6` is unchanged from the end of stage A to the start of stage D1. -/
theorem keepD1_v6 (V : Valuation τ sig (Elt F)) :
    (stC2 (stC1 (stB2 (stB1 V))) (Proc.devRef .tc main_v6) : (⟨S330000, .i32⟩ : BufTy).Contents (Elt F)) = V (Proc.devRef .tc main_v6) := rfl
set_option maxHeartbeats 4000000 in
/-- `main_v3` is unchanged from the end of stage A to the start of stage D1. -/
theorem keepD1_v3 (V : Valuation τ sig (Elt F)) :
    (stC2 (stC1 (stB2 (stB1 V))) (Proc.devRef .tc main_v3) : (⟨S330000, .i32⟩ : BufTy).Contents (Elt F)) = V (Proc.devRef .tc main_v3) := rfl
set_option maxHeartbeats 4000000 in
/-- `main_arg7` is unchanged from the launch to the start of stage D1. -/
theorem keepD1_arg7 (V : Valuation τ sig (Elt F)) :
    (stC2 (stC1 (stB2 (stB1 (stA V)))) (Proc.devRef .tc main_arg7) : (⟨S64, .f32⟩ : BufTy).Contents (Elt F)) = V (Proc.devRef .tc main_arg7) := rfl
set_option maxHeartbeats 4000000 in
/-- `main_arg12` is unchanged from the launch to the start of stage D2. -/
theorem keepD2_arg12 (V : Valuation τ sig (Elt F)) :
    (stD1 (stC2 (stC1 (stB2 (stB1 (stA V))))) (Proc.devRef .tc main_arg12) : (⟨S64, .f32⟩ : BufTy).Contents (Elt F)) = V (Proc.devRef .tc main_arg12) := rfl
set_option maxHeartbeats 4000000 in
/-- `main_arg13` is unchanged from the launch to the start of stage D2. -/
theorem keepD2_arg13 (V : Valuation τ sig (Elt F)) :
    (stD1 (stC2 (stC1 (stB2 (stB1 (stA V))))) (Proc.devRef .tc main_arg13) : (⟨S64, .f32⟩ : BufTy).Contents (Elt F)) = V (Proc.devRef .tc main_arg13) := rfl
set_option maxHeartbeats 4000000 in
/-- `main_arg14` is unchanged from the launch to the start of stage D3. -/
theorem keepD3_arg14 (V : Valuation τ sig (Elt F)) :
    (stD2 (stD1 (stC2 (stC1 (stB2 (stB1 (stA V)))))) (Proc.devRef .tc main_arg14) : (⟨S64x32, .f32⟩ : BufTy).Contents (Elt F)) = V (Proc.devRef .tc main_arg14) := rfl
set_option maxHeartbeats 4000000 in
/-- `main_arg15` is unchanged from the launch to the start of stage D3. -/
theorem keepD3_arg15 (V : Valuation τ sig (Elt F)) :
    (stD2 (stD1 (stC2 (stC1 (stB2 (stB1 (stA V)))))) (Proc.devRef .tc main_arg15) : (⟨S32, .f32⟩ : BufTy).Contents (Elt F)) = V (Proc.devRef .tc main_arg15) := rfl
set_option maxHeartbeats 4000000 in
/-- `main_arg16` is unchanged from the launch to the start of stage D3. -/
theorem keepD3_arg16 (V : Valuation τ sig (Elt F)) :
    (stD2 (stD1 (stC2 (stC1 (stB2 (stB1 (stA V)))))) (Proc.devRef .tc main_arg16) : (⟨S32x10, .f32⟩ : BufTy).Contents (Elt F)) = V (Proc.devRef .tc main_arg16) := rfl
set_option maxHeartbeats 4000000 in
/-- `main_arg17` is unchanged from the launch to the start of stage D3. -/
theorem keepD3_arg17 (V : Valuation τ sig (Elt F)) :
    (stD2 (stD1 (stC2 (stC1 (stB2 (stB1 (stA V)))))) (Proc.devRef .tc main_arg17) : (⟨S10, .f32⟩ : BufTy).Contents (Elt F)) = V (Proc.devRef .tc main_arg17) := rfl
set_option maxHeartbeats 4000000 in
/-- `main_arg18` is unchanged from the launch to the start of stage D3. -/
theorem keepD3_arg18 (V : Valuation τ sig (Elt F)) :
    (stD2 (stD1 (stC2 (stC1 (stB2 (stB1 (stA V)))))) (Proc.devRef .tc main_arg18) : (⟨S64x32, .f32⟩ : BufTy).Contents (Elt F)) = V (Proc.devRef .tc main_arg18) := rfl
set_option maxHeartbeats 4000000 in
/-- `main_arg19` is unchanged from the launch to the start of stage D3. -/
theorem keepD3_arg19 (V : Valuation τ sig (Elt F)) :
    (stD2 (stD1 (stC2 (stC1 (stB2 (stB1 (stA V)))))) (Proc.devRef .tc main_arg19) : (⟨S32, .f32⟩ : BufTy).Contents (Elt F)) = V (Proc.devRef .tc main_arg19) := rfl
set_option maxHeartbeats 4000000 in
/-- `main_arg20` is unchanged from the launch to the start of stage D3. -/
theorem keepD3_arg20 (V : Valuation τ sig (Elt F)) :
    (stD2 (stD1 (stC2 (stC1 (stB2 (stB1 (stA V)))))) (Proc.devRef .tc main_arg20) : (⟨S32x1, .f32⟩ : BufTy).Contents (Elt F)) = V (Proc.devRef .tc main_arg20) := rfl
set_option maxHeartbeats 4000000 in
/-- `main_arg21` is unchanged from the launch to the start of stage D3. -/
theorem keepD3_arg21 (V : Valuation τ sig (Elt F)) :
    (stD2 (stD1 (stC2 (stC1 (stB2 (stB1 (stA V)))))) (Proc.devRef .tc main_arg21) : (⟨S1, .f32⟩ : BufTy).Contents (Elt F)) = V (Proc.devRef .tc main_arg21) := rfl

end Cert.KernelIdeal.Line

end
-- ==== Proof.RKeep.lean ====
/-
  A buffer that no operation of a run of stages writes is, after them, what it was before: the arguments through every
  stage up to the one that reads them, and the two index columns through the layers that only read them (the fold is
  walked down past every operation; none of them writes the buffer read).
-/
import proofs.«113664_g84653805404492_cont_sun_m_127_42_alg».proof.Proof.RefStages

set_option maxRecDepth 65536

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- `main_arg3` is unchanged from the launch to the start of stage B1. -/
theorem keepB1_arg3 (V : Valuation τ sig (Elt F)) :
    (stA V (Proc.devRef .tc main_arg3) : (⟨S128, .f32⟩ : BufTy).Contents (Elt F)) = V (Proc.devRef .tc main_arg3) := rfl
set_option maxHeartbeats 4000000 in
/-- `main_arg8` is unchanged from the launch to the start of stage B2. -/
theorem keepB2_arg8 (V : Valuation τ sig (Elt F)) :
    (stB1 (stA V) (Proc.devRef .tc main_arg8) : (⟨S128, .f32⟩ : BufTy).Contents (Elt F)) = V (Proc.devRef .tc main_arg8) := rfl
set_option maxHeartbeats 4000000 in
/-- `main_arg9` is unchanged from the launch to the start of stage B2. -/
theorem keepB2_arg9 (V : Valuation τ sig (Elt F)) :
    (stB1 (stA V) (Proc.devRef .tc main_arg9) : (⟨S128, .f32⟩ : BufTy).Contents (Elt F)) = V (Proc.devRef .tc main_arg9) := rfl
set_option maxHeartbeats 4000000 in
/-- `main_arg4` is unchanged from the launch to the start of stage B2. -/
theorem keepB2_arg4 (V : Valuation τ sig (Elt F)) :
    (stB1 (stA V) (Proc.devRef .tc main_arg4) : (⟨S128x128, .f32⟩ : BufTy).Contents (Elt F)) = V (Proc.devRef .tc main_arg4) := rfl
set_option maxHeartbeats 4000000 in
/-- `main_v6` is unchanged from the end of stage A to the start of stage C1. -/
theorem keepC1_v6 (V : Valuation τ sig (Elt F)) :
    (stB2 (stB1 V) (Proc.devRef .tc main_v6) : (⟨S330000, .i32⟩ : BufTy).Contents (Elt F)) = V (Proc.devRef .tc main_v6) := rfl
set_option maxHeartbeats 4000000 in
/-- `main_v3` is unchanged from the end of stage A to the start of stage C1. -/
theorem keepC1_v3 (V : Valuation τ sig (Elt F)) :
    (stB2 (stB1 V) (Proc.devRef .tc main_v3) : (⟨S330000, .i32⟩ : BufTy).Contents (Elt F)) = V (Proc.devRef .tc main_v3) := rfl
set_option maxHeartbeats 4000000 in
/-- `main_arg5` is unchanged from the launch to the start of stage C1. -/
theorem keepC1_arg5 (V : Valuation τ sig (Elt F)) :
    (stB2 (stB1 (stA V)) (Proc.devRef .tc main_arg5) : (⟨S128, .f32⟩ : BufTy).Contents (Elt F)) = V (Proc.devRef .tc main_arg5) := rfl
set_option maxHeartbeats 4000000 in
/-- `main_arg10` is unchanged from the launch to the start of stage C2. -/
theorem keepC2_arg10 (V : Valuation τ sig (Elt F)) :
    (stC1 (stB2 (stB1 (stA V))) (Proc.devRef .tc main_arg10) : (⟨S128, .f32⟩ : BufTy).Contents (Elt F)) = V (Proc.devRef .tc main_arg10) := rfl
set_option maxHeartbeats 4000000 in
/-- `main_arg11` is unchanged from the launch to the start of stage C2. -/
theorem keepC2_arg11 (V : Valuation τ sig (Elt F)) :
    (stC1 (stB2 (stB1 (stA V))) (Proc.devRef .tc main_arg11) : (⟨S128, .f32⟩ : BufTy).Contents (Elt F)) = V (Proc.devRef .tc main_arg11) := rfl
set_option maxHeartbeats 4000000 in
/-- `main_arg6` is unchanged from the launch to the start of stage C2. -/
theorem keepC2_arg6 (V : Valuation τ sig (Elt F)) :
    (stC1 (stB2 (stB1 (stA V))) (Proc.devRef .tc main_arg6) : (⟨S128x64, .f32⟩ : BufTy).Contents (Elt F)) = V (Proc.devRef .tc main_arg6) := rfl
set_option maxHeartbeats 4000000 in
/-- `main_v6` is unchanged from the end of stage A to the start of stage D1. -/
theorem keepD1_v6 (V : Valuation τ sig (Elt F)) :
    (stC2 (stC1 (stB2 (stB1 V))) (Proc.devRef .tc main_v6) : (⟨S330000, .i32⟩ : BufTy).Contents (Elt F)) = V (Proc.devRef .tc main_v6) := rfl
set_option maxHeartbeats 4000000 in
/-- `main_v3` is unchanged from the end of stage A to the start of stage D1. -/
theorem keepD1_v3 (V : Valuation τ sig (Elt F)) :
    (stC2 (stC1 (stB2 (stB1 V))) (Proc.devRef .tc main_v3) : (⟨S330000, .i32⟩ : BufTy).Contents (Elt F)) = V (Proc.devRef .tc main_v3) := rfl
set_option maxHeartbeats 4000000 in
/-- `main_arg7` is unchanged from the launch to the start of stage D1. -/
theorem keepD1_arg7 (V : Valuation τ sig (Elt F)) :
    (stC2 (stC1 (stB2 (stB1 (stA V)))) (Proc.devRef .tc main_arg7) : (⟨S64, .f32⟩ : BufTy).Contents (Elt F)) = V (Proc.devRef .tc main_arg7) := rfl
set_option maxHeartbeats 4000000 in
/-- `main_arg12` is unchanged from the launch to the start of stage D2. -/
theorem keepD2_arg12 (V : Valuation τ sig (Elt F)) :
    (stD1 (stC2 (stC1 (stB2 (stB1 (stA V))))) (Proc.devRef .tc main_arg12) : (⟨S64, .f32⟩ : BufTy).Contents (Elt F)) = V (Proc.devRef .tc main_arg12) := rfl
set_option maxHeartbeats 4000000 in
/-- `main_arg13` is unchanged from the launch to the start of stage D2. -/
theorem keepD2_arg13 (V : Valuation τ sig (Elt F)) :
    (stD1 (stC2 (stC1 (stB2 (stB1 (stA V))))) (Proc.devRef .tc main_arg13) : (⟨S64, .f32⟩ : BufTy).Contents (Elt F)) = V (Proc.devRef .tc main_arg13) := rfl
set_option maxHeartbeats 4000000 in
/-- `main_arg14` is unchanged from the launch to the start of stage D3. -/
theorem keepD3_arg14 (V : Valuation τ sig (Elt F)) :
    (stD2 (stD1 (stC2 (stC1 (stB2 (stB1 (stA V)))))) (Proc.devRef .tc main_arg14) : (⟨S64x32, .f32⟩ : BufTy).Contents (Elt F)) = V (Proc.devRef .tc main_arg14) := rfl
set_option maxHeartbeats 4000000 in
/-- `main_arg15` is unchanged from the launch to the start of stage D3. -/
theorem keepD3_arg15 (V : Valuation τ sig (Elt F)) :
    (stD2 (stD1 (stC2 (stC1 (stB2 (stB1 (stA V)))))) (Proc.devRef .tc main_arg15) : (⟨S32, .f32⟩ : BufTy).Contents (Elt F)) = V (Proc.devRef .tc main_arg15) := rfl
set_option maxHeartbeats 4000000 in
/-- `main_arg16` is unchanged from the launch to the start of stage D3. -/
theorem keepD3_arg16 (V : Valuation τ sig (Elt F)) :
    (stD2 (stD1 (stC2 (stC1 (stB2 (stB1 (stA V)))))) (Proc.devRef .tc main_arg16) : (⟨S32x10, .f32⟩ : BufTy).Contents (Elt F)) = V (Proc.devRef .tc main_arg16) := rfl
set_option maxHeartbeats 4000000 in
/-- `main_arg17` is unchanged from the launch to the start of stage D3. -/
theorem keepD3_arg17 (V : Valuation τ sig (Elt F)) :
    (stD2 (stD1 (stC2 (stC1 (stB2 (stB1 (stA V)))))) (Proc.devRef .tc main_arg17) : (⟨S10, .f32⟩ : BufTy).Contents (Elt F)) = V (Proc.devRef .tc main_arg17) := rfl
set_option maxHeartbeats 4000000 in
/-- `main_arg18` is unchanged from the launch to the start of stage D3. -/
theorem keepD3_arg18 (V : Valuation τ sig (Elt F)) :
    (stD2 (stD1 (stC2 (stC1 (stB2 (stB1 (stA V)))))) (Proc.devRef .tc main_arg18) : (⟨S64x32, .f32⟩ : BufTy).Contents (Elt F)) = V (Proc.devRef .tc main_arg18) := rfl
set_option maxHeartbeats 4000000 in
/-- `main_arg19` is unchanged from the launch to the start of stage D3. -/
theorem keepD3_arg19 (V : Valuation τ sig (Elt F)) :
    (stD2 (stD1 (stC2 (stC1 (stB2 (stB1 (stA V)))))) (Proc.devRef .tc main_arg19) : (⟨S32, .f32⟩ : BufTy).Contents (Elt F)) = V (Proc.devRef .tc main_arg19) := rfl
set_option maxHeartbeats 4000000 in
/-- `main_arg20` is unchanged from the launch to the start of stage D3. -/
theorem keepD3_arg20 (V : Valuation τ sig (Elt F)) :
    (stD2 (stD1 (stC2 (stC1 (stB2 (stB1 (stA V)))))) (Proc.devRef .tc main_arg20) : (⟨S32x1, .f32⟩ : BufTy).Contents (Elt F)) = V (Proc.devRef .tc main_arg20) := rfl
set_option maxHeartbeats 4000000 in
/-- `main_arg21` is unchanged from the launch to the start of stage D3. -/
theorem keepD3_arg21 (V : Valuation τ sig (Elt F)) :
    (stD2 (stD1 (stC2 (stC1 (stB2 (stB1 (stA V)))))) (Proc.devRef .tc main_arg21) : (⟨S1, .f32⟩ : BufTy).Contents (Elt F)) = V (Proc.devRef .tc main_arg21) := rfl

end Cert.ReferenceIdeal.Line

end
-- ==== Proof.Bridge.lean ====
/-
  The two lines compute the same results. Stage by stage: contents that agree on what a stage reads agree, after it, on
  what it leaves for the later stages; a buffer a later stage reads that the stages in between do not write (an
  argument, the two index columns) is carried through them unchanged on both sides. Chained from launch contents that
  agree on the arguments, the two result buffers agree at the end.
-/
import proofs.«113664_g84653805404492_cont_sun_m_127_42_alg».proof.Proof.BridgeA
import proofs.«113664_g84653805404492_cont_sun_m_127_42_alg».proof.Proof.BridgeB1
import proofs.«113664_g84653805404492_cont_sun_m_127_42_alg».proof.Proof.BridgeB2
import proofs.«113664_g84653805404492_cont_sun_m_127_42_alg».proof.Proof.BridgeC1
import proofs.«113664_g84653805404492_cont_sun_m_127_42_alg».proof.Proof.BridgeC2
import proofs.«113664_g84653805404492_cont_sun_m_127_42_alg».proof.Proof.BridgeD1
import proofs.«113664_g84653805404492_cont_sun_m_127_42_alg».proof.Proof.BridgeD2
import proofs.«113664_g84653805404492_cont_sun_m_127_42_alg».proof.Proof.BridgeD3
import proofs.«113664_g84653805404492_cont_sun_m_127_42_alg».proof.Proof.KKeep
import proofs.«113664_g84653805404492_cont_sun_m_127_42_alg».proof.Proof.RKeep

set_option maxRecDepth 16384

noncomputable section

namespace Cert.Bridge

open Idealize.ShloMosaic Idealize.ShloMosaic.TcCoe Idealize.SL.Sem Idealize.ShloMosaic.StableHlo

variable {F : FTy → Type} [FloatOps F]

/-- From contents that agree on the twenty-two arguments, the kernel's line and the reference's line end with the same
    class logits and the same regression output. -/
theorem results_agree (WK : Valuation Cert.KernelIdeal.τ Cert.KernelIdeal.sig (Elt F)) (WR : Valuation Cert.ReferenceIdeal.τ Cert.ReferenceIdeal.sig (Elt F))
    (h0 : (WK (Proc.devRef .tc Cert.KernelIdeal.main_arg0) : (⟨Cert.KernelIdeal.S10000x128, .f32⟩ : BufTy).Contents (Elt F)) = WR (Proc.devRef .tc Cert.ReferenceIdeal.main_arg0))
    (h1 : (WK (Proc.devRef .tc Cert.KernelIdeal.main_arg1) : (⟨Cert.KernelIdeal.S2x320000, .i32⟩ : BufTy).Contents (Elt F)) = WR (Proc.devRef .tc Cert.ReferenceIdeal.main_arg1))
    (h2 : (WK (Proc.devRef .tc Cert.KernelIdeal.main_arg2) : (⟨Cert.KernelIdeal.S128x128, .f32⟩ : BufTy).Contents (Elt F)) = WR (Proc.devRef .tc Cert.ReferenceIdeal.main_arg2))
    (h3 : (WK (Proc.devRef .tc Cert.KernelIdeal.main_arg3) : (⟨Cert.KernelIdeal.S128, .f32⟩ : BufTy).Contents (Elt F)) = WR (Proc.devRef .tc Cert.ReferenceIdeal.main_arg3))
    (h4 : (WK (Proc.devRef .tc Cert.KernelIdeal.main_arg4) : (⟨Cert.KernelIdeal.S128x128, .f32⟩ : BufTy).Contents (Elt F)) = WR (Proc.devRef .tc Cert.ReferenceIdeal.main_arg4))
    (h5 : (WK (Proc.devRef .tc Cert.KernelIdeal.main_arg5) : (⟨Cert.KernelIdeal.S128, .f32⟩ : BufTy).Contents (Elt F)) = WR (Proc.devRef .tc Cert.ReferenceIdeal.main_arg5))
    (h6 : (WK (Proc.devRef .tc Cert.KernelIdeal.main_arg6) : (⟨Cert.KernelIdeal.S128x64, .f32⟩ : BufTy).Contents (Elt F)) = WR (Proc.devRef .tc Cert.ReferenceIdeal.main_arg6))
    (h7 : (WK (Proc.devRef .tc Cert.KernelIdeal.main_arg7) : (⟨Cert.KernelIdeal.S64, .f32⟩ : BufTy).Contents (Elt F)) = WR (Proc.devRef .tc Cert.ReferenceIdeal.main_arg7))
    (h8 : (WK (Proc.devRef .tc Cert.KernelIdeal.main_arg8) : (⟨Cert.KernelIdeal.S128, .f32⟩ : BufTy).Contents (Elt F)) = WR (Proc.devRef .tc Cert.ReferenceIdeal.main_arg8))
    (h9 : (WK (Proc.devRef .tc Cert.KernelIdeal.main_arg9) : (⟨Cert.KernelIdeal.S128, .f32⟩ : BufTy).Contents (Elt F)) = WR (Proc.devRef .tc Cert.ReferenceIdeal.main_arg9))
    (h10 : (WK (Proc.devRef .tc Cert.KernelIdeal.main_arg10) : (⟨Cert.KernelIdeal.S128, .f32⟩ : BufTy).Contents (Elt F)) = WR (Proc.devRef .tc Cert.ReferenceIdeal.main_arg10))
    (h11 : (WK (Proc.devRef .tc Cert.KernelIdeal.main_arg11) : (⟨Cert.KernelIdeal.S128, .f32⟩ : BufTy).Contents (Elt F)) = WR (Proc.devRef .tc Cert.ReferenceIdeal.main_arg11))
    (h12 : (WK (Proc.devRef .tc Cert.KernelIdeal.main_arg12) : (⟨Cert.KernelIdeal.S64, .f32⟩ : BufTy).Contents (Elt F)) = WR (Proc.devRef .tc Cert.ReferenceIdeal.main_arg12))
    (h13 : (WK (Proc.devRef .tc Cert.KernelIdeal.main_arg13) : (⟨Cert.KernelIdeal.S64, .f32⟩ : BufTy).Contents (Elt F)) = WR (Proc.devRef .tc Cert.ReferenceIdeal.main_arg13))
    (h14 : (WK (Proc.devRef .tc Cert.KernelIdeal.main_arg14) : (⟨Cert.KernelIdeal.S64x32, .f32⟩ : BufTy).Contents (Elt F)) = WR (Proc.devRef .tc Cert.ReferenceIdeal.main_arg14))
    (h15 : (WK (Proc.devRef .tc Cert.KernelIdeal.main_arg15) : (⟨Cert.KernelIdeal.S32, .f32⟩ : BufTy).Contents (Elt F)) = WR (Proc.devRef .tc Cert.ReferenceIdeal.main_arg15))
    (h16 : (WK (Proc.devRef .tc Cert.KernelIdeal.main_arg16) : (⟨Cert.KernelIdeal.S32x10, .f32⟩ : BufTy).Contents (Elt F)) = WR (Proc.devRef .tc Cert.ReferenceIdeal.main_arg16))
    (h17 : (WK (Proc.devRef .tc Cert.KernelIdeal.main_arg17) : (⟨Cert.KernelIdeal.S10, .f32⟩ : BufTy).Contents (Elt F)) = WR (Proc.devRef .tc Cert.ReferenceIdeal.main_arg17))
    (h18 : (WK (Proc.devRef .tc Cert.KernelIdeal.main_arg18) : (⟨Cert.KernelIdeal.S64x32, .f32⟩ : BufTy).Contents (Elt F)) = WR (Proc.devRef .tc Cert.ReferenceIdeal.main_arg18))
    (h19 : (WK (Proc.devRef .tc Cert.KernelIdeal.main_arg19) : (⟨Cert.KernelIdeal.S32, .f32⟩ : BufTy).Contents (Elt F)) = WR (Proc.devRef .tc Cert.ReferenceIdeal.main_arg19))
    (h20 : (WK (Proc.devRef .tc Cert.KernelIdeal.main_arg20) : (⟨Cert.KernelIdeal.S32x1, .f32⟩ : BufTy).Contents (Elt F)) = WR (Proc.devRef .tc Cert.ReferenceIdeal.main_arg20))
    (h21 : (WK (Proc.devRef .tc Cert.KernelIdeal.main_arg21) : (⟨Cert.KernelIdeal.S1, .f32⟩ : BufTy).Contents (Elt F)) = WR (Proc.devRef .tc Cert.ReferenceIdeal.main_arg21)) :
    (((Cert.KernelIdeal.Line.stD3 (Cert.KernelIdeal.Line.stD2 (Cert.KernelIdeal.Line.stD1 (Cert.KernelIdeal.Line.stC2 (Cert.KernelIdeal.Line.stC1 (Cert.KernelIdeal.Line.stB2 (Cert.KernelIdeal.Line.stB1 (Cert.KernelIdeal.Line.stA WK)))))))) (Proc.devRef .tc Cert.KernelIdeal.main_v232) : (⟨Cert.KernelIdeal.S1x10, .f32⟩ : BufTy).Contents (Elt F)) = (Cert.ReferenceIdeal.Line.stD3 (Cert.ReferenceIdeal.Line.stD2 (Cert.ReferenceIdeal.Line.stD1 (Cert.ReferenceIdeal.Line.stC2 (Cert.ReferenceIdeal.Line.stC1 (Cert.ReferenceIdeal.Line.stB2 (Cert.ReferenceIdeal.Line.stB1 (Cert.ReferenceIdeal.Line.stA WR)))))))) (Proc.devRef .tc Cert.ReferenceIdeal.main_v232))
    ∧ (((Cert.KernelIdeal.Line.stD3 (Cert.KernelIdeal.Line.stD2 (Cert.KernelIdeal.Line.stD1 (Cert.KernelIdeal.Line.stC2 (Cert.KernelIdeal.Line.stC1 (Cert.KernelIdeal.Line.stB2 (Cert.KernelIdeal.Line.stB1 (Cert.KernelIdeal.Line.stA WK)))))))) (Proc.devRef .tc Cert.KernelIdeal.main_v245) : (⟨Cert.KernelIdeal.S1x1, .f32⟩ : BufTy).Contents (Elt F)) = (Cert.ReferenceIdeal.Line.stD3 (Cert.ReferenceIdeal.Line.stD2 (Cert.ReferenceIdeal.Line.stD1 (Cert.ReferenceIdeal.Line.stC2 (Cert.ReferenceIdeal.Line.stC1 (Cert.ReferenceIdeal.Line.stB2 (Cert.ReferenceIdeal.Line.stB1 (Cert.ReferenceIdeal.Line.stA WR)))))))) (Proc.devRef .tc Cert.ReferenceIdeal.main_v245)) := by
  have fA_v7 := agreeA_v7 WK WR h0 h1 h2
  have fA_v3 := agreeA_v3 WK WR h0 h1 h2
  have fA_v6 := agreeA_v6 WK WR h0 h1 h2
  have kB1_arg3 : ((Cert.KernelIdeal.Line.stA WK) (Proc.devRef .tc Cert.KernelIdeal.main_arg3) : (⟨Cert.KernelIdeal.S128, .f32⟩ : BufTy).Contents (Elt F)) = (Cert.ReferenceIdeal.Line.stA WR) (Proc.devRef .tc Cert.ReferenceIdeal.main_arg3) :=
    (Cert.KernelIdeal.Line.keepB1_arg3 WK).trans (h3.trans (Cert.ReferenceIdeal.Line.keepB1_arg3 WR).symm)
  have fB1_v58 := agreeB1_v58 (Cert.KernelIdeal.Line.stA WK) (Cert.ReferenceIdeal.Line.stA WR) fA_v6 fA_v3 fA_v7 kB1_arg3
  have kB2_arg8 : ((Cert.KernelIdeal.Line.stB1 (Cert.KernelIdeal.Line.stA WK)) (Proc.devRef .tc Cert.KernelIdeal.main_arg8) : (⟨Cert.KernelIdeal.S128, .f32⟩ : BufTy).Contents (Elt F)) = (Cert.ReferenceIdeal.Line.stB1 (Cert.ReferenceIdeal.Line.stA WR)) (Proc.devRef .tc Cert.ReferenceIdeal.main_arg8) :=
    (Cert.KernelIdeal.Line.keepB2_arg8 WK).trans (h8.trans (Cert.ReferenceIdeal.Line.keepB2_arg8 WR).symm)
  have kB2_arg9 : ((Cert.KernelIdeal.Line.stB1 (Cert.KernelIdeal.Line.stA WK)) (Proc.devRef .tc Cert.KernelIdeal.main_arg9) : (⟨Cert.KernelIdeal.S128, .f32⟩ : BufTy).Contents (Elt F)) = (Cert.ReferenceIdeal.Line.stB1 (Cert.ReferenceIdeal.Line.stA WR)) (Proc.devRef .tc Cert.ReferenceIdeal.main_arg9) :=
    (Cert.KernelIdeal.Line.keepB2_arg9 WK).trans (h9.trans (Cert.ReferenceIdeal.Line.keepB2_arg9 WR).symm)
  have kB2_arg4 : ((Cert.KernelIdeal.Line.stB1 (Cert.KernelIdeal.Line.stA WK)) (Proc.devRef .tc Cert.KernelIdeal.main_arg4) : (⟨Cert.KernelIdeal.S128x128, .f32⟩ : BufTy).Contents (Elt F)) = (Cert.ReferenceIdeal.Line.stB1 (Cert.ReferenceIdeal.Line.stA WR)) (Proc.devRef .tc Cert.ReferenceIdeal.main_arg4) :=
    (Cert.KernelIdeal.Line.keepB2_arg4 WK).trans (h4.trans (Cert.ReferenceIdeal.Line.keepB2_arg4 WR).symm)
  have fB2_v79 := agreeB2_v79 (Cert.KernelIdeal.Line.stB1 (Cert.KernelIdeal.Line.stA WK)) (Cert.ReferenceIdeal.Line.stB1 (Cert.ReferenceIdeal.Line.stA WR)) fB1_v58 kB2_arg8 kB2_arg9 kB2_arg4
  have kC1_v6 : ((Cert.KernelIdeal.Line.stB2 (Cert.KernelIdeal.Line.stB1 (Cert.KernelIdeal.Line.stA WK))) (Proc.devRef .tc Cert.KernelIdeal.main_v6) : (⟨Cert.KernelIdeal.S330000, .i32⟩ : BufTy).Contents (Elt F)) = (Cert.ReferenceIdeal.Line.stB2 (Cert.ReferenceIdeal.Line.stB1 (Cert.ReferenceIdeal.Line.stA WR))) (Proc.devRef .tc Cert.ReferenceIdeal.main_v6) :=
    (Cert.KernelIdeal.Line.keepC1_v6 (Cert.KernelIdeal.Line.stA WK)).trans (fA_v6.trans (Cert.ReferenceIdeal.Line.keepC1_v6 (Cert.ReferenceIdeal.Line.stA WR)).symm)
  have kC1_v3 : ((Cert.KernelIdeal.Line.stB2 (Cert.KernelIdeal.Line.stB1 (Cert.KernelIdeal.Line.stA WK))) (Proc.devRef .tc Cert.KernelIdeal.main_v3) : (⟨Cert.KernelIdeal.S330000, .i32⟩ : BufTy).Contents (Elt F)) = (Cert.ReferenceIdeal.Line.stB2 (Cert.ReferenceIdeal.Line.stB1 (Cert.ReferenceIdeal.Line.stA WR))) (Proc.devRef .tc Cert.ReferenceIdeal.main_v3) :=
    (Cert.KernelIdeal.Line.keepC1_v3 (Cert.KernelIdeal.Line.stA WK)).trans (fA_v3.trans (Cert.ReferenceIdeal.Line.keepC1_v3 (Cert.ReferenceIdeal.Line.stA WR)).symm)
  have kC1_arg5 : ((Cert.KernelIdeal.Line.stB2 (Cert.KernelIdeal.Line.stB1 (Cert.KernelIdeal.Line.stA WK))) (Proc.devRef .tc Cert.KernelIdeal.main_arg5) : (⟨Cert.KernelIdeal.S128, .f32⟩ : BufTy).Contents (Elt F)) = (Cert.ReferenceIdeal.Line.stB2 (Cert.ReferenceIdeal.Line.stB1 (Cert.ReferenceIdeal.Line.stA WR))) (Proc.devRef .tc Cert.ReferenceIdeal.main_arg5) :=
    (Cert.KernelIdeal.Line.keepC1_arg5 WK).trans (h5.trans (Cert.ReferenceIdeal.Line.keepC1_arg5 WR).symm)
  have fC1_v130 := agreeC1_v130 (Cert.KernelIdeal.Line.stB2 (Cert.KernelIdeal.Line.stB1 (Cert.KernelIdeal.Line.stA WK))) (Cert.ReferenceIdeal.Line.stB2 (Cert.ReferenceIdeal.Line.stB1 (Cert.ReferenceIdeal.Line.stA WR))) kC1_v6 kC1_v3 fB2_v79 kC1_arg5
  have kC2_arg10 : ((Cert.KernelIdeal.Line.stC1 (Cert.KernelIdeal.Line.stB2 (Cert.KernelIdeal.Line.stB1 (Cert.KernelIdeal.Line.stA WK)))) (Proc.devRef .tc Cert.KernelIdeal.main_arg10) : (⟨Cert.KernelIdeal.S128, .f32⟩ : BufTy).Contents (Elt F)) = (Cert.ReferenceIdeal.Line.stC1 (Cert.ReferenceIdeal.Line.stB2 (Cert.ReferenceIdeal.Line.stB1 (Cert.ReferenceIdeal.Line.stA WR)))) (Proc.devRef .tc Cert.ReferenceIdeal.main_arg10) :=
    (Cert.KernelIdeal.Line.keepC2_arg10 WK).trans (h10.trans (Cert.ReferenceIdeal.Line.keepC2_arg10 WR).symm)
  have kC2_arg11 : ((Cert.KernelIdeal.Line.stC1 (Cert.KernelIdeal.Line.stB2 (Cert.KernelIdeal.Line.stB1 (Cert.KernelIdeal.Line.stA WK)))) (Proc.devRef .tc Cert.KernelIdeal.main_arg11) : (⟨Cert.KernelIdeal.S128, .f32⟩ : BufTy).Contents (Elt F)) = (Cert.ReferenceIdeal.Line.stC1 (Cert.ReferenceIdeal.Line.stB2 (Cert.ReferenceIdeal.Line.stB1 (Cert.ReferenceIdeal.Line.stA WR)))) (Proc.devRef .tc Cert.ReferenceIdeal.main_arg11) :=
    (Cert.KernelIdeal.Line.keepC2_arg11 WK).trans (h11.trans (Cert.ReferenceIdeal.Line.keepC2_arg11 WR).symm)
  have kC2_arg6 : ((Cert.KernelIdeal.Line.stC1 (Cert.KernelIdeal.Line.stB2 (Cert.KernelIdeal.Line.stB1 (Cert.KernelIdeal.Line.stA WK)))) (Proc.devRef .tc Cert.KernelIdeal.main_arg6) : (⟨Cert.KernelIdeal.S128x64, .f32⟩ : BufTy).Contents (Elt F)) = (Cert.ReferenceIdeal.Line.stC1 (Cert.ReferenceIdeal.Line.stB2 (Cert.ReferenceIdeal.Line.stB1 (Cert.ReferenceIdeal.Line.stA WR)))) (Proc.devRef .tc Cert.ReferenceIdeal.main_arg6) :=
    (Cert.KernelIdeal.Line.keepC2_arg6 WK).trans (h6.trans (Cert.ReferenceIdeal.Line.keepC2_arg6 WR).symm)
  have fC2_v151 := agreeC2_v151 (Cert.KernelIdeal.Line.stC1 (Cert.KernelIdeal.Line.stB2 (Cert.KernelIdeal.Line.stB1 (Cert.KernelIdeal.Line.stA WK)))) (Cert.ReferenceIdeal.Line.stC1 (Cert.ReferenceIdeal.Line.stB2 (Cert.ReferenceIdeal.Line.stB1 (Cert.ReferenceIdeal.Line.stA WR)))) fC1_v130 kC2_arg10 kC2_arg11 kC2_arg6
  have kD1_v6 : ((Cert.KernelIdeal.Line.stC2 (Cert.KernelIdeal.Line.stC1 (Cert.KernelIdeal.Line.stB2 (Cert.KernelIdeal.Line.stB1 (Cert.KernelIdeal.Line.stA WK))))) (Proc.devRef .tc Cert.KernelIdeal.main_v6) : (⟨Cert.KernelIdeal.S330000, .i32⟩ : BufTy).Contents (Elt F)) = (Cert.ReferenceIdeal.Line.stC2 (Cert.ReferenceIdeal.Line.stC1 (Cert.ReferenceIdeal.Line.stB2 (Cert.ReferenceIdeal.Line.stB1 (Cert.ReferenceIdeal.Line.stA WR))))) (Proc.devRef .tc Cert.ReferenceIdeal.main_v6) :=
    (Cert.KernelIdeal.Line.keepD1_v6 (Cert.KernelIdeal.Line.stA WK)).trans (fA_v6.trans (Cert.ReferenceIdeal.Line.keepD1_v6 (Cert.ReferenceIdeal.Line.stA WR)).symm)
  have kD1_v3 : ((Cert.KernelIdeal.Line.stC2 (Cert.KernelIdeal.Line.stC1 (Cert.KernelIdeal.Line.stB2 (Cert.KernelIdeal.Line.stB1 (Cert.KernelIdeal.Line.stA WK))))) (Proc.devRef .tc Cert.KernelIdeal.main_v3) : (⟨Cert.KernelIdeal.S330000, .i32⟩ : BufTy).Contents (Elt F)) = (Cert.ReferenceIdeal.Line.stC2 (Cert.ReferenceIdeal.Line.stC1 (Cert.ReferenceIdeal.Line.stB2 (Cert.ReferenceIdeal.Line.stB1 (Cert.ReferenceIdeal.Line.stA WR))))) (Proc.devRef .tc Cert.ReferenceIdeal.main_v3) :=
    (Cert.KernelIdeal.Line.keepD1_v3 (Cert.KernelIdeal.Line.stA WK)).trans (fA_v3.trans (Cert.ReferenceIdeal.Line.keepD1_v3 (Cert.ReferenceIdeal.Line.stA WR)).symm)
  have kD1_arg7 : ((Cert.KernelIdeal.Line.stC2 (Cert.KernelIdeal.Line.stC1 (Cert.KernelIdeal.Line.stB2 (Cert.KernelIdeal.Line.stB1 (Cert.KernelIdeal.Line.stA WK))))) (Proc.devRef .tc Cert.KernelIdeal.main_arg7) : (⟨Cert.KernelIdeal.S64, .f32⟩ : BufTy).Contents (Elt F)) = (Cert.ReferenceIdeal.Line.stC2 (Cert.ReferenceIdeal.Line.stC1 (Cert.ReferenceIdeal.Line.stB2 (Cert.ReferenceIdeal.Line.stB1 (Cert.ReferenceIdeal.Line.stA WR))))) (Proc.devRef .tc Cert.ReferenceIdeal.main_arg7) :=
    (Cert.KernelIdeal.Line.keepD1_arg7 WK).trans (h7.trans (Cert.ReferenceIdeal.Line.keepD1_arg7 WR).symm)
  have fD1_v202 := agreeD1_v202 (Cert.KernelIdeal.Line.stC2 (Cert.KernelIdeal.Line.stC1 (Cert.KernelIdeal.Line.stB2 (Cert.KernelIdeal.Line.stB1 (Cert.KernelIdeal.Line.stA WK))))) (Cert.ReferenceIdeal.Line.stC2 (Cert.ReferenceIdeal.Line.stC1 (Cert.ReferenceIdeal.Line.stB2 (Cert.ReferenceIdeal.Line.stB1 (Cert.ReferenceIdeal.Line.stA WR))))) kD1_v6 kD1_v3 fC2_v151 kD1_arg7
  have kD2_arg12 : ((Cert.KernelIdeal.Line.stD1 (Cert.KernelIdeal.Line.stC2 (Cert.KernelIdeal.Line.stC1 (Cert.KernelIdeal.Line.stB2 (Cert.KernelIdeal.Line.stB1 (Cert.KernelIdeal.Line.stA WK)))))) (Proc.devRef .tc Cert.KernelIdeal.main_arg12) : (⟨Cert.KernelIdeal.S64, .f32⟩ : BufTy).Contents (Elt F)) = (Cert.ReferenceIdeal.Line.stD1 (Cert.ReferenceIdeal.Line.stC2 (Cert.ReferenceIdeal.Line.stC1 (Cert.ReferenceIdeal.Line.stB2 (Cert.ReferenceIdeal.Line.stB1 (Cert.ReferenceIdeal.Line.stA WR)))))) (Proc.devRef .tc Cert.ReferenceIdeal.main_arg12) :=
    (Cert.KernelIdeal.Line.keepD2_arg12 WK).trans (h12.trans (Cert.ReferenceIdeal.Line.keepD2_arg12 WR).symm)
  have kD2_arg13 : ((Cert.KernelIdeal.Line.stD1 (Cert.KernelIdeal.Line.stC2 (Cert.KernelIdeal.Line.stC1 (Cert.KernelIdeal.Line.stB2 (Cert.KernelIdeal.Line.stB1 (Cert.KernelIdeal.Line.stA WK)))))) (Proc.devRef .tc Cert.KernelIdeal.main_arg13) : (⟨Cert.KernelIdeal.S64, .f32⟩ : BufTy).Contents (Elt F)) = (Cert.ReferenceIdeal.Line.stD1 (Cert.ReferenceIdeal.Line.stC2 (Cert.ReferenceIdeal.Line.stC1 (Cert.ReferenceIdeal.Line.stB2 (Cert.ReferenceIdeal.Line.stB1 (Cert.ReferenceIdeal.Line.stA WR)))))) (Proc.devRef .tc Cert.ReferenceIdeal.main_arg13) :=
    (Cert.KernelIdeal.Line.keepD2_arg13 WK).trans (h13.trans (Cert.ReferenceIdeal.Line.keepD2_arg13 WR).symm)
  have fD2_v225 := agreeD2_v225 (Cert.KernelIdeal.Line.stD1 (Cert.KernelIdeal.Line.stC2 (Cert.KernelIdeal.Line.stC1 (Cert.KernelIdeal.Line.stB2 (Cert.KernelIdeal.Line.stB1 (Cert.KernelIdeal.Line.stA WK)))))) (Cert.ReferenceIdeal.Line.stD1 (Cert.ReferenceIdeal.Line.stC2 (Cert.ReferenceIdeal.Line.stC1 (Cert.ReferenceIdeal.Line.stB2 (Cert.ReferenceIdeal.Line.stB1 (Cert.ReferenceIdeal.Line.stA WR)))))) fD1_v202 kD2_arg12 kD2_arg13
  have kD3_arg14 : ((Cert.KernelIdeal.Line.stD2 (Cert.KernelIdeal.Line.stD1 (Cert.KernelIdeal.Line.stC2 (Cert.KernelIdeal.Line.stC1 (Cert.KernelIdeal.Line.stB2 (Cert.KernelIdeal.Line.stB1 (Cert.KernelIdeal.Line.stA WK))))))) (Proc.devRef .tc Cert.KernelIdeal.main_arg14) : (⟨Cert.KernelIdeal.S64x32, .f32⟩ : BufTy).Contents (Elt F)) = (Cert.ReferenceIdeal.Line.stD2 (Cert.ReferenceIdeal.Line.stD1 (Cert.ReferenceIdeal.Line.stC2 (Cert.ReferenceIdeal.Line.stC1 (Cert.ReferenceIdeal.Line.stB2 (Cert.ReferenceIdeal.Line.stB1 (Cert.ReferenceIdeal.Line.stA WR))))))) (Proc.devRef .tc Cert.ReferenceIdeal.main_arg14) :=
    (Cert.KernelIdeal.Line.keepD3_arg14 WK).trans (h14.trans (Cert.ReferenceIdeal.Line.keepD3_arg14 WR).symm)
  have kD3_arg15 : ((Cert.KernelIdeal.Line.stD2 (Cert.KernelIdeal.Line.stD1 (Cert.KernelIdeal.Line.stC2 (Cert.KernelIdeal.Line.stC1 (Cert.KernelIdeal.Line.stB2 (Cert.KernelIdeal.Line.stB1 (Cert.KernelIdeal.Line.stA WK))))))) (Proc.devRef .tc Cert.KernelIdeal.main_arg15) : (⟨Cert.KernelIdeal.S32, .f32⟩ : BufTy).Contents (Elt F)) = (Cert.ReferenceIdeal.Line.stD2 (Cert.ReferenceIdeal.Line.stD1 (Cert.ReferenceIdeal.Line.stC2 (Cert.ReferenceIdeal.Line.stC1 (Cert.ReferenceIdeal.Line.stB2 (Cert.ReferenceIdeal.Line.stB1 (Cert.ReferenceIdeal.Line.stA WR))))))) (Proc.devRef .tc Cert.ReferenceIdeal.main_arg15) :=
    (Cert.KernelIdeal.Line.keepD3_arg15 WK).trans (h15.trans (Cert.ReferenceIdeal.Line.keepD3_arg15 WR).symm)
  have kD3_arg16 : ((Cert.KernelIdeal.Line.stD2 (Cert.KernelIdeal.Line.stD1 (Cert.KernelIdeal.Line.stC2 (Cert.KernelIdeal.Line.stC1 (Cert.KernelIdeal.Line.stB2 (Cert.KernelIdeal.Line.stB1 (Cert.KernelIdeal.Line.stA WK))))))) (Proc.devRef .tc Cert.KernelIdeal.main_arg16) : (⟨Cert.KernelIdeal.S32x10, .f32⟩ : BufTy).Contents (Elt F)) = (Cert.ReferenceIdeal.Line.stD2 (Cert.ReferenceIdeal.Line.stD1 (Cert.ReferenceIdeal.Line.stC2 (Cert.ReferenceIdeal.Line.stC1 (Cert.ReferenceIdeal.Line.stB2 (Cert.ReferenceIdeal.Line.stB1 (Cert.ReferenceIdeal.Line.stA WR))))))) (Proc.devRef .tc Cert.ReferenceIdeal.main_arg16) :=
    (Cert.KernelIdeal.Line.keepD3_arg16 WK).trans (h16.trans (Cert.ReferenceIdeal.Line.keepD3_arg16 WR).symm)
  have kD3_arg17 : ((Cert.KernelIdeal.Line.stD2 (Cert.KernelIdeal.Line.stD1 (Cert.KernelIdeal.Line.stC2 (Cert.KernelIdeal.Line.stC1 (Cert.KernelIdeal.Line.stB2 (Cert.KernelIdeal.Line.stB1 (Cert.KernelIdeal.Line.stA WK))))))) (Proc.devRef .tc Cert.KernelIdeal.main_arg17) : (⟨Cert.KernelIdeal.S10, .f32⟩ : BufTy).Contents (Elt F)) = (Cert.ReferenceIdeal.Line.stD2 (Cert.ReferenceIdeal.Line.stD1 (Cert.ReferenceIdeal.Line.stC2 (Cert.ReferenceIdeal.Line.stC1 (Cert.ReferenceIdeal.Line.stB2 (Cert.ReferenceIdeal.Line.stB1 (Cert.ReferenceIdeal.Line.stA WR))))))) (Proc.devRef .tc Cert.ReferenceIdeal.main_arg17) :=
    (Cert.KernelIdeal.Line.keepD3_arg17 WK).trans (h17.trans (Cert.ReferenceIdeal.Line.keepD3_arg17 WR).symm)
  have kD3_arg18 : ((Cert.KernelIdeal.Line.stD2 (Cert.KernelIdeal.Line.stD1 (Cert.KernelIdeal.Line.stC2 (Cert.KernelIdeal.Line.stC1 (Cert.KernelIdeal.Line.stB2 (Cert.KernelIdeal.Line.stB1 (Cert.KernelIdeal.Line.stA WK))))))) (Proc.devRef .tc Cert.KernelIdeal.main_arg18) : (⟨Cert.KernelIdeal.S64x32, .f32⟩ : BufTy).Contents (Elt F)) = (Cert.ReferenceIdeal.Line.stD2 (Cert.ReferenceIdeal.Line.stD1 (Cert.ReferenceIdeal.Line.stC2 (Cert.ReferenceIdeal.Line.stC1 (Cert.ReferenceIdeal.Line.stB2 (Cert.ReferenceIdeal.Line.stB1 (Cert.ReferenceIdeal.Line.stA WR))))))) (Proc.devRef .tc Cert.ReferenceIdeal.main_arg18) :=
    (Cert.KernelIdeal.Line.keepD3_arg18 WK).trans (h18.trans (Cert.ReferenceIdeal.Line.keepD3_arg18 WR).symm)
  have kD3_arg19 : ((Cert.KernelIdeal.Line.stD2 (Cert.KernelIdeal.Line.stD1 (Cert.KernelIdeal.Line.stC2 (Cert.KernelIdeal.Line.stC1 (Cert.KernelIdeal.Line.stB2 (Cert.KernelIdeal.Line.stB1 (Cert.KernelIdeal.Line.stA WK))))))) (Proc.devRef .tc Cert.KernelIdeal.main_arg19) : (⟨Cert.KernelIdeal.S32, .f32⟩ : BufTy).Contents (Elt F)) = (Cert.ReferenceIdeal.Line.stD2 (Cert.ReferenceIdeal.Line.stD1 (Cert.ReferenceIdeal.Line.stC2 (Cert.ReferenceIdeal.Line.stC1 (Cert.ReferenceIdeal.Line.stB2 (Cert.ReferenceIdeal.Line.stB1 (Cert.ReferenceIdeal.Line.stA WR))))))) (Proc.devRef .tc Cert.ReferenceIdeal.main_arg19) :=
    (Cert.KernelIdeal.Line.keepD3_arg19 WK).trans (h19.trans (Cert.ReferenceIdeal.Line.keepD3_arg19 WR).symm)
  have kD3_arg20 : ((Cert.KernelIdeal.Line.stD2 (Cert.KernelIdeal.Line.stD1 (Cert.KernelIdeal.Line.stC2 (Cert.KernelIdeal.Line.stC1 (Cert.KernelIdeal.Line.stB2 (Cert.KernelIdeal.Line.stB1 (Cert.KernelIdeal.Line.stA WK))))))) (Proc.devRef .tc Cert.KernelIdeal.main_arg20) : (⟨Cert.KernelIdeal.S32x1, .f32⟩ : BufTy).Contents (Elt F)) = (Cert.ReferenceIdeal.Line.stD2 (Cert.ReferenceIdeal.Line.stD1 (Cert.ReferenceIdeal.Line.stC2 (Cert.ReferenceIdeal.Line.stC1 (Cert.ReferenceIdeal.Line.stB2 (Cert.ReferenceIdeal.Line.stB1 (Cert.ReferenceIdeal.Line.stA WR))))))) (Proc.devRef .tc Cert.ReferenceIdeal.main_arg20) :=
    (Cert.KernelIdeal.Line.keepD3_arg20 WK).trans (h20.trans (Cert.ReferenceIdeal.Line.keepD3_arg20 WR).symm)
  have kD3_arg21 : ((Cert.KernelIdeal.Line.stD2 (Cert.KernelIdeal.Line.stD1 (Cert.KernelIdeal.Line.stC2 (Cert.KernelIdeal.Line.stC1 (Cert.KernelIdeal.Line.stB2 (Cert.KernelIdeal.Line.stB1 (Cert.KernelIdeal.Line.stA WK))))))) (Proc.devRef .tc Cert.KernelIdeal.main_arg21) : (⟨Cert.KernelIdeal.S1, .f32⟩ : BufTy).Contents (Elt F)) = (Cert.ReferenceIdeal.Line.stD2 (Cert.ReferenceIdeal.Line.stD1 (Cert.ReferenceIdeal.Line.stC2 (Cert.ReferenceIdeal.Line.stC1 (Cert.ReferenceIdeal.Line.stB2 (Cert.ReferenceIdeal.Line.stB1 (Cert.ReferenceIdeal.Line.stA WR))))))) (Proc.devRef .tc Cert.ReferenceIdeal.main_arg21) :=
    (Cert.KernelIdeal.Line.keepD3_arg21 WK).trans (h21.trans (Cert.ReferenceIdeal.Line.keepD3_arg21 WR).symm)
  exact ⟨agreeD3_v232 (Cert.KernelIdeal.Line.stD2 (Cert.KernelIdeal.Line.stD1 (Cert.KernelIdeal.Line.stC2 (Cert.KernelIdeal.Line.stC1 (Cert.KernelIdeal.Line.stB2 (Cert.KernelIdeal.Line.stB1 (Cert.KernelIdeal.Line.stA WK))))))) (Cert.ReferenceIdeal.Line.stD2 (Cert.ReferenceIdeal.Line.stD1 (Cert.ReferenceIdeal.Line.stC2 (Cert.ReferenceIdeal.Line.stC1 (Cert.ReferenceIdeal.Line.stB2 (Cert.ReferenceIdeal.Line.stB1 (Cert.ReferenceIdeal.Line.stA WR))))))) fD2_v225 kD3_arg14 kD3_arg15 kD3_arg16 kD3_arg17 kD3_arg18 kD3_arg19 kD3_arg20 kD3_arg21, agreeD3_v245 (Cert.KernelIdeal.Line.stD2 (Cert.KernelIdeal.Line.stD1 (Cert.KernelIdeal.Line.stC2 (Cert.KernelIdeal.Line.stC1 (Cert.KernelIdeal.Line.stB2 (Cert.KernelIdeal.Line.stB1 (Cert.KernelIdeal.Line.stA WK))))))) (Cert.ReferenceIdeal.Line.stD2 (Cert.ReferenceIdeal.Line.stD1 (Cert.ReferenceIdeal.Line.stC2 (Cert.ReferenceIdeal.Line.stC1 (Cert.ReferenceIdeal.Line.stB2 (Cert.ReferenceIdeal.Line.stB1 (Cert.ReferenceIdeal.Line.stA WR))))))) fD2_v225 kD3_arg14 kD3_arg15 kD3_arg16 kD3_arg17 kD3_arg18 kD3_arg19 kD3_arg20 kD3_arg21⟩

end Cert.Bridge

end
-- ==== Proof.lean ====
/-
  The kernel is the reference with each of its three dense products h · W computed by a TensorCore kernel, 2000 rows at
  a time, instead of by one host contraction; every other operation — the self-loop index columns, the degree
  normalisation, the gather / scale / scatter-add aggregation, the bias, the batch normalisation, the rectifier, the mean
  over the nodes and the two heads — is the same host operation in both programs.

  On the extended reals a block's product into a zero accumulator is, entry by entry, the plain sum ∑ₖ h(r, k) · W(k, j)
  that the host contraction has there, and the five row blocks tile the array: each region leaves exactly what the
  contraction would (Dense0–2, KLine). The kernel's final buffer contents are therefore the fold of one straight line of
  host operations (KOps), the reference's are the fold of its own line (RefOps, RefRun), and the two lines are
  operation for operation the same functions of the same named buffers: stage by stage they leave equal values in the
  buffers read later (BridgeA–D, Bridge). Only the definitions of the matrix products are opened; no law of arithmetic
  and no finiteness of the inputs is needed. Nothing was rewritten by the idealization, so its statement is trivial.
-/
import proofs.«113664_g84653805404492_cont_sun_m_127_42_alg».proof.Defs
import proofs.«113664_g84653805404492_cont_sun_m_127_42_alg».proof.Proof.Gen.Kernel
import proofs.«113664_g84653805404492_cont_sun_m_127_42_alg».proof.Proof.Gen.Kernel.Frame
import proofs.«113664_g84653805404492_cont_sun_m_127_42_alg».proof.Proof.Gen.KernelIdeal
import proofs.«113664_g84653805404492_cont_sun_m_127_42_alg».proof.Proof.Gen.KernelIdeal.Frame
import proofs.«113664_g84653805404492_cont_sun_m_127_42_alg».proof.Proof.Gen.ReferenceIdeal
import proofs.«113664_g84653805404492_cont_sun_m_127_42_alg».proof.Proof.Gen.Pre_finite_inputs
import proofs.«113664_g84653805404492_cont_sun_m_127_42_alg».proof.Proof.KRun
import proofs.«113664_g84653805404492_cont_sun_m_127_42_alg».proof.Proof.KLine
import proofs.«113664_g84653805404492_cont_sun_m_127_42_alg».proof.Proof.RefRun
import proofs.«113664_g84653805404492_cont_sun_m_127_42_alg».proof.Proof.RefKeepA
import proofs.«113664_g84653805404492_cont_sun_m_127_42_alg».proof.Proof.RefKeepB
import proofs.«113664_g84653805404492_cont_sun_m_127_42_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

theorem frame_k : Cert.frame_Kernel := fun m ρ _ => Cert.Kernel.Gen.frame m ρ

theorem frame_ki : Cert.frame_KernelIdeal := fun m ρ _ => Cert.KernelIdeal.Gen.frame m ρ

/-- The reference runs, and no operation of its line writes an argument. -/
theorem frame_ri : Cert.frame_ReferenceIdeal := fun m ρ _ =>
  (θ_run Cert.ReferenceIdeal.defs _ _).mono (fun _ h c =>
    ⟨(h c Cert.ReferenceIdeal.main_arg0).trans (Cert.ReferenceIdeal.Line.keep_arg0 (launchContents m c)),
     (h c Cert.ReferenceIdeal.main_arg1).trans (Cert.ReferenceIdeal.Line.keep_arg1 (launchContents m c)),
     (h c Cert.ReferenceIdeal.main_arg2).trans (Cert.ReferenceIdeal.Line.keep_arg2 (launchContents m c)),
     (h c Cert.ReferenceIdeal.main_arg3).trans (Cert.ReferenceIdeal.Line.keep_arg3 (launchContents m c)),
     (h c Cert.ReferenceIdeal.main_arg4).trans (Cert.ReferenceIdeal.Line.keep_arg4 (launchContents m c)),
     (h c Cert.ReferenceIdeal.main_arg5).trans (Cert.ReferenceIdeal.Line.keep_arg5 (launchContents m c)),
     (h c Cert.ReferenceIdeal.main_arg6).trans (Cert.ReferenceIdeal.Line.keep_arg6 (launchContents m c)),
     (h c Cert.ReferenceIdeal.main_arg7).trans (Cert.ReferenceIdeal.Line.keep_arg7 (launchContents m c)),
     (h c Cert.ReferenceIdeal.main_arg8).trans (Cert.ReferenceIdeal.Line.keep_arg8 (launchContents m c)),
     (h c Cert.ReferenceIdeal.main_arg9).trans (Cert.ReferenceIdeal.Line.keep_arg9 (launchContents m c)),
     (h c Cert.ReferenceIdeal.main_arg10).trans (Cert.ReferenceIdeal.Line.keep_arg10 (launchContents m c)),
     (h c Cert.ReferenceIdeal.main_arg11).trans (Cert.ReferenceIdeal.Line.keep_arg11 (launchContents m c)),
     (h c Cert.ReferenceIdeal.main_arg12).trans (Cert.ReferenceIdeal.Line.keep_arg12 (launchContents m c)),
     (h c Cert.ReferenceIdeal.main_arg13).trans (Cert.ReferenceIdeal.Line.keep_arg13 (launchContents m c)),
     (h c Cert.ReferenceIdeal.main_arg14).trans (Cert.ReferenceIdeal.Line.keep_arg14 (launchContents m c)),
     (h c Cert.ReferenceIdeal.main_arg15).trans (Cert.ReferenceIdeal.Line.keep_arg15 (launchContents m c)),
     (h c Cert.ReferenceIdeal.main_arg16).trans (Cert.ReferenceIdeal.Line.keep_arg16 (launchContents m c)),
     (h c Cert.ReferenceIdeal.main_arg17).trans (Cert.ReferenceIdeal.Line.keep_arg17 (launchContents m c)),
     (h c Cert.ReferenceIdeal.main_arg18).trans (Cert.ReferenceIdeal.Line.keep_arg18 (launchContents m c)),
     (h c Cert.ReferenceIdeal.main_arg19).trans (Cert.ReferenceIdeal.Line.keep_arg19 (launchContents m c)),
     (h c Cert.ReferenceIdeal.main_arg20).trans (Cert.ReferenceIdeal.Line.keep_arg20 (launchContents m c)),
     (h c Cert.ReferenceIdeal.main_arg21).trans (Cert.ReferenceIdeal.Line.keep_arg21 (launchContents m c))⟩)
    (Cert.ReferenceIdeal.Line.run (F := Ideal) m ρ)

/-- The idealization rewrote nothing. -/
theorem preserves : Cert.preserves_Kernel_KernelIdeal := trivial

/-- Both programs end with the same two results: the kernel's final contents are the fold of its line, the reference's
    of its own, and the lines agree from launch contents that agree on the arguments. -/
theorem algebraic : Cert.algebraic_KernelIdeal_ReferenceIdeal := by
  intro m ρ m' ρ' _ hagree
  refine ⟨fun c => after Cert.KernelIdeal.Line.line (launchContents m c) (Proc.devRef .tc Cert.KernelIdeal.main_v232),
    fun c => after Cert.KernelIdeal.Line.line (launchContents m c) (Proc.devRef .tc Cert.KernelIdeal.main_v245), ?_, ?_⟩
  · exact (θ_run Cert.KernelIdeal.defs _ _).mono (fun r h c =>
      ⟨(h c).1.trans (congrFun (Cert.KernelIdeal.Line.last_eq m ρ c) _), (h c).2.1.trans (congrFun (Cert.KernelIdeal.Line.last_eq m ρ c) _), (h c).2.2⟩)
      (Cert.KernelIdeal.Results.run_results m ρ)
  · refine (θ_run Cert.ReferenceIdeal.defs _ _).mono (fun r h c => ?_) (Cert.ReferenceIdeal.Line.run (F := Ideal) m' ρ')
    obtain ⟨g0, g1, g2, g3, g4, g5, g6, g7, g8, g9, g10, g11, g12, g13, g14, g15, g16, g17, g18, g19, g20, g21⟩ := hagree c
    have hr := Cert.Bridge.results_agree (F := Ideal) (launchContents m c) (launchContents m' c)
      g0.symm g1.symm g2.symm g3.symm g4.symm g5.symm g6.symm g7.symm g8.symm g9.symm g10.symm g11.symm g12.symm g13.symm g14.symm g15.symm g16.symm g17.symm g18.symm g19.symm g20.symm g21.symm
    refine ⟨(h c Cert.ReferenceIdeal.main_v232).trans ?_, (h c Cert.ReferenceIdeal.main_v245).trans ?_,
     (h c Cert.ReferenceIdeal.main_arg0).trans (Cert.ReferenceIdeal.Line.keep_arg0 (launchContents m' c)),
     (h c Cert.ReferenceIdeal.main_arg1).trans (Cert.ReferenceIdeal.Line.keep_arg1 (launchContents m' c)),
     (h c Cert.ReferenceIdeal.main_arg2).trans (Cert.ReferenceIdeal.Line.keep_arg2 (launchContents m' c)),
     (h c Cert.ReferenceIdeal.main_arg3).trans (Cert.ReferenceIdeal.Line.keep_arg3 (launchContents m' c)),
     (h c Cert.ReferenceIdeal.main_arg4).trans (Cert.ReferenceIdeal.Line.keep_arg4 (launchContents m' c)),
     (h c Cert.ReferenceIdeal.main_arg5).trans (Cert.ReferenceIdeal.Line.keep_arg5 (launchContents m' c)),
     (h c Cert.ReferenceIdeal.main_arg6).trans (Cert.ReferenceIdeal.Line.keep_arg6 (launchContents m' c)),
     (h c Cert.ReferenceIdeal.main_arg7).trans (Cert.ReferenceIdeal.Line.keep_arg7 (launchContents m' c)),
     (h c Cert.ReferenceIdeal.main_arg8).trans (Cert.ReferenceIdeal.Line.keep_arg8 (launchContents m' c)),
     (h c Cert.ReferenceIdeal.main_arg9).trans (Cert.ReferenceIdeal.Line.keep_arg9 (launchContents m' c)),
     (h c Cert.ReferenceIdeal.main_arg10).trans (Cert.ReferenceIdeal.Line.keep_arg10 (launchContents m' c)),
     (h c Cert.ReferenceIdeal.main_arg11).trans (Cert.ReferenceIdeal.Line.keep_arg11 (launchContents m' c)),
     (h c Cert.ReferenceIdeal.main_arg12).trans (Cert.ReferenceIdeal.Line.keep_arg12 (launchContents m' c)),
     (h c Cert.ReferenceIdeal.main_arg13).trans (Cert.ReferenceIdeal.Line.keep_arg13 (launchContents m' c)),
     (h c Cert.ReferenceIdeal.main_arg14).trans (Cert.ReferenceIdeal.Line.keep_arg14 (launchContents m' c)),
     (h c Cert.ReferenceIdeal.main_arg15).trans (Cert.ReferenceIdeal.Line.keep_arg15 (launchContents m' c)),
     (h c Cert.ReferenceIdeal.main_arg16).trans (Cert.ReferenceIdeal.Line.keep_arg16 (launchContents m' c)),
     (h c Cert.ReferenceIdeal.main_arg17).trans (Cert.ReferenceIdeal.Line.keep_arg17 (launchContents m' c)),
     (h c Cert.ReferenceIdeal.main_arg18).trans (Cert.ReferenceIdeal.Line.keep_arg18 (launchContents m' c)),
     (h c Cert.ReferenceIdeal.main_arg19).trans (Cert.ReferenceIdeal.Line.keep_arg19 (launchContents m' c)),
     (h c Cert.ReferenceIdeal.main_arg20).trans (Cert.ReferenceIdeal.Line.keep_arg20 (launchContents m' c)),
     (h c Cert.ReferenceIdeal.main_arg21).trans (Cert.ReferenceIdeal.Line.keep_arg21 (launchContents m' c))⟩
    · exact (congrFun (Cert.ReferenceIdeal.Line.windows_stages (launchContents m' c)) _).trans
        (hr.1.symm.trans (congrFun (Cert.KernelIdeal.Line.line_stages (launchContents m c)) _).symm)
    · exact (congrFun (Cert.ReferenceIdeal.Line.windows_stages (launchContents m' c)) _).trans
        (hr.2.symm.trans (congrFun (Cert.KernelIdeal.Line.line_stages (launchContents m c)) _).symm)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
